-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v255)) (v1 : (c : Dev Cert.KernelIdeal.nD) → Buf (Elt Ideal) ((c.tc : Thread Cert.KernelIdeal.nD Cert.KernelIdeal.τ).loc Cert.KernelIdeal.main_v275)) (v2 : (c : Dev Cert.KernelIdeal.nD) → Buf (Elt Ideal) ((c.tc : Thread Cert.KernelIdeal.nD Cert.KernelIdeal.τ).loc Cert.KernelIdeal.main_v235)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v255) = v0 c
          ∧ r.2.mem ((c.tc : Thread Cert.KernelIdeal.nD Cert.KernelIdeal.τ).loc Cert.KernelIdeal.main_v275) = v1 c
          ∧ r.2.mem ((c.tc : Thread Cert.KernelIdeal.nD Cert.KernelIdeal.τ).loc Cert.KernelIdeal.main_v235) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_v356) = v1 c
          ∧ r.2.mem ((c.tc : Thread Cert.ReferenceIdeal.nD Cert.ReferenceIdeal.τ).loc Cert.ReferenceIdeal.main_v286) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000x256 : Shape := ⟨2, ![4000, 256]⟩
abbrev S8000x256 : Shape := ⟨2, ![8000, 256]⟩
abbrev S20000x256 : Shape := ⟨2, ![20000, 256]⟩
abbrev S2x200000 : Shape := ⟨2, ![2, 200000]⟩
abbrev S2x300000 : Shape := ⟨2, ![2, 300000]⟩
abbrev S2x600000 : Shape := ⟨2, ![2, 600000]⟩
abbrev S5x256x256 : Shape := ⟨3, ![5, 256, 256]⟩
abbrev S5x256 : Shape := ⟨2, ![5, 256]⟩
abbrev S5x256x128 : Shape := ⟨3, ![5, 256, 128]⟩
abbrev S5x128 : Shape := ⟨2, ![5, 128]⟩
abbrev S_ : Shape := ⟨0, ![]⟩

class Facts : Prop where
  bcast_S_S4000x256 : S_.BroadcastsInDim S4000x256 (![] : Fin 0 → Fin S4000x256.rank)
  reducesTo_S4000x256_S_d0_1 : S4000x256.ReducesTo [0, 1] S_
  h_S_ : 0 < S_.numel
  bcast_S_S8000x256 : S_.BroadcastsInDim S8000x256 (![] : Fin 0 → Fin S8000x256.rank)
  reducesTo_S8000x256_S_d0_1 : S8000x256.ReducesTo [0, 1] S_
  bcast_S_S20000x256 : S_.BroadcastsInDim S20000x256 (![] : Fin 0 → Fin S20000x256.rank)
  reducesTo_S20000x256_S_d0_1 : S20000x256.ReducesTo [0, 1] S_
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg12 : FVec F S5x256x128 .f32) (main_arg13 : FVec F S5x128 .f32) (main_v33 : IVec S_ 1) : IVec S_ 1 :=
  let main_v34 : FVec F S5x256x128 .f32 := Host.absf main_arg12
  let main_cst_12 : FVec F S_ .f32 := constant S_ .f32 0x7F800000#32
  let main_v35 : FVec F S5x256x128 .f32 := broadcastInDim S5x256x128 ![] bcast_S_S5x256x128 main_cst_12
  let main_v36 : IVec S5x256x128 1 := cmpf .olt main_v34 main_v35
  let main_c_13 : IVec S_ 1 := constantI S_ 1 1#1
  let main_v37 : IVec S_ 1 := (fun x v => Host.reduce IntOp.andi x v reducesTo_S5x256x128_S_d0_1_2 h_S_) main_v36 main_c_13
  let main_v38 : IVec S_ 1 := andi main_v33 main_v37
  let main_v39 : FVec F S5x128 .f32 := Host.absf main_arg13
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  main_v43

def fn_part1 {F : FTy → Type} [FloatOps F] (main_arg9 : FVec F S5x256x256 .f32) (main_arg10 : FVec F S5x256 .f32) (main_arg11 : FVec F S5x256x128 .f32) (main_arg12 : FVec F S5x256x128 .f32) (main_arg13 : FVec F S5x128 .f32) (main_v13 : IVec S_ 1) (main_v16 : IVec S5x256x256 1) : IVec S_ 1 :=
  let main_c_5 : IVec S_ 1 := constantI S_ 1 1#1
  let main_v17 : IVec S_ 1 := (fun x v => Host.reduce IntOp.andi x v reducesTo_S5x256x256_S_d0_1_2 h_S_) main_v16 main_c_5
  let main_v18 : IVec S_ 1 := andi main_v13 main_v17
  let main_v19 : FVec F S5x256x256 .f32 := Host.absf main_arg9
  let main_cst_6 : FVec F S_ .f32 := constant S_ .f32 0x7F800000#32
  let main_v20 : FVec F S5x256x256 .f32 := broadcastInDim S5x256x256 ![] bcast_S_S5x256x256 main_cst_6
  let main_v21 : IVec S5x256x256 1 := cmpf .olt main_v19 main_v20
  let main_c_7 : IVec S_ 1 := constantI S_ 1 1#1
  let main_v22 : IVec S_ 1 := (fun x v => Host.reduce IntOp.andi x v reducesTo_S5x256x256_S_d0_1_2 h_S_) main_v21 main_c_7
  let main_v23 : IVec S_ 1 := andi main_v18 main_v22
  let main_v24 : FVec F S5x256 .f32 := Host.absf main_arg10
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256x128 .f32 := Host.absf main_arg11
  let main_cst_10 : FVec F S_ .f32 := constant S_ .f32 0x7F800000#32
  let main_v30 : FVec F S5x256x128 .f32 := broadcastInDim S5x256x128 ![] bcast_S_S5x256x128 main_cst_10
  let main_v31 : IVec S5x256x128 1 := cmpf .olt main_v29 main_v30
  let main_c_11 : IVec S_ 1 := constantI S_ 1 1#1
  let main_v32 : IVec S_ 1 := (fun x v => Host.reduce IntOp.andi x v reducesTo_S5x256x128_S_d0_1_2 h_S_) main_v31 main_c_11
  let main_v33 : IVec S_ 1 := andi main_v28 main_v32
  fn_part2 (F := F) main_arg12 main_arg13 main_v33

def fn {F : FTy → Type} [FloatOps F] (main_arg0 : FVec F S4000x256 .f32) (main_arg1 : FVec F S8000x256 .f32) (main_arg2 : FVec F S20000x256 .f32) (main_arg3 : IVec S2x200000 32) (main_arg4 : IVec S2x200000 32) (main_arg5 : IVec S2x300000 32) (main_arg6 : IVec S2x300000 32) (main_arg7 : IVec S2x600000 32) (main_arg8 : FVec F S5x256x256 .f32) (main_arg9 : FVec F S5x256x256 .f32) (main_arg10 : FVec F S5x256 .f32) (main_arg11 : FVec F S5x256x128 .f32) (main_arg12 : FVec F S5x256x128 .f32) (main_arg13 : FVec F S5x128 .f32) : IVec S_ 1 :=
  let main_v0 : FVec F S4000x256 .f32 := Host.absf main_arg0
  let main_cst : FVec F S_ .f32 := constant S_ .f32 0x7F800000#32
  let main_v1 : FVec F S4000x256 .f32 := broadcastInDim S4000x256 ![] bcast_S_S4000x256 main_cst
  let main_v2 : IVec S4000x256 1 := cmpf .olt main_v0 main_v1
  let main_c : IVec S_ 1 := constantI S_ 1 1#1
  let main_v3 : IVec S_ 1 := (fun x v => Host.reduce IntOp.andi x v reducesTo_S4000x256_S_d0_1 h_S_) main_v2 main_c
  let main_v4 : FVec F S8000x256 .f32 := Host.absf main_arg1
  let main_cst_0 : FVec F S_ .f32 := constant S_ .f32 0x7F800000#32
  let main_v5 : FVec F S8000x256 .f32 := broadcastInDim S8000x256 ![] bcast_S_S8000x256 main_cst_0
  let main_v6 : IVec S8000x256 1 := cmpf .olt main_v4 main_v5
  let main_c_1 : IVec S_ 1 := constantI S_ 1 1#1
  let main_v7 : IVec S_ 1 := (fun x v => Host.reduce IntOp.andi x v reducesTo_S8000x256_S_d0_1 h_S_) main_v6 main_c_1
  let main_v8 : IVec S_ 1 := andi main_v3 main_v7
  let main_v9 : FVec F S20000x256 .f32 := Host.absf main_arg2
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S5x256x256 .f32 := Host.absf main_arg8
  let main_cst_4 : FVec F S_ .f32 := constant S_ .f32 0x7F800000#32
  let main_v15 : FVec F S5x256x256 .f32 := broadcastInDim S5x256x256 ![] bcast_S_S5x256x256 main_cst_4
  let main_v16 : IVec S5x256x256 1 := cmpf .olt main_v14 main_v15
  fn_part1 (F := F) main_arg9 main_arg10 main_arg11 main_arg12 main_arg13 main_v13 main_v16
-- ==== Kernel.lean ====
abbrev S4000x256 : Shape := ⟨2, ![4000, 256]⟩
abbrev S8000x256 : Shape := ⟨2, ![8000, 256]⟩
abbrev S20000x256 : Shape := ⟨2, ![20000, 256]⟩
abbrev S2x200000 : Shape := ⟨2, ![2, 200000]⟩
abbrev S2x300000 : Shape := ⟨2, ![2, 300000]⟩
abbrev S2x600000 : Shape := ⟨2, ![2, 600000]⟩
abbrev S5x256x256 : Shape := ⟨3, ![5, 256, 256]⟩
abbrev S5x256 : Shape := ⟨2, ![5, 256]⟩
abbrev S5x256x128 : Shape := ⟨3, ![5, 256, 128]⟩
abbrev S5x128 : Shape := ⟨2, ![5, 128]⟩
abbrev S1x200000 : Shape := ⟨2, ![1, 200000]⟩
abbrev S200000 : Shape := ⟨1, ![200000]⟩
abbrev S_ : Shape := ⟨0, ![]⟩
abbrev S20000 : Shape := ⟨1, ![20000]⟩
abbrev S200000x1 : Shape := ⟨2, ![200000, 1]⟩
abbrev S20000x1 : Shape := ⟨2, ![20000, 1]⟩
abbrev S4000 : Shape := ⟨1, ![4000]⟩
abbrev S4000x1 : Shape := ⟨2, ![4000, 1]⟩
abbrev S1x300000 : Shape := ⟨2, ![1, 300000]⟩
abbrev S300000 : Shape := ⟨1, ![300000]⟩
abbrev S8000 : Shape := ⟨1, ![8000]⟩
abbrev S300000x1 : Shape := ⟨2, ![300000, 1]⟩
abbrev S8000x1 : Shape := ⟨2, ![8000, 1]⟩
abbrev S1x600000 : Shape := ⟨2, ![1, 600000]⟩
abbrev S600000 : Shape := ⟨1, ![600000]⟩
abbrev S600000x1 : Shape := ⟨2, ![600000, 1]⟩
abbrev S200000x256 : Shape := ⟨2, ![200000, 256]⟩
abbrev S300000x256 : Shape := ⟨2, ![300000, 256]⟩
abbrev S600000x256 : Shape := ⟨2, ![600000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S2000x1 : Shape := ⟨2, ![2000, 1]⟩
abbrev S1x256x128 : Shape := ⟨3, ![1, 256, 128]⟩
abbrev S256x128 : Shape := ⟨2, ![256, 128]⟩
abbrev S4000x128 : Shape := ⟨2, ![4000, 128]⟩
abbrev S20000x128 : Shape := ⟨2, ![20000, 128]⟩
abbrev S8000x128 : Shape := ⟨2, ![8000, 128]⟩
abbrev S200000x128 : Shape := ⟨2, ![200000, 128]⟩
abbrev S300000x128 : Shape := ⟨2, ![300000, 128]⟩
abbrev S600000x128 : Shape := ⟨2, ![600000, 128]⟩
abbrev S1x128 : Shape := ⟨2, ![1, 128]⟩
abbrev S128 : Shape := ⟨1, ![128]⟩
abbrev S2000x128 : Shape := ⟨2, ![2000, 128]⟩

abbrev nBuf : Space → Nat
  | .hbm => 340
  | .vmem => 112
  | .smem => 0
  | _ => 0

abbrev hbmTy0_0 (i : Nat) : BufTy := match i % 128 with
  | 0 => ⟨S4000x256, .f32⟩
  | 1 => ⟨S8000x256, .f32⟩
  | 2 => ⟨S20000x256, .f32⟩
  | 3 => ⟨S2x200000, .i32⟩
  | 4 => ⟨S2x200000, .i32⟩
  | 5 => ⟨S2x300000, .i32⟩
  | 6 => ⟨S2x300000, .i32⟩
  | 7 => ⟨S2x600000, .i32⟩
  | 8 => ⟨S5x256x256, .f32⟩
  | 9 => ⟨S5x256x256, .f32⟩
  | 10 => ⟨S5x256, .f32⟩
  | 11 => ⟨S5x256x128, .f32⟩
  | 12 => ⟨S5x256x128, .f32⟩
  | 13 => ⟨S5x128, .f32⟩
  | 14 => ⟨S1x200000, .i32⟩
  | 15 => ⟨S200000, .i32⟩
  | 16 => ⟨S_, .f32⟩
  | 17 => ⟨S200000, .f32⟩
  | 18 => ⟨S_, .f32⟩
  | 19 => ⟨S20000, .f32⟩
  | 20 => ⟨S200000x1, .i32⟩
  | 21 => ⟨S20000, .f32⟩
  | 22 => ⟨S_, .f32⟩
  | 23 => ⟨S20000, .f32⟩
  | 24 => ⟨S20000, .f32⟩
  | 25 => ⟨S_, .f32⟩
  | 26 => ⟨S20000, .f32⟩
  | 27 => ⟨S20000, .f32⟩
  | 28 => ⟨S20000x1, .f32⟩
  | 29 => ⟨S1x200000, .i32⟩
  | 30 => ⟨S200000, .i32⟩
  | 31 => ⟨S_, .f32⟩
  | 32 => ⟨S200000, .f32⟩
  | 33 => ⟨S_, .f32⟩
  | 34 => ⟨S4000, .f32⟩
  | 35 => ⟨S200000x1, .i32⟩
  | 36 => ⟨S4000, .f32⟩
  | 37 => ⟨S_, .f32⟩
  | 38 => ⟨S4000, .f32⟩
  | 39 => ⟨S4000, .f32⟩
  | 40 => ⟨S_, .f32⟩
  | 41 => ⟨S4000, .f32⟩
  | 42 => ⟨S4000, .f32⟩
  | 43 => ⟨S4000x1, .f32⟩
  | 44 => ⟨S1x300000, .i32⟩
  | 45 => ⟨S300000, .i32⟩
  | 46 => ⟨S_, .f32⟩
  | 47 => ⟨S300000, .f32⟩
  | 48 => ⟨S_, .f32⟩
  | 49 => ⟨S8000, .f32⟩
  | 50 => ⟨S300000x1, .i32⟩
  | 51 => ⟨S8000, .f32⟩
  | 52 => ⟨S_, .f32⟩
  | 53 => ⟨S8000, .f32⟩
  | 54 => ⟨S8000, .f32⟩
  | 55 => ⟨S_, .f32⟩
  | 56 => ⟨S8000, .f32⟩
  | 57 => ⟨S8000, .f32⟩
  | 58 => ⟨S8000x1, .f32⟩
  | 59 => ⟨S1x300000, .i32⟩
  | 60 => ⟨S300000, .i32⟩
  | 61 => ⟨S_, .f32⟩
  | 62 => ⟨S300000, .f32⟩
  | 63 => ⟨S_, .f32⟩
  | 64 => ⟨S20000, .f32⟩
  | 65 => ⟨S300000x1, .i32⟩
  | 66 => ⟨S20000, .f32⟩
  | 67 => ⟨S_, .f32⟩
  | 68 => ⟨S20000, .f32⟩
  | 69 => ⟨S20000, .f32⟩
  | 70 => ⟨S_, .f32⟩
  | 71 => ⟨S20000, .f32⟩
  | 72 => ⟨S20000, .f32⟩
  | 73 => ⟨S20000x1, .f32⟩
  | 74 => ⟨S1x600000, .i32⟩
  | 75 => ⟨S600000, .i32⟩
  | 76 => ⟨S_, .f32⟩
  | 77 => ⟨S600000, .f32⟩
  | 78 => ⟨S_, .f32⟩
  | 79 => ⟨S20000, .f32⟩
  | 80 => ⟨S600000x1, .i32⟩
  | 81 => ⟨S20000, .f32⟩
  | 82 => ⟨S_, .f32⟩
  | 83 => ⟨S20000, .f32⟩
  | 84 => ⟨S20000, .f32⟩
  | 85 => ⟨S_, .f32⟩
  | 86 => ⟨S20000, .f32⟩
  | 87 => ⟨S20000, .f32⟩
  | 88 => ⟨S20000x1, .f32⟩
  | 89 => ⟨S1x200000, .i32⟩
  | 90 => ⟨S200000, .i32⟩
  | 91 => ⟨S1x200000, .i32⟩
  | 92 => ⟨S200000, .i32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x256, .f32⟩
  | 102 => ⟨S_, .f32⟩
  | 103 => ⟨S20000x256, .f32⟩
  | 104 => ⟨S200000x1, .i32⟩
  | 105 => ⟨S20000x256, .f32⟩
  | 106 => ⟨S1x300000, .i32⟩
  | 107 => ⟨S300000, .i32⟩
  | 108 => ⟨S1x300000, .i32⟩
  | 109 => ⟨S300000, .i32⟩
  | 110 => ⟨S_, .i32⟩
  | 111 => ⟨S300000, .i32⟩
  | 112 => ⟨S300000, .i1⟩
  | 113 => ⟨S_, .i32⟩
  | 114 => ⟨S300000, .i32⟩
  | 115 => ⟨S300000, .i32⟩
  | 116 => ⟨S300000, .i32⟩
  | 117 => ⟨S300000x1, .i32⟩
  | 118 => ⟨S300000x256, .f32⟩
  | 119 => ⟨S_, .f32⟩
  | 120 => ⟨S20000x256, .f32⟩
  | 121 => ⟨S300000x1, .i32⟩
  | 122 => ⟨S20000x256, .f32⟩
  | 123 => ⟨S1x600000, .i32⟩
  | 124 => ⟨S600000, .i32⟩
  | 125 => ⟨S1x600000, .i32⟩
  | 126 => ⟨S600000, .i32⟩
  | 127 => ⟨S_, .i32⟩
  | _ => ⟨S4000x256, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x256, .f32⟩
  | 8 => ⟨S_, .f32⟩
  | 9 => ⟨S20000x256, .f32⟩
  | 10 => ⟨S600000x1, .i32⟩
  | 11 => ⟨S20000x256, .f32⟩
  | 12 => ⟨S1x256x256, .f32⟩
  | 13 => ⟨S256x256, .f32⟩
  | 14 => ⟨S1x256x256, .f32⟩
  | 15 => ⟨S256x256, .f32⟩
  | 16 => ⟨S1x256x256, .f32⟩
  | 17 => ⟨S256x256, .f32⟩
  | 18 => ⟨S1x256x256, .f32⟩
  | 19 => ⟨S256x256, .f32⟩
  | 20 => ⟨S1x256x256, .f32⟩
  | 21 => ⟨S256x256, .f32⟩
  | 22 => ⟨S1x256x256, .f32⟩
  | 23 => ⟨S256x256, .f32⟩
  | 24 => ⟨S1x256, .f32⟩
  | 25 => ⟨S256, .f32⟩
  | 26 => ⟨S1x256, .f32⟩
  | 27 => ⟨S256, .f32⟩
  | 28 => ⟨S1x256, .f32⟩
  | 29 => ⟨S256, .f32⟩
  | 30 => ⟨S1x256, .f32⟩
  | 31 => ⟨S1x256, .f32⟩
  | 32 => ⟨S1x256, .f32⟩
  | 33 => ⟨S20000x256, .f32⟩
  | 34 => ⟨S1x200000, .i32⟩
  | 35 => ⟨S200000, .i32⟩
  | 36 => ⟨S1x200000, .i32⟩
  | 37 => ⟨S200000, .i32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000x256, .f32⟩
  | 47 => ⟨S_, .f32⟩
  | 48 => ⟨S4000x256, .f32⟩
  | 49 => ⟨S200000x1, .i32⟩
  | 50 => ⟨S4000x256, .f32⟩
  | 51 => ⟨S1x256x256, .f32⟩
  | 52 => ⟨S256x256, .f32⟩
  | 53 => ⟨S1x256x256, .f32⟩
  | 54 => ⟨S256x256, .f32⟩
  | 55 => ⟨S1x256, .f32⟩
  | 56 => ⟨S256, .f32⟩
  | 57 => ⟨S1x256, .f32⟩
  | 58 => ⟨S4000x256, .f32⟩
  | 59 => ⟨S1x300000, .i32⟩
  | 60 => ⟨S300000, .i32⟩
  | 61 => ⟨S1x300000, .i32⟩
  | 62 => ⟨S300000, .i32⟩
  | 63 => ⟨S_, .i32⟩
  | 64 => ⟨S300000, .i32⟩
  | 65 => ⟨S300000, .i1⟩
  | 66 => ⟨S_, .i32⟩
  | 67 => ⟨S300000, .i32⟩
  | 68 => ⟨S300000, .i32⟩
  | 69 => ⟨S300000, .i32⟩
  | 70 => ⟨S300000x1, .i32⟩
  | 71 => ⟨S300000x256, .f32⟩
  | 72 => ⟨S_, .f32⟩
  | 73 => ⟨S8000x256, .f32⟩
  | 74 => ⟨S300000x1, .i32⟩
  | 75 => ⟨S8000x256, .f32⟩
  | 76 => ⟨S1x256x256, .f32⟩
  | 77 => ⟨S256x256, .f32⟩
  | 78 => ⟨S1x256x256, .f32⟩
  | 79 => ⟨S256x256, .f32⟩
  | 80 => ⟨S1x256, .f32⟩
  | 81 => ⟨S256, .f32⟩
  | 82 => ⟨S1x256, .f32⟩
  | 83 => ⟨S8000x256, .f32⟩
  | 84 => ⟨S1x256x128, .f32⟩
  | 85 => ⟨S256x128, .f32⟩
  | 86 => ⟨S4000x128, .f32⟩
  | 87 => ⟨S1x256x128, .f32⟩
  | 88 => ⟨S256x128, .f32⟩
  | 89 => ⟨S20000x128, .f32⟩
  | 90 => ⟨S1x256x128, .f32⟩
  | 91 => ⟨S256x128, .f32⟩
  | 92 => ⟨S20000x128, .f32⟩
  | 93 => ⟨S1x256x128, .f32⟩
  | 94 => ⟨S256x128, .f32⟩
  | 95 => ⟨S8000x128, .f32⟩
  | 96 => ⟨S1x256x128, .f32⟩
  | 97 => ⟨S256x128, .f32⟩
  | 98 => ⟨S20000x128, .f32⟩
  | 99 => ⟨S1x200000, .i32⟩
  | 100 => ⟨S200000, .i32⟩
  | 101 => ⟨S1x200000, .i32⟩
  | 102 => ⟨S200000, .i32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S200000x128, .f32⟩
  | 112 => ⟨S_, .f32⟩
  | 113 => ⟨S20000x128, .f32⟩
  | 114 => ⟨S200000x1, .i32⟩
  | 115 => ⟨S20000x128, .f32⟩
  | 116 => ⟨S1x300000, .i32⟩
  | 117 => ⟨S300000, .i32⟩
  | 118 => ⟨S1x300000, .i32⟩
  | 119 => ⟨S300000, .i32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S300000x1, .i32⟩
  | _ => ⟨S4000x256, .f32⟩

abbrev hbmTy0_2 (i : Nat) : BufTy := match i % 128 with
  | 0 => ⟨S300000x128, .f32⟩
  | 1 => ⟨S_, .f32⟩
  | 2 => ⟨S20000x128, .f32⟩
  | 3 => ⟨S300000x1, .i32⟩
  | 4 => ⟨S20000x128, .f32⟩
  | 5 => ⟨S1x600000, .i32⟩
  | 6 => ⟨S600000, .i32⟩
  | 7 => ⟨S1x600000, .i32⟩
  | 8 => ⟨S600000, .i32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S20000x128, .f32⟩
  | 20 => ⟨S600000x1, .i32⟩
  | 21 => ⟨S20000x128, .f32⟩
  | 22 => ⟨S1x256x128, .f32⟩
  | 23 => ⟨S256x128, .f32⟩
  | 24 => ⟨S1x256x128, .f32⟩
  | 25 => ⟨S256x128, .f32⟩
  | 26 => ⟨S1x256x128, .f32⟩
  | 27 => ⟨S256x128, .f32⟩
  | 28 => ⟨S1x128, .f32⟩
  | 29 => ⟨S128, .f32⟩
  | 30 => ⟨S1x128, .f32⟩
  | 31 => ⟨S128, .f32⟩
  | 32 => ⟨S1x128, .f32⟩
  | 33 => ⟨S128, .f32⟩
  | 34 => ⟨S1x128, .f32⟩
  | 35 => ⟨S1x128, .f32⟩
  | 36 => ⟨S1x128, .f32⟩
  | 37 => ⟨S20000x128, .f32⟩
  | 38 => ⟨S1x200000, .i32⟩
  | 39 => ⟨S200000, .i32⟩
  | 40 => ⟨S1x200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S200000x128, .f32⟩
  | 51 => ⟨S_, .f32⟩
  | 52 => ⟨S4000x128, .f32⟩
  | 53 => ⟨S200000x1, .i32⟩
  | 54 => ⟨S4000x128, .f32⟩
  | 55 => ⟨S1x256x128, .f32⟩
  | 56 => ⟨S256x128, .f32⟩
  | 57 => ⟨S1x128, .f32⟩
  | 58 => ⟨S128, .f32⟩
  | 59 => ⟨S1x128, .f32⟩
  | 60 => ⟨S4000x128, .f32⟩
  | 61 => ⟨S1x300000, .i32⟩
  | 62 => ⟨S300000, .i32⟩
  | 63 => ⟨S1x300000, .i32⟩
  | 64 => ⟨S300000, .i32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000x128, .f32⟩
  | 74 => ⟨S_, .f32⟩
  | 75 => ⟨S8000x128, .f32⟩
  | 76 => ⟨S300000x1, .i32⟩
  | 77 => ⟨S8000x128, .f32⟩
  | 78 => ⟨S1x256x128, .f32⟩
  | 79 => ⟨S256x128, .f32⟩
  | 80 => ⟨S1x128, .f32⟩
  | 81 => ⟨S128, .f32⟩
  | 82 => ⟨S1x128, .f32⟩
  | 83 => ⟨S8000x128, .f32⟩
  | _ => ⟨S4000x256, .f32⟩

abbrev hbmTy (i : Nat) : BufTy := match i / 128 with
  | 0 => hbmTy0_0 i
  | 1 => hbmTy0_1 i
  | 2 => hbmTy0_2 i
  | _ => ⟨S4000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x1, .f32⟩
  | .local _ .vmem, ⟨39, _⟩ => ⟨S2000x1, .f32⟩
  | .local _ .vmem, ⟨40, _⟩ => ⟨S2000x256, .f32⟩
  | .local _ .vmem, ⟨41, _⟩ => ⟨S2000x256, .f32⟩
  | .local _ .vmem, ⟨42, _⟩ => ⟨S256x256, .f32⟩
  | .local _ .vmem, ⟨43, _⟩ => ⟨S256x256, .f32⟩
  | .local _ .vmem, ⟨44, _⟩ => ⟨S1x256, .f32⟩
  | .local _ .vmem, ⟨45, _⟩ => ⟨S2000x256, .f32⟩
  | .local _ .vmem, ⟨46, _⟩ => ⟨S2000x256, .f32⟩
  | .local _ .vmem, ⟨47, _⟩ => ⟨S4000x256, .f32⟩
  | .local _ .vmem, ⟨48, _⟩ => ⟨S256x128, .f32⟩
  | .local _ .vmem, ⟨49, _⟩ => ⟨S4000x128, .f32⟩
  | .local _ .vmem, ⟨50, _⟩ => ⟨S4000x256, .f32⟩
  | .local _ .vmem, ⟨51, _⟩ => ⟨S4000x256, .f32⟩
  | .local _ .vmem, ⟨52, _⟩ => ⟨S256x128, .f32⟩
  | .local _ .vmem, ⟨53, _⟩ => ⟨S4000x128, .f32⟩
  | .local _ .vmem, ⟨54, _⟩ => ⟨S4000x128, .f32⟩
  | .local _ .vmem, ⟨55, _⟩ => ⟨S4000x256, .f32⟩
  | .local _ .vmem, ⟨56, _⟩ => ⟨S4000x256, .f32⟩
  | .local _ .vmem, ⟨57, _⟩ => ⟨S256x128, .f32⟩
  | .local _ .vmem, ⟨58, _⟩ => ⟨S4000x128, .f32⟩
  | .local _ .vmem, ⟨59, _⟩ => ⟨S4000x128, .f32⟩
  | .local _ .vmem, ⟨60, _⟩ => ⟨S4000x256, .f32⟩
  | .local _ .vmem, ⟨61, _⟩ => ⟨S4000x256, .f32⟩
  | .local _ .vmem, ⟨62, _⟩ => ⟨S256x128, .f32⟩
  | .local _ .vmem, ⟨63, _⟩ => ⟨S4000x128, .f32⟩
  | .local _ .vmem, ⟨64, _⟩ => ⟨S4000x128, .f32⟩
  | .local _ .vmem, ⟨65, _⟩ => ⟨S4000x256, .f32⟩
  | .local _ .vmem, ⟨66, _⟩ => ⟨S4000x256, .f32⟩
  | .local _ .vmem, ⟨67, _⟩ => ⟨S256x128, .f32⟩
  | .local _ .vmem, ⟨68, _⟩ => ⟨S4000x128, .f32⟩
  | .local _ .vmem, ⟨69, _⟩ => ⟨S4000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x1, .f32⟩
  | .local _ .vmem, ⟨77, _⟩ => ⟨S2000x1, .f32⟩
  | .local _ .vmem, ⟨78, _⟩ => ⟨S2000x1, .f32⟩
  | .local _ .vmem, ⟨79, _⟩ => ⟨S2000x1, .f32⟩
  | .local _ .vmem, ⟨80, _⟩ => ⟨S2000x1, .f32⟩
  | .local _ .vmem, ⟨81, _⟩ => ⟨S2000x1, .f32⟩
  | .local _ .vmem, ⟨82, _⟩ => ⟨S2000x256, .f32⟩
  | .local _ .vmem, ⟨83, _⟩ => ⟨S2000x256, .f32⟩
  | .local _ .vmem, ⟨84, _⟩ => ⟨S256x128, .f32⟩
  | .local _ .vmem, ⟨85, _⟩ => ⟨S256x128, .f32⟩
  | .local _ .vmem, ⟨86, _⟩ => ⟨S256x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S2000x128, .f32⟩
  | .local _ .vmem, ⟨91, _⟩ => ⟨S2000x128, .f32⟩
  | .local _ .vmem, ⟨92, _⟩ => ⟨S2000x128, .f32⟩
  | .local _ .vmem, ⟨93, _⟩ => ⟨S2000x128, .f32⟩
  | .local _ .vmem, ⟨94, _⟩ => ⟨S2000x1, .f32⟩
  | .local _ .vmem, ⟨95, _⟩ => ⟨S2000x1, .f32⟩
  | .local _ .vmem, ⟨96, _⟩ => ⟨S2000x256, .f32⟩
  | .local _ .vmem, ⟨97, _⟩ => ⟨S2000x256, .f32⟩
  | .local _ .vmem, ⟨98, _⟩ => ⟨S256x128, .f32⟩
  | .local _ .vmem, ⟨99, _⟩ => ⟨S1x128, .f32⟩
  | .local _ .vmem, ⟨100, _⟩ => ⟨S2000x128, .f32⟩
  | .local _ .vmem, ⟨101, _⟩ => ⟨S2000x128, .f32⟩
  | .local _ .vmem, ⟨102, _⟩ => ⟨S2000x128, .f32⟩
  | .local _ .vmem, ⟨103, _⟩ => ⟨S2000x128, .f32⟩
  | .local _ .vmem, ⟨104, _⟩ => ⟨S2000x1, .f32⟩
  | .local _ .vmem, ⟨105, _⟩ => ⟨S2000x1, .f32⟩
  | .local _ .vmem, ⟨106, _⟩ => ⟨S2000x256, .f32⟩
  | .local _ .vmem, ⟨107, _⟩ => ⟨S2000x256, .f32⟩
  | .local _ .vmem, ⟨108, _⟩ => ⟨S256x128, .f32⟩
  | .local _ .vmem, ⟨109, _⟩ => ⟨S1x128, .f32⟩
  | .local _ .vmem, ⟨110, _⟩ => ⟨S2000x128, .f32⟩
  | .local _ .vmem, ⟨111, _⟩ => ⟨S2000x128, .f32⟩
  | _, _ => ⟨S4000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_cst_12 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_13 : Ref sig .tc := ⟨.hbm, 67, rfl⟩
abbrev main_v39 : Ref sig .tc := ⟨.hbm, 68, rfl⟩
abbrev main_v40 : Ref sig .tc := ⟨.hbm, 69, rfl⟩
abbrev main_cst_14 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_15 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_17 : Ref sig .tc := ⟨.hbm, 82, rfl⟩
abbrev main_v50 : Ref sig .tc := ⟨.hbm, 83, rfl⟩
abbrev main_v51 : Ref sig .tc := ⟨.hbm, 84, rfl⟩
abbrev main_cst_18 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c : Ref sig .tc := ⟨.hbm, 93, rfl⟩
abbrev main_v59 : Ref sig .tc := ⟨.hbm, 94, rfl⟩
abbrev main_v60 : Ref sig .tc := ⟨.hbm, 95, rfl⟩
abbrev main_c_19 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_20 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_21 : Ref sig .tc := ⟨.hbm, 110, rfl⟩
abbrev main_v73 : Ref sig .tc := ⟨.hbm, 111, rfl⟩
abbrev main_v74 : Ref sig .tc := ⟨.hbm, 112, rfl⟩
abbrev main_c_22 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_23 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_24 : Ref sig .tc := ⟨.hbm, 127, rfl⟩
abbrev main_v87 : Ref sig .tc := ⟨.hbm, 128, rfl⟩
abbrev main_v88 : Ref sig .tc := ⟨.hbm, 129, rfl⟩
abbrev main_c_25 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_26 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_27 : Ref sig .tc := ⟨.hbm, 166, rfl⟩
abbrev main_v123 : Ref sig .tc := ⟨.hbm, 167, rfl⟩
abbrev main_v124 : Ref sig .tc := ⟨.hbm, 168, rfl⟩
abbrev main_c_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_29 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_c_30 : Ref sig .tc := ⟨.hbm, 191, rfl⟩
abbrev main_v145 : Ref sig .tc := ⟨.hbm, 192, rfl⟩
abbrev main_v146 : Ref sig .tc := ⟨.hbm, 193, rfl⟩
abbrev main_c_31 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_32 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_c_33 : Ref sig .tc := ⟨.hbm, 231, rfl⟩
abbrev main_v182 : Ref sig .tc := ⟨.hbm, 232, rfl⟩
abbrev main_v183 : Ref sig .tc := ⟨.hbm, 233, rfl⟩
abbrev main_c_34 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_35 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_c_36 : Ref sig .tc := ⟨.hbm, 248, rfl⟩
abbrev main_v196 : Ref sig .tc := ⟨.hbm, 249, rfl⟩
abbrev main_v197 : Ref sig .tc := ⟨.hbm, 250, rfl⟩
abbrev main_c_37 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_38 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_c_39 : Ref sig .tc := ⟨.hbm, 265, rfl⟩
abbrev main_v210 : Ref sig .tc := ⟨.hbm, 266, rfl⟩
abbrev main_v211 : Ref sig .tc := ⟨.hbm, 267, rfl⟩
abbrev main_c_40 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_cst_41 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_c_42 : Ref sig .tc := ⟨.hbm, 298, rfl⟩
abbrev main_v240 : Ref sig .tc := ⟨.hbm, 299, rfl⟩
abbrev main_v241 : Ref sig .tc := ⟨.hbm, 300, rfl⟩
abbrev main_c_43 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_cst_44 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_c_45 : Ref sig .tc := ⟨.hbm, 321, rfl⟩
abbrev main_v260 : Ref sig .tc := ⟨.hbm, 322, rfl⟩
abbrev main_v261 : Ref sig .tc := ⟨.hbm, 323, rfl⟩
abbrev main_c_46 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_cst_47 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg6_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg6_1 : Ref sig .tc := ⟨.vmem, 46, rfl⟩
abbrev cc3_stg0_0 : Ref sig .tc := ⟨.vmem, 47, rfl⟩
abbrev cc3_stg1_0 : Ref sig .tc := ⟨.vmem, 48, rfl⟩
abbrev cc3_stg2_0 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg2_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg2_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg2_1 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg2_0 : Ref sig .tc := ⟨.vmem, 68, rfl⟩
abbrev cc7_stg2_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg2_1 : Ref sig .tc := ⟨.vmem, 75, rfl⟩
abbrev cc8_stg3_0 : Ref sig .tc := ⟨.vmem, 76, rfl⟩
abbrev cc8_stg3_1 : Ref sig .tc := ⟨.vmem, 77, rfl⟩
abbrev cc8_stg4_0 : Ref sig .tc := ⟨.vmem, 78, rfl⟩
abbrev cc8_stg4_1 : Ref sig .tc := ⟨.vmem, 79, rfl⟩
abbrev cc8_stg5_0 : Ref sig .tc := ⟨.vmem, 80, rfl⟩
abbrev cc8_stg5_1 : Ref sig .tc := ⟨.vmem, 81, rfl⟩
abbrev cc8_stg6_0 : Ref sig .tc := ⟨.vmem, 82, rfl⟩
abbrev cc8_stg6_1 : Ref sig .tc := ⟨.vmem, 83, rfl⟩
abbrev cc8_stg7_0 : Ref sig .tc := ⟨.vmem, 84, rfl⟩
abbrev cc8_stg8_0 : Ref sig .tc := ⟨.vmem, 85, rfl⟩
abbrev cc8_stg9_0 : Ref sig .tc := ⟨.vmem, 86, rfl⟩
abbrev cc8_stg10_0 : Ref sig .tc := ⟨.vmem, 87, rfl⟩
abbrev cc8_stg11_0 : Ref sig .tc := ⟨.vmem, 88, rfl⟩
abbrev cc8_stg12_0 : Ref sig .tc := ⟨.vmem, 89, rfl⟩
abbrev cc8_stg13_0 : Ref sig .tc := ⟨.vmem, 90, rfl⟩
abbrev cc8_stg13_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg2_1 : Ref sig .tc := ⟨.vmem, 97, rfl⟩
abbrev cc9_stg3_0 : Ref sig .tc := ⟨.vmem, 98, rfl⟩
abbrev cc9_stg4_0 : Ref sig .tc := ⟨.vmem, 99, rfl⟩
abbrev cc9_stg5_0 : Ref sig .tc := ⟨.vmem, 100, rfl⟩
abbrev cc9_stg5_1 : Ref sig .tc := ⟨.vmem, 101, rfl⟩
abbrev cc10_stg0_0 : Ref sig .tc := ⟨.vmem, 102, rfl⟩
abbrev cc10_stg0_1 : Ref sig .tc := ⟨.vmem, 103, rfl⟩
abbrev cc10_stg1_0 : Ref sig .tc := ⟨.vmem, 104, rfl⟩
abbrev cc10_stg1_1 : Ref sig .tc := ⟨.vmem, 105, rfl⟩
abbrev cc10_stg2_0 : Ref sig .tc := ⟨.vmem, 106, rfl⟩
abbrev cc10_stg2_1 : Ref sig .tc := ⟨.vmem, 107, rfl⟩
abbrev cc10_stg3_0 : Ref sig .tc := ⟨.vmem, 108, rfl⟩
abbrev cc10_stg4_0 : Ref sig .tc := ⟨.vmem, 109, rfl⟩
abbrev cc10_stg5_0 : Ref sig .tc := ⟨.vmem, 110, rfl⟩
abbrev cc10_stg5_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem6_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem4_0 : DmaSem sig := 43
abbrev cc2_sem5_0 : DmaSem sig := 44
abbrev cc2_sem6_0 : DmaSem sig := 45
abbrev cc2_sem6_1 : DmaSem sig := 46
abbrev cc3_sem0_0 : DmaSem sig := 47
abbrev cc3_sem1_0 : DmaSem sig := 48
abbrev cc3_sem2_0 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem2_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem2_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem2_1 : DmaSem sig := 64
abbrev cc7_sem0_0 : DmaSem sig := 65
abbrev cc7_sem0_1 : DmaSem sig := 66
abbrev cc7_sem1_0 : DmaSem sig := 67
abbrev cc7_sem2_0 : DmaSem sig := 68
abbrev cc7_sem2_1 : DmaSem sig := 69
abbrev cc8_sem0_0 : DmaSem sig := 70
abbrev cc8_sem0_1 : DmaSem sig := 71
abbrev cc8_sem1_0 : DmaSem sig := 72
abbrev cc8_sem1_1 : DmaSem sig := 73
abbrev cc8_sem2_0 : DmaSem sig := 74
abbrev cc8_sem2_1 : DmaSem sig := 75
abbrev cc8_sem3_0 : DmaSem sig := 76
abbrev cc8_sem3_1 : DmaSem sig := 77
abbrev cc8_sem4_0 : DmaSem sig := 78
abbrev cc8_sem4_1 : DmaSem sig := 79
abbrev cc8_sem5_0 : DmaSem sig := 80
abbrev cc8_sem5_1 : DmaSem sig := 81
abbrev cc8_sem6_0 : DmaSem sig := 82
abbrev cc8_sem6_1 : DmaSem sig := 83
abbrev cc8_sem7_0 : DmaSem sig := 84
abbrev cc8_sem8_0 : DmaSem sig := 85
abbrev cc8_sem9_0 : DmaSem sig := 86
abbrev cc8_sem10_0 : DmaSem sig := 87
abbrev cc8_sem11_0 : DmaSem sig := 88
abbrev cc8_sem12_0 : DmaSem sig := 89
abbrev cc8_sem13_0 : DmaSem sig := 90
abbrev cc8_sem13_1 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem2_1 : DmaSem sig := 97
abbrev cc9_sem3_0 : DmaSem sig := 98
abbrev cc9_sem4_0 : DmaSem sig := 99
abbrev cc9_sem5_0 : DmaSem sig := 100
abbrev cc9_sem5_1 : DmaSem sig := 101
abbrev cc10_sem0_0 : DmaSem sig := 102
abbrev cc10_sem0_1 : DmaSem sig := 103
abbrev cc10_sem1_0 : DmaSem sig := 104
abbrev cc10_sem1_1 : DmaSem sig := 105
abbrev cc10_sem2_0 : DmaSem sig := 106
abbrev cc10_sem2_1 : DmaSem sig := 107
abbrev cc10_sem3_0 : DmaSem sig := 108
abbrev cc10_sem4_0 : DmaSem sig := 109
abbrev cc10_sem5_0 : DmaSem sig := 110
abbrev cc10_sem5_1 : DmaSem sig := 111

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S2000x1 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S2000x256 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S256x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S256x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S256x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x128 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x128 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x128 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 2 → Memref sig .tc .vmem S2000x128 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S256x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S256x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x200000_S1x200000_1_0 : S2x200000.Slices ![1, 0] S1x200000
  shapeCasts_S1x200000_S200000 : S1x200000.ShapeCasts S200000
  bcast_S_S200000 : S_.BroadcastsInDim S200000 (![] : Fin 0 → Fin S200000.rank)
  bcast_S_S20000 : S_.BroadcastsInDim S20000 (![] : Fin 0 → Fin S20000.rank)
  bcast_S200000_S200000x1_0 : S200000.BroadcastsInDim S200000x1 (![0] : Fin 1 → Fin S200000x1.rank)
  bcast_S20000_S20000x1_0 : S20000.BroadcastsInDim S20000x1 (![0] : Fin 1 → Fin S20000x1.rank)
  bcast_S_S4000 : S_.BroadcastsInDim S4000 (![] : Fin 0 → Fin S4000.rank)
  bcast_S4000_S4000x1_0 : S4000.BroadcastsInDim S4000x1 (![0] : Fin 1 → Fin S4000x1.rank)
  slices_S2x300000_S1x300000_1_0 : S2x300000.Slices ![1, 0] S1x300000
  shapeCasts_S1x300000_S300000 : S1x300000.ShapeCasts S300000
  bcast_S_S300000 : S_.BroadcastsInDim S300000 (![] : Fin 0 → Fin S300000.rank)
  bcast_S_S8000 : S_.BroadcastsInDim S8000 (![] : Fin 0 → Fin S8000.rank)
  bcast_S300000_S300000x1_0 : S300000.BroadcastsInDim S300000x1 (![0] : Fin 1 → Fin S300000x1.rank)
  bcast_S8000_S8000x1_0 : S8000.BroadcastsInDim S8000x1 (![0] : Fin 1 → Fin S8000x1.rank)
  slices_S2x600000_S1x600000_1_0 : S2x600000.Slices ![1, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x200000_S1x200000_0_0 : S2x200000.Slices ![0, 0] S1x200000
  bcast_S_S20000x256 : S_.BroadcastsInDim S20000x256 (![] : Fin 0 → Fin S20000x256.rank)
  slices_S2x300000_S1x300000_0_0 : S2x300000.Slices ![0, 0] S1x300000
  slices_S2x600000_S1x600000_0_0 : S2x600000.Slices ![0, 0] S1x600000
  slices_S5x256x256_S1x256x256_0_0_0 : S5x256x256.Slices ![0, 0, 0] S1x256x256
  shapeCasts_S1x256x256_S256x256 : S1x256x256.ShapeCasts S256x256
  slices_S5x256x256_S1x256x256_3_0_0 : S5x256x256.Slices ![3, 0, 0] S1x256x256
  slices_S5x256x256_S1x256x256_4_0_0 : S5x256x256.Slices ![4, 0, 0] S1x256x256
  slices_S5x256_S1x256_0_0 : S5x256.Slices ![0, 0] S1x256
  shapeCasts_S1x256_S256 : S1x256.ShapeCasts S256
  slices_S5x256_S1x256_3_0 : S5x256.Slices ![3, 0] S1x256
  slices_S5x256_S1x256_4_0 : S5x256.Slices ![4, 0] S1x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S4000x256 : S_.BroadcastsInDim S4000x256 (![] : Fin 0 → Fin S4000x256.rank)
  slices_S5x256x256_S1x256x256_1_0_0 : S5x256x256.Slices ![1, 0, 0] S1x256x256
  slices_S5x256_S1x256_1_0 : S5x256.Slices ![1, 0] S1x256
  bcast_S_S8000x256 : S_.BroadcastsInDim S8000x256 (![] : Fin 0 → Fin S8000x256.rank)
  slices_S5x256x256_S1x256x256_2_0_0 : S5x256x256.Slices ![2, 0, 0] S1x256x256
  slices_S5x256_S1x256_2_0 : S5x256.Slices ![2, 0] S1x256
  slices_S5x256x128_S1x256x128_0_0_0 : S5x256x128.Slices ![0, 0, 0] S1x256x128
  shapeCasts_S1x256x128_S256x128 : S1x256x128.ShapeCasts S256x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  slices_S5x256x128_S1x256x128_1_0_0 : S5x256x128.Slices ![1, 0, 0] S1x256x128
  slices_S5x256x128_S1x256x128_2_0_0 : S5x256x128.Slices ![2, 0, 0] S1x256x128
  slices_S5x256x128_S1x256x128_3_0_0 : S5x256x128.Slices ![3, 0, 0] S1x256x128
  slices_S5x256x128_S1x256x128_4_0_0 : S5x256x128.Slices ![4, 0, 0] S1x256x128
  bcast_S_S20000x128 : S_.BroadcastsInDim S20000x128 (![] : Fin 0 → Fin S20000x128.rank)
  slices_S5x128_S1x128_0_0 : S5x128.Slices ![0, 0] S1x128
  shapeCasts_S1x128_S128 : S1x128.ShapeCasts S128
  slices_S5x128_S1x128_3_0 : S5x128.Slices ![3, 0] S1x128
  slices_S5x128_S1x128_4_0 : S5x128.Slices ![4, 0] S1x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S4000x128 : S_.BroadcastsInDim S4000x128 (![] : Fin 0 → Fin S4000x128.rank)
  slices_S5x128_S1x128_1_0 : S5x128.Slices ![1, 0] S1x128
  bcast_S_S8000x128 : S_.BroadcastsInDim S8000x128 (![] : Fin 0 → Fin S8000x128.rank)
  slices_S5x128_S1x128_2_0 : S5x128.Slices ![2, 0] S1x128
  scatter_S20000_S200000x1_S200000_n_0_0_1_wf : ScatterDims.WF S20000 S200000x1 S200000 [] [0] [0] 1
  scatter_S4000_S200000x1_S200000_n_0_0_1_wf : ScatterDims.WF S4000 S200000x1 S200000 [] [0] [0] 1
  scatter_S8000_S300000x1_S300000_n_0_0_1_wf : ScatterDims.WF S8000 S300000x1 S300000 [] [0] [0] 1
  scatter_S20000_S300000x1_S300000_n_0_0_1_wf : ScatterDims.WF S20000 S300000x1 S300000 [] [0] [0] 1
  scatter_S20000_S600000x1_S600000_n_0_0_1_wf : ScatterDims.WF S20000 S600000x1 S600000 [] [0] [0] 1
  gather_S4000x256_S200000x1_S200000x256_1_0_n_n_0_1_1256_wf : GatherDims.WF S4000x256 S200000x1 S200000x256 [1] [0] [] [0] [] 1 ![1, 256]
  scatter_S20000x256_S200000x1_S200000x256_1_0_0_1_wf : ScatterDims.WF S20000x256 S200000x1 S200000x256 [1] [0] [0] 1
  gather_S8000x256_S300000x1_S300000x256_1_0_n_n_0_1_1256_wf : GatherDims.WF S8000x256 S300000x1 S300000x256 [1] [0] [] [0] [] 1 ![1, 256]
  scatter_S20000x256_S300000x1_S300000x256_1_0_0_1_wf : ScatterDims.WF S20000x256 S300000x1 S300000x256 [1] [0] [0] 1
  gather_S20000x256_S600000x1_S600000x256_1_0_n_n_0_1_1256_wf : GatherDims.WF S20000x256 S600000x1 S600000x256 [1] [0] [] [0] [] 1 ![1, 256]
  scatter_S20000x256_S600000x1_S600000x256_1_0_0_1_wf : ScatterDims.WF S20000x256 S600000x1 S600000x256 [1] [0] [0] 1
  dot_S2000x256_S256x256_S2000x256_1_0_0_1_n_n_wf : DotDims.WF S2000x256 S256x256 S2000x256 [1] [0] [0] [1] [] []
  gather_S20000x256_S200000x1_S200000x256_1_0_n_n_0_1_1256_wf : GatherDims.WF S20000x256 S200000x1 S200000x256 [1] [0] [] [0] [] 1 ![1, 256]
  scatter_S4000x256_S200000x1_S200000x256_1_0_0_1_wf : ScatterDims.WF S4000x256 S200000x1 S200000x256 [1] [0] [0] 1
  gather_S20000x256_S300000x1_S300000x256_1_0_n_n_0_1_1256_wf : GatherDims.WF S20000x256 S300000x1 S300000x256 [1] [0] [] [0] [] 1 ![1, 256]
  scatter_S8000x256_S300000x1_S300000x256_1_0_0_1_wf : ScatterDims.WF S8000x256 S300000x1 S300000x256 [1] [0] [0] 1
  dot_S4000x256_S256x128_S4000x128_1_0_0_1_n_n_wf : DotDims.WF S4000x256 S256x128 S4000x128 [1] [0] [0] [1] [] []
  gather_S4000x128_S200000x1_S200000x128_1_0_n_n_0_1_1128_wf : GatherDims.WF S4000x128 S200000x1 S200000x128 [1] [0] [] [0] [] 1 ![1, 128]
  scatter_S20000x128_S200000x1_S200000x128_1_0_0_1_wf : ScatterDims.WF S20000x128 S200000x1 S200000x128 [1] [0] [0] 1
  gather_S8000x128_S300000x1_S300000x128_1_0_n_n_0_1_1128_wf : GatherDims.WF S8000x128 S300000x1 S300000x128 [1] [0] [] [0] [] 1 ![1, 128]
  scatter_S20000x128_S300000x1_S300000x128_1_0_0_1_wf : ScatterDims.WF S20000x128 S300000x1 S300000x128 [1] [0] [0] 1
  gather_S20000x128_S600000x1_S600000x128_1_0_n_n_0_1_1128_wf : GatherDims.WF S20000x128 S600000x1 S600000x128 [1] [0] [] [0] [] 1 ![1, 128]
  scatter_S20000x128_S600000x1_S600000x128_1_0_0_1_wf : ScatterDims.WF S20000x128 S600000x1 S600000x128 [1] [0] [0] 1
  dot_S2000x256_S256x128_S2000x128_1_0_0_1_n_n_wf : DotDims.WF S2000x256 S256x128 S2000x128 [1] [0] [0] [1] [] []
  gather_S20000x128_S200000x1_S200000x128_1_0_n_n_0_1_1128_wf : GatherDims.WF S20000x128 S200000x1 S200000x128 [1] [0] [] [0] [] 1 ![1, 128]
  scatter_S4000x128_S200000x1_S200000x128_1_0_0_1_wf : ScatterDims.WF S4000x128 S200000x1 S200000x128 [1] [0] [0] 1
  gather_S20000x128_S300000x1_S300000x128_1_0_n_n_0_1_1128_wf : GatherDims.WF S20000x128 S300000x1 S300000x128 [1] [0] [] [0] [] 1 ![1, 128]
  scatter_S8000x128_S300000x1_S300000x128_1_0_0_1_wf : ScatterDims.WF S8000x128 S300000x1 S300000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S20000x1.size a
  hwx0_3 : ∀ i : grid0.Coords, EltTy.bits .f32 = 32 ∨ (Rect.block (s := S20000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S20000x1.size a
  hwx0_4 : ∀ i : grid0.Coords, EltTy.bits .f32 = 32 ∨ (Rect.block (s := S20000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S20000x1.size a
  hwx0_5 : ∀ i : grid0.Coords, EltTy.bits .f32 = 32 ∨ (Rect.block (s := S20000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .f32 = 32 ∨ (Rect.block (s := S20000x256) S2000x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x256.size a ≤ S20000x256.size a
  hwx0_16 : ∀ i : grid0.Coords, EltTy.bits .f32 = 32 ∨ (Rect.block (s := S20000x256) S2000x256.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S4000x256.size a
  hwx1_0 : ∀ i : grid1.Coords, EltTy.bits .f32 = 32 ∨ (Rect.block (s := S4000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S4000x1.size a
  hwx1_1 : ∀ i : grid1.Coords, EltTy.bits .f32 = 32 ∨ (Rect.block (s := S4000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S4000x256.size a
  hwx1_2 : ∀ i : grid1.Coords, EltTy.bits .f32 = 32 ∨ (Rect.block (s := S4000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S4000x256.size a
  hwx1_6 : ∀ i : grid1.Coords, EltTy.bits .f32 = 32 ∨ (Rect.block (s := S4000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S8000x256.size a
  hwx2_0 : ∀ i : grid2.Coords, EltTy.bits .f32 = 32 ∨ (Rect.block (s := S8000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S8000x1.size a
  hwx2_1 : ∀ i : grid2.Coords, EltTy.bits .f32 = 32 ∨ (Rect.block (s := S8000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S8000x256.size a
  hwx2_2 : ∀ i : grid2.Coords, EltTy.bits .f32 = 32 ∨ (Rect.block (s := S8000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S8000x256.size a
  hwx2_6 : ∀ i : grid2.Coords, EltTy.bits .f32 = 32 ∨ (Rect.block (s := S8000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S4000x256.size a
  hwx3_0 : ∀ i : grid3.Coords, EltTy.bits .f32 = 32 ∨ (Rect.block (s := S4000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S4000x128.size a
  hwx3_2 : ∀ i : grid3.Coords, EltTy.bits .f32 = 32 ∨ (Rect.block (s := S4000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S20000x256.size a
  hwx4_0 : ∀ i : grid4.Coords, EltTy.bits .f32 = 32 ∨ (Rect.block (s := S20000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S20000x128.size a
  hwx4_2 : ∀ i : grid4.Coords, EltTy.bits .f32 = 32 ∨ (Rect.block (s := S20000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S20000x256.size a
  hwx5_0 : ∀ i : grid5.Coords, EltTy.bits .f32 = 32 ∨ (Rect.block (s := S20000x256) S4000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S20000x128.size a
  hwx5_2 : ∀ i : grid5.Coords, EltTy.bits .f32 = 32 ∨ (Rect.block (s := S20000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S8000x256.size a
  hwx6_0 : ∀ i : grid6.Coords, EltTy.bits .f32 = 32 ∨ (Rect.block (s := S8000x256) S4000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S8000x128.size a
  hwx6_2 : ∀ i : grid6.Coords, EltTy.bits .f32 = 32 ∨ (Rect.block (s := S8000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x256.size a ≤ S20000x256.size a
  hwx7_0 : ∀ i : grid7.Coords, EltTy.bits .f32 = 32 ∨ (Rect.block (s := S20000x256) S4000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S20000x128.size a
  hwx7_2 : ∀ i : grid7.Coords, EltTy.bits .f32 = 32 ∨ (Rect.block (s := S20000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S20000x128.size a
  hwx8_0 : ∀ i : grid8.Coords, EltTy.bits .f32 = 32 ∨ (Rect.block (s := S20000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S20000x128.size a
  hwx8_1 : ∀ i : grid8.Coords, EltTy.bits .f32 = 32 ∨ (Rect.block (s := S20000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S20000x128.size a
  hwx8_2 : ∀ i : grid8.Coords, EltTy.bits .f32 = 32 ∨ (Rect.block (s := S20000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x1.size a ≤ S20000x1.size a
  hwx8_3 : ∀ i : grid8.Coords, EltTy.bits .f32 = 32 ∨ (Rect.block (s := S20000x1) S2000x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x1.size a ≤ S20000x1.size a
  hwx8_4 : ∀ i : grid8.Coords, EltTy.bits .f32 = 32 ∨ (Rect.block (s := S20000x1) S2000x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x1.size a ≤ S20000x1.size a
  hwx8_5 : ∀ i : grid8.Coords, EltTy.bits .f32 = 32 ∨ (Rect.block (s := S20000x1) S2000x1.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x256.size a ≤ S20000x256.size a
  hwx8_6 : ∀ i : grid8.Coords, EltTy.bits .f32 = 32 ∨ (Rect.block (s := S20000x256) S2000x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S256x128.size a ≤ S256x128.size a
  hwx8_7 : ∀ i : grid8.Coords, EltTy.bits .f32 = 32 ∨ (Rect.block (s := S256x128) S256x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S256x128.size a ≤ S256x128.size a
  hwx8_8 : ∀ i : grid8.Coords, EltTy.bits .f32 = 32 ∨ (Rect.block (s := S256x128) S256x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S256x128.size a ≤ S256x128.size a
  hwx8_9 : ∀ i : grid8.Coords, EltTy.bits .f32 = 32 ∨ (Rect.block (s := S256x128) S256x128.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x128.size a ≤ S1x128.size a
  hwx8_10 : ∀ i : grid8.Coords, EltTy.bits .f32 = 32 ∨ (Rect.block (s := S1x128) S1x128.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x128.size a ≤ S1x128.size a
  hwx8_11 : ∀ i : grid8.Coords, EltTy.bits .f32 = 32 ∨ (Rect.block (s := S1x128) S1x128.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x128.size a ≤ S1x128.size a
  hwx8_12 : ∀ i : grid8.Coords, EltTy.bits .f32 = 32 ∨ (Rect.block (s := S1x128) S1x128.size (cc8_transform_12 i) (hinb8_12 i)).WholeWords (EltTy.packing .f32)
  hstage8_13 : ∀ j, (stage8_13 j).IsWhole
  nbuf8_13 : grid8.bufCount reads8_13 false = 2
  hreads8_13 : ∀ i i' : grid8.Coords, (∀ a, reads8_13 a = true → i a = i' a) → cc8_transform_13 i = cc8_transform_13 i'
  hinb8_13 : ∀ (i : grid8.Coords) a, (cc8_transform_13 i a + 1) * S2000x128.size a ≤ S20000x128.size a
  hwx8_13 : ∀ i : grid8.Coords, EltTy.bits .f32 = 32 ∨ (Rect.block (s := S20000x128) S2000x128.size (cc8_transform_13 i) (hinb8_13 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S4000x128.size a
  hwx9_0 : ∀ i : grid9.Coords, EltTy.bits .f32 = 32 ∨ (Rect.block (s := S4000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S4000x1.size a
  hwx9_1 : ∀ i : grid9.Coords, EltTy.bits .f32 = 32 ∨ (Rect.block (s := S4000x1) S2000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x256.size a ≤ S4000x256.size a
  hwx9_2 : ∀ i : grid9.Coords, EltTy.bits .f32 = 32 ∨ (Rect.block (s := S4000x256) S2000x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x128.size a ≤ S256x128.size a
  hwx9_3 : ∀ i : grid9.Coords, EltTy.bits .f32 = 32 ∨ (Rect.block (s := S256x128) S256x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S4000x128.size a
  hwx9_5 : ∀ i : grid9.Coords, EltTy.bits .f32 = 32 ∨ (Rect.block (s := S4000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S8000x128.size a
  hwx10_0 : ∀ i : grid10.Coords, EltTy.bits .f32 = 32 ∨ (Rect.block (s := S8000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S8000x1.size a
  hwx10_1 : ∀ i : grid10.Coords, EltTy.bits .f32 = 32 ∨ (Rect.block (s := S8000x1) S2000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x256.size a ≤ S8000x256.size a
  hwx10_2 : ∀ i : grid10.Coords, EltTy.bits .f32 = 32 ∨ (Rect.block (s := S8000x256) S2000x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S256x128.size a ≤ S256x128.size a
  hwx10_3 : ∀ i : grid10.Coords, EltTy.bits .f32 = 32 ∨ (Rect.block (s := S256x128) S256x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x128.size a ≤ S8000x128.size a
  hwx10_5 : ∀ i : grid10.Coords, EltTy.bits .f32 = 32 ∨ (Rect.block (s := S8000x128) S2000x128.size (cc10_transform_5 i) (hinb10_5 i)).WholeWords (EltTy.packing .f32)

variable [Facts₀]

def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def scatter_S8000_S300000x1_S300000_n_0_0_1 : ScatterDims S8000 S300000x1 S300000 where
  updateWindowDims := []
  insertedWindowDims := [0]
  scatterDimsToOperandDims := [0]
  indexVectorDim := 1
  wf := scatter_S8000_S300000x1_S300000_n_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S4000x256_S200000x1_S200000x256_1_0_n_n_0_1_1256 : GatherDims S4000x256 S200000x1 S200000x256 where
  offsetDims := [1]
  collapsedSliceDims := [0]
  operandBatchingDims := []
  startIndicesBatchingDims := []
  startIndexMap := [0]
  indexVectorDim := 1
  sliceSizes := ![1, 256]
  wf := gather_S4000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def gather_S8000x256_S300000x1_S300000x256_1_0_n_n_0_1_1256 : GatherDims S8000x256 S300000x1 S300000x256 where
  offsetDims := [1]
  collapsedSliceDims := [0]
  operandBatchingDims := []
  startIndicesBatchingDims := []
  startIndexMap := [0]
  indexVectorDim := 1
  sliceSizes := ![1, 256]
  wf := gather_S8000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def gather_S20000x256_S600000x1_S600000x256_1_0_n_n_0_1_1256 : GatherDims S20000x256 S600000x1 S600000x256 where
  offsetDims := [1]
  collapsedSliceDims := [0]
  operandBatchingDims := []
  startIndicesBatchingDims := []
  startIndexMap := [0]
  indexVectorDim := 1
  sliceSizes := ![1, 256]
  wf := gather_S20000x256_S600000x1_S600000x256_1_0_n_n_0_1_1256_wf
def scatter_S20000x256_S600000x1_S600000x256_1_0_0_1 : ScatterDims S20000x256 S600000x1 S600000x256 where
  updateWindowDims := [1]
  insertedWindowDims := [0]
  scatterDimsToOperandDims := [0]
  indexVectorDim := 1
  wf := scatter_S20000x256_S600000x1_S600000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def scatter_S4000x256_S200000x1_S200000x256_1_0_0_1 : ScatterDims S4000x256 S200000x1 S200000x256 where
  updateWindowDims := [1]
  insertedWindowDims := [0]
  scatterDimsToOperandDims := [0]
  indexVectorDim := 1
  wf := scatter_S4000x256_S200000x1_S200000x256_1_0_0_1_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S8000x256_S300000x1_S300000x256_1_0_0_1 : ScatterDims S8000x256 S300000x1 S300000x256 where
  updateWindowDims := [1]
  insertedWindowDims := [0]
  scatterDimsToOperandDims := [0]
  indexVectorDim := 1
  wf := scatter_S8000x256_S300000x1_S300000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S4000x128_S200000x1_S200000x128_1_0_n_n_0_1_1128 : GatherDims S4000x128 S200000x1 S200000x128 where
  offsetDims := [1]
  collapsedSliceDims := [0]
  operandBatchingDims := []
  startIndicesBatchingDims := []
  startIndexMap := [0]
  indexVectorDim := 1
  sliceSizes := ![1, 128]
  wf := gather_S4000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def gather_S8000x128_S300000x1_S300000x128_1_0_n_n_0_1_1128 : GatherDims S8000x128 S300000x1 S300000x128 where
  offsetDims := [1]
  collapsedSliceDims := [0]
  operandBatchingDims := []
  startIndicesBatchingDims := []
  startIndexMap := [0]
  indexVectorDim := 1
  sliceSizes := ![1, 128]
  wf := gather_S8000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S4000x128_S200000x1_S200000x128_1_0_0_1 : ScatterDims S4000x128 S200000x1 S200000x128 where
  updateWindowDims := [1]
  insertedWindowDims := [0]
  scatterDimsToOperandDims := [0]
  indexVectorDim := 1
  wf := scatter_S4000x128_S200000x1_S200000x128_1_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S8000x128_S300000x1_S300000x128_1_0_0_1 : ScatterDims S8000x128 S300000x1 S300000x128 where
  updateWindowDims := [1]
  insertedWindowDims := [0]
  scatterDimsToOperandDims := [0]
  indexVectorDim := 1
  wf := scatter_S8000x128_S300000x1_S300000x128_1_0_0_1_wf

abbrev win0_0 : Pipeline.Window sig grid0 :=
  Pipeline.Window.ofSpec (Memref.whole main_v68) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v96) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v54) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S2000x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v98) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v100) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v102) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v104) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v106) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v108) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v115) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v116) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v117) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v118) S2000x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v132) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v134) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v136) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v139) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v140) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v154) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v156) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v158) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v161) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v162) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v140) S4000x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v164) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v165) S4000x128.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v118) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v167) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v168) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v118) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v170) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v171) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v162) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v173) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v174) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v118) S4000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v176) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v177) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v191) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v205) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v219) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v10) S2000x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v43) S2000x1.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v54) S2000x1.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v118) S2000x256.size cc8_transform_6 reads8_6 false false 2 stage8_6 sem8_6
    hrank8 hreads8_6 hinb8_6 nbuf8_6 (Memref.isWhole_whole _) hwx8_6 hstage8_6

abbrev win8_7 : Pipeline.Window sig grid8 :=
  Pipeline.Window.ofSpec (Memref.whole main_v221) S256x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v223) S256x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v225) S256x128.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v232) S1x128.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v233) S1x128.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v234) S1x128.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_v235) S2000x128.size cc8_transform_13 reads8_13 true false 2 stage8_13 sem8_13
    hrank8 hreads8_13 hinb8_13 nbuf8_13 (Memref.isWhole_whole _) hwx8_13 hstage8_13

abbrev win8 : Fin 14 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | ⟨_ + 14, h⟩ => absurd h (Nat.not_lt.2 (Nat.le_add_left _ _))
abbrev spec8 : Fin 14 → Pipeline.WinSpec sig grid8.rank := fun w => (win8 w).toWinSpec

abbrev win9_0 : Pipeline.Window sig grid9 :=
  Pipeline.Window.ofSpec (Memref.whole main_v249) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v21) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v140) S2000x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v251) S256x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v254) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v255) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v269) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v32) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v162) S2000x256.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v271) S256x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v274) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v275) S2000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S4000x256 : Shape := ⟨2, ![4000, 256]⟩
abbrev S8000x256 : Shape := ⟨2, ![8000, 256]⟩
abbrev S20000x256 : Shape := ⟨2, ![20000, 256]⟩
abbrev S2x200000 : Shape := ⟨2, ![2, 200000]⟩
abbrev S2x300000 : Shape := ⟨2, ![2, 300000]⟩
abbrev S2x600000 : Shape := ⟨2, ![2, 600000]⟩
abbrev S5x256x256 : Shape := ⟨3, ![5, 256, 256]⟩
abbrev S5x256 : Shape := ⟨2, ![5, 256]⟩
abbrev S5x256x128 : Shape := ⟨3, ![5, 256, 128]⟩
abbrev S5x128 : Shape := ⟨2, ![5, 128]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x256 : Shape := ⟨2, ![200000, 256]⟩
abbrev S20000 : Shape := ⟨1, ![20000]⟩
abbrev S20000x1 : Shape := ⟨2, ![20000, 1]⟩
abbrev S1x300000 : Shape := ⟨2, ![1, 300000]⟩
abbrev S300000 : Shape := ⟨1, ![300000]⟩
abbrev S300000x1 : Shape := ⟨2, ![300000, 1]⟩
abbrev S300000x256 : Shape := ⟨2, ![300000, 256]⟩
abbrev S1x600000 : Shape := ⟨2, ![1, 600000]⟩
abbrev S600000 : Shape := ⟨1, ![600000]⟩
abbrev S600000x1 : Shape := ⟨2, ![600000, 1]⟩
abbrev S600000x256 : Shape := ⟨2, ![600000, 256]⟩
abbrev S4000 : Shape := ⟨1, ![4000]⟩
abbrev S4000x1 : Shape := ⟨2, ![4000, 1]⟩
abbrev S8000 : Shape := ⟨1, ![8000]⟩
abbrev S8000x1 : Shape := ⟨2, ![8000, 1]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S20000x128 : Shape := ⟨2, ![20000, 128]⟩
abbrev S4000x128 : Shape := ⟨2, ![4000, 128]⟩
abbrev S8000x128 : Shape := ⟨2, ![8000, 128]⟩

abbrev nBuf : Space → Nat
  | .hbm => 437
  | .vmem => 0
  | .smem => 0
  | _ => 0

abbrev hbmTy0_0 (i : Nat) : BufTy := match i % 128 with
  | 0 => ⟨S4000x256, .f32⟩
  | 1 => ⟨S8000x256, .f32⟩
  | 2 => ⟨S20000x256, .f32⟩
  | 3 => ⟨S2x200000, .i32⟩
  | 4 => ⟨S2x200000, .i32⟩
  | 5 => ⟨S2x300000, .i32⟩
  | 6 => ⟨S2x300000, .i32⟩
  | 7 => ⟨S2x600000, .i32⟩
  | 8 => ⟨S5x256x256, .f32⟩
  | 9 => ⟨S5x256x256, .f32⟩
  | 10 => ⟨S5x256, .f32⟩
  | 11 => ⟨S5x256x128, .f32⟩
  | 12 => ⟨S5x256x128, .f32⟩
  | 13 => ⟨S5x128, .f32⟩
  | 14 => ⟨S1x256x256, .f32⟩
  | 15 => ⟨S256x256, .f32⟩
  | 16 => ⟨S1x256x256, .f32⟩
  | 17 => ⟨S256x256, .f32⟩
  | 18 => ⟨S1x256, .f32⟩
  | 19 => ⟨S256, .f32⟩
  | 20 => ⟨S1x200000, .i32⟩
  | 21 => ⟨S200000, .i32⟩
  | 22 => ⟨S1x200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x256, .f32⟩
  | 33 => ⟨S_, .f32⟩
  | 34 => ⟨S20000x256, .f32⟩
  | 35 => ⟨S200000x1, .i32⟩
  | 36 => ⟨S20000x256, .f32⟩
  | 37 => ⟨S_, .f32⟩
  | 38 => ⟨S200000, .f32⟩
  | 39 => ⟨S_, .f32⟩
  | 40 => ⟨S20000, .f32⟩
  | 41 => ⟨S200000x1, .i32⟩
  | 42 => ⟨S20000, .f32⟩
  | 43 => ⟨S_, .f32⟩
  | 44 => ⟨S20000, .f32⟩
  | 45 => ⟨S20000, .f32⟩
  | 46 => ⟨S20000x1, .f32⟩
  | 47 => ⟨S20000x256, .f32⟩
  | 48 => ⟨S20000x256, .f32⟩
  | 49 => ⟨S20000x256, .f32⟩
  | 50 => ⟨S20000x256, .f32⟩
  | 51 => ⟨S20000x256, .f32⟩
  | 52 => ⟨S1x256, .f32⟩
  | 53 => ⟨S20000x256, .f32⟩
  | 54 => ⟨S20000x256, .f32⟩
  | 55 => ⟨S1x256x256, .f32⟩
  | 56 => ⟨S256x256, .f32⟩
  | 57 => ⟨S1x256x256, .f32⟩
  | 58 => ⟨S256x256, .f32⟩
  | 59 => ⟨S1x256, .f32⟩
  | 60 => ⟨S256, .f32⟩
  | 61 => ⟨S1x300000, .i32⟩
  | 62 => ⟨S300000, .i32⟩
  | 63 => ⟨S1x300000, .i32⟩
  | 64 => ⟨S300000, .i32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000x256, .f32⟩
  | 74 => ⟨S_, .f32⟩
  | 75 => ⟨S20000x256, .f32⟩
  | 76 => ⟨S300000x1, .i32⟩
  | 77 => ⟨S20000x256, .f32⟩
  | 78 => ⟨S_, .f32⟩
  | 79 => ⟨S300000, .f32⟩
  | 80 => ⟨S_, .f32⟩
  | 81 => ⟨S20000, .f32⟩
  | 82 => ⟨S300000x1, .i32⟩
  | 83 => ⟨S20000, .f32⟩
  | 84 => ⟨S_, .f32⟩
  | 85 => ⟨S20000, .f32⟩
  | 86 => ⟨S20000, .f32⟩
  | 87 => ⟨S20000x1, .f32⟩
  | 88 => ⟨S20000x256, .f32⟩
  | 89 => ⟨S20000x256, .f32⟩
  | 90 => ⟨S20000x256, .f32⟩
  | 91 => ⟨S20000x256, .f32⟩
  | 92 => ⟨S20000x256, .f32⟩
  | 93 => ⟨S1x256, .f32⟩
  | 94 => ⟨S20000x256, .f32⟩
  | 95 => ⟨S20000x256, .f32⟩
  | 96 => ⟨S20000x256, .f32⟩
  | 97 => ⟨S1x256x256, .f32⟩
  | 98 => ⟨S256x256, .f32⟩
  | 99 => ⟨S1x256x256, .f32⟩
  | 100 => ⟨S256x256, .f32⟩
  | 101 => ⟨S1x256, .f32⟩
  | 102 => ⟨S256, .f32⟩
  | 103 => ⟨S1x600000, .i32⟩
  | 104 => ⟨S600000, .i32⟩
  | 105 => ⟨S1x600000, .i32⟩
  | 106 => ⟨S600000, .i32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x256, .f32⟩
  | 116 => ⟨S_, .f32⟩
  | 117 => ⟨S20000x256, .f32⟩
  | 118 => ⟨S600000x1, .i32⟩
  | 119 => ⟨S20000x256, .f32⟩
  | 120 => ⟨S_, .f32⟩
  | 121 => ⟨S600000, .f32⟩
  | 122 => ⟨S_, .f32⟩
  | 123 => ⟨S20000, .f32⟩
  | 124 => ⟨S600000x1, .i32⟩
  | 125 => ⟨S20000, .f32⟩
  | 126 => ⟨S_, .f32⟩
  | 127 => ⟨S20000, .f32⟩
  | _ => ⟨S4000x256, .f32⟩

abbrev hbmTy0_1 (i : Nat) : BufTy := match i % 128 with
  | 0 => ⟨S20000, .f32⟩
  | 1 => ⟨S20000x1, .f32⟩
  | 2 => ⟨S20000x256, .f32⟩
  | 3 => ⟨S20000x256, .f32⟩
  | 4 => ⟨S20000x256, .f32⟩
  | 5 => ⟨S20000x256, .f32⟩
  | 6 => ⟨S20000x256, .f32⟩
  | 7 => ⟨S1x256, .f32⟩
  | 8 => ⟨S20000x256, .f32⟩
  | 9 => ⟨S20000x256, .f32⟩
  | 10 => ⟨S20000x256, .f32⟩
  | 11 => ⟨S1x256x256, .f32⟩
  | 12 => ⟨S256x256, .f32⟩
  | 13 => ⟨S1x256x256, .f32⟩
  | 14 => ⟨S256x256, .f32⟩
  | 15 => ⟨S1x256, .f32⟩
  | 16 => ⟨S256, .f32⟩
  | 17 => ⟨S1x200000, .i32⟩
  | 18 => ⟨S200000, .i32⟩
  | 19 => ⟨S1x200000, .i32⟩
  | 20 => ⟨S200000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x256, .f32⟩
  | 30 => ⟨S_, .f32⟩
  | 31 => ⟨S4000x256, .f32⟩
  | 32 => ⟨S200000x1, .i32⟩
  | 33 => ⟨S4000x256, .f32⟩
  | 34 => ⟨S_, .f32⟩
  | 35 => ⟨S200000, .f32⟩
  | 36 => ⟨S_, .f32⟩
  | 37 => ⟨S4000, .f32⟩
  | 38 => ⟨S200000x1, .i32⟩
  | 39 => ⟨S4000, .f32⟩
  | 40 => ⟨S_, .f32⟩
  | 41 => ⟨S4000, .f32⟩
  | 42 => ⟨S4000, .f32⟩
  | 43 => ⟨S4000x1, .f32⟩
  | 44 => ⟨S4000x256, .f32⟩
  | 45 => ⟨S4000x256, .f32⟩
  | 46 => ⟨S4000x256, .f32⟩
  | 47 => ⟨S4000x256, .f32⟩
  | 48 => ⟨S4000x256, .f32⟩
  | 49 => ⟨S1x256, .f32⟩
  | 50 => ⟨S4000x256, .f32⟩
  | 51 => ⟨S4000x256, .f32⟩
  | 52 => ⟨S1x256x256, .f32⟩
  | 53 => ⟨S256x256, .f32⟩
  | 54 => ⟨S1x256x256, .f32⟩
  | 55 => ⟨S256x256, .f32⟩
  | 56 => ⟨S1x256, .f32⟩
  | 57 => ⟨S256, .f32⟩
  | 58 => ⟨S1x300000, .i32⟩
  | 59 => ⟨S300000, .i32⟩
  | 60 => ⟨S1x300000, .i32⟩
  | 61 => ⟨S300000, .i32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S300000x256, .f32⟩
  | 71 => ⟨S_, .f32⟩
  | 72 => ⟨S8000x256, .f32⟩
  | 73 => ⟨S300000x1, .i32⟩
  | 74 => ⟨S8000x256, .f32⟩
  | 75 => ⟨S_, .f32⟩
  | 76 => ⟨S300000, .f32⟩
  | 77 => ⟨S_, .f32⟩
  | 78 => ⟨S8000, .f32⟩
  | 79 => ⟨S300000x1, .i32⟩
  | 80 => ⟨S8000, .f32⟩
  | 81 => ⟨S_, .f32⟩
  | 82 => ⟨S8000, .f32⟩
  | 83 => ⟨S8000, .f32⟩
  | 84 => ⟨S8000x1, .f32⟩
  | 85 => ⟨S8000x256, .f32⟩
  | 86 => ⟨S8000x256, .f32⟩
  | 87 => ⟨S8000x256, .f32⟩
  | 88 => ⟨S8000x256, .f32⟩
  | 89 => ⟨S8000x256, .f32⟩
  | 90 => ⟨S1x256, .f32⟩
  | 91 => ⟨S8000x256, .f32⟩
  | 92 => ⟨S8000x256, .f32⟩
  | 93 => ⟨S_, .f32⟩
  | 94 => ⟨S4000x256, .f32⟩
  | 95 => ⟨S4000x256, .f32⟩
  | 96 => ⟨S_, .f32⟩
  | 97 => ⟨S8000x256, .f32⟩
  | 98 => ⟨S8000x256, .f32⟩
  | 99 => ⟨S_, .f32⟩
  | 100 => ⟨S20000x256, .f32⟩
  | 101 => ⟨S20000x256, .f32⟩
  | 102 => ⟨S1x256x128, .f32⟩
  | 103 => ⟨S256x128, .f32⟩
  | 104 => ⟨S1x256x128, .f32⟩
  | 105 => ⟨S256x128, .f32⟩
  | 106 => ⟨S1x128, .f32⟩
  | 107 => ⟨S128, .f32⟩
  | 108 => ⟨S1x200000, .i32⟩
  | 109 => ⟨S200000, .i32⟩
  | 110 => ⟨S1x200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x256, .f32⟩
  | 121 => ⟨S_, .f32⟩
  | 122 => ⟨S20000x256, .f32⟩
  | 123 => ⟨S200000x1, .i32⟩
  | 124 => ⟨S20000x256, .f32⟩
  | 125 => ⟨S_, .f32⟩
  | 126 => ⟨S200000, .f32⟩
  | 127 => ⟨S_, .f32⟩
  | _ => ⟨S4000x256, .f32⟩

abbrev hbmTy0_2 (i : Nat) : BufTy := match i % 128 with
  | 0 => ⟨S20000, .f32⟩
  | 1 => ⟨S200000x1, .i32⟩
  | 2 => ⟨S20000, .f32⟩
  | 3 => ⟨S_, .f32⟩
  | 4 => ⟨S20000, .f32⟩
  | 5 => ⟨S20000, .f32⟩
  | 6 => ⟨S20000x1, .f32⟩
  | 7 => ⟨S20000x256, .f32⟩
  | 8 => ⟨S20000x256, .f32⟩
  | 9 => ⟨S20000x128, .f32⟩
  | 10 => ⟨S20000x128, .f32⟩
  | 11 => ⟨S20000x128, .f32⟩
  | 12 => ⟨S1x128, .f32⟩
  | 13 => ⟨S20000x128, .f32⟩
  | 14 => ⟨S20000x128, .f32⟩
  | 15 => ⟨S1x256x128, .f32⟩
  | 16 => ⟨S256x128, .f32⟩
  | 17 => ⟨S1x256x128, .f32⟩
  | 18 => ⟨S256x128, .f32⟩
  | 19 => ⟨S1x128, .f32⟩
  | 20 => ⟨S128, .f32⟩
  | 21 => ⟨S1x300000, .i32⟩
  | 22 => ⟨S300000, .i32⟩
  | 23 => ⟨S1x300000, .i32⟩
  | 24 => ⟨S300000, .i32⟩
  | 25 => ⟨S_, .i32⟩
  | 26 => ⟨S300000, .i32⟩
  | 27 => ⟨S300000, .i1⟩
  | 28 => ⟨S_, .i32⟩
  | 29 => ⟨S300000, .i32⟩
  | 30 => ⟨S300000, .i32⟩
  | 31 => ⟨S300000, .i32⟩
  | 32 => ⟨S300000x1, .i32⟩
  | 33 => ⟨S300000x256, .f32⟩
  | 34 => ⟨S_, .f32⟩
  | 35 => ⟨S20000x256, .f32⟩
  | 36 => ⟨S300000x1, .i32⟩
  | 37 => ⟨S20000x256, .f32⟩
  | 38 => ⟨S_, .f32⟩
  | 39 => ⟨S300000, .f32⟩
  | 40 => ⟨S_, .f32⟩
  | 41 => ⟨S20000, .f32⟩
  | 42 => ⟨S300000x1, .i32⟩
  | 43 => ⟨S20000, .f32⟩
  | 44 => ⟨S_, .f32⟩
  | 45 => ⟨S20000, .f32⟩
  | 46 => ⟨S20000, .f32⟩
  | 47 => ⟨S20000x1, .f32⟩
  | 48 => ⟨S20000x256, .f32⟩
  | 49 => ⟨S20000x256, .f32⟩
  | 50 => ⟨S20000x128, .f32⟩
  | 51 => ⟨S20000x128, .f32⟩
  | 52 => ⟨S20000x128, .f32⟩
  | 53 => ⟨S1x128, .f32⟩
  | 54 => ⟨S20000x128, .f32⟩
  | 55 => ⟨S20000x128, .f32⟩
  | 56 => ⟨S20000x128, .f32⟩
  | 57 => ⟨S1x256x128, .f32⟩
  | 58 => ⟨S256x128, .f32⟩
  | 59 => ⟨S1x256x128, .f32⟩
  | 60 => ⟨S256x128, .f32⟩
  | 61 => ⟨S1x128, .f32⟩
  | 62 => ⟨S128, .f32⟩
  | 63 => ⟨S1x600000, .i32⟩
  | 64 => ⟨S600000, .i32⟩
  | 65 => ⟨S1x600000, .i32⟩
  | 66 => ⟨S600000, .i32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x256, .f32⟩
  | 76 => ⟨S_, .f32⟩
  | 77 => ⟨S20000x256, .f32⟩
  | 78 => ⟨S600000x1, .i32⟩
  | 79 => ⟨S20000x256, .f32⟩
  | 80 => ⟨S_, .f32⟩
  | 81 => ⟨S600000, .f32⟩
  | 82 => ⟨S_, .f32⟩
  | 83 => ⟨S20000, .f32⟩
  | 84 => ⟨S600000x1, .i32⟩
  | 85 => ⟨S20000, .f32⟩
  | 86 => ⟨S_, .f32⟩
  | 87 => ⟨S20000, .f32⟩
  | 88 => ⟨S20000, .f32⟩
  | 89 => ⟨S20000x1, .f32⟩
  | 90 => ⟨S20000x256, .f32⟩
  | 91 => ⟨S20000x256, .f32⟩
  | 92 => ⟨S20000x128, .f32⟩
  | 93 => ⟨S20000x128, .f32⟩
  | 94 => ⟨S20000x128, .f32⟩
  | 95 => ⟨S1x128, .f32⟩
  | 96 => ⟨S20000x128, .f32⟩
  | 97 => ⟨S20000x128, .f32⟩
  | 98 => ⟨S20000x128, .f32⟩
  | 99 => ⟨S1x256x128, .f32⟩
  | 100 => ⟨S256x128, .f32⟩
  | 101 => ⟨S1x256x128, .f32⟩
  | 102 => ⟨S256x128, .f32⟩
  | 103 => ⟨S1x128, .f32⟩
  | 104 => ⟨S128, .f32⟩
  | 105 => ⟨S1x200000, .i32⟩
  | 106 => ⟨S200000, .i32⟩
  | 107 => ⟨S1x200000, .i32⟩
  | 108 => ⟨S200000, .i32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S200000x256, .f32⟩
  | 118 => ⟨S_, .f32⟩
  | 119 => ⟨S4000x256, .f32⟩
  | 120 => ⟨S200000x1, .i32⟩
  | 121 => ⟨S4000x256, .f32⟩
  | 122 => ⟨S_, .f32⟩
  | 123 => ⟨S200000, .f32⟩
  | 124 => ⟨S_, .f32⟩
  | 125 => ⟨S4000, .f32⟩
  | 126 => ⟨S200000x1, .i32⟩
  | 127 => ⟨S4000, .f32⟩
  | _ => ⟨S4000x256, .f32⟩

abbrev hbmTy0_3 (i : Nat) : BufTy := match i % 128 with
  | 0 => ⟨S_, .f32⟩
  | 1 => ⟨S4000, .f32⟩
  | 2 => ⟨S4000, .f32⟩
  | 3 => ⟨S4000x1, .f32⟩
  | 4 => ⟨S4000x256, .f32⟩
  | 5 => ⟨S4000x256, .f32⟩
  | 6 => ⟨S4000x128, .f32⟩
  | 7 => ⟨S4000x128, .f32⟩
  | 8 => ⟨S4000x128, .f32⟩
  | 9 => ⟨S1x128, .f32⟩
  | 10 => ⟨S4000x128, .f32⟩
  | 11 => ⟨S4000x128, .f32⟩
  | 12 => ⟨S1x256x128, .f32⟩
  | 13 => ⟨S256x128, .f32⟩
  | 14 => ⟨S1x256x128, .f32⟩
  | 15 => ⟨S256x128, .f32⟩
  | 16 => ⟨S1x128, .f32⟩
  | 17 => ⟨S128, .f32⟩
  | 18 => ⟨S1x300000, .i32⟩
  | 19 => ⟨S300000, .i32⟩
  | 20 => ⟨S1x300000, .i32⟩
  | 21 => ⟨S300000, .i32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S300000x256, .f32⟩
  | 31 => ⟨S_, .f32⟩
  | 32 => ⟨S8000x256, .f32⟩
  | 33 => ⟨S300000x1, .i32⟩
  | 34 => ⟨S8000x256, .f32⟩
  | 35 => ⟨S_, .f32⟩
  | 36 => ⟨S300000, .f32⟩
  | 37 => ⟨S_, .f32⟩
  | 38 => ⟨S8000, .f32⟩
  | 39 => ⟨S300000x1, .i32⟩
  | 40 => ⟨S8000, .f32⟩
  | 41 => ⟨S_, .f32⟩
  | 42 => ⟨S8000, .f32⟩
  | 43 => ⟨S8000, .f32⟩
  | 44 => ⟨S8000x1, .f32⟩
  | 45 => ⟨S8000x256, .f32⟩
  | 46 => ⟨S8000x256, .f32⟩
  | 47 => ⟨S8000x128, .f32⟩
  | 48 => ⟨S8000x128, .f32⟩
  | 49 => ⟨S8000x128, .f32⟩
  | 50 => ⟨S1x128, .f32⟩
  | 51 => ⟨S8000x128, .f32⟩
  | 52 => ⟨S8000x128, .f32⟩
  | _ => ⟨S4000x256, .f32⟩

abbrev hbmTy (i : Nat) : BufTy := match i / 128 with
  | 0 => hbmTy0_0 i
  | 1 => hbmTy0_1 i
  | 2 => hbmTy0_2 i
  | 3 => hbmTy0_3 i
  | _ => ⟨S4000x256, .f32⟩

abbrev bufTy : (tb : Table) → Fin (tcTables nBuf tb) → BufTy
  | .hbm, ⟨i, _⟩ => hbmTy i
  | _, _ => ⟨S4000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_10 : Ref sig .tc := ⟨.hbm, 107, rfl⟩
abbrev main_v81 : Ref sig .tc := ⟨.hbm, 108, rfl⟩
abbrev main_v82 : Ref sig .tc := ⟨.hbm, 109, rfl⟩
abbrev main_c_11 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_13 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_16 : Ref sig .tc := ⟨.hbm, 149, rfl⟩
abbrev main_v117 : Ref sig .tc := ⟨.hbm, 150, rfl⟩
abbrev main_v118 : Ref sig .tc := ⟨.hbm, 151, rfl⟩
abbrev main_c_17 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_18 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_19 : Ref sig .tc := ⟨.hbm, 162, rfl⟩
abbrev main_v127 : Ref sig .tc := ⟨.hbm, 163, rfl⟩
abbrev main_cst_20 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_21 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_c_22 : Ref sig .tc := ⟨.hbm, 190, rfl⟩
abbrev main_v152 : Ref sig .tc := ⟨.hbm, 191, rfl⟩
abbrev main_v153 : Ref sig .tc := ⟨.hbm, 192, rfl⟩
abbrev main_c_23 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_24 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_25 : Ref sig .tc := ⟨.hbm, 203, rfl⟩
abbrev main_v162 : Ref sig .tc := ⟨.hbm, 204, rfl⟩
abbrev main_cst_26 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_27 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_call0_cst : Ref sig .tc := ⟨.hbm, 221, rfl⟩
abbrev main_call0_v0 : Ref sig .tc := ⟨.hbm, 222, rfl⟩
abbrev main_v177 : Ref sig .tc := ⟨.hbm, 223, rfl⟩
abbrev main_call1_cst : Ref sig .tc := ⟨.hbm, 224, rfl⟩
abbrev main_call1_v0 : Ref sig .tc := ⟨.hbm, 225, rfl⟩
abbrev main_v178 : Ref sig .tc := ⟨.hbm, 226, rfl⟩
abbrev main_call2_cst : Ref sig .tc := ⟨.hbm, 227, rfl⟩
abbrev main_call2_v0 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_28 : Ref sig .tc := ⟨.hbm, 240, rfl⟩
abbrev main_v190 : Ref sig .tc := ⟨.hbm, 241, rfl⟩
abbrev main_v191 : Ref sig .tc := ⟨.hbm, 242, rfl⟩
abbrev main_c_29 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_30 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_31 : Ref sig .tc := ⟨.hbm, 253, rfl⟩
abbrev main_v200 : Ref sig .tc := ⟨.hbm, 254, rfl⟩
abbrev main_cst_32 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_cst_33 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_c_34 : Ref sig .tc := ⟨.hbm, 281, rfl⟩
abbrev main_v225 : Ref sig .tc := ⟨.hbm, 282, rfl⟩
abbrev main_v226 : Ref sig .tc := ⟨.hbm, 283, rfl⟩
abbrev main_c_35 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_cst_36 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_37 : Ref sig .tc := ⟨.hbm, 294, rfl⟩
abbrev main_v235 : Ref sig .tc := ⟨.hbm, 295, rfl⟩
abbrev main_cst_38 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_cst_39 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_c_40 : Ref sig .tc := ⟨.hbm, 323, rfl⟩
abbrev main_v261 : Ref sig .tc := ⟨.hbm, 324, rfl⟩
abbrev main_v262 : Ref sig .tc := ⟨.hbm, 325, rfl⟩
abbrev main_c_41 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_cst_42 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_cst_43 : Ref sig .tc := ⟨.hbm, 336, rfl⟩
abbrev main_v271 : Ref sig .tc := ⟨.hbm, 337, rfl⟩
abbrev main_cst_44 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_cst_45 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_c_46 : Ref sig .tc := ⟨.hbm, 365, rfl⟩
abbrev main_v297 : Ref sig .tc := ⟨.hbm, 366, rfl⟩
abbrev main_v298 : Ref sig .tc := ⟨.hbm, 367, rfl⟩
abbrev main_c_47 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_cst_48 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_cst_49 : Ref sig .tc := ⟨.hbm, 378, rfl⟩
abbrev main_v307 : Ref sig .tc := ⟨.hbm, 379, rfl⟩
abbrev main_cst_50 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_cst_51 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_c_52 : Ref sig .tc := ⟨.hbm, 406, rfl⟩
abbrev main_v332 : Ref sig .tc := ⟨.hbm, 407, rfl⟩
abbrev main_v333 : Ref sig .tc := ⟨.hbm, 408, rfl⟩
abbrev main_c_53 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_cst_54 : Ref sig .tc := ⟨.hbm, 415, rfl⟩
abbrev main_v339 : Ref sig .tc := ⟨.hbm, 416, rfl⟩
abbrev main_v340 : Ref sig .tc := ⟨.hbm, 417, rfl⟩
abbrev main_v341 : Ref sig .tc := ⟨.hbm, 418, rfl⟩
abbrev main_cst_55 : Ref sig .tc := ⟨.hbm, 419, rfl⟩
abbrev main_v342 : Ref sig .tc := ⟨.hbm, 420, rfl⟩
abbrev main_cst_56 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_cst_57 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_v355 : Ref sig .tc := ⟨.hbm, 435, rfl⟩
abbrev main_v356 : Ref sig .tc := ⟨.hbm, 436, rfl⟩

abbrev nD : Nat := 1
abbrev τ : Topo := Topo.v7x

variable {F : FTy → Type} [FloatOps F]

class Facts₀ : Prop where
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S5x256x256_S1x256x256_3_0_0 : S5x256x256.Slices ![3, 0, 0] S1x256x256
  slices_S5x256_S1x256_3_0 : S5x256.Slices ![3, 0] S1x256
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  slices_S5x256x256_S1x256x256_4_0_0 : S5x256x256.Slices ![4, 0, 0] S1x256x256
  slices_S5x256_S1x256_4_0 : S5x256.Slices ![4, 0] S1x256
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S5x256x256_S1x256x256_1_0_0 : S5x256x256.Slices ![1, 0, 0] S1x256x256
  slices_S5x256_S1x256_1_0 : S5x256.Slices ![1, 0] S1x256
  bcast_S_S4000x256 : S_.BroadcastsInDim S4000x256 (![] : Fin 0 → Fin S4000x256.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x256_0_1 : S4000x1.BroadcastsInDim S4000x256 (![0, 1] : Fin 2 → Fin S4000x256.rank)
  bcast_S1x256_S4000x256_0_1 : S1x256.BroadcastsInDim S4000x256 (![0, 1] : Fin 2 → Fin S4000x256.rank)
  slices_S5x256x256_S1x256x256_2_0_0 : S5x256x256.Slices ![2, 0, 0] S1x256x256
  slices_S5x256_S1x256_2_0 : S5x256.Slices ![2, 0] S1x256
  bcast_S_S8000x256 : S_.BroadcastsInDim S8000x256 (![] : Fin 0 → Fin S8000x256.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x256_0_1 : S8000x1.BroadcastsInDim S8000x256 (![0, 1] : Fin 2 → Fin S8000x256.rank)
  bcast_S1x256_S8000x256_0_1 : S1x256.BroadcastsInDim S8000x256 (![0, 1] : Fin 2 → Fin S8000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S5x256x128_S1x256x128_3_0_0 : S5x256x128.Slices ![3, 0, 0] S1x256x128
  slices_S5x128_S1x128_3_0 : S5x128.Slices ![3, 0] S1x128
  slices_S5x256x128_S1x256x128_4_0_0 : S5x256x128.Slices ![4, 0, 0] S1x256x128
  slices_S5x128_S1x128_4_0 : S5x128.Slices ![4, 0] S1x128
  slices_S5x256x128_S1x256x128_1_0_0 : S5x256x128.Slices ![1, 0, 0] S1x256x128
  slices_S5x128_S1x128_1_0 : S5x128.Slices ![1, 0] S1x128
  bcast_S1x128_S4000x128_0_1 : S1x128.BroadcastsInDim S4000x128 (![0, 1] : Fin 2 → Fin S4000x128.rank)
  slices_S5x256x128_S1x256x128_2_0_0 : S5x256x128.Slices ![2, 0, 0] S1x256x128
  slices_S5x128_S1x128_2_0 : S5x128.Slices ![2, 0] S1x128
  bcast_S1x128_S8000x128_0_1 : S1x128.BroadcastsInDim S8000x128 (![0, 1] : Fin 2 → Fin S8000x128.rank)
  gather_S4000x256_S200000x1_S200000x256_1_0_n_n_0_1_1256_wf : GatherDims.WF S4000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S20000x256_S256x256_S20000x256_1_0_0_1_n_n_wf : DotDims.WF S20000x256 S256x256 S20000x256 [1] [0] [0] [1] [] []
  gather_S8000x256_S300000x1_S300000x256_1_0_n_n_0_1_1256_wf : GatherDims.WF S8000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  gather_S20000x256_S600000x1_S600000x256_1_0_n_n_0_1_1256_wf : GatherDims.WF S20000x256 S600000x1 S600000x256 [1] [0] [] [0] [] 1 ![1, 256]
  scatter_S20000x256_S600000x1_S600000x256_1_0_0_1_wf : ScatterDims.WF S20000x256 S600000x1 S600000x256 [1] [0] [0] 1
  scatter_S20000_S600000x1_S600000_n_0_0_1_wf : ScatterDims.WF S20000 S600000x1 S600000 [] [0] [0] 1
  gather_S20000x256_S200000x1_S200000x256_1_0_n_n_0_1_1256_wf : GatherDims.WF S20000x256 S200000x1 S200000x256 [1] [0] [] [0] [] 1 ![1, 256]
  scatter_S4000x256_S200000x1_S200000x256_1_0_0_1_wf : ScatterDims.WF S4000x256 S200000x1 S200000x256 [1] [0] [0] 1
  scatter_S4000_S200000x1_S200000_n_0_0_1_wf : ScatterDims.WF S4000 S200000x1 S200000 [] [0] [0] 1
  dot_S4000x256_S256x256_S4000x256_1_0_0_1_n_n_wf : DotDims.WF S4000x256 S256x256 S4000x256 [1] [0] [0] [1] [] []
  gather_S20000x256_S300000x1_S300000x256_1_0_n_n_0_1_1256_wf : GatherDims.WF S20000x256 S300000x1 S300000x256 [1] [0] [] [0] [] 1 ![1, 256]
  scatter_S8000x256_S300000x1_S300000x256_1_0_0_1_wf : ScatterDims.WF S8000x256 S300000x1 S300000x256 [1] [0] [0] 1
  scatter_S8000_S300000x1_S300000_n_0_0_1_wf : ScatterDims.WF S8000 S300000x1 S300000 [] [0] [0] 1
  dot_S8000x256_S256x256_S8000x256_1_0_0_1_n_n_wf : DotDims.WF S8000x256 S256x256 S8000x256 [1] [0] [0] [1] [] []
  dot_S20000x256_S256x128_S20000x128_1_0_0_1_n_n_wf : DotDims.WF S20000x256 S256x128 S20000x128 [1] [0] [0] [1] [] []
  dot_S4000x256_S256x128_S4000x128_1_0_0_1_n_n_wf : DotDims.WF S4000x256 S256x128 S4000x128 [1] [0] [0] [1] [] []
  dot_S8000x256_S256x128_S8000x128_1_0_0_1_n_n_wf : DotDims.WF S8000x256 S256x128 S8000x128 [1] [0] [0] [1] [] []

variable [Facts₀]

def gather_S4000x256_S200000x1_S200000x256_1_0_n_n_0_1_1256 : GatherDims S4000x256 S200000x1 S200000x256 where
  offsetDims := [1]
  collapsedSliceDims := [0]
  operandBatchingDims := []
  startIndicesBatchingDims := []
  startIndexMap := [0]
  indexVectorDim := 1
  sliceSizes := ![1, 256]
  wf := gather_S4000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S8000x256_S300000x1_S300000x256_1_0_n_n_0_1_1256 : GatherDims S8000x256 S300000x1 S300000x256 where
  offsetDims := [1]
  collapsedSliceDims := [0]
  operandBatchingDims := []
  startIndicesBatchingDims := []
  startIndexMap := [0]
  indexVectorDim := 1
  sliceSizes := ![1, 256]
  wf := gather_S8000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def gather_S20000x256_S600000x1_S600000x256_1_0_n_n_0_1_1256 : GatherDims S20000x256 S600000x1 S600000x256 where
  offsetDims := [1]
  collapsedSliceDims := [0]
  operandBatchingDims := []
  startIndicesBatchingDims := []
  startIndexMap := [0]
  indexVectorDim := 1
  sliceSizes := ![1, 256]
  wf := gather_S20000x256_S600000x1_S600000x256_1_0_n_n_0_1_1256_wf
def scatter_S20000x256_S600000x1_S600000x256_1_0_0_1 : ScatterDims S20000x256 S600000x1 S600000x256 where
  updateWindowDims := [1]
  insertedWindowDims := [0]
  scatterDimsToOperandDims := [0]
  indexVectorDim := 1
  wf := scatter_S20000x256_S600000x1_S600000x256_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def gather_S20000x256_S200000x1_S200000x256_1_0_n_n_0_1_1256 : GatherDims S20000x256 S200000x1 S200000x256 where
  offsetDims := [1]
  collapsedSliceDims := [0]
  operandBatchingDims := []
  startIndicesBatchingDims := []
  startIndexMap := [0]
  indexVectorDim := 1
  sliceSizes := ![1, 256]
  wf := gather_S20000x256_S200000x1_S200000x256_1_0_n_n_0_1_1256_wf
def scatter_S4000x256_S200000x1_S200000x256_1_0_0_1 : ScatterDims S4000x256 S200000x1 S200000x256 where
  updateWindowDims := [1]
  insertedWindowDims := [0]
  scatterDimsToOperandDims := [0]
  indexVectorDim := 1
  wf := scatter_S4000x256_S200000x1_S200000x256_1_0_0_1_wf
def scatter_S4000_S200000x1_S200000_n_0_0_1 : ScatterDims S4000 S200000x1 S200000 where
  updateWindowDims := []
  insertedWindowDims := [0]
  scatterDimsToOperandDims := [0]
  indexVectorDim := 1
  wf := scatter_S4000_S200000x1_S200000_n_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S8000x256_S300000x1_S300000x256_1_0_0_1 : ScatterDims S8000x256 S300000x1 S300000x256 where
  updateWindowDims := [1]
  insertedWindowDims := [0]
  scatterDimsToOperandDims := [0]
  indexVectorDim := 1
  wf := scatter_S8000x256_S300000x1_S300000x256_1_0_0_1_wf
def scatter_S8000_S300000x1_S300000_n_0_0_1 : ScatterDims S8000 S300000x1 S300000 where
  updateWindowDims := []
  insertedWindowDims := [0]
  scatterDimsToOperandDims := [0]
  indexVectorDim := 1
  wf := scatter_S8000_S300000x1_S300000_n_0_0_1_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf

class Facts : Prop extends Facts₀ where

variable [Facts]
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.Args.lean ====
/-
  The shared vocabulary of the bridge.  Both programs take the same fourteen arrays: three feature matrices
  (drug, disease, protein), five edge lists (a source row and a destination row each) and six stacks of weights and
  biases.  Here the argument arrays are named as the kernel's launch memory holds them, and the reference's two
  layers are named as functions of those arrays: its hidden features after the rectifier (drug, disease, protein)
  and its three results.  Everything else in the bridge says that some buffer of the kernel's program holds one of
  these arrays.
-/
import proofs.«176458_j69930657513814_2_alg».proof.KernelIdeal
import proofs.«176458_j69930657513814_2_alg».proof.Proof.RefRead

noncomputable section

namespace Cert.Bridge

open Idealize.ShloMosaic Idealize.SL.Sem

/-- A launch memory of the kernel's program, floats read as extended reals. -/
abbrev KMem := (ℓ : Loc Cert.KernelIdeal.nD Cert.KernelIdeal.τ Cert.KernelIdeal.sig) → Buf (Elt Ideal) ℓ

variable (m : KMem) (c : Dev Cert.KernelIdeal.nD)

/-- Drug features, 4000 × 256. -/
abbrev a0 := m ((c.tc : Thread Cert.KernelIdeal.nD Cert.KernelIdeal.τ).loc Cert.KernelIdeal.main_arg0)
/-- Disease features, 8000 × 256. -/
abbrev a1 := m ((c.tc : Thread Cert.KernelIdeal.nD Cert.KernelIdeal.τ).loc Cert.KernelIdeal.main_arg1)
/-- Protein features, 20000 × 256. -/
abbrev a2 := m ((c.tc : Thread Cert.KernelIdeal.nD Cert.KernelIdeal.τ).loc Cert.KernelIdeal.main_arg2)
/-- Edges drug → protein, 2 × 200000 (row 0 the sources, row 1 the destinations). -/
abbrev a3 := m ((c.tc : Thread Cert.KernelIdeal.nD Cert.KernelIdeal.τ).loc Cert.KernelIdeal.main_arg3)
/-- Edges protein → drug, 2 × 200000. -/
abbrev a4 := m ((c.tc : Thread Cert.KernelIdeal.nD Cert.KernelIdeal.τ).loc Cert.KernelIdeal.main_arg4)
/-- Edges protein → disease, 2 × 300000. -/
abbrev a5 := m ((c.tc : Thread Cert.KernelIdeal.nD Cert.KernelIdeal.τ).loc Cert.KernelIdeal.main_arg5)
/-- Edges disease → protein, 2 × 300000. -/
abbrev a6 := m ((c.tc : Thread Cert.KernelIdeal.nD Cert.KernelIdeal.τ).loc Cert.KernelIdeal.main_arg6)
/-- Edges protein → protein, 2 × 600000. -/
abbrev a7 := m ((c.tc : Thread Cert.KernelIdeal.nD Cert.KernelIdeal.τ).loc Cert.KernelIdeal.main_arg7)
/-- First layer, weights applied to the neighbourhood mean, 5 × 256 × 256. -/
abbrev a8 := m ((c.tc : Thread Cert.KernelIdeal.nD Cert.KernelIdeal.τ).loc Cert.KernelIdeal.main_arg8)
/-- First layer, weights applied to the node's own features, 5 × 256 × 256. -/
abbrev a9 := m ((c.tc : Thread Cert.KernelIdeal.nD Cert.KernelIdeal.τ).loc Cert.KernelIdeal.main_arg9)
/-- First layer, biases, 5 × 256. -/
abbrev a10 := m ((c.tc : Thread Cert.KernelIdeal.nD Cert.KernelIdeal.τ).loc Cert.KernelIdeal.main_arg10)
/-- Second layer, weights applied to the neighbourhood mean, 5 × 256 × 128. -/
abbrev a11 := m ((c.tc : Thread Cert.KernelIdeal.nD Cert.KernelIdeal.τ).loc Cert.KernelIdeal.main_arg11)
/-- Second layer, weights applied to the node's own features, 5 × 256 × 128. -/
abbrev a12 := m ((c.tc : Thread Cert.KernelIdeal.nD Cert.KernelIdeal.τ).loc Cert.KernelIdeal.main_arg12)
/-- Second layer, biases, 5 × 128. -/
abbrev a13 := m ((c.tc : Thread Cert.KernelIdeal.nD Cert.KernelIdeal.τ).loc Cert.KernelIdeal.main_arg13)

/-- The reference's hidden drug features: the first layer's one relation into the drugs, rectified. -/
def HD : (⟨2, ![4000, 256]⟩ : Shape).Idx → EReal :=
  Cert.ReferenceIdeal.Read.val_main_v177 (F := Ideal) (a0 m c) (a2 m c) (a4 m c) (a8 m c) (a9 m c) (a10 m c)
/-- The reference's hidden disease features. -/
def HDIS : (⟨2, ![8000, 256]⟩ : Shape).Idx → EReal :=
  Cert.ReferenceIdeal.Read.val_main_v178 (F := Ideal) (a1 m c) (a2 m c) (a5 m c) (a8 m c) (a9 m c) (a10 m c)
/-- The reference's hidden protein features: the sum of the first layer's three relations into the proteins, rectified. -/
def HP : (⟨2, ![20000, 256]⟩ : Shape).Idx → EReal :=
  Cert.ReferenceIdeal.Read.val_main_v179 (F := Ideal) (a0 m c) (a1 m c) (a2 m c) (a3 m c) (a6 m c) (a7 m c) (a8 m c) (a9 m c) (a10 m c)
/-- The reference's drug result, 4000 × 128. -/
def OD : (⟨2, ![4000, 128]⟩ : Shape).Idx → EReal :=
  Cert.ReferenceIdeal.Read.val_main_v321 (F := Ideal) (a0 m c) (a1 m c) (a2 m c) (a3 m c) (a4 m c) (a6 m c) (a7 m c) (a8 m c) (a9 m c) (a10 m c) (a11 m c) (a12 m c) (a13 m c)
/-- The reference's disease result, 8000 × 128. -/
def ODIS : (⟨2, ![8000, 128]⟩ : Shape).Idx → EReal :=
  Cert.ReferenceIdeal.Read.val_main_v356 (F := Ideal) (a0 m c) (a1 m c) (a2 m c) (a3 m c) (a5 m c) (a6 m c) (a7 m c) (a8 m c) (a9 m c) (a10 m c) (a11 m c) (a12 m c) (a13 m c)
/-- The reference's protein result, 20000 × 128. -/
def OP : (⟨2, ![20000, 128]⟩ : Shape).Idx → EReal :=
  Cert.ReferenceIdeal.Read.val_main_v286 (F := Ideal) (a0 m c) (a1 m c) (a2 m c) (a3 m c) (a4 m c) (a5 m c) (a6 m c) (a7 m c) (a8 m c) (a9 m c) (a10 m c) (a11 m c) (a12 m c) (a13 m c)

end Cert.Bridge

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«176458_j69930657513814_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.Reals.lean ====
/-
  Every entry the second layer multiplies is a real number.

  The claim's precondition says that every entry of the nine float arguments is finite.  The reference's hidden
  features — the first layer's output after the rectifier, for drugs, diseases and proteins — are built from those
  entries by operations that keep real numbers real: reading an operand at some index (slices, reshapes, spreads, the
  gather of rows), finite sums of entries (the scatter-add into zeros, the matrix products), sums, maxima, and the
  quotient by a count clipped below at one, which is a real number that is not zero.  So every hidden feature is real.
  The second layer's exchange of "aggregate, then project" for "project, then aggregate" is distributivity, which
  holds for real numbers and fails at the infinities: this module is what licenses it.
-/
import proofs.«176458_j69930657513814_2_alg».proof.Defs
import proofs.«176458_j69930657513814_2_alg».proof.Proof.Args
import proofs.«176458_j69930657513814_2_alg».proof.Proof.Gen.Pre_finite_inputs
import proofs.«176458_j69930657513814_2_alg».proof.Proof.LibFinitePre
import proofs.«176458_j69930657513814_2_alg».proof.Proof.LibERealScale

noncomputable section

namespace Cert.Bridge

open Idealize.ShloMosaic Idealize.ShloMosaic.ValueIdx Idealize.SL.Sem Cert.LibRealEntries

/-- Every entry of an array is a real number. -/
def AllReal {ι : Type} (x : ι → EReal) : Prop := ∀ i, IsReal (x i)

/-- Every entry of an array is positive. -/
def AllPos {ι : Type} (x : ι → EReal) : Prop := ∀ i, 0 < x i

/-! ## Operations that read their operand at some index -/

theorem AllReal.broadcastInDim {s t : Shape} {dims : Fin s.rank → Fin t.rank} (h : s.BroadcastsInDim t dims)
    {x : s.Idx → EReal} (hx : AllReal x) : AllReal (broadcastInDim t dims h x) := fun _ => hx _

theorem AllPos.broadcastInDim {s t : Shape} {dims : Fin s.rank → Fin t.rank} (h : s.BroadcastsInDim t dims)
    {x : s.Idx → EReal} (hx : AllPos x) : AllPos (broadcastInDim t dims h x) := fun _ => hx _

theorem AllReal.shapeCast {s t : Shape} (h : s.ShapeCasts t) {x : s.Idx → EReal} (hx : AllReal x) :
    AllReal (shapeCast t x h) := fun _ => hx _

theorem AllReal.extractStridedSlice {s t : Shape} {off : Fin s.rank → Nat} (h : s.Slices off t) {x : s.Idx → EReal}
    (hx : AllReal x) : AllReal (extractStridedSlice t off x h) := fun _ => hx _

/-- A gathered entry is an entry of the operand, whichever the start indices name. -/
theorem AllReal.gather {s si t : Shape} {w : Nat} (d : GatherDims s si t) {x : s.Idx → EReal} (idx : IVec si w)
    (hx : AllReal x) : AllReal (Host.gather d x idx) := fun _ => hx _

/-! ## Constants -/

theorem AllReal.constant_zero (s : Shape) : AllReal (constant (F := Ideal) s .f32 0x00000000#32) := fun _ => by
  show IsReal (Ideal.ofBits .f32 0x00000000#32)
  rw [Ideal.ofBits_zero_f32]; exact isReal_zero

theorem AllReal.constant_one (s : Shape) : AllReal (constant (F := Ideal) s .f32 0x3F800000#32) := fun _ => by
  show IsReal (Ideal.ofBits .f32 0x3F800000#32)
  rw [Cert.LibERealScale.ofBits_one_f32]; exact ⟨1, by simp⟩

/-! ## Arithmetic -/

theorem AllReal.addf {s : Shape} {x y : FVec Ideal s .f32} (hx : AllReal x) (hy : AllReal y) : AllReal (addf x y) :=
  fun i => (hx i).add (hy i)

theorem AllReal.maximumf {s : Shape} {x y : FVec Ideal s .f32} (hx : AllReal x) (hy : AllReal y) :
    AllReal (maximumf x y) := fun i => (hx i).max (hy i)

/-- A scatter-add's entry is the operand's entry plus a finite sum of update entries — over whichever updates land
    there. -/
theorem AllReal.scatterAdd {s si u : Shape} {w : Nat} (d : ScatterDims s si u) {x : FVec Ideal s .f32} (idx : IVec si w)
    {upd : FVec Ideal u .f32} (hx : AllReal x) (hu : AllReal upd) : AllReal (Host.scatterAdd d x idx upd) := fun i => by
  show IsReal (Ideal.hostScatterAdd d x idx upd i)
  unfold Ideal.hostScatterAdd
  exact (hx i).add (IsReal.sum _ _ (fun j _ => hu j))

/-- A matrix product's entry is a finite sum of products of entries. -/
theorem AllReal.dotGeneral {sl sr so : Shape} (d : DotDims sl sr so) (prec : Option ContractPrecision)
    {l : FVec Ideal sl .f32} {r : FVec Ideal sr .f32} (hl : AllReal l) (hr : AllReal r) :
    AllReal (Host.dotGeneral d prec l r) := fun j => by
  simp only [Host.dotGeneral]
  rw [Ideal.dotGeneral_apply]
  exact IsReal.sum _ _ (fun k _ => (hl _).mul (hr _))

/-- The quotient of a real by a positive real is a real. -/
theorem AllReal.hostDivf {s : Shape} {x y : FVec Ideal s .f32} (hx : AllReal x) (hy : AllReal y) (hp : AllPos y) :
    AllReal (Host.divf x y) := fun i => by
  show IsReal (Ideal.div (x i) (y i))
  obtain ⟨a, ha⟩ := hx i
  obtain ⟨b, hb⟩ := hy i
  have hb0 : b ≠ 0 := by
    intro h0
    have hpos := hp i
    rw [hb, h0] at hpos
    exact lt_irrefl _ hpos
  rw [ha, hb, Ideal.div_coe hb0, ← EReal.coe_mul]
  exact ⟨_, rfl⟩

/-- A count clipped below at one is positive. -/
theorem AllPos.max_ones {s s0 : Shape} {dims : Fin s0.rank → Fin s.rank} (h : s0.BroadcastsInDim s dims)
    (d : FVec Ideal s .f32) :
    AllPos (maximumf d (Idealize.ShloMosaic.broadcastInDim s dims h (constant (F := Ideal) s0 .f32 0x3F800000#32))) :=
  fun i => Cert.LibERealScale.max_one_pos (d i)

/-- One step of "positive entries stay positive": a clipped count, or a spread of a positive array. -/
macro "pos_step" : tactic => `(tactic| first
  | with_reducible apply AllPos.max_ones
  | with_reducible apply AllPos.broadcastInDim)

/-- One step of "real entries stay real", chosen by the outermost operation. -/
macro "real_step" : tactic => `(tactic| first
  | with_reducible assumption
  | with_reducible apply AllReal.constant_zero
  | with_reducible apply AllReal.constant_one
  | with_reducible apply AllReal.broadcastInDim
  | with_reducible apply AllReal.shapeCast
  | with_reducible apply AllReal.extractStridedSlice
  | with_reducible apply AllReal.gather
  | with_reducible apply AllReal.scatterAdd
  | with_reducible apply AllReal.addf
  | with_reducible apply AllReal.maximumf
  | with_reducible apply AllReal.dotGeneral
  | with_reducible apply AllReal.hostDivf
  | pos_step)

/-! ## The arguments -/

/-- The precondition, read test by test: every entry of each of the nine float arguments is a real number. -/
theorem real_args (m : KMem) (h : Cert.Pre_KernelIdeal m) (c : Dev Cert.KernelIdeal.nD) :
    AllReal (a0 m c) ∧ AllReal (a1 m c) ∧ AllReal (a2 m c) ∧ AllReal (a8 m c) ∧ AllReal (a9 m c) ∧ AllReal (a10 m c)
      ∧ AllReal (a11 m c) ∧ AllReal (a12 m c) ∧ AllReal (a13 m c) := by
  have h0 := congrFun (h c) ix0
  dsimp only [Cert.Pre_finite_inputs.fn, Cert.Pre_finite_inputs.fn_part1, Cert.Pre_finite_inputs.fn_part2] at h0
  obtain ⟨h0, t13⟩ := IntOp.andi_eq_one.1 h0
  obtain ⟨h0, t12⟩ := IntOp.andi_eq_one.1 h0
  obtain ⟨h0, t11⟩ := IntOp.andi_eq_one.1 h0
  obtain ⟨h0, t10⟩ := IntOp.andi_eq_one.1 h0
  obtain ⟨h0, t9⟩ := IntOp.andi_eq_one.1 h0
  obtain ⟨h0, t8⟩ := IntOp.andi_eq_one.1 h0
  obtain ⟨h0, t2⟩ := IntOp.andi_eq_one.1 h0
  obtain ⟨t0, t1⟩ := IntOp.andi_eq_one.1 h0
  exact ⟨Cert.LibFinitePre.all_real _ _ _ _ t0, Cert.LibFinitePre.all_real _ _ _ _ t1, Cert.LibFinitePre.all_real _ _ _ _ t2,
    Cert.LibFinitePre.all_real _ _ _ _ t8, Cert.LibFinitePre.all_real _ _ _ _ t9, Cert.LibFinitePre.all_real _ _ _ _ t10,
    Cert.LibFinitePre.all_real _ _ _ _ t11, Cert.LibFinitePre.all_real _ _ _ _ t12, Cert.LibFinitePre.all_real _ _ _ _ t13⟩

/-! ## The hidden features -/

set_option maxRecDepth 65536 in
/-- The hidden drug features are real: one relation (protein → drug) through the first layer, rectified. -/
theorem real_HD (m : KMem) (c : Dev Cert.KernelIdeal.nD) (r0 : AllReal (a0 m c)) (r2 : AllReal (a2 m c))
    (r8 : AllReal (a8 m c)) (r9 : AllReal (a9 m c)) (r10 : AllReal (a10 m c)) : AllReal (HD m c) := by
  unfold HD
    Cert.ReferenceIdeal.Read.val_main_v177
    Cert.ReferenceIdeal.Read.val_main_call0_v0
    Cert.ReferenceIdeal.Read.val_main_call0_cst
    Cert.ReferenceIdeal.Read.val_main_v141
    Cert.ReferenceIdeal.Read.val_main_v140
    Cert.ReferenceIdeal.Read.val_main_v139
    Cert.ReferenceIdeal.Read.val_main_v138
    Cert.ReferenceIdeal.Read.val_main_v137
    Cert.ReferenceIdeal.Read.val_main_v136
    Cert.ReferenceIdeal.Read.val_main_v135
    Cert.ReferenceIdeal.Read.val_main_v134
    Cert.ReferenceIdeal.Read.val_main_v133
    Cert.ReferenceIdeal.Read.val_main_v132
    Cert.ReferenceIdeal.Read.val_main_v131
    Cert.ReferenceIdeal.Read.val_main_cst_21
    Cert.ReferenceIdeal.Read.val_main_v130
    Cert.ReferenceIdeal.Read.val_main_v129
    Cert.ReferenceIdeal.Read.val_main_v128
    Cert.ReferenceIdeal.Read.val_main_cst_20
    Cert.ReferenceIdeal.Read.val_main_v127
    Cert.ReferenceIdeal.Read.val_main_cst_19
    Cert.ReferenceIdeal.Read.val_main_v126
    Cert.ReferenceIdeal.Read.val_main_v125
    Cert.ReferenceIdeal.Read.val_main_v124
    Cert.ReferenceIdeal.Read.val_main_cst_18
    Cert.ReferenceIdeal.Read.val_main_v123
    Cert.ReferenceIdeal.Read.val_main_v122
    Cert.ReferenceIdeal.Read.val_main_v121
    Cert.ReferenceIdeal.Read.val_main_v120
    Cert.ReferenceIdeal.Read.val_main_v119
    Cert.ReferenceIdeal.Read.val_main_c_17
    Cert.ReferenceIdeal.Read.val_main_v118
    Cert.ReferenceIdeal.Read.val_main_v117
    Cert.ReferenceIdeal.Read.val_main_c_16
    Cert.ReferenceIdeal.Read.val_main_v116
    Cert.ReferenceIdeal.Read.val_main_v115
    Cert.ReferenceIdeal.Read.val_main_v114
    Cert.ReferenceIdeal.Read.val_main_v113
    Cert.ReferenceIdeal.Read.val_main_v112
    Cert.ReferenceIdeal.Read.val_main_v111
    Cert.ReferenceIdeal.Read.val_main_v110
    Cert.ReferenceIdeal.Read.val_main_v109
    Cert.ReferenceIdeal.Read.val_main_v108
    Cert.ReferenceIdeal.Read.val_main_v107
  repeat' real_step

set_option maxRecDepth 65536 in
/-- The hidden disease features are real: one relation (protein → disease). -/
theorem real_HDIS (m : KMem) (c : Dev Cert.KernelIdeal.nD) (r1 : AllReal (a1 m c)) (r2 : AllReal (a2 m c))
    (r8 : AllReal (a8 m c)) (r9 : AllReal (a9 m c)) (r10 : AllReal (a10 m c)) : AllReal (HDIS m c) := by
  unfold HDIS
    Cert.ReferenceIdeal.Read.val_main_v178
    Cert.ReferenceIdeal.Read.val_main_call1_v0
    Cert.ReferenceIdeal.Read.val_main_call1_cst
    Cert.ReferenceIdeal.Read.val_main_v176
    Cert.ReferenceIdeal.Read.val_main_v175
    Cert.ReferenceIdeal.Read.val_main_v174
    Cert.ReferenceIdeal.Read.val_main_v173
    Cert.ReferenceIdeal.Read.val_main_v172
    Cert.ReferenceIdeal.Read.val_main_v171
    Cert.ReferenceIdeal.Read.val_main_v170
    Cert.ReferenceIdeal.Read.val_main_v169
    Cert.ReferenceIdeal.Read.val_main_v168
    Cert.ReferenceIdeal.Read.val_main_v167
    Cert.ReferenceIdeal.Read.val_main_v166
    Cert.ReferenceIdeal.Read.val_main_cst_27
    Cert.ReferenceIdeal.Read.val_main_v165
    Cert.ReferenceIdeal.Read.val_main_v164
    Cert.ReferenceIdeal.Read.val_main_v163
    Cert.ReferenceIdeal.Read.val_main_cst_26
    Cert.ReferenceIdeal.Read.val_main_v162
    Cert.ReferenceIdeal.Read.val_main_cst_25
    Cert.ReferenceIdeal.Read.val_main_v161
    Cert.ReferenceIdeal.Read.val_main_v160
    Cert.ReferenceIdeal.Read.val_main_v159
    Cert.ReferenceIdeal.Read.val_main_cst_24
    Cert.ReferenceIdeal.Read.val_main_v158
    Cert.ReferenceIdeal.Read.val_main_v157
    Cert.ReferenceIdeal.Read.val_main_v156
    Cert.ReferenceIdeal.Read.val_main_v155
    Cert.ReferenceIdeal.Read.val_main_v154
    Cert.ReferenceIdeal.Read.val_main_c_23
    Cert.ReferenceIdeal.Read.val_main_v153
    Cert.ReferenceIdeal.Read.val_main_v152
    Cert.ReferenceIdeal.Read.val_main_c_22
    Cert.ReferenceIdeal.Read.val_main_v151
    Cert.ReferenceIdeal.Read.val_main_v150
    Cert.ReferenceIdeal.Read.val_main_v149
    Cert.ReferenceIdeal.Read.val_main_v148
    Cert.ReferenceIdeal.Read.val_main_v147
    Cert.ReferenceIdeal.Read.val_main_v146
    Cert.ReferenceIdeal.Read.val_main_v145
    Cert.ReferenceIdeal.Read.val_main_v144
    Cert.ReferenceIdeal.Read.val_main_v143
    Cert.ReferenceIdeal.Read.val_main_v142
  repeat' real_step

set_option maxRecDepth 65536 in
/-- The hidden protein features are real: three relations (drug, disease and protein → protein), summed. -/
theorem real_HP (m : KMem) (c : Dev Cert.KernelIdeal.nD) (r0 : AllReal (a0 m c)) (r1 : AllReal (a1 m c))
    (r2 : AllReal (a2 m c)) (r8 : AllReal (a8 m c)) (r9 : AllReal (a9 m c)) (r10 : AllReal (a10 m c)) :
    AllReal (HP m c) := by
  unfold HP
    Cert.ReferenceIdeal.Read.val_main_v179
    Cert.ReferenceIdeal.Read.val_main_call2_v0
    Cert.ReferenceIdeal.Read.val_main_call2_cst
    Cert.ReferenceIdeal.Read.val_main_v106
    Cert.ReferenceIdeal.Read.val_main_v105
    Cert.ReferenceIdeal.Read.val_main_v104
    Cert.ReferenceIdeal.Read.val_main_v103
    Cert.ReferenceIdeal.Read.val_main_v102
    Cert.ReferenceIdeal.Read.val_main_v101
    Cert.ReferenceIdeal.Read.val_main_v100
    Cert.ReferenceIdeal.Read.val_main_v99
    Cert.ReferenceIdeal.Read.val_main_v98
    Cert.ReferenceIdeal.Read.val_main_v97
    Cert.ReferenceIdeal.Read.val_main_v96
    Cert.ReferenceIdeal.Read.val_main_v95
    Cert.ReferenceIdeal.Read.val_main_cst_15
    Cert.ReferenceIdeal.Read.val_main_v94
    Cert.ReferenceIdeal.Read.val_main_v93
    Cert.ReferenceIdeal.Read.val_main_v92
    Cert.ReferenceIdeal.Read.val_main_cst_14
    Cert.ReferenceIdeal.Read.val_main_v91
    Cert.ReferenceIdeal.Read.val_main_cst_13
    Cert.ReferenceIdeal.Read.val_main_v90
    Cert.ReferenceIdeal.Read.val_main_v89
    Cert.ReferenceIdeal.Read.val_main_v88
    Cert.ReferenceIdeal.Read.val_main_cst_12
    Cert.ReferenceIdeal.Read.val_main_v87
    Cert.ReferenceIdeal.Read.val_main_v86
    Cert.ReferenceIdeal.Read.val_main_v85
    Cert.ReferenceIdeal.Read.val_main_v84
    Cert.ReferenceIdeal.Read.val_main_v83
    Cert.ReferenceIdeal.Read.val_main_c_11
    Cert.ReferenceIdeal.Read.val_main_v82
    Cert.ReferenceIdeal.Read.val_main_v81
    Cert.ReferenceIdeal.Read.val_main_c_10
    Cert.ReferenceIdeal.Read.val_main_v80
    Cert.ReferenceIdeal.Read.val_main_v79
    Cert.ReferenceIdeal.Read.val_main_v78
    Cert.ReferenceIdeal.Read.val_main_v77
    Cert.ReferenceIdeal.Read.val_main_v76
    Cert.ReferenceIdeal.Read.val_main_v75
    Cert.ReferenceIdeal.Read.val_main_v74
    Cert.ReferenceIdeal.Read.val_main_v73
    Cert.ReferenceIdeal.Read.val_main_v72
    Cert.ReferenceIdeal.Read.val_main_v71
    Cert.ReferenceIdeal.Read.val_main_v70
    Cert.ReferenceIdeal.Read.val_main_v69
    Cert.ReferenceIdeal.Read.val_main_v68
    Cert.ReferenceIdeal.Read.val_main_v67
    Cert.ReferenceIdeal.Read.val_main_v66
    Cert.ReferenceIdeal.Read.val_main_v65
    Cert.ReferenceIdeal.Read.val_main_v64
    Cert.ReferenceIdeal.Read.val_main_v63
    Cert.ReferenceIdeal.Read.val_main_v62
    Cert.ReferenceIdeal.Read.val_main_v61
    Cert.ReferenceIdeal.Read.val_main_v60
    Cert.ReferenceIdeal.Read.val_main_v59
    Cert.ReferenceIdeal.Read.val_main_cst_9
    Cert.ReferenceIdeal.Read.val_main_v58
    Cert.ReferenceIdeal.Read.val_main_v57
    Cert.ReferenceIdeal.Read.val_main_v56
    Cert.ReferenceIdeal.Read.val_main_cst_8
    Cert.ReferenceIdeal.Read.val_main_v55
    Cert.ReferenceIdeal.Read.val_main_cst_7
    Cert.ReferenceIdeal.Read.val_main_v54
    Cert.ReferenceIdeal.Read.val_main_v53
    Cert.ReferenceIdeal.Read.val_main_v52
    Cert.ReferenceIdeal.Read.val_main_cst_6
    Cert.ReferenceIdeal.Read.val_main_v51
    Cert.ReferenceIdeal.Read.val_main_v50
    Cert.ReferenceIdeal.Read.val_main_v49
    Cert.ReferenceIdeal.Read.val_main_v48
    Cert.ReferenceIdeal.Read.val_main_v47
    Cert.ReferenceIdeal.Read.val_main_c_5
    Cert.ReferenceIdeal.Read.val_main_v46
    Cert.ReferenceIdeal.Read.val_main_v45
    Cert.ReferenceIdeal.Read.val_main_c_4
    Cert.ReferenceIdeal.Read.val_main_v44
    Cert.ReferenceIdeal.Read.val_main_v43
    Cert.ReferenceIdeal.Read.val_main_v42
    Cert.ReferenceIdeal.Read.val_main_v41
    Cert.ReferenceIdeal.Read.val_main_v40
    Cert.ReferenceIdeal.Read.val_main_v39
    Cert.ReferenceIdeal.Read.val_main_v38
    Cert.ReferenceIdeal.Read.val_main_v37
    Cert.ReferenceIdeal.Read.val_main_v36
    Cert.ReferenceIdeal.Read.val_main_v35
    Cert.ReferenceIdeal.Read.val_main_v34
    Cert.ReferenceIdeal.Read.val_main_v33
    Cert.ReferenceIdeal.Read.val_main_v32
    Cert.ReferenceIdeal.Read.val_main_v31
    Cert.ReferenceIdeal.Read.val_main_v30
    Cert.ReferenceIdeal.Read.val_main_v29
    Cert.ReferenceIdeal.Read.val_main_v28
    Cert.ReferenceIdeal.Read.val_main_v27
    Cert.ReferenceIdeal.Read.val_main_v26
    Cert.ReferenceIdeal.Read.val_main_v25
    Cert.ReferenceIdeal.Read.val_main_v24
    Cert.ReferenceIdeal.Read.val_main_cst_3
    Cert.ReferenceIdeal.Read.val_main_v23
    Cert.ReferenceIdeal.Read.val_main_v22
    Cert.ReferenceIdeal.Read.val_main_v21
    Cert.ReferenceIdeal.Read.val_main_cst_2
    Cert.ReferenceIdeal.Read.val_main_v20
    Cert.ReferenceIdeal.Read.val_main_cst_1
    Cert.ReferenceIdeal.Read.val_main_v19
    Cert.ReferenceIdeal.Read.val_main_v18
    Cert.ReferenceIdeal.Read.val_main_v17
    Cert.ReferenceIdeal.Read.val_main_cst
    Cert.ReferenceIdeal.Read.val_main_v16
    Cert.ReferenceIdeal.Read.val_main_v15
    Cert.ReferenceIdeal.Read.val_main_v14
    Cert.ReferenceIdeal.Read.val_main_v13
    Cert.ReferenceIdeal.Read.val_main_v12
    Cert.ReferenceIdeal.Read.val_main_c_0
    Cert.ReferenceIdeal.Read.val_main_v11
    Cert.ReferenceIdeal.Read.val_main_v10
    Cert.ReferenceIdeal.Read.val_main_c
    Cert.ReferenceIdeal.Read.val_main_v9
    Cert.ReferenceIdeal.Read.val_main_v8
    Cert.ReferenceIdeal.Read.val_main_v7
    Cert.ReferenceIdeal.Read.val_main_v6
    Cert.ReferenceIdeal.Read.val_main_v5
    Cert.ReferenceIdeal.Read.val_main_v4
    Cert.ReferenceIdeal.Read.val_main_v3
    Cert.ReferenceIdeal.Read.val_main_v2
    Cert.ReferenceIdeal.Read.val_main_v1
    Cert.ReferenceIdeal.Read.val_main_v0
  repeat' real_step

end Cert.Bridge

end
-- ==== Proof.KRun.lean ====
/-
  The kernel's program run, with its three results named.

  The program is eleven kernel launches among stretches of host operations.  Its run is known segment by segment: the
  contents of every buffer at each of the 23 segment boundaries form a fold from the launch memory (a host stretch
  applies its operations; a launch leaves its windows' arrays at what the write-backs of its grid points leave and
  every other buffer as it was).  Every weakly fair execution terminates without a fault in a state whose unscoped
  buffers hold the last boundary's contents.  Here that is read at the three result buffers (the drug, disease and
  protein outputs) beside the fourteen arguments, which end as launched.
-/
import proofs.«176458_j69930657513814_2_alg».proof.Proof.KIFrame

set_option maxRecDepth 16384

noncomputable section

namespace Cert.Bridge.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the three result buffers at
    the last boundary's contents and the argument arrays as launched. -/
theorem run : θ_run defs (onTc (τ := τ) (main (F := F))) ⟨m, fun _ => 0, ρ⟩ (fun r => ∀ c : Dev nD,
      r.2.mem ((c.tc : Thread nD τ).loc main_v255) = W22 m ρ c (Proc.devRef .tc main_v255)
      ∧ r.2.mem ((c.tc : Thread nD τ).loc main_v275) = W22 m ρ c (Proc.devRef .tc main_v275)
      ∧ r.2.mem ((c.tc : Thread nD τ).loc main_v235) = W22 m ρ c (Proc.devRef .tc main_v235)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v255 (by decide)),
       h c _ (mem_uc main_v275 (by decide)),
       h c _ (mem_uc main_v235 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c)⟩)

end Cert.Bridge.KRun

end
-- ==== Proof.RefSide.lean ====
/-
  The reference's half of the comparison, and the parts of the claim that need no bridge.

  The reference's run ends with each result at its stage of the argument arrays.  Run from a memory
  that agrees with the kernel's launch memory on the fourteen arguments, those terms are the arrays OD, ODIS and OP
  that the bridge names as functions of the kernel's launch memory.
-/
import proofs.«176458_j69930657513814_2_alg».proof.Defs
import proofs.«176458_j69930657513814_2_alg».proof.Proof.RefRun
import proofs.«176458_j69930657513814_2_alg».proof.Proof.RefRead
import proofs.«176458_j69930657513814_2_alg».proof.Proof.Args

noncomputable section

namespace Cert.Bridge.RefSide

open Idealize.ShloMosaic Idealize.SL.Sem

/-- The reference's run from a memory agreeing with the kernel's on the arguments: its three results are the arrays the
    bridge names, and its arguments end as launched. -/
theorem run (m : KMem) (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v321) = OD m c
      ∧ r.2.mem ((c.tc : Thread Cert.ReferenceIdeal.nD Cert.ReferenceIdeal.τ).loc Cert.ReferenceIdeal.main_v356) = ODIS m c
      ∧ r.2.mem ((c.tc : Thread Cert.ReferenceIdeal.nD Cert.ReferenceIdeal.τ).loc Cert.ReferenceIdeal.main_v286) = OP m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) := by
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2.1, (hagree c).2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl
  · rw [(hagree c).1, (hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl

end Cert.Bridge.RefSide

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.L1PSpec.lean ====
/-
  The first layer's update of one node type, entry by entry, in the two ways the two programs write it.

  A relation r into the node type contributes, at row p and column q,
      ((mean_r W_l)(p, q) + (x W_r)(p, q)) + b(q),
  where mean_r is the neighbourhood sum agg_r divided by M_r = max(count_r, 1). One program forms the mean as
  agg_r(p, k) · s_r(p) with s_r(p) = 1 / M_r(p) kept as a column; the other as agg_r(p, k) / M_r(p). A quotient by a
  nonzero divisor is the product with the divisor's reciprocal, and M_r ≥ 1, so the two are the same extended real.
  One program starts the sum over the three relations from 0; the other does not; 0 + x = x. Both end with the
  larger of the sum and 0.
-/
import Idealize.ShloMosaic.PureOps.Ideal
import Idealize.ShloMosaic.PureOps.Ideal.Laws
import Idealize.ShloMosaic.Lib.ValueIdx
import proofs.«176458_j69930657513814_2_alg».proof.Proof.LibERealScale

noncomputable section

namespace Cert.Bridge.L1P

open Idealize.ShloMosaic Idealize.ShloMosaic.ValueIdx

/-- One relation's contribution at row `p`, column `q`, the neighbourhood sum scaled by a per-row factor `s`:
    Σ_k (agg(p, k) · s(p)) · W_l(k, q) + Σ_k x(p, k) · W_r(k, q) + b(q). -/
def relScaled {A : ℕ} (agg : (⟨2, ![A, 256]⟩ : Shape).Idx → EReal) (s : (⟨2, ![A, 1]⟩ : Shape).Idx → EReal)
    (x : (⟨2, ![A, 256]⟩ : Shape).Idx → EReal) (wl wr : (⟨2, ![256, 256]⟩ : Shape).Idx → EReal)
    (b : (⟨2, ![1, 256]⟩ : Shape).Idx → EReal) (p : Fin A) (q : Fin 256) : EReal :=
  ((∑ k : Fin 256, (agg (ix2 p k) * s (ix2 p (0 : Fin 1))) * wl (ix2 k q)) + ∑ k : Fin 256, x (ix2 p k) * wr (ix2 k q))
    + b (ix2 (0 : Fin 1) q)

/-- The same contribution with the neighbourhood sum divided by a per-row divisor `M`:
    Σ_k (agg(p, k) / M(p)) · W_l(k, q) + Σ_k x(p, k) · W_r(k, q) + b(q). -/
def relMean {A : ℕ} (agg : (⟨2, ![A, 256]⟩ : Shape).Idx → EReal) (M : (⟨1, ![A]⟩ : Shape).Idx → EReal)
    (x : (⟨2, ![A, 256]⟩ : Shape).Idx → EReal) (wl wr : (⟨2, ![256, 256]⟩ : Shape).Idx → EReal)
    (b : (⟨1, ![256]⟩ : Shape).Idx → EReal) (p : Fin A) (q : Fin 256) : EReal :=
  ((∑ k : Fin 256, Ideal.div (agg (ix2 p k)) (M (ix1 p)) * wl (ix2 k q)) + ∑ k : Fin 256, x (ix2 p k) * wr (ix2 k q))
    + b (ix1 q)

/-- Where the factor is the reciprocal of a nonzero divisor and the bias row is the bias vector, the two are equal. -/
theorem relScaled_eq_relMean {A : ℕ} (agg : (⟨2, ![A, 256]⟩ : Shape).Idx → EReal) (s : (⟨2, ![A, 1]⟩ : Shape).Idx → EReal)
    (M : (⟨1, ![A]⟩ : Shape).Idx → EReal) (x : (⟨2, ![A, 256]⟩ : Shape).Idx → EReal)
    (wl wr : (⟨2, ![256, 256]⟩ : Shape).Idx → EReal) (b2 : (⟨2, ![1, 256]⟩ : Shape).Idx → EReal)
    (b : (⟨1, ![256]⟩ : Shape).Idx → EReal) (p : Fin A) (q : Fin 256)
    (hs : s (ix2 p (0 : Fin 1)) = Ideal.div 1 (M (ix1 p))) (hM : M (ix1 p) ≠ 0) (hb : b2 (ix2 (0 : Fin 1) q) = b (ix1 q)) :
    relScaled agg s x wl wr b2 p q = relMean agg M x wl wr b p q := by
  unfold relScaled relMean
  rw [hs, hb]
  refine congrArg (· + b (ix1 q)) (congrArg (· + ∑ k : Fin 256, x (ix2 p k) * wr (ix2 k q)) ?_)
  refine Finset.sum_congr rfl fun k _ => ?_
  rw [Cert.LibERealScale.div_eq_mul_one_div (agg (ix2 p k)) hM]

/-- The update at row `p`, column `q`, as the program that scales writes it: the three contributions added onto 0
    in order, then the larger of that and 0. -/
def updScaled {A : ℕ} (a0 a1 a2 : (⟨2, ![A, 256]⟩ : Shape).Idx → EReal) (s0 s1 s2 : (⟨2, ![A, 1]⟩ : Shape).Idx → EReal)
    (x : (⟨2, ![A, 256]⟩ : Shape).Idx → EReal) (wl0 wl1 wl2 wr0 wr1 wr2 : (⟨2, ![256, 256]⟩ : Shape).Idx → EReal)
    (b0 b1 b2 : (⟨2, ![1, 256]⟩ : Shape).Idx → EReal) (p : Fin A) (q : Fin 256) : EReal :=
  max (((Ideal.ofBits .f32 0x00000000#32 + relScaled a0 s0 x wl0 wr0 b0 p q) + relScaled a1 s1 x wl1 wr1 b1 p q)
    + relScaled a2 s2 x wl2 wr2 b2 p q) (Ideal.ofBits .f32 0x00000000#32)

/-- The update as the program that divides writes it: the three contributions added, then the larger of that and 0. -/
def updMean {A : ℕ} (a0 a1 a2 : (⟨2, ![A, 256]⟩ : Shape).Idx → EReal) (M0 M1 M2 : (⟨1, ![A]⟩ : Shape).Idx → EReal)
    (x : (⟨2, ![A, 256]⟩ : Shape).Idx → EReal) (wl0 wl1 wl2 wr0 wr1 wr2 : (⟨2, ![256, 256]⟩ : Shape).Idx → EReal)
    (b0 b1 b2 : (⟨1, ![256]⟩ : Shape).Idx → EReal) (p : Fin A) (q : Fin 256) : EReal :=
  max ((relMean a0 M0 x wl0 wr0 b0 p q + relMean a1 M1 x wl1 wr1 b1 p q) + relMean a2 M2 x wl2 wr2 b2 p q)
    (Ideal.ofBits .f32 0x00000000#32)

/-- The two updates agree once each relation's contributions do: the sum started from 0 is the sum. -/
theorem updScaled_eq_updMean {A : ℕ} (a0 a1 a2 : (⟨2, ![A, 256]⟩ : Shape).Idx → EReal)
    (s0 s1 s2 : (⟨2, ![A, 1]⟩ : Shape).Idx → EReal) (M0 M1 M2 : (⟨1, ![A]⟩ : Shape).Idx → EReal)
    (x : (⟨2, ![A, 256]⟩ : Shape).Idx → EReal) (wl0 wl1 wl2 wr0 wr1 wr2 : (⟨2, ![256, 256]⟩ : Shape).Idx → EReal)
    (c0 c1 c2 : (⟨2, ![1, 256]⟩ : Shape).Idx → EReal) (b0 b1 b2 : (⟨1, ![256]⟩ : Shape).Idx → EReal) (p : Fin A) (q : Fin 256)
    (h0 : relScaled a0 s0 x wl0 wr0 c0 p q = relMean a0 M0 x wl0 wr0 b0 p q)
    (h1 : relScaled a1 s1 x wl1 wr1 c1 p q = relMean a1 M1 x wl1 wr1 b1 p q)
    (h2 : relScaled a2 s2 x wl2 wr2 c2 p q = relMean a2 M2 x wl2 wr2 b2 p q) :
    updScaled a0 a1 a2 s0 s1 s2 x wl0 wl1 wl2 wr0 wr1 wr2 c0 c1 c2 p q
      = updMean a0 a1 a2 M0 M1 M2 x wl0 wl1 wl2 wr0 wr1 wr2 b0 b1 b2 p q := by
  unfold updScaled updMean
  rw [h0, h1, h2, Ideal.ofBits_zero_f32, zero_add]

/-- A contribution read from a block of rows is the contribution read from the whole arrays at the block's row:
    the block's row `p` is the arrays' row `P`, the weights and the bias row are whole. -/
theorem relScaled_rows {A B : ℕ} (agg : (⟨2, ![A, 256]⟩ : Shape).Idx → EReal) (s : (⟨2, ![A, 1]⟩ : Shape).Idx → EReal)
    (x : (⟨2, ![A, 256]⟩ : Shape).Idx → EReal) (agg' : (⟨2, ![B, 256]⟩ : Shape).Idx → EReal)
    (s' : (⟨2, ![B, 1]⟩ : Shape).Idx → EReal) (x' : (⟨2, ![B, 256]⟩ : Shape).Idx → EReal)
    (wl wr wl' wr' : (⟨2, ![256, 256]⟩ : Shape).Idx → EReal) (b b' : (⟨2, ![1, 256]⟩ : Shape).Idx → EReal)
    (p : Fin A) (P : Fin B) (q : Fin 256)
    (hagg : ∀ k : Fin 256, agg (ix2 p k) = agg' (ix2 P k)) (hs : s (ix2 p (0 : Fin 1)) = s' (ix2 P (0 : Fin 1)))
    (hx : ∀ k : Fin 256, x (ix2 p k) = x' (ix2 P k)) (hwl : wl = wl') (hwr : wr = wr') (hb : b = b') :
    relScaled agg s x wl wr b p q = relScaled agg' s' x' wl' wr' b' P q := by
  subst hwl hwr hb
  unfold relScaled
  rw [hs]
  simp only [hagg, hx]

/-- The update read from blocks of rows is the update read from the whole arrays at the blocks' row, once each
    relation's contribution is. -/
theorem updScaled_rows {A B : ℕ} (a0 a1 a2 : (⟨2, ![A, 256]⟩ : Shape).Idx → EReal) (s0 s1 s2 : (⟨2, ![A, 1]⟩ : Shape).Idx → EReal)
    (x : (⟨2, ![A, 256]⟩ : Shape).Idx → EReal) (wl0 wl1 wl2 wr0 wr1 wr2 : (⟨2, ![256, 256]⟩ : Shape).Idx → EReal)
    (b0 b1 b2 : (⟨2, ![1, 256]⟩ : Shape).Idx → EReal)
    (a0' a1' a2' : (⟨2, ![B, 256]⟩ : Shape).Idx → EReal) (s0' s1' s2' : (⟨2, ![B, 1]⟩ : Shape).Idx → EReal)
    (x' : (⟨2, ![B, 256]⟩ : Shape).Idx → EReal) (wl0' wl1' wl2' wr0' wr1' wr2' : (⟨2, ![256, 256]⟩ : Shape).Idx → EReal)
    (b0' b1' b2' : (⟨2, ![1, 256]⟩ : Shape).Idx → EReal) (p : Fin A) (P : Fin B) (q : Fin 256)
    (h0 : relScaled a0 s0 x wl0 wr0 b0 p q = relScaled a0' s0' x' wl0' wr0' b0' P q)
    (h1 : relScaled a1 s1 x wl1 wr1 b1 p q = relScaled a1' s1' x' wl1' wr1' b1' P q)
    (h2 : relScaled a2 s2 x wl2 wr2 b2 p q = relScaled a2' s2' x' wl2' wr2' b2' P q) :
    updScaled a0 a1 a2 s0 s1 s2 x wl0 wl1 wl2 wr0 wr1 wr2 b0 b1 b2 p q
      = updScaled a0' a1' a2' s0' s1' s2' x' wl0' wl1' wl2' wr0' wr1' wr2' b0' b1' b2' P q := by
  unfold updScaled
  rw [h0, h1, h2]

end Cert.Bridge.L1P

end
-- ==== Proof.L1PPay.lean ====
/-
  What the body of the fused update of the protein features computes, at one entry of its block of rows.

  The body loads a block of 2000 rows of each of the three neighbourhood sums, of each of the three columns of
  reciprocal counts and of the protein features, and the whole of six 256 × 256 weight matrices and three bias rows.
  At row p, column q of the block it leaves the larger of 0 and
      ((0 + t_0) + t_1) + t_2,    t_r = (Σ_k (agg_r(p, k) · s_r(p)) · W_l,r(k, q) + Σ_k x(p, k) · W_r,r(k, q)) + b_r(q):
  the products into a zero accumulator are sums over the 256 shared coordinates, the column of reciprocal counts is
  spread along the row and the bias row down the column.
-/
import proofs.«176458_j69930657513814_2_alg».proof.Proof.Gen.KernelIdeal.Skeleton
import proofs.«176458_j69930657513814_2_alg».proof.Proof.LibPlainMatmul
import proofs.«176458_j69930657513814_2_alg».proof.Proof.LibKeepdims
import proofs.«176458_j69930657513814_2_alg».proof.Proof.LibRowBroadcast
import proofs.«176458_j69930657513814_2_alg».proof.Proof.L1PSpec
import Idealize.ShloMosaic.Lib.Pipeline.Value
import Idealize.ShloMosaic.Lib.ValueIdx

noncomputable section

namespace Cert.Bridge.L1P

open Idealize.ShloMosaic Idealize.ShloMosaic.ValueIdx
open Cert.KernelIdeal Cert.KernelIdeal.Gen

/-- The body's matrix product into a zero accumulator, at (p, q): the sum over the shared coordinate. -/
theorem blockProduct_apply (l : FVec Ideal S2000x256 .f32) (r : FVec Ideal S256x256 .f32) (p : Fin 2000) (q : Fin 256) :
    matmul dot_S2000x256_S256x256_S2000x256_1_0_0_1_n_n none l r (constant S2000x256 .f32 0x00000000#32) (ix2 p q)
      = ∑ k : Fin 256, l (ix2 p k) * r (ix2 k q) :=
  matmul_plain_zero_apply 2000 256 256 none l r p q

/-- A column of 2000 entries spread along the rows reads, at (p, q), the column's entry p. -/
theorem spreadColumn_apply (v : FVec Ideal S2000x1 .f32) (p : Fin 2000) (q : Fin 256) :
    broadcastTo S2000x256 v broadcasts_S2000x1_S2000x256 (ix2 p q) = v (ix2 p (0 : Fin 1)) :=
  Cert.LibKeepdims.broadcastTo_a1_ab_apply v broadcasts_S2000x1_S2000x256 p q 0

/-- A row of 256 entries spread down the columns reads, at (p, q), the row's entry q. -/
theorem spreadRow_apply (v : FVec Ideal S1x256 .f32) (p : Fin 2000) (q : Fin 256) :
    broadcastTo S2000x256 v broadcasts_S1x256_S2000x256 (ix2 p q) = v (ix2 (0 : Fin 1) q) :=
  Cert.LibRowBroadcast.broadcastTo_1b_ab_apply v broadcasts_S1x256_S2000x256 p q 0

/-- The body's result at row `p`, column `q` of its block, from the sixteen blocks it loads. -/
theorem payload_apply (x0 x1 x2 : Vec Ideal S2000x256 .f32) (x3 x4 x5 : Vec Ideal S2000x1 .f32)
    (x6 : Vec Ideal S2000x256 .f32) (x7 x8 x9 x10 x11 x12 : Vec Ideal S256x256 .f32)
    (x13 x14 x15 : Vec Ideal S1x256 .f32) (p : Fin 2000) (q : Fin 256) :
    k0_pay1 (F := Ideal) x6 (k0_pay2 x6 x0 x3 x7 x10 x13) (k0_pay3 x6 x1 x4 x8 x11) x14 x2 x5 x9 x12 x15 (ix2 p q)
      = updScaled x0 x1 x2 x3 x4 x5 x6 x7 x8 x9 x10 x11 x12 x13 x14 x15 p q := by
  unfold k0_pay1 k0_pay2 k0_pay3 updScaled relScaled
  simp only [shapeCast_self, maximumf_apply, addf_apply, mulf_apply, broadcast_apply, blockProduct_apply,
    spreadColumn_apply, spreadRow_apply]
  rfl

end Cert.Bridge.L1P

end
-- ==== Proof.L1PBlocks.lean ====
/-
  From the blocks of rows to the whole array of hidden protein features.

  The fused update runs over ten blocks of 2000 rows. Block t of each of the seven row-indexed operands (three
  neighbourhood sums, three columns of reciprocal counts, the protein features) is rows 2000·t … 2000·t + 1999 of its
  array; the six weight matrices and three bias rows are read whole at every block. So what the body leaves at row p
  of block t is the update read from the whole arrays at row 2000·t + p, and the ten blocks written back tile the
  20000 rows: the array of hidden features ends as one function of the sixteen arrays the region finds.
-/
import proofs.«176458_j69930657513814_2_alg».proof.Proof.KIFrame
import proofs.«176458_j69930657513814_2_alg».proof.Proof.L1PPay
import Idealize.ShloMosaic.Lib.Pipeline.Value

set_option maxRecDepth 16384

noncomputable section

namespace Cert.Bridge.L1P

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP

/-- The update as a whole array: entry (P, q) from the whole operand arrays. -/
def updArray (a0 a1 a2 : S20000x256.Idx → EReal) (s0 s1 s2 : S20000x1.Idx → EReal) (x : S20000x256.Idx → EReal)
    (wl0 wl1 wl2 wr0 wr1 wr2 : S256x256.Idx → EReal) (b0 b1 b2 : S1x256.Idx → EReal) : S20000x256.Idx → EReal :=
  fun i => updScaled a0 a1 a2 s0 s1 s2 x wl0 wl1 wl2 wr0 wr1 wr2 b0 b1 b2 (i 0) (i 1)

theorem updArray_apply (a0 a1 a2 : S20000x256.Idx → EReal) (s0 s1 s2 : S20000x1.Idx → EReal) (x : S20000x256.Idx → EReal)
    (wl0 wl1 wl2 wr0 wr1 wr2 : S256x256.Idx → EReal) (b0 b1 b2 : S1x256.Idx → EReal) (P : Fin 20000) (q : Fin 256) :
    updArray a0 a1 a2 s0 s1 s2 x wl0 wl1 wl2 wr0 wr1 wr2 b0 b1 b2 (ix2 P q)
      = updScaled a0 a1 a2 s0 s1 s2 x wl0 wl1 wl2 wr0 wr1 wr2 b0 b1 b2 P q := rfl

theorem hz : (![0, 0] : Fin 2 → Nat) = fun _ => 0 := funext fun a => by fin_cases a <;> rfl

/-- The block indices over the grid: a row-indexed operand's block at point t is block t along the rows and block 0
    along the columns; a weight matrix or bias row is block (0, 0) at every point. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_16.index t (0 : Fin 2) = t.val ∧ win0_16.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- Row p of block t is row 2000·t + p of the array. -/
def rowOf (t : Fin cfg0.N) (p : Fin 2000) : Fin 20000 :=
  ⟨t.val * 2000 + p.val, by have h : t.val < 10 := lt_of_lt_of_eq t.isLt N_0; have := p.isLt; omega⟩

variable (V : (c : Dev nD) → (b : Ref sig .tc) → Buf (Elt Ideal) ((c : Thread nD τ).loc b))

/-- Block t of window 0's array, at (p, k), is the array at (2000·t + p, k). -/
theorem block0_apply (c : Dev nD) (t : Fin cfg0.N) (p : Fin 2000) (k : Fin 256) :
    (iblk0 V c 0 t : Vec Ideal S2000x256 .f32) (ix2 p k) = (V c main_v68 : S20000x256.Idx → EReal) (ix2 (rowOf t p) k) := by
  have hi := (block_indices t).1
  unfold iblk0
  rw [View.read_apply]
  show (V c main_v68 : S20000x256.Idx → EReal) _ = (V c main_v68 : S20000x256.Idx → EReal) _
  refine congrArg _ ?_
  funext a
  apply Fin.ext
  match a with
  | ⟨0, _⟩ => show win0_0.index t (0 : Fin 2) * 2000 + 1 * p.val = t.val * 2000 + p.val; rw [hi.1]; omega
  | ⟨1, _⟩ => show win0_0.index t (1 : Fin 2) * 256 + 1 * k.val = k.val; rw [hi.2]; omega

/-- Block t of window 1's array, at (p, k), is the array at (2000·t + p, k). -/
theorem block1_apply (c : Dev nD) (t : Fin cfg0.N) (p : Fin 2000) (k : Fin 256) :
    (iblk0 V c 1 t : Vec Ideal S2000x256 .f32) (ix2 p k) = (V c main_v82 : S20000x256.Idx → EReal) (ix2 (rowOf t p) k) := by
  have hi := (block_indices t).2.1
  unfold iblk0
  rw [View.read_apply]
  show (V c main_v82 : S20000x256.Idx → EReal) _ = (V c main_v82 : S20000x256.Idx → EReal) _
  refine congrArg _ ?_
  funext a
  apply Fin.ext
  match a with
  | ⟨0, _⟩ => show win0_1.index t (0 : Fin 2) * 2000 + 1 * p.val = t.val * 2000 + p.val; rw [hi.1]; omega
  | ⟨1, _⟩ => show win0_1.index t (1 : Fin 2) * 256 + 1 * k.val = k.val; rw [hi.2]; omega

/-- Block t of window 2's array, at (p, k), is the array at (2000·t + p, k). -/
theorem block2_apply (c : Dev nD) (t : Fin cfg0.N) (p : Fin 2000) (k : Fin 256) :
    (iblk0 V c 2 t : Vec Ideal S2000x256 .f32) (ix2 p k) = (V c main_v96 : S20000x256.Idx → EReal) (ix2 (rowOf t p) k) := by
  have hi := (block_indices t).2.2.1
  unfold iblk0
  rw [View.read_apply]
  show (V c main_v96 : S20000x256.Idx → EReal) _ = (V c main_v96 : S20000x256.Idx → EReal) _
  refine congrArg _ ?_
  funext a
  apply Fin.ext
  match a with
  | ⟨0, _⟩ => show win0_2.index t (0 : Fin 2) * 2000 + 1 * p.val = t.val * 2000 + p.val; rw [hi.1]; omega
  | ⟨1, _⟩ => show win0_2.index t (1 : Fin 2) * 256 + 1 * k.val = k.val; rw [hi.2]; omega

/-- Block t of window 6's array, at (p, k), is the array at (2000·t + p, k). -/
theorem block6_apply (c : Dev nD) (t : Fin cfg0.N) (p : Fin 2000) (k : Fin 256) :
    (iblk0 V c 6 t : Vec Ideal S2000x256 .f32) (ix2 p k) = (V c main_arg2 : S20000x256.Idx → EReal) (ix2 (rowOf t p) k) := by
  have hi := (block_indices t).2.2.2.2.2.2.1
  unfold iblk0
  rw [View.read_apply]
  show (V c main_arg2 : S20000x256.Idx → EReal) _ = (V c main_arg2 : S20000x256.Idx → EReal) _
  refine congrArg _ ?_
  funext a
  apply Fin.ext
  match a with
  | ⟨0, _⟩ => show win0_6.index t (0 : Fin 2) * 2000 + 1 * p.val = t.val * 2000 + p.val; rw [hi.1]; omega
  | ⟨1, _⟩ => show win0_6.index t (1 : Fin 2) * 256 + 1 * k.val = k.val; rw [hi.2]; omega

/-- Block t of window 3's column, at (p, 0), is the column at (2000·t + p, 0). -/
theorem block3_apply (c : Dev nD) (t : Fin cfg0.N) (p : Fin 2000) :
    (iblk0 V c 3 t : Vec Ideal S2000x1 .f32) (ix2 p (0 : Fin 1)) = (V c main_v10 : S20000x1.Idx → EReal) (ix2 (rowOf t p) (0 : Fin 1)) := by
  have hi := (block_indices t).2.2.2.1
  unfold iblk0
  rw [View.read_apply]
  show (V c main_v10 : S20000x1.Idx → EReal) _ = (V c main_v10 : S20000x1.Idx → EReal) _
  refine congrArg _ ?_
  funext a
  apply Fin.ext
  match a with
  | ⟨0, _⟩ => show win0_3.index t (0 : Fin 2) * 2000 + 1 * p.val = t.val * 2000 + p.val; rw [hi.1]; omega
  | ⟨1, _⟩ => show win0_3.index t (1 : Fin 2) * 1 + 1 * (0 : Fin 1).val = (0 : Fin 1).val; rw [hi.2]; rfl

/-- Block t of window 4's column, at (p, 0), is the column at (2000·t + p, 0). -/
theorem block4_apply (c : Dev nD) (t : Fin cfg0.N) (p : Fin 2000) :
    (iblk0 V c 4 t : Vec Ideal S2000x1 .f32) (ix2 p (0 : Fin 1)) = (V c main_v43 : S20000x1.Idx → EReal) (ix2 (rowOf t p) (0 : Fin 1)) := by
  have hi := (block_indices t).2.2.2.2.1
  unfold iblk0
  rw [View.read_apply]
  show (V c main_v43 : S20000x1.Idx → EReal) _ = (V c main_v43 : S20000x1.Idx → EReal) _
  refine congrArg _ ?_
  funext a
  apply Fin.ext
  match a with
  | ⟨0, _⟩ => show win0_4.index t (0 : Fin 2) * 2000 + 1 * p.val = t.val * 2000 + p.val; rw [hi.1]; omega
  | ⟨1, _⟩ => show win0_4.index t (1 : Fin 2) * 1 + 1 * (0 : Fin 1).val = (0 : Fin 1).val; rw [hi.2]; rfl

/-- Block t of window 5's column, at (p, 0), is the column at (2000·t + p, 0). -/
theorem block5_apply (c : Dev nD) (t : Fin cfg0.N) (p : Fin 2000) :
    (iblk0 V c 5 t : Vec Ideal S2000x1 .f32) (ix2 p (0 : Fin 1)) = (V c main_v54 : S20000x1.Idx → EReal) (ix2 (rowOf t p) (0 : Fin 1)) := by
  have hi := (block_indices t).2.2.2.2.2.1
  unfold iblk0
  rw [View.read_apply]
  show (V c main_v54 : S20000x1.Idx → EReal) _ = (V c main_v54 : S20000x1.Idx → EReal) _
  refine congrArg _ ?_
  funext a
  apply Fin.ext
  match a with
  | ⟨0, _⟩ => show win0_5.index t (0 : Fin 2) * 2000 + 1 * p.val = t.val * 2000 + p.val; rw [hi.1]; omega
  | ⟨1, _⟩ => show win0_5.index t (1 : Fin 2) * 1 + 1 * (0 : Fin 1).val = (0 : Fin 1).val; rw [hi.2]; rfl

/-- Window 7's block at every point is its whole matrix. -/
theorem block7_eq (c : Dev nD) (t : Fin cfg0.N) :
    (iblk0 V c 7 t : Vec Ideal S256x256 .f32) = (V c main_v98 : S256x256.Idx → EReal) := by
  have hi := (block_indices t).2.2.2.2.2.2.2.2.1
  funext y
  unfold iblk0
  rw [View.read_apply]
  show (V c main_v98 : S256x256.Idx → EReal) _ = (V c main_v98 : S256x256.Idx → EReal) _
  refine congrArg _ ?_
  funext a
  apply Fin.ext
  match a with
  | ⟨0, _⟩ => show win0_7.index t (0 : Fin 2) * 256 + 1 * (y 0).val = (y 0).val; rw [hi.1]; omega
  | ⟨1, _⟩ => show win0_7.index t (1 : Fin 2) * 256 + 1 * (y 1).val = (y 1).val; rw [hi.2]; omega

/-- Window 8's block at every point is its whole matrix. -/
theorem block8_eq (c : Dev nD) (t : Fin cfg0.N) :
    (iblk0 V c 8 t : Vec Ideal S256x256 .f32) = (V c main_v100 : S256x256.Idx → EReal) := by
  have hi := (block_indices t).2.2.2.2.2.2.2.2.2.1
  funext y
  unfold iblk0
  rw [View.read_apply]
  show (V c main_v100 : S256x256.Idx → EReal) _ = (V c main_v100 : S256x256.Idx → EReal) _
  refine congrArg _ ?_
  funext a
  apply Fin.ext
  match a with
  | ⟨0, _⟩ => show win0_8.index t (0 : Fin 2) * 256 + 1 * (y 0).val = (y 0).val; rw [hi.1]; omega
  | ⟨1, _⟩ => show win0_8.index t (1 : Fin 2) * 256 + 1 * (y 1).val = (y 1).val; rw [hi.2]; omega

/-- Window 9's block at every point is its whole matrix. -/
theorem block9_eq (c : Dev nD) (t : Fin cfg0.N) :
    (iblk0 V c 9 t : Vec Ideal S256x256 .f32) = (V c main_v102 : S256x256.Idx → EReal) := by
  have hi := (block_indices t).2.2.2.2.2.2.2.2.2.2.1
  funext y
  unfold iblk0
  rw [View.read_apply]
  show (V c main_v102 : S256x256.Idx → EReal) _ = (V c main_v102 : S256x256.Idx → EReal) _
  refine congrArg _ ?_
  funext a
  apply Fin.ext
  match a with
  | ⟨0, _⟩ => show win0_9.index t (0 : Fin 2) * 256 + 1 * (y 0).val = (y 0).val; rw [hi.1]; omega
  | ⟨1, _⟩ => show win0_9.index t (1 : Fin 2) * 256 + 1 * (y 1).val = (y 1).val; rw [hi.2]; omega

/-- Window 10's block at every point is its whole matrix. -/
theorem block10_eq (c : Dev nD) (t : Fin cfg0.N) :
    (iblk0 V c 10 t : Vec Ideal S256x256 .f32) = (V c main_v104 : S256x256.Idx → EReal) := by
  have hi := (block_indices t).2.2.2.2.2.2.2.2.2.2.2.1
  funext y
  unfold iblk0
  rw [View.read_apply]
  show (V c main_v104 : S256x256.Idx → EReal) _ = (V c main_v104 : S256x256.Idx → EReal) _
  refine congrArg _ ?_
  funext a
  apply Fin.ext
  match a with
  | ⟨0, _⟩ => show win0_10.index t (0 : Fin 2) * 256 + 1 * (y 0).val = (y 0).val; rw [hi.1]; omega
  | ⟨1, _⟩ => show win0_10.index t (1 : Fin 2) * 256 + 1 * (y 1).val = (y 1).val; rw [hi.2]; omega

/-- Window 11's block at every point is its whole matrix. -/
theorem block11_eq (c : Dev nD) (t : Fin cfg0.N) :
    (iblk0 V c 11 t : Vec Ideal S256x256 .f32) = (V c main_v106 : S256x256.Idx → EReal) := by
  have hi := (block_indices t).2.2.2.2.2.2.2.2.2.2.2.2.1
  funext y
  unfold iblk0
  rw [View.read_apply]
  show (V c main_v106 : S256x256.Idx → EReal) _ = (V c main_v106 : S256x256.Idx → EReal) _
  refine congrArg _ ?_
  funext a
  apply Fin.ext
  match a with
  | ⟨0, _⟩ => show win0_11.index t (0 : Fin 2) * 256 + 1 * (y 0).val = (y 0).val; rw [hi.1]; omega
  | ⟨1, _⟩ => show win0_11.index t (1 : Fin 2) * 256 + 1 * (y 1).val = (y 1).val; rw [hi.2]; omega

/-- Window 12's block at every point is its whole matrix. -/
theorem block12_eq (c : Dev nD) (t : Fin cfg0.N) :
    (iblk0 V c 12 t : Vec Ideal S256x256 .f32) = (V c main_v108 : S256x256.Idx → EReal) := by
  have hi := (block_indices t).2.2.2.2.2.2.2.2.2.2.2.2.2.1
  funext y
  unfold iblk0
  rw [View.read_apply]
  show (V c main_v108 : S256x256.Idx → EReal) _ = (V c main_v108 : S256x256.Idx → EReal) _
  refine congrArg _ ?_
  funext a
  apply Fin.ext
  match a with
  | ⟨0, _⟩ => show win0_12.index t (0 : Fin 2) * 256 + 1 * (y 0).val = (y 0).val; rw [hi.1]; omega
  | ⟨1, _⟩ => show win0_12.index t (1 : Fin 2) * 256 + 1 * (y 1).val = (y 1).val; rw [hi.2]; omega

/-- Window 13's block at every point is its whole bias row. -/
theorem block13_eq (c : Dev nD) (t : Fin cfg0.N) :
    (iblk0 V c 13 t : Vec Ideal S1x256 .f32) = (V c main_v115 : S1x256.Idx → EReal) := by
  have hi := (block_indices t).2.2.2.2.2.2.2.2.2.2.2.2.2.2.1
  funext y
  unfold iblk0
  rw [View.read_apply]
  show (V c main_v115 : S1x256.Idx → EReal) _ = (V c main_v115 : S1x256.Idx → EReal) _
  refine congrArg _ ?_
  funext a
  apply Fin.ext
  match a with
  | ⟨0, _⟩ => show win0_13.index t (0 : Fin 2) * 1 + 1 * (y 0).val = (y 0).val; rw [hi.1]; omega
  | ⟨1, _⟩ => show win0_13.index t (1 : Fin 2) * 256 + 1 * (y 1).val = (y 1).val; rw [hi.2]; omega

/-- Window 14's block at every point is its whole bias row. -/
theorem block14_eq (c : Dev nD) (t : Fin cfg0.N) :
    (iblk0 V c 14 t : Vec Ideal S1x256 .f32) = (V c main_v116 : S1x256.Idx → EReal) := by
  have hi := (block_indices t).2.2.2.2.2.2.2.2.2.2.2.2.2.2.2.1
  funext y
  unfold iblk0
  rw [View.read_apply]
  show (V c main_v116 : S1x256.Idx → EReal) _ = (V c main_v116 : S1x256.Idx → EReal) _
  refine congrArg _ ?_
  funext a
  apply Fin.ext
  match a with
  | ⟨0, _⟩ => show win0_14.index t (0 : Fin 2) * 1 + 1 * (y 0).val = (y 0).val; rw [hi.1]; omega
  | ⟨1, _⟩ => show win0_14.index t (1 : Fin 2) * 256 + 1 * (y 1).val = (y 1).val; rw [hi.2]; omega

/-- Window 15's block at every point is its whole bias row. -/
theorem block15_eq (c : Dev nD) (t : Fin cfg0.N) :
    (iblk0 V c 15 t : Vec Ideal S1x256 .f32) = (V c main_v117 : S1x256.Idx → EReal) := by
  have hi := (block_indices t).2.2.2.2.2.2.2.2.2.2.2.2.2.2.2.2
  funext y
  unfold iblk0
  rw [View.read_apply]
  show (V c main_v117 : S1x256.Idx → EReal) _ = (V c main_v117 : S1x256.Idx → EReal) _
  refine congrArg _ ?_
  funext a
  apply Fin.ext
  match a with
  | ⟨0, _⟩ => show win0_15.index t (0 : Fin 2) * 1 + 1 * (y 0).val = (y 0).val; rw [hi.1]; omega
  | ⟨1, _⟩ => show win0_15.index t (1 : Fin 2) * 256 + 1 * (y 1).val = (y 1).val; rw [hi.2]; omega

/-- The array of hidden features the sixteen operand arrays make, as the region finds them. -/
def hiddenOf (c : Dev nD) : S20000x256.Idx → EReal :=
  updArray (V c main_v68) (V c main_v82) (V c main_v96) (V c main_v10) (V c main_v43) (V c main_v54) (V c main_arg2) (V c main_v98) (V c main_v100) (V c main_v102) (V c main_v104) (V c main_v106) (V c main_v108) (V c main_v115) (V c main_v116) (V c main_v117)

/-- Entry (p, q) of the result's block t sits at (2000·t + p, q) of the result array. -/
theorem out_emb (t : Fin cfg0.N) (p : Fin 2000) (q : Fin 256) :
    (((cfg0.win 16).blk t).view.emb (ix2 p q) : S20000x256.Idx) = ix2 (rowOf t p) q := by
  have hi := (block_indices t).2.2.2.2.2.2.2.1
  funext a
  apply Fin.ext
  match a with
  | ⟨0, _⟩ => show win0_16.index t (0 : Fin 2) * 2000 + 1 * p.val = t.val * 2000 + p.val; rw [hi.1]; omega
  | ⟨1, _⟩ => show win0_16.index t (1 : Fin 2) * 256 + 1 * q.val = q.val; rw [hi.2]; omega

/-- What point t writes back is block t of `hiddenOf`. -/
theorem flushed_eq (c : Dev nD) (t : Fin cfg0.N) :
    (dat0 V c).flushed 16 t = ((cfg0.win 16).blk t).view.read (Elt Ideal) (hiddenOf V c) := by
  show (cfg0.win 16).cut (grid0.coords t) ((dat0 V c).after 16 t) = _
  rw [after0_16]
  unfold out0_16
  rw [View.canon_unit_zero hz]
  simp only [View.ld_unit_zero (S := S2000x256) hz, View.ld_unit_zero (S := S2000x1) hz,
    View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  refine (payload_apply (iblk0 V c 0 t : Vec Ideal S2000x256 .f32) (iblk0 V c 1 t : Vec Ideal S2000x256 .f32) (iblk0 V c 2 t : Vec Ideal S2000x256 .f32) (iblk0 V c 3 t : Vec Ideal S2000x1 .f32) (iblk0 V c 4 t : Vec Ideal S2000x1 .f32) (iblk0 V c 5 t : Vec Ideal S2000x1 .f32) (iblk0 V c 6 t : Vec Ideal S2000x256 .f32) (iblk0 V c 7 t : Vec Ideal S256x256 .f32) (iblk0 V c 8 t : Vec Ideal S256x256 .f32) (iblk0 V c 9 t : Vec Ideal S256x256 .f32) (iblk0 V c 10 t : Vec Ideal S256x256 .f32) (iblk0 V c 11 t : Vec Ideal S256x256 .f32) (iblk0 V c 12 t : Vec Ideal S256x256 .f32) (iblk0 V c 13 t : Vec Ideal S1x256 .f32) (iblk0 V c 14 t : Vec Ideal S1x256 .f32) (iblk0 V c 15 t : Vec Ideal S1x256 .f32) p q).trans ?_
  show _ = hiddenOf V c (((cfg0.win 16).blk t).view.emb (ix2 p q))
  rw [out_emb t p q]
  unfold hiddenOf
  rw [updArray_apply]
  exact updScaled_rows _ _ _ _ _ _ _ _ _ _ _ _ _ _ _ _ _ _ _ _ _ _ _ _ _ _ _ _ _ _ _ _ p (rowOf t p) q
    (relScaled_rows (iblk0 V c 0 t : Vec Ideal S2000x256 .f32) (iblk0 V c 3 t : Vec Ideal S2000x1 .f32) (iblk0 V c 6 t : Vec Ideal S2000x256 .f32) (V c main_v68) (V c main_v10) (V c main_arg2)
      (iblk0 V c 7 t : Vec Ideal S256x256 .f32) (iblk0 V c 10 t : Vec Ideal S256x256 .f32) (V c main_v98) (V c main_v104) (iblk0 V c 13 t : Vec Ideal S1x256 .f32) (V c main_v115) p (rowOf t p) q
      (fun k => block0_apply V c t p k) (block3_apply V c t p) (fun k => block6_apply V c t p k)
      (block7_eq V c t) (block10_eq V c t) (block13_eq V c t))
    (relScaled_rows (iblk0 V c 1 t : Vec Ideal S2000x256 .f32) (iblk0 V c 4 t : Vec Ideal S2000x1 .f32) (iblk0 V c 6 t : Vec Ideal S2000x256 .f32) (V c main_v82) (V c main_v43) (V c main_arg2)
      (iblk0 V c 8 t : Vec Ideal S256x256 .f32) (iblk0 V c 11 t : Vec Ideal S256x256 .f32) (V c main_v100) (V c main_v106) (iblk0 V c 14 t : Vec Ideal S1x256 .f32) (V c main_v116) p (rowOf t p) q
      (fun k => block1_apply V c t p k) (block4_apply V c t p) (fun k => block6_apply V c t p k)
      (block8_eq V c t) (block11_eq V c t) (block14_eq V c t))
    (relScaled_rows (iblk0 V c 2 t : Vec Ideal S2000x256 .f32) (iblk0 V c 5 t : Vec Ideal S2000x1 .f32) (iblk0 V c 6 t : Vec Ideal S2000x256 .f32) (V c main_v96) (V c main_v54) (V c main_arg2)
      (iblk0 V c 9 t : Vec Ideal S256x256 .f32) (iblk0 V c 12 t : Vec Ideal S256x256 .f32) (V c main_v102) (V c main_v108) (iblk0 V c 15 t : Vec Ideal S1x256 .f32) (V c main_v117) p (rowOf t p) q
      (fun k => block2_apply V c t p k) (block5_apply V c t p) (fun k => block6_apply V c t p k)
      (block9_eq V c t) (block12_eq V c t) (block15_eq V c t))

/-- Row r of the result array is in block r / 2000, and every block is written back: the ten blocks cover the array,
    which therefore ends as `hiddenOf`. -/
theorem arrAt_eq_hiddenOf (c : Dev nD) : (dat0 V c).arrAt 16 cfg0.N = hiddenOf V c :=
  (dat0 V c).arrAt_eq_of_cover 16 (hiddenOf V c) (fun t _ => flushed_eq V c t) fun i => by
    have hN : cfg0.N = 10 := N_0
    have h0 : (i 0).val < 20000 := (i 0).isLt
    have h1 : (i 1).val < 256 := (i 1).isLt
    have ht : (i 0).val / 2000 < cfg0.N := by rw [hN]; omega
    refine ⟨⟨(i 0).val / 2000, ht⟩, flush0_16 _, ?_⟩
    have hi := (block_indices ⟨(i 0).val / 2000, ht⟩).2.2.2.2.2.2.2.1
    show i ∈ ((View.whole main_v118).slice (win0_16.rect ⟨(i 0).val / 2000, ht⟩)).set
    rw [View.set_slice_whole, Rect.mem_set_unit]
    intro a
    match a with
    | ⟨0, _⟩ =>
      show win0_16.index ⟨(i 0).val / 2000, ht⟩ (0 : Fin 2) * 2000 ≤ (i 0).val
        ∧ (i 0).val < win0_16.index ⟨(i 0).val / 2000, ht⟩ (0 : Fin 2) * 2000 + 2000
      rw [hi.1]; show (i 0).val / 2000 * 2000 ≤ (i 0).val ∧ (i 0).val < (i 0).val / 2000 * 2000 + 2000; omega
    | ⟨1, _⟩ =>
      show win0_16.index ⟨(i 0).val / 2000, ht⟩ (1 : Fin 2) * 256 ≤ (i 1).val
        ∧ (i 1).val < win0_16.index ⟨(i 0).val / 2000, ht⟩ (1 : Fin 2) * 256 + 256
      rw [hi.2]; omega

end Cert.Bridge.L1P

end
-- ==== Proof.LibReshapeBroadcast.lean ====
/-
  Two spellings of the same re-layout.

  A vector of a entries made a column [a, 1] holds entry p at (p, 0), whether it is written as a reshape or as a
  broadcast along axis 0; a vector of b entries made a row [1, b] holds entry e at (0, e), whether written as a reshape
  or as a broadcast along axis 1. The two programs differ in exactly these spellings for the column of self-loop
  weights and for the bias rows. Both statements are for any extent and any element type.
-/
import Idealize.ShloMosaic.Lib.ValueIdx
import Idealize.ShloMosaic.Lib.Pipeline.Value
import Idealize.ShloMosaic.Lib.ValueLayout
import proofs.«176458_j69930657513814_2_alg».proof.Proof.LibKeepdims

noncomputable section

namespace Cert.GraphNet

open Idealize.ShloMosaic Idealize.ShloMosaic.ValueIdx

/-- A vector reshaped to a column is the vector broadcast along axis 0 into the column shape. -/
theorem column_reshape_eq_broadcast {a : ℕ} {α : Type} (y : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ y h = broadcastInDim ⟨2, ![a, 1]⟩ ![0] h' y := by
  funext j
  obtain ⟨p, u, rfl⟩ : ∃ (p : Fin a) (u : Fin 1), j = ix2 p u := ⟨j 0, j 1, eq_ix2 j⟩
  rw [Cert.LibKeepdims.shapeCast_a_a1_apply y h p u]
  refine (broadcastInDim_apply ![0] h' y (ix2 p u) (ix1 p) fun d => ?_).symm
  match d with
  | ⟨0, _⟩ =>
    show p.val = if a = 1 then 0 else p.val
    split
    · have := p.isLt; omega
    · rfl

/-- A vector reshaped to a row is the vector broadcast along axis 1 into the row shape. -/
theorem row_reshape_eq_broadcast {b : ℕ} {α : Type} (y : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ y h = broadcastInDim ⟨2, ![1, b]⟩ ![1] h' y := by
  funext j
  obtain ⟨u, e, rfl⟩ : ∃ (u : Fin 1) (e : Fin b), j = ix2 u e := ⟨j 0, j 1, eq_ix2 j⟩
  have hu : u.val = 0 := by omega
  rw [shapeCast_apply y h (ix2 u e) (ix1 e) (by
    rw [Shape.rowMajor_val_one, Shape.rowMajor_val_two]
    show e.val = u.val * b + e.val
    rw [hu, Nat.zero_mul, Nat.zero_add])]
  refine (broadcastInDim_apply ![1] h' y (ix2 u e) (ix1 e) fun d => ?_).symm
  match d with
  | ⟨0, _⟩ =>
    show e.val = if b = 1 then 0 else e.val
    split
    · have := e.isLt; omega
    · rfl

end Cert.GraphNet

end
-- ==== Proof.L1PLayout.lean ====
/-
  Two re-layouts the host part of the program applies before the fused update.

  The column of reciprocals: from a vector M of 20000 divisors, the vector 1 / M made a column [20000, 1]. Its entry
  (P, 0) is 1 / M(P). The bias row: a vector of 256 entries reshaped to a row [1, 256]; its entry (0, q) is the
  vector's entry q.
-/
import proofs.«176458_j69930657513814_2_alg».proof.Proof.Gen.KernelIdeal
import proofs.«176458_j69930657513814_2_alg».proof.Proof.LibERealScale
import proofs.«176458_j69930657513814_2_alg».proof.Proof.LibReshapeBroadcast
import Idealize.ShloMosaic.Lib.Pipeline.Value
import Idealize.ShloMosaic.Lib.ValueIdx

noncomputable section

namespace Cert.Bridge.L1P

open Idealize.ShloMosaic Idealize.ShloMosaic.ValueIdx
open Cert.KernelIdeal Cert.KernelIdeal.Gen

/-- The vector of divisors turned into the column of their reciprocals. -/
def recipColumn (M : FVec Ideal S20000 .f32) : FVec Ideal S20000x1 .f32 :=
  broadcastInDim S20000x1 ![0] bcast_S20000_S20000x1_0
    (Host.divf (broadcastInDim S20000 ![] bcast_S_S20000 (constant (F := Ideal) S_ .f32 0x3F800000#32)) M)

/-- Entry (P, 0) of the column is 1 / M(P). -/
theorem recipColumn_apply (M : FVec Ideal S20000 .f32) (P : Fin 20000) :
    recipColumn M (ix2 P (0 : Fin 1)) = Ideal.div 1 (M (ix1 P)) := by
  unfold recipColumn
  refine (broadcastInDim_apply ![0] bcast_S20000_S20000x1_0 _ (ix2 P (0 : Fin 1)) (ix1 P) fun a => ?_).trans ?_
  · match a with
    | ⟨0, _⟩ => rfl
  · show Ideal.div (Ideal.ofBits .f32 0x3F800000#32) (M (ix1 P)) = _
    rw [Cert.LibERealScale.ofBits_one_f32]

/-- A vector of 256 entries reshaped to a row. -/
def biasRow (b : FVec Ideal S256 .f32) : FVec Ideal S1x256 .f32 :=
  shapeCast S1x256 b shapeCasts_S256_S1x256

/-- Entry (0, q) of the row is the vector's entry q. -/
theorem biasRow_apply (b : FVec Ideal S256 .f32) (q : Fin 256) : biasRow b (ix2 (0 : Fin 1) q) = b (ix1 q) := by
  unfold biasRow
  refine shapeCast_apply b shapeCasts_S256_S1x256 (ix2 (0 : Fin 1) q) (ix1 q) ?_
  rw [Shape.rowMajor_val_one, Shape.rowMajor_val_two]
  show q.val = (0 : Fin 1).val * 256 + q.val
  simp

end Cert.Bridge.L1P

end
-- ==== Proof.L1PHost.lean ====
/-
  What the fused update of the protein features finds in its operand arrays.

  Before the update the host part of the program computes, from the launch arguments, the edge counts into each
  protein and the reciprocals of max(count, 1), the three neighbourhood sums (gather the source rows, add them into the
  destination rows), and slices of the stacked weights and biases. Operation by operation these are the stages of the
  reference (the same operations on the same literals), except that the reciprocal is taken here and the bias rows are
  made by a reshape. Each array is named as the reference's stage of the launch arguments; none is opened.
-/
import proofs.«176458_j69930657513814_2_alg».proof.Proof.Args
import proofs.«176458_j69930657513814_2_alg».proof.Proof.KIFrame
import proofs.«176458_j69930657513814_2_alg».proof.Proof.L1PLayout
import Idealize.ShloMosaic.Lib.StableHlo.Run

set_option maxRecDepth 16384

noncomputable section

namespace Cert.Bridge.L1P

open Idealize.ShloMosaic Idealize.ShloMosaic.ValueIdx Idealize.ShloMosaic.TcCoe Idealize.SL.Sem Idealize.ShloMosaic.StableHlo
open Cert.Bridge

variable (m : KMem) (ρ : Dev Cert.KernelIdeal.nD → PrngReg) (c : Dev Cert.KernelIdeal.nD)

set_option maxHeartbeats 4000000 in
/-- The neighbourhood sums of drug features over the edges into each protein. -/
theorem entry_agg_dp :
    (Cert.KernelIdeal.GenP.V1 (F := Ideal) m ρ c Cert.KernelIdeal.main_v68 : Cert.KernelIdeal.S20000x256.Idx → EReal) = Cert.ReferenceIdeal.Read.val_main_v19 (F := Ideal) (a0 m c) (a3 m c) := by
  show StableHlo.after Cert.KernelIdeal.Gen.hostOps0 (Cert.KernelIdeal.GenP.W0 m ρ c) (Proc.devRef .tc Cert.KernelIdeal.main_v68) = _
  generalize hX : Cert.KernelIdeal.GenP.W0 m ρ c = X
  after_results_simp
  subst hX
  rfl

set_option maxHeartbeats 4000000 in
/-- The neighbourhood sums of disease features over the edges into each protein. -/
theorem entry_agg_disp :
    (Cert.KernelIdeal.GenP.V1 (F := Ideal) m ρ c Cert.KernelIdeal.main_v82 : Cert.KernelIdeal.S20000x256.Idx → EReal) = Cert.ReferenceIdeal.Read.val_main_v54 (F := Ideal) (a1 m c) (a6 m c) := by
  show StableHlo.after Cert.KernelIdeal.Gen.hostOps0 (Cert.KernelIdeal.GenP.W0 m ρ c) (Proc.devRef .tc Cert.KernelIdeal.main_v82) = _
  generalize hX : Cert.KernelIdeal.GenP.W0 m ρ c = X
  after_results_simp
  subst hX
  rfl

set_option maxHeartbeats 4000000 in
/-- The neighbourhood sums of protein features over the edges into each protein. -/
theorem entry_agg_pp :
    (Cert.KernelIdeal.GenP.V1 (F := Ideal) m ρ c Cert.KernelIdeal.main_v96 : Cert.KernelIdeal.S20000x256.Idx → EReal) = Cert.ReferenceIdeal.Read.val_main_v90 (F := Ideal) (a2 m c) (a7 m c) := by
  show StableHlo.after Cert.KernelIdeal.Gen.hostOps0 (Cert.KernelIdeal.GenP.W0 m ρ c) (Proc.devRef .tc Cert.KernelIdeal.main_v96) = _
  generalize hX : Cert.KernelIdeal.GenP.W0 m ρ c = X
  after_results_simp
  subst hX
  rfl

set_option maxHeartbeats 4000000 in
/-- The column of reciprocals of max(count, 1), drug → protein edges. -/
theorem entry_recip_dp :
    (Cert.KernelIdeal.GenP.V1 (F := Ideal) m ρ c Cert.KernelIdeal.main_v10 : Cert.KernelIdeal.S20000x1.Idx → EReal) = recipColumn (Cert.ReferenceIdeal.Read.val_main_v25 (F := Ideal) (a3 m c)) := by
  show StableHlo.after Cert.KernelIdeal.Gen.hostOps0 (Cert.KernelIdeal.GenP.W0 m ρ c) (Proc.devRef .tc Cert.KernelIdeal.main_v10) = _
  generalize hX : Cert.KernelIdeal.GenP.W0 m ρ c = X
  after_results_simp
  subst hX
  rfl

set_option maxHeartbeats 4000000 in
/-- The column of reciprocals of max(count, 1), disease → protein edges. -/
theorem entry_recip_disp :
    (Cert.KernelIdeal.GenP.V1 (F := Ideal) m ρ c Cert.KernelIdeal.main_v43 : Cert.KernelIdeal.S20000x1.Idx → EReal) = recipColumn (Cert.ReferenceIdeal.Read.val_main_v60 (F := Ideal) (a6 m c)) := by
  show StableHlo.after Cert.KernelIdeal.Gen.hostOps0 (Cert.KernelIdeal.GenP.W0 m ρ c) (Proc.devRef .tc Cert.KernelIdeal.main_v43) = _
  generalize hX : Cert.KernelIdeal.GenP.W0 m ρ c = X
  after_results_simp
  subst hX
  rfl

set_option maxHeartbeats 4000000 in
/-- The column of reciprocals of max(count, 1), protein → protein edges. -/
theorem entry_recip_pp :
    (Cert.KernelIdeal.GenP.V1 (F := Ideal) m ρ c Cert.KernelIdeal.main_v54 : Cert.KernelIdeal.S20000x1.Idx → EReal) = recipColumn (Cert.ReferenceIdeal.Read.val_main_v96 (F := Ideal) (a7 m c)) := by
  show StableHlo.after Cert.KernelIdeal.Gen.hostOps0 (Cert.KernelIdeal.GenP.W0 m ρ c) (Proc.devRef .tc Cert.KernelIdeal.main_v54) = _
  generalize hX : Cert.KernelIdeal.GenP.W0 m ρ c = X
  after_results_simp
  subst hX
  rfl

set_option maxHeartbeats 4000000 in
/-- The protein features are the launch argument. -/
theorem entry_features :
    (Cert.KernelIdeal.GenP.V1 (F := Ideal) m ρ c Cert.KernelIdeal.main_arg2 : Cert.KernelIdeal.S20000x256.Idx → EReal) = a2 m c := by
  show StableHlo.after Cert.KernelIdeal.Gen.hostOps0 (Cert.KernelIdeal.GenP.W0 m ρ c) (Proc.devRef .tc Cert.KernelIdeal.main_arg2) = _
  generalize hX : Cert.KernelIdeal.GenP.W0 m ρ c = X
  after_results_simp
  subst hX
  rfl

set_option maxHeartbeats 4000000 in
/-- Slice 0 of the weights on the neighbourhood mean. -/
theorem entry_wl_dp :
    (Cert.KernelIdeal.GenP.V1 (F := Ideal) m ρ c Cert.KernelIdeal.main_v98 : Cert.KernelIdeal.S256x256.Idx → EReal) = Cert.ReferenceIdeal.Read.val_main_v1 (F := Ideal) (a8 m c) := by
  show StableHlo.after Cert.KernelIdeal.Gen.hostOps0 (Cert.KernelIdeal.GenP.W0 m ρ c) (Proc.devRef .tc Cert.KernelIdeal.main_v98) = _
  generalize hX : Cert.KernelIdeal.GenP.W0 m ρ c = X
  after_results_simp
  subst hX
  rfl

set_option maxHeartbeats 4000000 in
/-- Slice 3 of the weights on the neighbourhood mean. -/
theorem entry_wl_disp :
    (Cert.KernelIdeal.GenP.V1 (F := Ideal) m ρ c Cert.KernelIdeal.main_v100 : Cert.KernelIdeal.S256x256.Idx → EReal) = Cert.ReferenceIdeal.Read.val_main_v36 (F := Ideal) (a8 m c) := by
  show StableHlo.after Cert.KernelIdeal.Gen.hostOps0 (Cert.KernelIdeal.GenP.W0 m ρ c) (Proc.devRef .tc Cert.KernelIdeal.main_v100) = _
  generalize hX : Cert.KernelIdeal.GenP.W0 m ρ c = X
  after_results_simp
  subst hX
  rfl

set_option maxHeartbeats 4000000 in
/-- Slice 4 of the weights on the neighbourhood mean. -/
theorem entry_wl_pp :
    (Cert.KernelIdeal.GenP.V1 (F := Ideal) m ρ c Cert.KernelIdeal.main_v102 : Cert.KernelIdeal.S256x256.Idx → EReal) = Cert.ReferenceIdeal.Read.val_main_v72 (F := Ideal) (a8 m c) := by
  show StableHlo.after Cert.KernelIdeal.Gen.hostOps0 (Cert.KernelIdeal.GenP.W0 m ρ c) (Proc.devRef .tc Cert.KernelIdeal.main_v102) = _
  generalize hX : Cert.KernelIdeal.GenP.W0 m ρ c = X
  after_results_simp
  subst hX
  rfl

set_option maxHeartbeats 4000000 in
/-- Slice 0 of the weights on the node's own features. -/
theorem entry_wr_dp :
    (Cert.KernelIdeal.GenP.V1 (F := Ideal) m ρ c Cert.KernelIdeal.main_v104 : Cert.KernelIdeal.S256x256.Idx → EReal) = Cert.ReferenceIdeal.Read.val_main_v3 (F := Ideal) (a9 m c) := by
  show StableHlo.after Cert.KernelIdeal.Gen.hostOps0 (Cert.KernelIdeal.GenP.W0 m ρ c) (Proc.devRef .tc Cert.KernelIdeal.main_v104) = _
  generalize hX : Cert.KernelIdeal.GenP.W0 m ρ c = X
  after_results_simp
  subst hX
  rfl

set_option maxHeartbeats 4000000 in
/-- Slice 3 of the weights on the node's own features. -/
theorem entry_wr_disp :
    (Cert.KernelIdeal.GenP.V1 (F := Ideal) m ρ c Cert.KernelIdeal.main_v106 : Cert.KernelIdeal.S256x256.Idx → EReal) = Cert.ReferenceIdeal.Read.val_main_v38 (F := Ideal) (a9 m c) := by
  show StableHlo.after Cert.KernelIdeal.Gen.hostOps0 (Cert.KernelIdeal.GenP.W0 m ρ c) (Proc.devRef .tc Cert.KernelIdeal.main_v106) = _
  generalize hX : Cert.KernelIdeal.GenP.W0 m ρ c = X
  after_results_simp
  subst hX
  rfl

set_option maxHeartbeats 4000000 in
/-- Slice 4 of the weights on the node's own features. -/
theorem entry_wr_pp :
    (Cert.KernelIdeal.GenP.V1 (F := Ideal) m ρ c Cert.KernelIdeal.main_v108 : Cert.KernelIdeal.S256x256.Idx → EReal) = Cert.ReferenceIdeal.Read.val_main_v74 (F := Ideal) (a9 m c) := by
  show StableHlo.after Cert.KernelIdeal.Gen.hostOps0 (Cert.KernelIdeal.GenP.W0 m ρ c) (Proc.devRef .tc Cert.KernelIdeal.main_v108) = _
  generalize hX : Cert.KernelIdeal.GenP.W0 m ρ c = X
  after_results_simp
  subst hX
  rfl

set_option maxHeartbeats 4000000 in
/-- Row 0 of the biases, as a row. -/
theorem entry_bias_dp :
    (Cert.KernelIdeal.GenP.V1 (F := Ideal) m ρ c Cert.KernelIdeal.main_v115 : Cert.KernelIdeal.S1x256.Idx → EReal) = biasRow (Cert.ReferenceIdeal.Read.val_main_v5 (F := Ideal) (a10 m c)) := by
  show StableHlo.after Cert.KernelIdeal.Gen.hostOps0 (Cert.KernelIdeal.GenP.W0 m ρ c) (Proc.devRef .tc Cert.KernelIdeal.main_v115) = _
  generalize hX : Cert.KernelIdeal.GenP.W0 m ρ c = X
  after_results_simp
  subst hX
  rfl

set_option maxHeartbeats 4000000 in
/-- Row 3 of the biases, as a row. -/
theorem entry_bias_disp :
    (Cert.KernelIdeal.GenP.V1 (F := Ideal) m ρ c Cert.KernelIdeal.main_v116 : Cert.KernelIdeal.S1x256.Idx → EReal) = biasRow (Cert.ReferenceIdeal.Read.val_main_v40 (F := Ideal) (a10 m c)) := by
  show StableHlo.after Cert.KernelIdeal.Gen.hostOps0 (Cert.KernelIdeal.GenP.W0 m ρ c) (Proc.devRef .tc Cert.KernelIdeal.main_v116) = _
  generalize hX : Cert.KernelIdeal.GenP.W0 m ρ c = X
  after_results_simp
  subst hX
  rfl

set_option maxHeartbeats 4000000 in
/-- Row 4 of the biases, as a row. -/
theorem entry_bias_pp :
    (Cert.KernelIdeal.GenP.V1 (F := Ideal) m ρ c Cert.KernelIdeal.main_v117 : Cert.KernelIdeal.S1x256.Idx → EReal) = biasRow (Cert.ReferenceIdeal.Read.val_main_v76 (F := Ideal) (a10 m c)) := by
  show StableHlo.after Cert.KernelIdeal.Gen.hostOps0 (Cert.KernelIdeal.GenP.W0 m ρ c) (Proc.devRef .tc Cert.KernelIdeal.main_v117) = _
  generalize hX : Cert.KernelIdeal.GenP.W0 m ρ c = X
  after_results_simp
  subst hX
  rfl

end Cert.Bridge.L1P

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«176458_j69930657513814_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.L1PRef.lean ====
/-
  The reference's hidden protein features, entry by entry.

  The reference adds, over the three relations into the proteins, the term
      ((agg_r / M_r) W_l,r + x W_r,r) + b_r,
  with the neighbourhood sum agg_r divided entrywise by M_r = max(count_r, 1) spread over the 256 columns and the bias
  vector spread over the 20000 rows, and takes the larger of the sum and 0. Read at row P, column q, each matrix
  product is the sum over the 256 shared coordinates, the spread divisor is M_r(P) and the spread bias is b_r(q). The
  neighbourhood sums, the counts and the slices of the stacked weights are left as the reference's own stages.
-/
import proofs.«176458_j69930657513814_2_alg».proof.Proof.RefRead
import proofs.«176458_j69930657513814_2_alg».proof.Proof.LibPlainDot
import proofs.«176458_j69930657513814_2_alg».proof.Proof.L1PSpec
import Idealize.ShloMosaic.Lib.Pipeline.Value
import Idealize.ShloMosaic.Lib.ValueIdx

noncomputable section

namespace Cert.Bridge.L1P

open Idealize.ShloMosaic Idealize.ShloMosaic.ValueIdx
open Cert.ReferenceIdeal Cert.ReferenceIdeal.Gen Cert.ReferenceIdeal.Read

/-- One relation's term of the reference at (P, q): the quotient's divisor, spread from a vector to a column to the
    matrix, is the vector's entry P; the bias, spread from a vector to a row to the matrix, is the vector's entry q. -/
theorem refTerm_apply (agg : FVec Ideal S20000x256 .f32) (M : FVec Ideal S20000 .f32) (x : FVec Ideal S20000x256 .f32)
    (wl wr : FVec Ideal S256x256 .f32) (b : FVec Ideal S256 .f32) (P : Fin 20000) (q : Fin 256) :
    addf (addf (Host.dotGeneral dot_S20000x256_S256x256_S20000x256_1_0_0_1_n_n none
          (Host.divf agg (broadcastInDim S20000x256 ![0, 1] bcast_S20000x1_S20000x256_0_1
            (broadcastInDim S20000x1 ![0] bcast_S20000_S20000x1_0 M))) wl)
        (Host.dotGeneral dot_S20000x256_S256x256_S20000x256_1_0_0_1_n_n none x wr))
      (broadcastInDim S20000x256 ![0, 1] bcast_S1x256_S20000x256_0_1 (broadcastInDim S1x256 ![1] bcast_S256_S1x256_1 b))
      (ix2 P q)
    = relMean agg M x wl wr b P q := by
  unfold relMean
  have hM : ∀ k : Fin 256, (broadcastInDim S20000x256 ![0, 1] bcast_S20000x1_S20000x256_0_1
      (broadcastInDim S20000x1 ![0] bcast_S20000_S20000x1_0 M)) (ix2 P k) = M (ix1 P) := fun k => by
    refine (broadcastInDim_apply ![0, 1] bcast_S20000x1_S20000x256_0_1 _ (ix2 P k) (ix2 P (0 : Fin 1)) fun a => ?_).trans ?_
    · match a with
      | ⟨0, _⟩ => rfl
      | ⟨1, _⟩ => rfl
    · refine broadcastInDim_apply ![0] bcast_S20000_S20000x1_0 M (ix2 P (0 : Fin 1)) (ix1 P) fun a => ?_
      match a with
      | ⟨0, _⟩ => rfl
  have hb : (broadcastInDim S20000x256 ![0, 1] bcast_S1x256_S20000x256_0_1
      (broadcastInDim S1x256 ![1] bcast_S256_S1x256_1 b)) (ix2 P q) = b (ix1 q) := by
    refine (broadcastInDim_apply ![0, 1] bcast_S1x256_S20000x256_0_1 _ (ix2 P q) (ix2 (0 : Fin 1) q) fun a => ?_).trans ?_
    · match a with
      | ⟨0, _⟩ => rfl
      | ⟨1, _⟩ => rfl
    · refine broadcastInDim_apply ![1] bcast_S256_S1x256_1 b (ix2 (0 : Fin 1) q) (ix1 q) fun a => ?_
      match a with
      | ⟨0, _⟩ => rfl
  refine congrArg₂ (· + ·) (congrArg₂ (· + ·) ?_ ?_) hb
  · refine (Cert.LibPlainDot.dotGeneral_plain_apply 20000 256 256 none _ _ wl P q).trans ?_
    refine Finset.sum_congr rfl fun k _ => congrArg (· * wl (ix2 k q)) ?_
    exact congrArg (Ideal.div (agg (ix2 P k))) (hM k)
  · exact Cert.LibPlainDot.dotGeneral_plain_apply 20000 256 256 none _ x wr P q

variable (x0 : (⟨S4000x256, .f32⟩ : BufTy).Contents (Elt Ideal)) (x1 : (⟨S8000x256, .f32⟩ : BufTy).Contents (Elt Ideal))
  (x2 : (⟨S20000x256, .f32⟩ : BufTy).Contents (Elt Ideal)) (x3 : (⟨S2x200000, .i32⟩ : BufTy).Contents (Elt Ideal))
  (x6 : (⟨S2x300000, .i32⟩ : BufTy).Contents (Elt Ideal)) (x7 : (⟨S2x600000, .i32⟩ : BufTy).Contents (Elt Ideal))
  (x8 x9 : (⟨S5x256x256, .f32⟩ : BufTy).Contents (Elt Ideal)) (x10 : (⟨S5x256, .f32⟩ : BufTy).Contents (Elt Ideal))

/-- The term of the relation from the drugs. -/
theorem term_dp_apply (P : Fin 20000) (q : Fin 256) :
    val_main_v34 (F := Ideal) x0 x2 x3 x8 x9 x10 (ix2 P q)
      = relMean (A := 20000) (val_main_v19 (F := Ideal) x0 x3) (val_main_v25 (F := Ideal) x3) x2 (val_main_v1 (F := Ideal) x8)
          (val_main_v3 (F := Ideal) x9) (val_main_v5 (F := Ideal) x10) P q :=
  refTerm_apply _ _ _ _ _ _ P q

/-- The term of the relation from the diseases. -/
theorem term_disp_apply (P : Fin 20000) (q : Fin 256) :
    val_main_v69 (F := Ideal) x1 x2 x6 x8 x9 x10 (ix2 P q)
      = relMean (A := 20000) (val_main_v54 (F := Ideal) x1 x6) (val_main_v60 (F := Ideal) x6) x2 (val_main_v36 (F := Ideal) x8)
          (val_main_v38 (F := Ideal) x9) (val_main_v40 (F := Ideal) x10) P q :=
  refTerm_apply _ _ _ _ _ _ P q

/-- The term of the relation among the proteins. -/
theorem term_pp_apply (P : Fin 20000) (q : Fin 256) :
    val_main_v105 (F := Ideal) x2 x7 x8 x9 x10 (ix2 P q)
      = relMean (A := 20000) (val_main_v90 (F := Ideal) x2 x7) (val_main_v96 (F := Ideal) x7) x2 (val_main_v72 (F := Ideal) x8)
          (val_main_v74 (F := Ideal) x9) (val_main_v76 (F := Ideal) x10) P q :=
  refTerm_apply _ _ _ _ _ _ P q

/-- The reference's hidden protein features at (P, q). -/
theorem hidden_apply (P : Fin 20000) (q : Fin 256) :
    val_main_v179 (F := Ideal) x0 x1 x2 x3 x6 x7 x8 x9 x10 (ix2 P q)
      = updMean (A := 20000) (val_main_v19 (F := Ideal) x0 x3) (val_main_v54 (F := Ideal) x1 x6) (val_main_v90 (F := Ideal) x2 x7)
          (val_main_v25 (F := Ideal) x3) (val_main_v60 (F := Ideal) x6) (val_main_v96 (F := Ideal) x7) x2
          (val_main_v1 (F := Ideal) x8) (val_main_v36 (F := Ideal) x8) (val_main_v72 (F := Ideal) x8)
          (val_main_v3 (F := Ideal) x9) (val_main_v38 (F := Ideal) x9) (val_main_v74 (F := Ideal) x9)
          (val_main_v5 (F := Ideal) x10) (val_main_v40 (F := Ideal) x10) (val_main_v76 (F := Ideal) x10) P q := by
  unfold updMean
  rw [← term_dp_apply x0 x2 x3 x8 x9 x10 P q, ← term_disp_apply x1 x2 x6 x8 x9 x10 P q, ← term_pp_apply x2 x7 x8 x9 x10 P q]
  rfl

/-- Each divisor is the larger of a count and 1, hence not 0. -/
theorem divisor_dp_ne_zero (P : Fin 20000) : val_main_v25 (F := Ideal) x3 (ix1 P) ≠ 0 :=
  (Cert.LibERealScale.max_one_pos (val_main_v23 (F := Ideal) x3 (ix1 P))).ne'
theorem divisor_disp_ne_zero (P : Fin 20000) : val_main_v60 (F := Ideal) x6 (ix1 P) ≠ 0 :=
  (Cert.LibERealScale.max_one_pos (val_main_v58 (F := Ideal) x6 (ix1 P))).ne'
theorem divisor_pp_ne_zero (P : Fin 20000) : val_main_v96 (F := Ideal) x7 (ix1 P) ≠ 0 :=
  (Cert.LibERealScale.max_one_pos (val_main_v94 (F := Ideal) x7 (ix1 P))).ne'

end Cert.Bridge.L1P

end
-- ==== Proof.L1P.lean ====
/-
  The hidden protein features of the two programs are the same array.

  At the exit of the fused update its result array holds, at (P, q), the larger of 0 and the three relations' terms
  added onto 0, each with its neighbourhood sum scaled by the reciprocal of M_r = max(count_r, 1); the reference's
  hidden features are the larger of 0 and the three terms added, each with its neighbourhood sum divided by M_r. The
  operand arrays are the reference's own stages of the launch arguments; M_r ≥ 1 is not 0, so the scaled and the
  divided sums agree; the bias row's entry is the bias vector's; and 0 + x = x.
-/
import proofs.«176458_j69930657513814_2_alg».proof.Proof.Args
import proofs.«176458_j69930657513814_2_alg».proof.Proof.L1PBlocks
import proofs.«176458_j69930657513814_2_alg».proof.Proof.L1PHost
import proofs.«176458_j69930657513814_2_alg».proof.Proof.L1PRef
import proofs.«176458_j69930657513814_2_alg».proof.Proof.L1PLayout

set_option maxRecDepth 16384

noncomputable section

namespace Cert.Bridge.L1P

open Idealize.ShloMosaic Idealize.ShloMosaic.ValueIdx Idealize.ShloMosaic.TcCoe Idealize.SL.Sem
open Cert.Bridge

/-- At the exit of the first fused update, the kernel program's buffer of hidden protein features holds the
    reference's hidden protein features of the launch arguments. -/
theorem hp_eq (m : KMem) (ρ : Dev Cert.KernelIdeal.nD → PrngReg) (c : Dev Cert.KernelIdeal.nD) :
    Cert.KernelIdeal.GenP.W2 (F := Ideal) m ρ c (Proc.devRef .tc Cert.KernelIdeal.main_v118) = HP m c := by
  refine (Cert.KernelIdeal.GenP.W2_arr m ρ c 16).trans ?_
  refine (arrAt_eq_hiddenOf (Cert.KernelIdeal.GenP.V1 m ρ) c).trans ?_
  funext j
  obtain ⟨P, q, rfl⟩ : ∃ (P : Fin 20000) (q : Fin 256), j = ix2 P q := ⟨j 0, j 1, eq_ix2 j⟩
  unfold hiddenOf
  rw [updArray_apply]
  rw [entry_agg_dp m ρ c, entry_agg_disp m ρ c, entry_agg_pp m ρ c, entry_recip_dp m ρ c, entry_recip_disp m ρ c, entry_recip_pp m ρ c, entry_features m ρ c, entry_wl_dp m ρ c, entry_wl_disp m ρ c, entry_wl_pp m ρ c, entry_wr_dp m ρ c, entry_wr_disp m ρ c, entry_wr_pp m ρ c, entry_bias_dp m ρ c, entry_bias_disp m ρ c, entry_bias_pp m ρ c]
  unfold HP
  rw [hidden_apply]
  exact updScaled_eq_updMean _ _ _ _ _ _ _ _ _ _ _ _ _ _ _ _ _ _ _ _ _ _ P q
    (relScaled_eq_relMean _ _ _ _ _ _ _ _ P q (recipColumn_apply _ P) (divisor_dp_ne_zero _ P) (biasRow_apply _ q))
    (relScaled_eq_relMean _ _ _ _ _ _ _ _ P q (recipColumn_apply _ P) (divisor_disp_ne_zero _ P) (biasRow_apply _ q))
    (relScaled_eq_relMean _ _ _ _ _ _ _ _ P q (recipColumn_apply _ P) (divisor_pp_ne_zero _ P) (biasRow_apply _ q))

end Cert.Bridge.L1P

end
-- ==== Proof.L1DSpec.lean ====
/-
  One relation of the first layer of the graph network, entry by entry, in the two arrangements the two programs use,
  and the law that joins them.

  A destination node p has an aggregate row agg(p, ·) (the sum of the feature rows of its in-neighbours), an in-degree
  cnt(p), its own feature row x(p, ·), and the relation has two 256 × 256 weight matrices wl, wr and a bias row.
  One program scales the aggregate by a precomputed column inv(p) = 1 / max(cnt(p), 1) and starts its sum over the
  relations from 0:        max(0 + ((Σ_k (agg(p,k) · inv(p)) · wl(k,q) + Σ_k x(p,k) · wr(k,q)) + b(0,q)), 0);
  the other divides:       max((Σ_k (agg(p,k) / max(cnt(p),1)) · wl(k,q) + Σ_k x(p,k) · wr(k,q)) + b(q), 0).
  On the extended reals a / d = a · (1 / d) for every a as soon as d ≠ 0, and max(c, 1) ≥ 1 is never 0; and 0 + y = y.
  No finiteness is needed: no factor is moved across a sum.
-/
import Idealize.ShloMosaic.PureOps.Ideal
import Idealize.ShloMosaic.PureOps.Ideal.Laws
import Idealize.ShloMosaic.Lib.ValueIdx
import proofs.«176458_j69930657513814_2_alg».proof.Proof.LibERealScale

noncomputable section

namespace Cert.Bridge.L1D

open Idealize.ShloMosaic Idealize.ShloMosaic.ValueIdx

/-- The entry (p, q) of one relation's hidden features in the scaled arrangement: the aggregate row times the column
    entry inv(p, 0), through wl; the node's own row through wr; the bias row's entry (0, q); the sum started from 0;
    the rectifier. -/
def sageAt {n : ℕ} (agg : (⟨2, ![n, 256]⟩ : Shape).Idx → EReal) (inv : (⟨2, ![n, 1]⟩ : Shape).Idx → EReal)
    (x : (⟨2, ![n, 256]⟩ : Shape).Idx → EReal) (wl wr : (⟨2, ![256, 256]⟩ : Shape).Idx → EReal)
    (b : (⟨2, ![1, 256]⟩ : Shape).Idx → EReal) (p : Fin n) (q : Fin 256) : EReal :=
  max (Ideal.ofBits .f32 0x00000000#32
        + ((∑ k : Fin 256, (agg (ix2 p k) * inv (ix2 p (0 : Fin 1))) * wl (ix2 k q)
            + ∑ k : Fin 256, x (ix2 p k) * wr (ix2 k q))
          + b (ix2 (0 : Fin 1) q)))
    (Ideal.ofBits .f32 0x00000000#32)

/-- The same as an array of n rows. -/
def sage {n : ℕ} (agg : (⟨2, ![n, 256]⟩ : Shape).Idx → EReal) (inv : (⟨2, ![n, 1]⟩ : Shape).Idx → EReal)
    (x : (⟨2, ![n, 256]⟩ : Shape).Idx → EReal) (wl wr : (⟨2, ![256, 256]⟩ : Shape).Idx → EReal)
    (b : (⟨2, ![1, 256]⟩ : Shape).Idx → EReal) : (⟨2, ![n, 256]⟩ : Shape).Idx → EReal :=
  fun i => sageAt agg inv x wl wr b (i 0) (i 1)

theorem sage_ix2 {n : ℕ} (agg : (⟨2, ![n, 256]⟩ : Shape).Idx → EReal) (inv : (⟨2, ![n, 1]⟩ : Shape).Idx → EReal)
    (x : (⟨2, ![n, 256]⟩ : Shape).Idx → EReal) (wl wr : (⟨2, ![256, 256]⟩ : Shape).Idx → EReal)
    (b : (⟨2, ![1, 256]⟩ : Shape).Idx → EReal) (p : Fin n) (q : Fin 256) :
    sage agg inv x wl wr b (ix2 p q) = sageAt agg inv x wl wr b p q := rfl

/-- An entry depends on row p of the aggregate, of the column and of the node's features, on column q of the two
    weight matrices and on entry q of the bias row, and on nothing else: two families of arrays that agree there give
    the same entry (the row p of an array of n rows against the row p' of an array of n' rows: a block against the
    whole array). -/
theorem sageAt_congr {n n' : ℕ}
    {agg : (⟨2, ![n, 256]⟩ : Shape).Idx → EReal} {inv : (⟨2, ![n, 1]⟩ : Shape).Idx → EReal}
    {x : (⟨2, ![n, 256]⟩ : Shape).Idx → EReal} {wl wr : (⟨2, ![256, 256]⟩ : Shape).Idx → EReal}
    {b : (⟨2, ![1, 256]⟩ : Shape).Idx → EReal}
    {agg' : (⟨2, ![n', 256]⟩ : Shape).Idx → EReal} {inv' : (⟨2, ![n', 1]⟩ : Shape).Idx → EReal}
    {x' : (⟨2, ![n', 256]⟩ : Shape).Idx → EReal} {wl' wr' : (⟨2, ![256, 256]⟩ : Shape).Idx → EReal}
    {b' : (⟨2, ![1, 256]⟩ : Shape).Idx → EReal}
    (p : Fin n) (p' : Fin n') (q q' : Fin 256)
    (h0 : ∀ k : Fin 256, agg (ix2 p k) = agg' (ix2 p' k))
    (h1 : inv (ix2 p (0 : Fin 1)) = inv' (ix2 p' (0 : Fin 1)))
    (h2 : ∀ k : Fin 256, x (ix2 p k) = x' (ix2 p' k))
    (h3 : ∀ k : Fin 256, wl (ix2 k q) = wl' (ix2 k q'))
    (h4 : ∀ k : Fin 256, wr (ix2 k q) = wr' (ix2 k q'))
    (h5 : b (ix2 (0 : Fin 1) q) = b' (ix2 (0 : Fin 1) q')) :
    sageAt agg inv x wl wr b p q = sageAt agg' inv' x' wl' wr' b' p' q' := by
  unfold sageAt
  rw [h1, h5]
  simp only [h0, h2, h3, h4]

/-- The entry (p, q) in the dividing arrangement: the aggregate row divided by max(cnt(p), 1), the bias a vector. -/
def sageRefAt {n : ℕ} (agg : (⟨2, ![n, 256]⟩ : Shape).Idx → EReal) (cnt : (⟨1, ![n]⟩ : Shape).Idx → EReal)
    (x : (⟨2, ![n, 256]⟩ : Shape).Idx → EReal) (wl wr : (⟨2, ![256, 256]⟩ : Shape).Idx → EReal)
    (bv : (⟨1, ![256]⟩ : Shape).Idx → EReal) (p : Fin n) (q : Fin 256) : EReal :=
  max ((∑ k : Fin 256, Ideal.div (agg (ix2 p k)) (max (cnt (ix1 p)) (Ideal.ofBits .f32 0x3F800000#32)) * wl (ix2 k q)
          + ∑ k : Fin 256, x (ix2 p k) * wr (ix2 k q))
        + bv (ix1 q))
    (Ideal.ofBits .f32 0x00000000#32)

/-- Scaling by the reciprocal of max(c, 1) is dividing by it: the divisor is at least 1, so it is not 0. -/
theorem scale_eq (a c : EReal) :
    a * Ideal.div (Ideal.ofBits .f32 0x3F800000#32) (max c (Ideal.ofBits .f32 0x3F800000#32))
      = Ideal.div a (max c (Ideal.ofBits .f32 0x3F800000#32)) := by
  have h : max c (Ideal.ofBits .f32 0x3F800000#32) ≠ 0 := (Cert.LibERealScale.max_one_pos c).ne'
  rw [Cert.LibERealScale.div_eq_mul_one_div a h, Cert.LibERealScale.ofBits_one_f32]

/-- THE LAW: where the column entry is the reciprocal of max(cnt(p), 1) and the bias row's entry is the bias vector's,
    the scaled arrangement's entry is the dividing arrangement's. -/
theorem sageAt_eq_ref {n : ℕ} (agg : (⟨2, ![n, 256]⟩ : Shape).Idx → EReal) (inv : (⟨2, ![n, 1]⟩ : Shape).Idx → EReal)
    (cnt : (⟨1, ![n]⟩ : Shape).Idx → EReal)
    (x : (⟨2, ![n, 256]⟩ : Shape).Idx → EReal) (wl wr : (⟨2, ![256, 256]⟩ : Shape).Idx → EReal)
    (b : (⟨2, ![1, 256]⟩ : Shape).Idx → EReal) (bv : (⟨1, ![256]⟩ : Shape).Idx → EReal) (p : Fin n) (q : Fin 256)
    (hinv : inv (ix2 p (0 : Fin 1))
      = Ideal.div (Ideal.ofBits .f32 0x3F800000#32) (max (cnt (ix1 p)) (Ideal.ofBits .f32 0x3F800000#32)))
    (hb : b (ix2 (0 : Fin 1) q) = bv (ix1 q)) :
    sageAt agg inv x wl wr b p q = sageRefAt agg cnt x wl wr bv p q := by
  unfold sageAt sageRefAt
  rw [hinv, hb, Ideal.ofBits_zero_f32, zero_add]
  simp only [scale_eq]

end Cert.Bridge.L1D

end
-- ==== Proof.L1DPay.lean ====
/-
  The arithmetic of the two one-relation regions of the first layer, read at an entry of the block they store.

  Both bodies are the same tree over the same block shapes: the 2000 × 256 aggregate block times the 2000 × 1 column
  spread over the 256 columns, a matrix product with the first 256 × 256 weight block into a zero accumulator, plus the
  product of the node's own 2000 × 256 block with the second weight block, plus the 1 × 256 bias row spread over the
  2000 rows, added to a block of zeros, and the maximum with zero.  Each non-pointwise operation is read at (p, q) by
  one small lemma: a product into the zero accumulator is the sum over the contracted coordinate, a column spread
  reads the column at row p, a row spread reads the row at column q.
-/
import proofs.«176458_j69930657513814_2_alg».proof.Proof.Gen.KernelIdeal.Skeleton
import proofs.«176458_j69930657513814_2_alg».proof.Proof.LibPlainMatmul
import proofs.«176458_j69930657513814_2_alg».proof.Proof.LibKeepdims
import proofs.«176458_j69930657513814_2_alg».proof.Proof.LibRowBroadcast
import proofs.«176458_j69930657513814_2_alg».proof.Proof.L1DSpec
import Idealize.ShloMosaic.Lib.Pipeline.Value

noncomputable section

namespace Cert.Bridge.L1D

open Idealize.ShloMosaic Idealize.ShloMosaic.ValueIdx

open Cert.KernelIdeal Cert.KernelIdeal.Gen

/-- The printed dimension numbers are those of an ordinary [2000, 256] × [256, 256] product. -/
theorem dot_plain : Cert.KernelIdeal.dot_S2000x256_S256x256_S2000x256_1_0_0_1_n_n = DotDims.plain 2000 256 256 := rfl

/-- A product of a 2000 × 256 block with a 256 × 256 block into the zero accumulator, at (p, q): Σ_k L(p, k) · R(k, q). -/
theorem mm_apply (l : FVec Ideal Cert.KernelIdeal.S2000x256 .f32) (r : FVec Ideal Cert.KernelIdeal.S256x256 .f32) (p : Fin 2000) (q : Fin 256) :
    matmul Cert.KernelIdeal.dot_S2000x256_S256x256_S2000x256_1_0_0_1_n_n none l r
        (constant Cert.KernelIdeal.S2000x256 .f32 0x00000000#32) (ix2 p q)
      = ∑ k : Fin 256, l (ix2 p k) * r (ix2 k q) := by
  rw [dot_plain]
  exact matmul_plain_zero_apply 2000 256 256 none l r p q

/-- The 2000 × 1 column spread over 256 columns reads, at (p, k), the column's entry of row p. -/
theorem col_apply (v : FVec Ideal Cert.KernelIdeal.S2000x1 .f32) (p : Fin 2000) (k : Fin 256) :
    broadcastTo Cert.KernelIdeal.S2000x256 v broadcasts_S2000x1_S2000x256 (ix2 p k) = v (ix2 p (0 : Fin 1)) :=
  Cert.LibKeepdims.broadcastTo_a1_ab_apply v broadcasts_S2000x1_S2000x256 p k 0

/-- The 1 × 256 row spread over 2000 rows reads, at (p, q), the row's entry of column q. -/
theorem row_apply (v : FVec Ideal Cert.KernelIdeal.S1x256 .f32) (p : Fin 2000) (q : Fin 256) :
    broadcastTo Cert.KernelIdeal.S2000x256 v broadcasts_S1x256_S2000x256 (ix2 p q) = v (ix2 (0 : Fin 1) q) :=
  Cert.LibRowBroadcast.broadcastTo_1b_ab_apply v broadcasts_S1x256_S2000x256 p q 0

/-- The arithmetic of region 1's body, read at the entry (p, q) of its 2000 × 256 block: the scaled arrangement
    of the block's six operands (the node's own rows, the aggregate rows, the column, the two weight matrices, the
    bias row). -/
theorem k1_pay1_apply (x agg : Vec Ideal S2000x256 .f32) (inv : Vec Ideal S2000x1 .f32)
    (wl wr : Vec Ideal S256x256 .f32) (b : Vec Ideal S1x256 .f32) (p : Fin 2000) (q : Fin 256) :
    k1_pay1 (F := Ideal) x agg inv wl wr b (ix2 p q) = sageAt (n := 2000) agg inv x wl wr b p q := by
  unfold k1_pay1 sageAt
  simp only [shapeCast_self]
  show max (Ideal.ofBits .f32 0x00000000#32
        + ((matmul dot_S2000x256_S256x256_S2000x256_1_0_0_1_n_n none
              (mulf agg (broadcastTo S2000x256 inv broadcasts_S2000x1_S2000x256)) wl
              (constant S2000x256 .f32 0x00000000#32) (ix2 p q)
            + matmul dot_S2000x256_S256x256_S2000x256_1_0_0_1_n_n none x wr
              (constant S2000x256 .f32 0x00000000#32) (ix2 p q))
          + broadcastTo S2000x256 b broadcasts_S1x256_S2000x256 (ix2 p q)))
      (Ideal.ofBits .f32 0x00000000#32) = _
  rw [mm_apply, mm_apply, row_apply]
  simp only [mulf_apply, col_apply]

/-- The arithmetic of region 2's body, read at the entry (p, q) of its 2000 × 256 block: the scaled arrangement
    of the block's six operands (the node's own rows, the aggregate rows, the column, the two weight matrices, the
    bias row). -/
theorem k2_pay1_apply (x agg : Vec Ideal S2000x256 .f32) (inv : Vec Ideal S2000x1 .f32)
    (wl wr : Vec Ideal S256x256 .f32) (b : Vec Ideal S1x256 .f32) (p : Fin 2000) (q : Fin 256) :
    k2_pay1 (F := Ideal) x agg inv wl wr b (ix2 p q) = sageAt (n := 2000) agg inv x wl wr b p q := by
  unfold k2_pay1 sageAt
  simp only [shapeCast_self]
  show max (Ideal.ofBits .f32 0x00000000#32
        + ((matmul dot_S2000x256_S256x256_S2000x256_1_0_0_1_n_n none
              (mulf agg (broadcastTo S2000x256 inv broadcasts_S2000x1_S2000x256)) wl
              (constant S2000x256 .f32 0x00000000#32) (ix2 p q)
            + matmul dot_S2000x256_S256x256_S2000x256_1_0_0_1_n_n none x wr
              (constant S2000x256 .f32 0x00000000#32) (ix2 p q))
          + broadcastTo S2000x256 b broadcasts_S1x256_S2000x256 (ix2 p q)))
      (Ideal.ofBits .f32 0x00000000#32) = _
  rw [mm_apply, mm_apply, row_apply]
  simp only [mulf_apply, col_apply]

end Cert.Bridge.L1D

end
-- ==== Proof.L1DBlocks1.lean ====
/-
  Region 1 (the one relation into the 4000 drugs): from the blocks its grid points write back to the whole result array.

  The region's grid has 2 points; point t stages rows 2000·t … 2000·t + 1999 of the aggregate, of the column of
  reciprocal counts and of the node features, the whole of the two 256 × 256 weight matrices and of the 1 × 256 bias
  row, and writes back rows 2000·t … 2000·t + 1999 of the result.  So what point t writes back is block t of ONE
  function of the six whole arrays — the scaled arrangement read at (2000·t + p, q) —, and since the 2 blocks tile the
  4000 rows, the result array ends holding that function.  Everything is stated at any contents V of the
  buffers at the region's entry.
-/
import proofs.«176458_j69930657513814_2_alg».proof.Proof.KIFrame
import proofs.«176458_j69930657513814_2_alg».proof.Proof.L1DPay
import Idealize.ShloMosaic.Lib.Pipeline.Value

set_option maxRecDepth 16384

noncomputable section

namespace Cert.Bridge.L1D

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz1 : (![0, 0] : Fin 2 → Nat) = fun _ => 0 := funext fun a => by fin_cases a <;> rfl

/-- The whole-array function region 1 computes, of its six input arrays as the region finds them. -/
abbrev G1 (c : Dev nD) : S4000x256.Idx → EReal :=
  sage (n := 4000) (V c main_v132) (V c main_v21) (V c main_arg0) (V c main_v134) (V c main_v136) (V c main_v139)

/-- The printed index maps, decided over the grid: the three row-blocked inputs move with the output's block along
    the rows and stay at column block 0; the weights and the bias stay at block (0, 0); the output's row block is t. -/
theorem idx_facts1 : ∀ t : Fin cfg1.N,
      win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 1 :=
  (by decide +kernel : ∀ t : Fin grid1.N, _)

/-- Every row block is some point's. -/
theorem idx_onto1 : ∀ q0 : Fin 2, ∃ t : Fin cfg1.N, win1_6.index t = ![q0.val, 0] :=
  (by decide +kernel : ∀ q0 : Fin 2, ∃ t : Fin grid1.N, win1_6.index t = ![q0.val, 0])

/-- WHAT POINT t WRITES BACK is block t of the whole-array function of the six arrays. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S2000x1) hz1,
    View.ld_unit_zero (S := S256x256) hz1, View.ld_unit_zero (S := S1x256) hz1]
  obtain ⟨e00, e01, e10, e11, e20, e21, e30, e31, e40, e41, e50, e51, e61, e60⟩ := idx_facts1 t
  funext j
  obtain ⟨p, q, rfl⟩ : ∃ (p : Fin 2000) (q : Fin 256), j = ix2 p q := ⟨j 0, j 1, eq_ix2 j⟩
  show k1_pay1 (F := Ideal) (iblk1 V c 2 t) (iblk1 V c 0 t) (iblk1 V c 1 t) (iblk1 V c 3 t) (iblk1 V c 4 t) (iblk1 V c 5 t) (ix2 p q)
      = sageAt (n := 4000) (V c main_v132) (V c main_v21) (V c main_arg0) (V c main_v134) (V c main_v136) (V c main_v139)
          ((((cfg1.win 6).blk t).view.emb (ix2 p q)) 0) ((((cfg1.win 6).blk t).view.emb (ix2 p q)) 1)
  refine (k1_pay1_apply _ _ _ _ _ _ p q).trans ?_
  refine sageAt_congr p _ q _ (fun k => ?_) ?_ (fun k => ?_) (fun k => ?_) (fun k => ?_) ?_
  · show V c main_v132 (((cfg1.win 0).blk t).view.emb (ix2 p k)) = V c main_v132 _
    refine congrArg (V c main_v132) (funext fun a => Fin.ext ?_)
    match a with
    | ⟨0, _⟩ => show win1_0.index t (0 : Fin 2) * 2000 + 1 * p.val = win1_6.index t (0 : Fin 2) * 2000 + 1 * p.val; rw [e00]
    | ⟨1, _⟩ => show win1_0.index t (1 : Fin 2) * 256 + 1 * k.val = k.val; rw [e01]; omega
  · show V c main_v21 (((cfg1.win 1).blk t).view.emb (ix2 p (0 : Fin 1))) = V c main_v21 _
    refine congrArg (V c main_v21) (funext fun a => Fin.ext ?_)
    match a with
    | ⟨0, _⟩ => show win1_1.index t (0 : Fin 2) * 2000 + 1 * p.val = win1_6.index t (0 : Fin 2) * 2000 + 1 * p.val; rw [e10]
    | ⟨1, _⟩ => show win1_1.index t (1 : Fin 2) * 1 + 1 * 0 = 0; rw [e11]
  · show V c main_arg0 (((cfg1.win 2).blk t).view.emb (ix2 p k)) = V c main_arg0 _
    refine congrArg (V c main_arg0) (funext fun a => Fin.ext ?_)
    match a with
    | ⟨0, _⟩ => show win1_2.index t (0 : Fin 2) * 2000 + 1 * p.val = win1_6.index t (0 : Fin 2) * 2000 + 1 * p.val; rw [e20]
    | ⟨1, _⟩ => show win1_2.index t (1 : Fin 2) * 256 + 1 * k.val = k.val; rw [e21]; omega
  · show V c main_v134 (((cfg1.win 3).blk t).view.emb (ix2 k q)) = V c main_v134 _
    refine congrArg (V c main_v134) (funext fun a => Fin.ext ?_)
    match a with
    | ⟨0, _⟩ => show win1_3.index t (0 : Fin 2) * 256 + 1 * k.val = k.val; rw [e30]; omega
    | ⟨1, _⟩ => show win1_3.index t (1 : Fin 2) * 256 + 1 * q.val = win1_6.index t (1 : Fin 2) * 256 + 1 * q.val; rw [e31, e61]
  · show V c main_v136 (((cfg1.win 4).blk t).view.emb (ix2 k q)) = V c main_v136 _
    refine congrArg (V c main_v136) (funext fun a => Fin.ext ?_)
    match a with
    | ⟨0, _⟩ => show win1_4.index t (0 : Fin 2) * 256 + 1 * k.val = k.val; rw [e40]; omega
    | ⟨1, _⟩ => show win1_4.index t (1 : Fin 2) * 256 + 1 * q.val = win1_6.index t (1 : Fin 2) * 256 + 1 * q.val; rw [e41, e61]
  · show V c main_v139 (((cfg1.win 5).blk t).view.emb (ix2 (0 : Fin 1) q)) = V c main_v139 _
    refine congrArg (V c main_v139) (funext fun a => Fin.ext ?_)
    match a with
    | ⟨0, _⟩ => show win1_5.index t (0 : Fin 2) * 1 + 1 * 0 = 0; rw [e50]
    | ⟨1, _⟩ => show win1_5.index t (1 : Fin 2) * 256 + 1 * q.val = win1_6.index t (1 : Fin 2) * 256 + 1 * q.val; rw [e51, e61]

/-- An index of the result array is in point t's block iff each coordinate is in the block's range on its axis. -/
theorem mem_blk1 (t : Fin cfg1.N) (i : S4000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v140).slice (win1_6.rect t)).set ↔ _
  rw [View.set_slice_whole, Rect.mem_set_unit]
  exact Iff.rfl

/-- Every entry of the result array is in some point's block: row r is in block r / 2000. -/
theorem cover1 (i : S4000x256.Idx) : ∃ t : Fin cfg1.N, (cfg1.win 6).flush t = true ∧ i ∈ ((cfg1.win 6).blk t).view.set := by
  have hi0 : (i 0).val < 4000 := (i 0).isLt
  have hi1 : (i 1).val < 256 := (i 1).isLt
  obtain ⟨t, ht⟩ := idx_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- THE RESULT ARRAY after region 1: the whole-array function of the six arrays as the region finds them. -/
theorem final1 (c : Dev nD) : (dat1 V c).arrAt 6 cfg1.N = G1 V c :=
  (dat1 V c).arrAt_eq_of_cover 6 (G1 V c) (fun t _ => flushed1_eq V c t) (cover1)

end Cert.Bridge.L1D

end
-- ==== Proof.L1DRef.lean ====
/-
  The reference's first layer into the drugs and into the diseases, read at an entry.

  Each is one relation: the aggregate of the source rows divided by max(count, 1), through the relation's slice of the
  first weight stack; the node's own row through its slice of the second; its slice of the bias stack; the rectifier.
  The aggregate (a gather of rows scattered onto the destinations) and the count (ones scattered onto the
  destinations) are kept as the whole arrays they are: which entries they read depends on the edge list's values, and
  nothing here needs to open them.  Read at (p, q), the stages compose to the dividing arrangement of those arrays.
-/
import proofs.«176458_j69930657513814_2_alg».proof.Proof.RefRead
import proofs.«176458_j69930657513814_2_alg».proof.Proof.L1DSpec

noncomputable section

namespace Cert.Bridge.L1D

open Idealize.ShloMosaic Idealize.ShloMosaic.ValueIdx
open Cert.ReferenceIdeal Cert.ReferenceIdeal.Read

/-! ## drug -/

theorem drug_lidxL (p : Fin 4000) (q k : Fin 256) : lidx_main_v136 (ix2 p q) k = ix2 p k :=
  funext fun a => match a with | ⟨0, _⟩ => rfl | ⟨1, _⟩ => rfl
theorem drug_ridxL (p : Fin 4000) (q k : Fin 256) : ridx_main_v136 (ix2 p q) k = ix2 k q :=
  funext fun a => match a with | ⟨0, _⟩ => rfl | ⟨1, _⟩ => rfl
theorem drug_lidxR (p : Fin 4000) (q k : Fin 256) : lidx_main_v137 (ix2 p q) k = ix2 p k :=
  funext fun a => match a with | ⟨0, _⟩ => rfl | ⟨1, _⟩ => rfl
theorem drug_ridxR (p : Fin 4000) (q k : Fin 256) : ridx_main_v137 (ix2 p q) k = ix2 k q :=
  funext fun a => match a with | ⟨0, _⟩ => rfl | ⟨1, _⟩ => rfl
theorem drug_idxCnt (p : Fin 4000) (k : Fin 256) : idx_main_v133 (idx_main_v134 (ix2 p k)) = ix1 p :=
  funext fun a => match a with | ⟨0, _⟩ => rfl
theorem drug_idxBias (p : Fin 4000) (q : Fin 256) : idx_main_v139 (idx_main_v140 (ix2 p q)) = ix1 q :=
  funext fun a => match a with | ⟨0, _⟩ => rfl

/-- The reference's hidden drug features at (p, q): the dividing arrangement of its aggregate (the gather of the
    source rows scattered onto the destinations), its in-degree count, the node features, the relation's two weight
    slices and its bias slice. -/
theorem ref_drug (x0 : (⟨S4000x256, .f32⟩ : BufTy).Contents (Elt Ideal)) (x2 : (⟨S20000x256, .f32⟩ : BufTy).Contents (Elt Ideal))
    (x4 : (⟨S2x200000, .i32⟩ : BufTy).Contents (Elt Ideal)) (x8 x9 : (⟨S5x256x256, .f32⟩ : BufTy).Contents (Elt Ideal))
    (x10 : (⟨S5x256, .f32⟩ : BufTy).Contents (Elt Ideal)) (p : Fin 4000) (q : Fin 256) :
    val_main_v177 (F := Ideal) x0 x2 x4 x8 x9 x10 (ix2 p q)
      = sageRefAt (n := 4000) (val_main_v126 (F := Ideal) x2 x4) (val_main_v130 (F := Ideal) x4) x0
          (val_main_v108 (F := Ideal) x8) (val_main_v110 (F := Ideal) x9) (val_main_v112 (F := Ideal) x10) p q := by
  rw [val_main_v177_apply, val_main_v141_apply, val_main_v138_apply, val_main_v136_apply, val_main_v137_apply,
    val_main_v140_apply, val_main_v139_apply, val_main_call0_v0_apply]
  simp only [val_main_v135_apply, val_main_v134_apply, val_main_v133_apply, val_main_v132_apply, val_main_v131_apply,
    drug_lidxL, drug_ridxL, drug_lidxR, drug_ridxR, drug_idxCnt, drug_idxBias]
  rfl

/-- The reciprocal count the other program forms — ones divided by the reference's max(count, 1) — read at a
    destination p: 1 / max(count(p), 1). -/
theorem drug_inv (x4 : (⟨S2x200000, .i32⟩ : BufTy).Contents (Elt Ideal)) (p : Fin 4000) :
    Host.divf (F := Ideal) (s := S4000) (φ := .f32) (val_main_v131 (F := Ideal)) (val_main_v132 (F := Ideal) x4) (ix1 p)
      = Ideal.div (Ideal.ofBits .f32 0x3F800000#32)
          (max (val_main_v130 (F := Ideal) x4 (ix1 p)) (Ideal.ofBits .f32 0x3F800000#32)) := by
  unfold Host.divf
  simp only [val_main_v132_apply, val_main_v131_apply]
  rfl

/-! ## disease -/

theorem disease_lidxL (p : Fin 8000) (q k : Fin 256) : lidx_main_v171 (ix2 p q) k = ix2 p k :=
  funext fun a => match a with | ⟨0, _⟩ => rfl | ⟨1, _⟩ => rfl
theorem disease_ridxL (p : Fin 8000) (q k : Fin 256) : ridx_main_v171 (ix2 p q) k = ix2 k q :=
  funext fun a => match a with | ⟨0, _⟩ => rfl | ⟨1, _⟩ => rfl
theorem disease_lidxR (p : Fin 8000) (q k : Fin 256) : lidx_main_v172 (ix2 p q) k = ix2 p k :=
  funext fun a => match a with | ⟨0, _⟩ => rfl | ⟨1, _⟩ => rfl
theorem disease_ridxR (p : Fin 8000) (q k : Fin 256) : ridx_main_v172 (ix2 p q) k = ix2 k q :=
  funext fun a => match a with | ⟨0, _⟩ => rfl | ⟨1, _⟩ => rfl
theorem disease_idxCnt (p : Fin 8000) (k : Fin 256) : idx_main_v168 (idx_main_v169 (ix2 p k)) = ix1 p :=
  funext fun a => match a with | ⟨0, _⟩ => rfl
theorem disease_idxBias (p : Fin 8000) (q : Fin 256) : idx_main_v174 (idx_main_v175 (ix2 p q)) = ix1 q :=
  funext fun a => match a with | ⟨0, _⟩ => rfl

/-- The reference's hidden disease features at (p, q): the dividing arrangement of its aggregate (the gather of the
    source rows scattered onto the destinations), its in-degree count, the node features, the relation's two weight
    slices and its bias slice. -/
theorem ref_disease (x1 : (⟨S8000x256, .f32⟩ : BufTy).Contents (Elt Ideal)) (x2 : (⟨S20000x256, .f32⟩ : BufTy).Contents (Elt Ideal))
    (x5 : (⟨S2x300000, .i32⟩ : BufTy).Contents (Elt Ideal)) (x8 x9 : (⟨S5x256x256, .f32⟩ : BufTy).Contents (Elt Ideal))
    (x10 : (⟨S5x256, .f32⟩ : BufTy).Contents (Elt Ideal)) (p : Fin 8000) (q : Fin 256) :
    val_main_v178 (F := Ideal) x1 x2 x5 x8 x9 x10 (ix2 p q)
      = sageRefAt (n := 8000) (val_main_v161 (F := Ideal) x2 x5) (val_main_v165 (F := Ideal) x5) x1
          (val_main_v143 (F := Ideal) x8) (val_main_v145 (F := Ideal) x9) (val_main_v147 (F := Ideal) x10) p q := by
  rw [val_main_v178_apply, val_main_v176_apply, val_main_v173_apply, val_main_v171_apply, val_main_v172_apply,
    val_main_v175_apply, val_main_v174_apply, val_main_call1_v0_apply]
  simp only [val_main_v170_apply, val_main_v169_apply, val_main_v168_apply, val_main_v167_apply, val_main_v166_apply,
    disease_lidxL, disease_ridxL, disease_lidxR, disease_ridxR, disease_idxCnt, disease_idxBias]
  rfl

/-- The reciprocal count the other program forms — ones divided by the reference's max(count, 1) — read at a
    destination p: 1 / max(count(p), 1). -/
theorem disease_inv (x5 : (⟨S2x300000, .i32⟩ : BufTy).Contents (Elt Ideal)) (p : Fin 8000) :
    Host.divf (F := Ideal) (s := S8000) (φ := .f32) (val_main_v166 (F := Ideal)) (val_main_v167 (F := Ideal) x5) (ix1 p)
      = Ideal.div (Ideal.ofBits .f32 0x3F800000#32)
          (max (val_main_v165 (F := Ideal) x5 (ix1 p)) (Ideal.ofBits .f32 0x3F800000#32)) := by
  unfold Host.divf
  simp only [val_main_v167_apply, val_main_v166_apply]
  rfl

end Cert.Bridge.L1D

end
-- ==== Proof.L1DArgs.lean ====
/-
  The launch arguments, read at the entries of the two one-relation regions of the first layer.

  No host operation writes an argument's buffer, and a region leaves an argument as it found it (it either does not
  touch it or stages it through an input window and never writes it back).  So the buffer contents at a segment
  boundary, read at an argument, are the launch memory's: walked back one segment at a time from the boundary to the
  launch.
-/
import proofs.«176458_j69930657513814_2_alg».proof.Proof.KIFrame
import Idealize.ShloMosaic.PureOps.Ideal

set_option maxRecDepth 16384

noncomputable section

namespace Cert.Bridge.L1D

open Idealize.ShloMosaic Idealize.ShloMosaic.TcCoe Idealize.SL.Sem
open Idealize.ShloMosaic.Pipeline (Dat)
open Cert.KernelIdeal Cert.KernelIdeal.Gen Cert.KernelIdeal.GenP

variable (m : (ℓ : Loc nD τ sig) → Buf (Elt Ideal) ℓ) (ρ : Dev nD → PrngReg) (c : Dev nD)

/-- A stretch of host operations none of which writes the buffer leaves it as it was: the stretch's list of result
    buffers is literal, and each is told apart from the buffer in question by deciding the two references unequal. -/
local macro "not_written_by " ops:ident : tactic => `(tactic| (
  refine StableHlo.after_of_forall_not_mem _ _ (List.forall_iff_forall_mem.mp ?_)
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first host stretch -/

theorem W1_arg0 : W1 (F := Ideal) m ρ c (Proc.devRef .tc main_arg0) = m ((c : Thread nD τ).loc main_arg0) := by
  refine Eq.trans (?_ : _ = W0 (F := Ideal) m ρ c (Proc.devRef .tc main_arg0)) rfl
  not_written_by hostOps0
theorem W1_arg1 : W1 (F := Ideal) m ρ c (Proc.devRef .tc main_arg1) = m ((c : Thread nD τ).loc main_arg1) := by
  refine Eq.trans (?_ : _ = W0 (F := Ideal) m ρ c (Proc.devRef .tc main_arg1)) rfl
  not_written_by hostOps0
theorem W1_arg2 : W1 (F := Ideal) m ρ c (Proc.devRef .tc main_arg2) = m ((c : Thread nD τ).loc main_arg2) := by
  refine Eq.trans (?_ : _ = W0 (F := Ideal) m ρ c (Proc.devRef .tc main_arg2)) rfl
  not_written_by hostOps0
theorem W1_arg4 : W1 (F := Ideal) m ρ c (Proc.devRef .tc main_arg4) = m ((c : Thread nD τ).loc main_arg4) := by
  refine Eq.trans (?_ : _ = W0 (F := Ideal) m ρ c (Proc.devRef .tc main_arg4)) rfl
  not_written_by hostOps0
theorem W1_arg5 : W1 (F := Ideal) m ρ c (Proc.devRef .tc main_arg5) = m ((c : Thread nD τ).loc main_arg5) := by
  refine Eq.trans (?_ : _ = W0 (F := Ideal) m ρ c (Proc.devRef .tc main_arg5)) rfl
  not_written_by hostOps0
theorem W1_arg8 : W1 (F := Ideal) m ρ c (Proc.devRef .tc main_arg8) = m ((c : Thread nD τ).loc main_arg8) := by
  refine Eq.trans (?_ : _ = W0 (F := Ideal) m ρ c (Proc.devRef .tc main_arg8)) rfl
  not_written_by hostOps0
theorem W1_arg9 : W1 (F := Ideal) m ρ c (Proc.devRef .tc main_arg9) = m ((c : Thread nD τ).loc main_arg9) := by
  refine Eq.trans (?_ : _ = W0 (F := Ideal) m ρ c (Proc.devRef .tc main_arg9)) rfl
  not_written_by hostOps0
theorem W1_arg10 : W1 (F := Ideal) m ρ c (Proc.devRef .tc main_arg10) = m ((c : Thread nD τ).loc main_arg10) := by
  refine Eq.trans (?_ : _ = W0 (F := Ideal) m ρ c (Proc.devRef .tc main_arg10)) rfl
  not_written_by hostOps0

/-! ## After the three-relation region (it stages the protein features through an input window) -/

theorem W2_arg0 : W2 (F := Ideal) m ρ c (Proc.devRef .tc main_arg0) = m ((c : Thread nD τ).loc main_arg0) :=
  (W2_of_ne m ρ c main_arg0 (by decide)).trans (W1_arg0 m ρ c)
theorem W2_arg1 : W2 (F := Ideal) m ρ c (Proc.devRef .tc main_arg1) = m ((c : Thread nD τ).loc main_arg1) :=
  (W2_of_ne m ρ c main_arg1 (by decide)).trans (W1_arg1 m ρ c)
theorem W2_arg4 : W2 (F := Ideal) m ρ c (Proc.devRef .tc main_arg4) = m ((c : Thread nD τ).loc main_arg4) :=
  (W2_of_ne m ρ c main_arg4 (by decide)).trans (W1_arg4 m ρ c)
theorem W2_arg5 : W2 (F := Ideal) m ρ c (Proc.devRef .tc main_arg5) = m ((c : Thread nD τ).loc main_arg5) :=
  (W2_of_ne m ρ c main_arg5 (by decide)).trans (W1_arg5 m ρ c)
theorem W2_arg8 : W2 (F := Ideal) m ρ c (Proc.devRef .tc main_arg8) = m ((c : Thread nD τ).loc main_arg8) :=
  (W2_of_ne m ρ c main_arg8 (by decide)).trans (W1_arg8 m ρ c)
theorem W2_arg9 : W2 (F := Ideal) m ρ c (Proc.devRef .tc main_arg9) = m ((c : Thread nD τ).loc main_arg9) :=
  (W2_of_ne m ρ c main_arg9 (by decide)).trans (W1_arg9 m ρ c)
theorem W2_arg10 : W2 (F := Ideal) m ρ c (Proc.devRef .tc main_arg10) = m ((c : Thread nD τ).loc main_arg10) :=
  (W2_of_ne m ρ c main_arg10 (by decide)).trans (W1_arg10 m ρ c)
theorem W2_arg2 : W2 (F := Ideal) m ρ c (Proc.devRef .tc main_arg2) = m ((c : Thread nD τ).loc main_arg2) :=
  ((W2_arr m ρ c 6).trans (((dat0 (V1 m ρ) c).arrAt_in 6 rfl _).trans (A_eq0 (V1 m ρ) c 6))).trans (W1_arg2 m ρ c)

/-! ## After the second host stretch: the entry of the region into the drugs -/

theorem W3_arg0 : W3 (F := Ideal) m ρ c (Proc.devRef .tc main_arg0) = m ((c : Thread nD τ).loc main_arg0) := by
  refine Eq.trans (?_ : _ = W2 (F := Ideal) m ρ c (Proc.devRef .tc main_arg0)) (W2_arg0 m ρ c)
  not_written_by hostOps1
theorem W3_arg1 : W3 (F := Ideal) m ρ c (Proc.devRef .tc main_arg1) = m ((c : Thread nD τ).loc main_arg1) := by
  refine Eq.trans (?_ : _ = W2 (F := Ideal) m ρ c (Proc.devRef .tc main_arg1)) (W2_arg1 m ρ c)
  not_written_by hostOps1
theorem W3_arg2 : W3 (F := Ideal) m ρ c (Proc.devRef .tc main_arg2) = m ((c : Thread nD τ).loc main_arg2) := by
  refine Eq.trans (?_ : _ = W2 (F := Ideal) m ρ c (Proc.devRef .tc main_arg2)) (W2_arg2 m ρ c)
  not_written_by hostOps1
theorem W3_arg5 : W3 (F := Ideal) m ρ c (Proc.devRef .tc main_arg5) = m ((c : Thread nD τ).loc main_arg5) := by
  refine Eq.trans (?_ : _ = W2 (F := Ideal) m ρ c (Proc.devRef .tc main_arg5)) (W2_arg5 m ρ c)
  not_written_by hostOps1
theorem W3_arg8 : W3 (F := Ideal) m ρ c (Proc.devRef .tc main_arg8) = m ((c : Thread nD τ).loc main_arg8) := by
  refine Eq.trans (?_ : _ = W2 (F := Ideal) m ρ c (Proc.devRef .tc main_arg8)) (W2_arg8 m ρ c)
  not_written_by hostOps1
theorem W3_arg9 : W3 (F := Ideal) m ρ c (Proc.devRef .tc main_arg9) = m ((c : Thread nD τ).loc main_arg9) := by
  refine Eq.trans (?_ : _ = W2 (F := Ideal) m ρ c (Proc.devRef .tc main_arg9)) (W2_arg9 m ρ c)
  not_written_by hostOps1
theorem W3_arg10 : W3 (F := Ideal) m ρ c (Proc.devRef .tc main_arg10) = m ((c : Thread nD τ).loc main_arg10) := by
  refine Eq.trans (?_ : _ = W2 (F := Ideal) m ρ c (Proc.devRef .tc main_arg10)) (W2_arg10 m ρ c)
  not_written_by hostOps1

/-! ## After the region into the drugs (it stages the drug features, which the region into the diseases does not read) -/

theorem W4_arg1 : W4 (F := Ideal) m ρ c (Proc.devRef .tc main_arg1) = m ((c : Thread nD τ).loc main_arg1) :=
  (W4_of_ne m ρ c main_arg1 (by decide)).trans (W3_arg1 m ρ c)
theorem W4_arg2 : W4 (F := Ideal) m ρ c (Proc.devRef .tc main_arg2) = m ((c : Thread nD τ).loc main_arg2) :=
  (W4_of_ne m ρ c main_arg2 (by decide)).trans (W3_arg2 m ρ c)
theorem W4_arg5 : W4 (F := Ideal) m ρ c (Proc.devRef .tc main_arg5) = m ((c : Thread nD τ).loc main_arg5) :=
  (W4_of_ne m ρ c main_arg5 (by decide)).trans (W3_arg5 m ρ c)
theorem W4_arg8 : W4 (F := Ideal) m ρ c (Proc.devRef .tc main_arg8) = m ((c : Thread nD τ).loc main_arg8) :=
  (W4_of_ne m ρ c main_arg8 (by decide)).trans (W3_arg8 m ρ c)
theorem W4_arg9 : W4 (F := Ideal) m ρ c (Proc.devRef .tc main_arg9) = m ((c : Thread nD τ).loc main_arg9) :=
  (W4_of_ne m ρ c main_arg9 (by decide)).trans (W3_arg9 m ρ c)
theorem W4_arg10 : W4 (F := Ideal) m ρ c (Proc.devRef .tc main_arg10) = m ((c : Thread nD τ).loc main_arg10) :=
  (W4_of_ne m ρ c main_arg10 (by decide)).trans (W3_arg10 m ρ c)

/-! ## The entry of the region into the diseases; the two columns of reciprocal counts, written by the first stretch -/

theorem W5_arg1 : W5 (F := Ideal) m ρ c (Proc.devRef .tc main_arg1) = m ((c : Thread nD τ).loc main_arg1) := by
  refine Eq.trans (?_ : _ = W4 (F := Ideal) m ρ c (Proc.devRef .tc main_arg1)) (W4_arg1 m ρ c)
  not_written_by hostOps2

/-- The column of reciprocal in-degrees of the drugs is, at the entry of the region into the drugs, what the first
    host stretch left: neither the three-relation region nor the second stretch writes it. -/
theorem W3_v21 : W3 (F := Ideal) m ρ c (Proc.devRef .tc main_v21) = W1 (F := Ideal) m ρ c (Proc.devRef .tc main_v21) := by
  refine Eq.trans (?_ : _ = W2 (F := Ideal) m ρ c (Proc.devRef .tc main_v21)) (W2_of_ne m ρ c main_v21 (by decide))
  not_written_by hostOps1

/-- The column of reciprocal in-degrees of the diseases likewise, at the entry of the region into the diseases. -/
theorem W5_v32 : W5 (F := Ideal) m ρ c (Proc.devRef .tc main_v32) = W1 (F := Ideal) m ρ c (Proc.devRef .tc main_v32) := by
  have h5 : W5 (F := Ideal) m ρ c (Proc.devRef .tc main_v32) = W4 (F := Ideal) m ρ c (Proc.devRef .tc main_v32) := by
    not_written_by hostOps2
  have h3 : W3 (F := Ideal) m ρ c (Proc.devRef .tc main_v32) = W2 (F := Ideal) m ρ c (Proc.devRef .tc main_v32) := by
    not_written_by hostOps1
  exact h5.trans ((W4_of_ne m ρ c main_v32 (by decide)).trans (h3.trans (W2_of_ne m ρ c main_v32 (by decide))))

end Cert.Bridge.L1D

end
-- ==== Proof.L1DHost1.lean ====
/-
  The region into the drugs: its input arrays are the reference's stages, and its result is the reference's hidden drug features.

  At the region's entry five of its six input arrays were written by host operations (the sixth is the node
  features, a launch argument).  The aggregate, the two weight slices and the bias slice come from the stretch just
  before the region, the column of reciprocal counts from the first stretch.  Operation by operation these are the
  reference's own stages of the same launch arguments — the same gathers, scatters, slices and constants —, so each
  array is identified with the reference's stage as a whole and never opened; only the column (the reciprocal of
  max(count, 1), which the reference never forms) and the bias (a reshape where the reference broadcasts) are read at
  an entry.  Then the law of the scaled and the dividing arrangements joins the two programs.
-/
import proofs.«176458_j69930657513814_2_alg».proof.Proof.KIFrame
import proofs.«176458_j69930657513814_2_alg».proof.Proof.RefRead
import proofs.«176458_j69930657513814_2_alg».proof.Proof.Args
import proofs.«176458_j69930657513814_2_alg».proof.Proof.L1DSpec
import proofs.«176458_j69930657513814_2_alg».proof.Proof.L1DBlocks1
import proofs.«176458_j69930657513814_2_alg».proof.Proof.L1DRef
import proofs.«176458_j69930657513814_2_alg».proof.Proof.L1DArgs
import Idealize.ShloMosaic.Lib.Pipeline.Value

set_option maxRecDepth 16384

noncomputable section

namespace Cert.Bridge.L1D

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : Cert.Bridge.KMem) (ρ : Dev nD → PrngReg) (c : Dev nD)

set_option maxHeartbeats 4000000 in
/-- The aggregate at the region's entry is the reference's: the gather of the protein rows at the edge sources
    (a negative source shifted by the row count first), scattered onto zeros at the edge destinations. -/
theorem V3_agg : (V3 (F := Ideal) m ρ c main_v132 : S4000x256.Idx → EReal)
    = Cert.ReferenceIdeal.Read.val_main_v126 (F := Ideal) (Cert.Bridge.a2 m c) (Cert.Bridge.a4 m c) := by
  show StableHlo.after hostOps1 (W2 (F := Ideal) m ρ c) (Proc.devRef .tc main_v132) = _
  dsimp only [hostOps1]
  after_results_simp
  rw [W2_arg2 m ρ c, W2_arg4 m ρ c]
  rfl

set_option maxHeartbeats 4000000 in
/-- The first weight slice at the region's entry is the reference's. -/
theorem V3_wl : (V3 (F := Ideal) m ρ c main_v134 : S256x256.Idx → EReal)
    = Cert.ReferenceIdeal.Read.val_main_v108 (F := Ideal) (Cert.Bridge.a8 m c) := by
  show StableHlo.after hostOps1 (W2 (F := Ideal) m ρ c) (Proc.devRef .tc main_v134) = _
  dsimp only [hostOps1]
  after_results_simp
  rw [W2_arg8 m ρ c]
  rfl

set_option maxHeartbeats 4000000 in
/-- The second weight slice at the region's entry is the reference's. -/
theorem V3_wr : (V3 (F := Ideal) m ρ c main_v136 : S256x256.Idx → EReal)
    = Cert.ReferenceIdeal.Read.val_main_v110 (F := Ideal) (Cert.Bridge.a9 m c) := by
  show StableHlo.after hostOps1 (W2 (F := Ideal) m ρ c) (Proc.devRef .tc main_v136) = _
  dsimp only [hostOps1]
  after_results_simp
  rw [W2_arg9 m ρ c]
  rfl

set_option maxHeartbeats 4000000 in
/-- The bias row at the region's entry is the reference's bias slice, reshaped from 256 entries to one row. -/
theorem V3_b : (V3 (F := Ideal) m ρ c main_v139 : S1x256.Idx → EReal)
    = shapeCast S1x256 (Cert.ReferenceIdeal.Read.val_main_v112 (F := Ideal) (Cert.Bridge.a10 m c)) shapeCasts_S256_S1x256 := by
  show StableHlo.after hostOps1 (W2 (F := Ideal) m ρ c) (Proc.devRef .tc main_v139) = _
  dsimp only [hostOps1]
  after_results_simp
  rw [W2_arg10 m ρ c]
  rfl

set_option maxHeartbeats 4000000 in
/-- The column of reciprocal counts at the region's entry: ones divided by the reference's max(count, 1), made a column. -/
theorem V3_inv : (V3 (F := Ideal) m ρ c main_v21 : S4000x1.Idx → EReal)
    = broadcastInDim S4000x1 ![0] bcast_S4000_S4000x1_0
        (Host.divf (F := Ideal) (s := S4000) (φ := .f32) (Cert.ReferenceIdeal.Read.val_main_v131 (F := Ideal)) (Cert.ReferenceIdeal.Read.val_main_v132 (F := Ideal) (Cert.Bridge.a4 m c))) := by
  show W3 (F := Ideal) m ρ c (Proc.devRef .tc main_v21) = _
  rw [W3_v21 m ρ c]
  show StableHlo.after hostOps0 (W0 (F := Ideal) m ρ c) (Proc.devRef .tc main_v21) = _
  dsimp only [hostOps0]
  after_results_simp
  rfl

/-- The node features at the region's entry are the launch argument. -/
theorem V3_x : (V3 (F := Ideal) m ρ c main_arg0 : S4000x256.Idx → EReal) = Cert.Bridge.a0 m c :=
  W3_arg0 m ρ c

/-- THE HIDDEN DRUG FEATURES: the kernel's buffer after the region is the reference's rectified first layer. -/
theorem hd_eq (m : Cert.Bridge.KMem) (ρ : Dev nD → PrngReg) (c : Dev nD) :
    W4 (F := Ideal) m ρ c (Proc.devRef .tc main_v140) = Cert.Bridge.HD m c := by
  refine ((W4_arr m ρ c 6).trans (final1 (V3 m ρ) c)).trans ?_
  funext i
  obtain ⟨p, q, rfl⟩ : ∃ (p : Fin 4000) (q : Fin 256), i = ix2 p q := ⟨i 0, i 1, eq_ix2 i⟩
  show sageAt (n := 4000) (V3 m ρ c main_v132) (V3 m ρ c main_v21) (V3 m ρ c main_arg0) (V3 m ρ c main_v134)
      (V3 m ρ c main_v136) (V3 m ρ c main_v139) p q = _
  rw [V3_agg m ρ c, V3_inv m ρ c, V3_x m ρ c, V3_wl m ρ c, V3_wr m ρ c, V3_b m ρ c]
  unfold Cert.Bridge.HD
  rw [ref_drug]
  refine sageAt_eq_ref _ _ (Cert.ReferenceIdeal.Read.val_main_v130 (F := Ideal) (Cert.Bridge.a4 m c)) _ _ _ _ _ p q ?_ ?_
  · refine (broadcastInDim_apply _ bcast_S4000_S4000x1_0 _ (ix2 p (0 : Fin 1)) (ix1 p) (fun a => match a with
      | ⟨0, _⟩ => by show p.val = if (4000 : Nat) = 1 then 0 else p.val; rw [if_neg (by decide)])).trans ?_
    exact drug_inv (Cert.Bridge.a4 m c) p
  · exact shapeCast_apply _ shapeCasts_S256_S1x256 (ix2 (0 : Fin 1) q) (ix1 q) (by
      rw [Shape.rowMajor_val_one, Shape.rowMajor_val_two]
      show q.val = 0 * 256 + q.val
      omega)

end Cert.Bridge.L1D

end
-- ==== Proof.L1DBlocks2.lean ====
/-
  Region 2 (the one relation into the 8000 diseases): from the blocks its grid points write back to the whole result array.

  The region's grid has 4 points; point t stages rows 2000·t … 2000·t + 1999 of the aggregate, of the column of
  reciprocal counts and of the node features, the whole of the two 256 × 256 weight matrices and of the 1 × 256 bias
  row, and writes back rows 2000·t … 2000·t + 1999 of the result.  So what point t writes back is block t of ONE
  function of the six whole arrays — the scaled arrangement read at (2000·t + p, q) —, and since the 4 blocks tile the
  8000 rows, the result array ends holding that function.  Everything is stated at any contents V of the
  buffers at the region's entry.
-/
import proofs.«176458_j69930657513814_2_alg».proof.Proof.KIFrame
import proofs.«176458_j69930657513814_2_alg».proof.Proof.L1DPay
import Idealize.ShloMosaic.Lib.Pipeline.Value

set_option maxRecDepth 16384

noncomputable section

namespace Cert.Bridge.L1D

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

theorem hz2 : (![0, 0] : Fin 2 → Nat) = fun _ => 0 := funext fun a => by fin_cases a <;> rfl

/-- The whole-array function region 2 computes, of its six input arrays as the region finds them. -/
abbrev G2 (c : Dev nD) : S8000x256.Idx → EReal :=
  sage (n := 8000) (V c main_v154) (V c main_v32) (V c main_arg1) (V c main_v156) (V c main_v158) (V c main_v161)

/-- The printed index maps, decided over the grid: the three row-blocked inputs move with the output's block along
    the rows and stay at column block 0; the weights and the bias stay at block (0, 0); the output's row block is t. -/
theorem idx_facts2 : ∀ t : Fin cfg2.N,
      win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 3 :=
  (by decide +kernel : ∀ t : Fin grid2.N, _)

/-- Every row block is some point's. -/
theorem idx_onto2 : ∀ q0 : Fin 4, ∃ t : Fin cfg2.N, win2_6.index t = ![q0.val, 0] :=
  (by decide +kernel : ∀ q0 : Fin 4, ∃ t : Fin grid2.N, win2_6.index t = ![q0.val, 0])

/-- WHAT POINT t WRITES BACK is block t of the whole-array function of the six arrays. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S2000x1) hz2,
    View.ld_unit_zero (S := S256x256) hz2, View.ld_unit_zero (S := S1x256) hz2]
  obtain ⟨e00, e01, e10, e11, e20, e21, e30, e31, e40, e41, e50, e51, e61, e60⟩ := idx_facts2 t
  funext j
  obtain ⟨p, q, rfl⟩ : ∃ (p : Fin 2000) (q : Fin 256), j = ix2 p q := ⟨j 0, j 1, eq_ix2 j⟩
  show k2_pay1 (F := Ideal) (iblk2 V c 2 t) (iblk2 V c 0 t) (iblk2 V c 1 t) (iblk2 V c 3 t) (iblk2 V c 4 t) (iblk2 V c 5 t) (ix2 p q)
      = sageAt (n := 8000) (V c main_v154) (V c main_v32) (V c main_arg1) (V c main_v156) (V c main_v158) (V c main_v161)
          ((((cfg2.win 6).blk t).view.emb (ix2 p q)) 0) ((((cfg2.win 6).blk t).view.emb (ix2 p q)) 1)
  refine (k2_pay1_apply _ _ _ _ _ _ p q).trans ?_
  refine sageAt_congr p _ q _ (fun k => ?_) ?_ (fun k => ?_) (fun k => ?_) (fun k => ?_) ?_
  · show V c main_v154 (((cfg2.win 0).blk t).view.emb (ix2 p k)) = V c main_v154 _
    refine congrArg (V c main_v154) (funext fun a => Fin.ext ?_)
    match a with
    | ⟨0, _⟩ => show win2_0.index t (0 : Fin 2) * 2000 + 1 * p.val = win2_6.index t (0 : Fin 2) * 2000 + 1 * p.val; rw [e00]
    | ⟨1, _⟩ => show win2_0.index t (1 : Fin 2) * 256 + 1 * k.val = k.val; rw [e01]; omega
  · show V c main_v32 (((cfg2.win 1).blk t).view.emb (ix2 p (0 : Fin 1))) = V c main_v32 _
    refine congrArg (V c main_v32) (funext fun a => Fin.ext ?_)
    match a with
    | ⟨0, _⟩ => show win2_1.index t (0 : Fin 2) * 2000 + 1 * p.val = win2_6.index t (0 : Fin 2) * 2000 + 1 * p.val; rw [e10]
    | ⟨1, _⟩ => show win2_1.index t (1 : Fin 2) * 1 + 1 * 0 = 0; rw [e11]
  · show V c main_arg1 (((cfg2.win 2).blk t).view.emb (ix2 p k)) = V c main_arg1 _
    refine congrArg (V c main_arg1) (funext fun a => Fin.ext ?_)
    match a with
    | ⟨0, _⟩ => show win2_2.index t (0 : Fin 2) * 2000 + 1 * p.val = win2_6.index t (0 : Fin 2) * 2000 + 1 * p.val; rw [e20]
    | ⟨1, _⟩ => show win2_2.index t (1 : Fin 2) * 256 + 1 * k.val = k.val; rw [e21]; omega
  · show V c main_v156 (((cfg2.win 3).blk t).view.emb (ix2 k q)) = V c main_v156 _
    refine congrArg (V c main_v156) (funext fun a => Fin.ext ?_)
    match a with
    | ⟨0, _⟩ => show win2_3.index t (0 : Fin 2) * 256 + 1 * k.val = k.val; rw [e30]; omega
    | ⟨1, _⟩ => show win2_3.index t (1 : Fin 2) * 256 + 1 * q.val = win2_6.index t (1 : Fin 2) * 256 + 1 * q.val; rw [e31, e61]
  · show V c main_v158 (((cfg2.win 4).blk t).view.emb (ix2 k q)) = V c main_v158 _
    refine congrArg (V c main_v158) (funext fun a => Fin.ext ?_)
    match a with
    | ⟨0, _⟩ => show win2_4.index t (0 : Fin 2) * 256 + 1 * k.val = k.val; rw [e40]; omega
    | ⟨1, _⟩ => show win2_4.index t (1 : Fin 2) * 256 + 1 * q.val = win2_6.index t (1 : Fin 2) * 256 + 1 * q.val; rw [e41, e61]
  · show V c main_v161 (((cfg2.win 5).blk t).view.emb (ix2 (0 : Fin 1) q)) = V c main_v161 _
    refine congrArg (V c main_v161) (funext fun a => Fin.ext ?_)
    match a with
    | ⟨0, _⟩ => show win2_5.index t (0 : Fin 2) * 1 + 1 * 0 = 0; rw [e50]
    | ⟨1, _⟩ => show win2_5.index t (1 : Fin 2) * 256 + 1 * q.val = win2_6.index t (1 : Fin 2) * 256 + 1 * q.val; rw [e51, e61]

/-- An index of the result array is in point t's block iff each coordinate is in the block's range on its axis. -/
theorem mem_blk2 (t : Fin cfg2.N) (i : S8000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v162).slice (win2_6.rect t)).set ↔ _
  rw [View.set_slice_whole, Rect.mem_set_unit]
  exact Iff.rfl

/-- Every entry of the result array is in some point's block: row r is in block r / 2000. -/
theorem cover2 (i : S8000x256.Idx) : ∃ t : Fin cfg2.N, (cfg2.win 6).flush t = true ∧ i ∈ ((cfg2.win 6).blk t).view.set := by
  have hi0 : (i 0).val < 8000 := (i 0).isLt
  have hi1 : (i 1).val < 256 := (i 1).isLt
  obtain ⟨t, ht⟩ := idx_onto2 ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 256 ≤ (i 1).val ∧ (i 1).val < win2_6.index t (1 : Fin 2) * 256 + 256; omega

/-- THE RESULT ARRAY after region 2: the whole-array function of the six arrays as the region finds them. -/
theorem final2 (c : Dev nD) : (dat2 V c).arrAt 6 cfg2.N = G2 V c :=
  (dat2 V c).arrAt_eq_of_cover 6 (G2 V c) (fun t _ => flushed2_eq V c t) (cover2)

end Cert.Bridge.L1D

end
-- ==== Proof.L1DHost2.lean ====
/-
  The region into the diseases: its input arrays are the reference's stages, and its result is the reference's hidden disease features.

  At the region's entry five of its six input arrays were written by host operations (the sixth is the node
  features, a launch argument).  The aggregate, the two weight slices and the bias slice come from the stretch just
  before the region, the column of reciprocal counts from the first stretch.  Operation by operation these are the
  reference's own stages of the same launch arguments — the same gathers, scatters, slices and constants —, so each
  array is identified with the reference's stage as a whole and never opened; only the column (the reciprocal of
  max(count, 1), which the reference never forms) and the bias (a reshape where the reference broadcasts) are read at
  an entry.  Then the law of the scaled and the dividing arrangements joins the two programs.
-/
import proofs.«176458_j69930657513814_2_alg».proof.Proof.KIFrame
import proofs.«176458_j69930657513814_2_alg».proof.Proof.RefRead
import proofs.«176458_j69930657513814_2_alg».proof.Proof.Args
import proofs.«176458_j69930657513814_2_alg».proof.Proof.L1DSpec
import proofs.«176458_j69930657513814_2_alg».proof.Proof.L1DBlocks2
import proofs.«176458_j69930657513814_2_alg».proof.Proof.L1DRef
import proofs.«176458_j69930657513814_2_alg».proof.Proof.L1DArgs
import Idealize.ShloMosaic.Lib.Pipeline.Value

set_option maxRecDepth 16384

noncomputable section

namespace Cert.Bridge.L1D

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

variable (m : Cert.Bridge.KMem) (ρ : Dev nD → PrngReg) (c : Dev nD)

set_option maxHeartbeats 4000000 in
/-- The aggregate at the region's entry is the reference's: the gather of the protein rows at the edge sources
    (a negative source shifted by the row count first), scattered onto zeros at the edge destinations. -/
theorem V5_agg : (V5 (F := Ideal) m ρ c main_v154 : S8000x256.Idx → EReal)
    = Cert.ReferenceIdeal.Read.val_main_v161 (F := Ideal) (Cert.Bridge.a2 m c) (Cert.Bridge.a5 m c) := by
  show StableHlo.after hostOps2 (W4 (F := Ideal) m ρ c) (Proc.devRef .tc main_v154) = _
  dsimp only [hostOps2]
  after_results_simp
  rw [W4_arg2 m ρ c, W4_arg5 m ρ c]
  rfl

set_option maxHeartbeats 4000000 in
/-- The first weight slice at the region's entry is the reference's. -/
theorem V5_wl : (V5 (F := Ideal) m ρ c main_v156 : S256x256.Idx → EReal)
    = Cert.ReferenceIdeal.Read.val_main_v143 (F := Ideal) (Cert.Bridge.a8 m c) := by
  show StableHlo.after hostOps2 (W4 (F := Ideal) m ρ c) (Proc.devRef .tc main_v156) = _
  dsimp only [hostOps2]
  after_results_simp
  rw [W4_arg8 m ρ c]
  rfl

set_option maxHeartbeats 4000000 in
/-- The second weight slice at the region's entry is the reference's. -/
theorem V5_wr : (V5 (F := Ideal) m ρ c main_v158 : S256x256.Idx → EReal)
    = Cert.ReferenceIdeal.Read.val_main_v145 (F := Ideal) (Cert.Bridge.a9 m c) := by
  show StableHlo.after hostOps2 (W4 (F := Ideal) m ρ c) (Proc.devRef .tc main_v158) = _
  dsimp only [hostOps2]
  after_results_simp
  rw [W4_arg9 m ρ c]
  rfl

set_option maxHeartbeats 4000000 in
/-- The bias row at the region's entry is the reference's bias slice, reshaped from 256 entries to one row. -/
theorem V5_b : (V5 (F := Ideal) m ρ c main_v161 : S1x256.Idx → EReal)
    = shapeCast S1x256 (Cert.ReferenceIdeal.Read.val_main_v147 (F := Ideal) (Cert.Bridge.a10 m c)) shapeCasts_S256_S1x256 := by
  show StableHlo.after hostOps2 (W4 (F := Ideal) m ρ c) (Proc.devRef .tc main_v161) = _
  dsimp only [hostOps2]
  after_results_simp
  rw [W4_arg10 m ρ c]
  rfl

set_option maxHeartbeats 4000000 in
/-- The column of reciprocal counts at the region's entry: ones divided by the reference's max(count, 1), made a column. -/
theorem V5_inv : (V5 (F := Ideal) m ρ c main_v32 : S8000x1.Idx → EReal)
    = broadcastInDim S8000x1 ![0] bcast_S8000_S8000x1_0
        (Host.divf (F := Ideal) (s := S8000) (φ := .f32) (Cert.ReferenceIdeal.Read.val_main_v166 (F := Ideal)) (Cert.ReferenceIdeal.Read.val_main_v167 (F := Ideal) (Cert.Bridge.a5 m c))) := by
  show W5 (F := Ideal) m ρ c (Proc.devRef .tc main_v32) = _
  rw [W5_v32 m ρ c]
  show StableHlo.after hostOps0 (W0 (F := Ideal) m ρ c) (Proc.devRef .tc main_v32) = _
  dsimp only [hostOps0]
  after_results_simp
  rfl

/-- The node features at the region's entry are the launch argument. -/
theorem V5_x : (V5 (F := Ideal) m ρ c main_arg1 : S8000x256.Idx → EReal) = Cert.Bridge.a1 m c :=
  W5_arg1 m ρ c

/-- THE HIDDEN DISEASE FEATURES: the kernel's buffer after the region is the reference's rectified first layer. -/
theorem hdis_eq (m : Cert.Bridge.KMem) (ρ : Dev nD → PrngReg) (c : Dev nD) :
    W6 (F := Ideal) m ρ c (Proc.devRef .tc main_v162) = Cert.Bridge.HDIS m c := by
  refine ((W6_arr m ρ c 6).trans (final2 (V5 m ρ) c)).trans ?_
  funext i
  obtain ⟨p, q, rfl⟩ : ∃ (p : Fin 8000) (q : Fin 256), i = ix2 p q := ⟨i 0, i 1, eq_ix2 i⟩
  show sageAt (n := 8000) (V5 m ρ c main_v154) (V5 m ρ c main_v32) (V5 m ρ c main_arg1) (V5 m ρ c main_v156)
      (V5 m ρ c main_v158) (V5 m ρ c main_v161) p q = _
  rw [V5_agg m ρ c, V5_inv m ρ c, V5_x m ρ c, V5_wl m ρ c, V5_wr m ρ c, V5_b m ρ c]
  unfold Cert.Bridge.HDIS
  rw [ref_disease]
  refine sageAt_eq_ref _ _ (Cert.ReferenceIdeal.Read.val_main_v165 (F := Ideal) (Cert.Bridge.a5 m c)) _ _ _ _ _ p q ?_ ?_
  · refine (broadcastInDim_apply _ bcast_S8000_S8000x1_0 _ (ix2 p (0 : Fin 1)) (ix1 p) (fun a => match a with
      | ⟨0, _⟩ => by show p.val = if (8000 : Nat) = 1 then 0 else p.val; rw [if_neg (by decide)])).trans ?_
    exact disease_inv (Cert.Bridge.a5 m c) p
  · exact shapeCast_apply _ shapeCasts_S256_S1x256 (ix2 (0 : Fin 1) q) (ix1 q) (by
      rw [Shape.rowMajor_val_one, Shape.rowMajor_val_two]
      show q.val = 0 * 256 + q.val
      omega)

end Cert.Bridge.L1D

end
-- ==== Proof.L2DSpec.lean ====
/-
  The second layer's two dense stages, as functions of whole arrays, entry by entry.

  proj H W is the product of a [20000, 256] matrix of hidden protein features by one [256, 128] weight matrix:
  entry (r, j) is Σ_k H(r, k) · W(k, j). sage A I X Wr B is what one relation contributes to a destination type with N
  nodes: entry (n, j) is 0 + (((A(n, j) · I(n, 0)) + Σ_k X(n, k) · Wr(k, j)) + B(0, j)), where A holds the aggregated
  (already projected) source rows, I the column of reciprocal clamped in-degrees, X the destination's own hidden
  features, Wr the weights applied to them and B the bias row. The sum over relations starts from 0 and there is one
  relation, hence the leading 0.
-/
import Idealize.ShloMosaic.PureOps.Ideal
import Idealize.ShloMosaic.Lib.ValueIdx

noncomputable section

open scoped BigOperators

namespace Cert.Bridge.L2D

open Idealize.ShloMosaic Idealize.ShloMosaic.ValueIdx

/-- The zero offsets of a whole-buffer access. -/
theorem hz2 : (![0, 0] : Fin 2 → Nat) = fun _ => 0 := funext fun a => by fin_cases a <;> rfl

/-- The protein arrays have rows (the row count a gather clamps into). -/
theorem pos20000 : 0 < 20000 := by decide

/-- The edges into node n: the rows e of an [E, 1] array of destination indices whose entry, read as a signed integer, is n. -/
def inEdges {E : Nat} (di : IVec ⟨2, ![E, 1]⟩ 32) (n : Nat) : Finset (Fin E) :=
  Finset.univ.filter fun e : Fin E => (di (ix2 e ⟨0, Nat.one_pos⟩)).toInt = (n : Int)

/-- H · W for an [N, 256] matrix H and a [256, 128] matrix W. -/
def proj {N : Nat} (H : (⟨2, ![N, 256]⟩ : Shape).Idx → EReal) (W : (⟨2, ![256, 128]⟩ : Shape).Idx → EReal) :
    (⟨2, ![N, 128]⟩ : Shape).Idx → EReal :=
  fun i => ∑ k : Fin 256, H (ix2 (i 0) k) * W (ix2 k (i 1))

theorem proj_apply {N : Nat} (H : (⟨2, ![N, 256]⟩ : Shape).Idx → EReal) (W : (⟨2, ![256, 128]⟩ : Shape).Idx → EReal)
    (r : Fin N) (j : Fin 128) : proj H W (ix2 r j) = ∑ k : Fin 256, H (ix2 r k) * W (ix2 k j) := rfl

/-- One relation's contribution to a destination type of N nodes, the sum over relations started from 0. -/
def sage {N : Nat} (A : (⟨2, ![N, 128]⟩ : Shape).Idx → EReal) (I : (⟨2, ![N, 1]⟩ : Shape).Idx → EReal)
    (X : (⟨2, ![N, 256]⟩ : Shape).Idx → EReal) (Wr : (⟨2, ![256, 128]⟩ : Shape).Idx → EReal)
    (B : (⟨2, ![1, 128]⟩ : Shape).Idx → EReal) : (⟨2, ![N, 128]⟩ : Shape).Idx → EReal :=
  fun i => Ideal.ofBits .f32 0x00000000#32
    + (((A (ix2 (i 0) (i 1)) * I (ix2 (i 0) (0 : Fin 1))) + ∑ k : Fin 256, X (ix2 (i 0) k) * Wr (ix2 k (i 1)))
        + B (ix2 (0 : Fin 1) (i 1)))

theorem sage_apply {N : Nat} (A : (⟨2, ![N, 128]⟩ : Shape).Idx → EReal) (I : (⟨2, ![N, 1]⟩ : Shape).Idx → EReal)
    (X : (⟨2, ![N, 256]⟩ : Shape).Idx → EReal) (Wr : (⟨2, ![256, 128]⟩ : Shape).Idx → EReal)
    (B : (⟨2, ![1, 128]⟩ : Shape).Idx → EReal) (n : Fin N) (j : Fin 128) :
    sage A I X Wr B (ix2 n j) = Ideal.ofBits .f32 0x00000000#32
      + (((A (ix2 n j) * I (ix2 n (0 : Fin 1))) + ∑ k : Fin 256, X (ix2 n k) * Wr (ix2 k j)) + B (ix2 (0 : Fin 1) j)) := rfl

end Cert.Bridge.L2D

end
-- ==== Proof.L2DProj.lean ====
/-
  The two projections of the hidden protein features that feed the drug and the disease results.

  Each is one matrix product, run as five grid points of 4000 rows: the point t reads rows 4000 t … 4000 t + 3999 of the
  [20000, 256] feature array (all 256 columns), the whole [256, 128] weight matrix, and writes rows 4000 t … 4000 t + 3999
  of the [20000, 128] result. So entry (r, j) of the result array depends on row r of the features and column j of the
  weights only: it is Σ_k H(r, k) · W(k, j), and the result array after the region is `proj H W` of the two input arrays
  as the region finds them. The five blocks tile the rows, so every entry is written: row r by point r / 4000.
  Stated for any contents of the buffers at the region's entry.
-/
import proofs.«176458_j69930657513814_2_alg».proof.Proof.KIFrame
import proofs.«176458_j69930657513814_2_alg».proof.Proof.LibPlainMatmul
import proofs.«176458_j69930657513814_2_alg».proof.Proof.L2DSpec
import Idealize.ShloMosaic.Lib.Pipeline.Value
import Idealize.ShloMosaic.Lib.ValueIdx

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The projection by the protein → drug weights -/

/-- The body's product at an entry of its block: Σ_k x0(p, k) · x1(k, q). -/
theorem pay4_apply (x0 : Vec Ideal S4000x256 .f32) (x1 : Vec Ideal S256x128 .f32) (p : Fin 4000) (q : Fin 128) :
    k4_pay1 x0 x1 (ix2 p q) = ∑ k : Fin 256, x0 (ix2 p k) * x1 (ix2 k q) := by
  unfold k4_pay1
  simp only [shapeCast_self]
  exact matmul_plain_zero_apply 4000 256 128 (φ₁ := .f32) (φ₂ := .f32) none x0 x1 p q

/-- The index maps, decided over the five points: the feature block and the result block are block t of the rows, all
    columns; the weights' block is the whole matrix. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature block at point t, at (p, k), is the feature array at row 4000 t + p, column k. -/
theorem read4_0 (c : Dev nD) (t : Fin cfg4.N) (p : Fin 4000) (k : Fin 256) (r : Fin 20000)
    (hr : r.val = t.val * 4000 + p.val) :
    (iblk4 V c 0 t : Vec Ideal S4000x256 .f32) (ix2 p k) = (V c main_v118 : S20000x256.Idx → EReal) (ix2 r k) := by
  obtain ⟨e0, e1, -⟩ := idx4 t
  unfold iblk4
  rw [View.read_apply]
  show V c main_v118 _ = V c main_v118 _
  refine congrArg _ (funext fun a => Fin.ext ?_)
  match a with
  | ⟨0, _⟩ => show win4_0.index t (0 : Fin 2) * 4000 + 1 * p.val = r.val; rw [e0, hr]; omega
  | ⟨1, _⟩ => show win4_0.index t (1 : Fin 2) * 256 + 1 * k.val = k.val; rw [e1]; omega

/-- The weights' block at any point is the weight matrix. -/
theorem read4_1 (c : Dev nD) (t : Fin cfg4.N) (k : Fin 256) (q : Fin 128) :
    (iblk4 V c 1 t : Vec Ideal S256x128 .f32) (ix2 k q) = (V c main_v167 : S256x128.Idx → EReal) (ix2 k q) := by
  obtain ⟨-, -, e2, e3, -⟩ := idx4 t
  unfold iblk4
  rw [View.read_apply]
  show V c main_v167 _ = V c main_v167 _
  refine congrArg _ (funext fun a => Fin.ext ?_)
  match a with
  | ⟨0, _⟩ => show win4_1.index t (0 : Fin 2) * 256 + 1 * k.val = k.val; rw [e2]; omega
  | ⟨1, _⟩ => show win4_1.index t (1 : Fin 2) * 128 + 1 * q.val = q.val; rw [e3]; omega

/-- WHAT POINT t WRITES BACK is block t of the product of the two input arrays. -/
theorem flushed4 (c : Dev nD) (t : Fin cfg4.N) :
    (dat4 V c).flushed 2 t
      = ((cfg4.win 2).blk t).view.read (Elt Ideal) (proj (N := 20000) (V c main_v118) (V c main_v167)) := by
  show (cfg4.win 2).cut (grid4.coords t) ((dat4 V c).after 2 t) = _
  rw [after4_2]
  unfold out4_2
  rw [View.canon_unit_zero hz2]
  simp only [View.ld_unit_zero (S := S4000x256) hz2, View.ld_unit_zero (S := S256x128) hz2]
  funext j
  obtain ⟨-, -, -, -, e4, e5⟩ := idx4 t
  have hN : cfg4.N = 5 := N_4
  have ht : t.val < 5 := lt_of_lt_of_eq t.isLt hN
  have hj0 : (j 0).val < 4000 := (j 0).isLt
  have hj1 : (j 1).val < 128 := (j 1).isLt
  have hL : (cfg4.win 2).xinj (grid4.coords t) j = ix2 (⟨(j 0).val, hj0⟩ : Fin 4000) (⟨(j 1).val, hj1⟩ : Fin 128) :=
    funext fun a => match a with
      | ⟨0, _⟩ => rfl
      | ⟨1, _⟩ => rfl
  have hR : ((cfg4.win 2).blk t).view.emb j
      = ix2 (⟨t.val * 4000 + (j 0).val, by omega⟩ : Fin 20000) (⟨(j 1).val, hj1⟩ : Fin 128) := by
    funext a; apply Fin.ext
    match a with
    | ⟨0, _⟩ => show win4_2.index t (0 : Fin 2) * 4000 + 1 * (j 0).val = t.val * 4000 + (j 0).val; rw [e4]; omega
    | ⟨1, _⟩ => show win4_2.index t (1 : Fin 2) * 128 + 1 * (j 1).val = (j 1).val; rw [e5]; omega
  show k4_pay1 (iblk4 V c 0 t) (iblk4 V c 1 t) ((cfg4.win 2).xinj (grid4.coords t) j)
    = proj (N := 20000) (V c main_v118) (V c main_v167) (((cfg4.win 2).blk t).view.emb j)
  rw [hL, hR, proj_apply]
  refine (pay4_apply (iblk4 V c 0 t) (iblk4 V c 1 t) ⟨(j 0).val, hj0⟩ ⟨(j 1).val, hj1⟩).trans ?_
  refine Finset.sum_congr rfl fun k _ => ?_
  rw [read4_0 V c t ⟨(j 0).val, hj0⟩ k ⟨t.val * 4000 + (j 0).val, by omega⟩ rfl, read4_1 V c t k ⟨(j 1).val, hj1⟩]

/-- An index of the result array is in point t's block iff each coordinate is in the block's range on its axis. -/
theorem mem_blk4 (t : Fin cfg4.N) (i : S20000x128.Idx) :
    i ∈ ((cfg4.win 2).blk t).view.set ↔ ∀ a : Fin 2, win4_2.index t a * S4000x128.size a ≤ (i a).val
      ∧ (i a).val < win4_2.index t a * S4000x128.size a + S4000x128.size a := by
  show i ∈ ((View.whole main_v168).slice (win4_2.rect t)).set ↔ _
  rw [View.set_slice_whole, Rect.mem_set_unit]
  exact Iff.rfl

/-- Every entry of the result array is in some point's block: row r in point r / 4000's. -/
theorem cover4 (i : S20000x128.Idx) :
    ∃ t : Fin cfg4.N, (cfg4.win 2).flush t = true ∧ i ∈ ((cfg4.win 2).blk t).view.set := by
  have hi0 : (i 0).val < 20000 := (i 0).isLt
  have hi1 : (i 1).val < 128 := (i 1).isLt
  have hN : cfg4.N = 5 := N_4
  obtain ⟨t, ht⟩ : ∃ t : Fin cfg4.N, t.val = (i 0).val / 4000 :=
    ⟨⟨(i 0).val / 4000, lt_of_lt_of_eq (by omega : (i 0).val / 4000 < 5) hN.symm⟩, rfl⟩
  obtain ⟨-, -, -, -, e4, e5⟩ := idx4 t
  refine ⟨t, flush4_2 t, ?_⟩
  rw [mem_blk4]
  intro a
  match a with
  | ⟨0, _⟩ =>
    show win4_2.index t (0 : Fin 2) * 4000 ≤ (i 0).val ∧ (i 0).val < win4_2.index t (0 : Fin 2) * 4000 + 4000
    rw [e4, ht]; omega
  | ⟨1, _⟩ =>
    show win4_2.index t (1 : Fin 2) * 128 ≤ (i 1).val ∧ (i 1).val < win4_2.index t (1 : Fin 2) * 128 + 128
    rw [e5]; omega

/-- THE RESULT ARRAY after the region: the product of the two input arrays as the region finds them. -/
theorem final4 (c : Dev nD) :
    (dat4 V c).arrAt 2 cfg4.N = proj (N := 20000) (V c main_v118) (V c main_v167) :=
  (dat4 V c).arrAt_eq_of_cover 2 (proj (N := 20000) (V c main_v118) (V c main_v167)) (fun t _ => flushed4 V c t) cover4

/-! ## The projection by the protein → disease weights -/

/-- The body's product at an entry of its block: Σ_k x0(p, k) · x1(k, q). -/
theorem pay5_apply (x0 : Vec Ideal S4000x256 .f32) (x1 : Vec Ideal S256x128 .f32) (p : Fin 4000) (q : Fin 128) :
    k5_pay1 x0 x1 (ix2 p q) = ∑ k : Fin 256, x0 (ix2 p k) * x1 (ix2 k q) := by
  unfold k5_pay1
  simp only [shapeCast_self]
  exact matmul_plain_zero_apply 4000 256 128 (φ₁ := .f32) (φ₂ := .f32) none x0 x1 p q

/-- The index maps, decided over the five points: the feature block and the result block are block t of the rows, all
    columns; the weights' block is the whole matrix. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The feature block at point t, at (p, k), is the feature array at row 4000 t + p, column k. -/
theorem read5_0 (c : Dev nD) (t : Fin cfg5.N) (p : Fin 4000) (k : Fin 256) (r : Fin 20000)
    (hr : r.val = t.val * 4000 + p.val) :
    (iblk5 V c 0 t : Vec Ideal S4000x256 .f32) (ix2 p k) = (V c main_v118 : S20000x256.Idx → EReal) (ix2 r k) := by
  obtain ⟨e0, e1, -⟩ := idx5 t
  unfold iblk5
  rw [View.read_apply]
  show V c main_v118 _ = V c main_v118 _
  refine congrArg _ (funext fun a => Fin.ext ?_)
  match a with
  | ⟨0, _⟩ => show win5_0.index t (0 : Fin 2) * 4000 + 1 * p.val = r.val; rw [e0, hr]; omega
  | ⟨1, _⟩ => show win5_0.index t (1 : Fin 2) * 256 + 1 * k.val = k.val; rw [e1]; omega

/-- The weights' block at any point is the weight matrix. -/
theorem read5_1 (c : Dev nD) (t : Fin cfg5.N) (k : Fin 256) (q : Fin 128) :
    (iblk5 V c 1 t : Vec Ideal S256x128 .f32) (ix2 k q) = (V c main_v170 : S256x128.Idx → EReal) (ix2 k q) := by
  obtain ⟨-, -, e2, e3, -⟩ := idx5 t
  unfold iblk5
  rw [View.read_apply]
  show V c main_v170 _ = V c main_v170 _
  refine congrArg _ (funext fun a => Fin.ext ?_)
  match a with
  | ⟨0, _⟩ => show win5_1.index t (0 : Fin 2) * 256 + 1 * k.val = k.val; rw [e2]; omega
  | ⟨1, _⟩ => show win5_1.index t (1 : Fin 2) * 128 + 1 * q.val = q.val; rw [e3]; omega

/-- WHAT POINT t WRITES BACK is block t of the product of the two input arrays. -/
theorem flushed5 (c : Dev nD) (t : Fin cfg5.N) :
    (dat5 V c).flushed 2 t
      = ((cfg5.win 2).blk t).view.read (Elt Ideal) (proj (N := 20000) (V c main_v118) (V c main_v170)) := by
  show (cfg5.win 2).cut (grid5.coords t) ((dat5 V c).after 2 t) = _
  rw [after5_2]
  unfold out5_2
  rw [View.canon_unit_zero hz2]
  simp only [View.ld_unit_zero (S := S4000x256) hz2, View.ld_unit_zero (S := S256x128) hz2]
  funext j
  obtain ⟨-, -, -, -, e4, e5⟩ := idx5 t
  have hN : cfg5.N = 5 := N_5
  have ht : t.val < 5 := lt_of_lt_of_eq t.isLt hN
  have hj0 : (j 0).val < 4000 := (j 0).isLt
  have hj1 : (j 1).val < 128 := (j 1).isLt
  have hL : (cfg5.win 2).xinj (grid5.coords t) j = ix2 (⟨(j 0).val, hj0⟩ : Fin 4000) (⟨(j 1).val, hj1⟩ : Fin 128) :=
    funext fun a => match a with
      | ⟨0, _⟩ => rfl
      | ⟨1, _⟩ => rfl
  have hR : ((cfg5.win 2).blk t).view.emb j
      = ix2 (⟨t.val * 4000 + (j 0).val, by omega⟩ : Fin 20000) (⟨(j 1).val, hj1⟩ : Fin 128) := by
    funext a; apply Fin.ext
    match a with
    | ⟨0, _⟩ => show win5_2.index t (0 : Fin 2) * 4000 + 1 * (j 0).val = t.val * 4000 + (j 0).val; rw [e4]; omega
    | ⟨1, _⟩ => show win5_2.index t (1 : Fin 2) * 128 + 1 * (j 1).val = (j 1).val; rw [e5]; omega
  show k5_pay1 (iblk5 V c 0 t) (iblk5 V c 1 t) ((cfg5.win 2).xinj (grid5.coords t) j)
    = proj (N := 20000) (V c main_v118) (V c main_v170) (((cfg5.win 2).blk t).view.emb j)
  rw [hL, hR, proj_apply]
  refine (pay5_apply (iblk5 V c 0 t) (iblk5 V c 1 t) ⟨(j 0).val, hj0⟩ ⟨(j 1).val, hj1⟩).trans ?_
  refine Finset.sum_congr rfl fun k _ => ?_
  rw [read5_0 V c t ⟨(j 0).val, hj0⟩ k ⟨t.val * 4000 + (j 0).val, by omega⟩ rfl, read5_1 V c t k ⟨(j 1).val, hj1⟩]

/-- An index of the result array is in point t's block iff each coordinate is in the block's range on its axis. -/
theorem mem_blk5 (t : Fin cfg5.N) (i : S20000x128.Idx) :
    i ∈ ((cfg5.win 2).blk t).view.set ↔ ∀ a : Fin 2, win5_2.index t a * S4000x128.size a ≤ (i a).val
      ∧ (i a).val < win5_2.index t a * S4000x128.size a + S4000x128.size a := by
  show i ∈ ((View.whole main_v171).slice (win5_2.rect t)).set ↔ _
  rw [View.set_slice_whole, Rect.mem_set_unit]
  exact Iff.rfl

/-- Every entry of the result array is in some point's block: row r in point r / 4000's. -/
theorem cover5 (i : S20000x128.Idx) :
    ∃ t : Fin cfg5.N, (cfg5.win 2).flush t = true ∧ i ∈ ((cfg5.win 2).blk t).view.set := by
  have hi0 : (i 0).val < 20000 := (i 0).isLt
  have hi1 : (i 1).val < 128 := (i 1).isLt
  have hN : cfg5.N = 5 := N_5
  obtain ⟨t, ht⟩ : ∃ t : Fin cfg5.N, t.val = (i 0).val / 4000 :=
    ⟨⟨(i 0).val / 4000, lt_of_lt_of_eq (by omega : (i 0).val / 4000 < 5) hN.symm⟩, rfl⟩
  obtain ⟨-, -, -, -, e4, e5⟩ := idx5 t
  refine ⟨t, flush5_2 t, ?_⟩
  rw [mem_blk5]
  intro a
  match a with
  | ⟨0, _⟩ =>
    show win5_2.index t (0 : Fin 2) * 4000 ≤ (i 0).val ∧ (i 0).val < win5_2.index t (0 : Fin 2) * 4000 + 4000
    rw [e4, ht]; omega
  | ⟨1, _⟩ =>
    show win5_2.index t (1 : Fin 2) * 128 ≤ (i 1).val ∧ (i 1).val < win5_2.index t (1 : Fin 2) * 128 + 128
    rw [e5]; omega

/-- THE RESULT ARRAY after the region: the product of the two input arrays as the region finds them. -/
theorem final5 (c : Dev nD) :
    (dat5 V c).arrAt 2 cfg5.N = proj (N := 20000) (V c main_v118) (V c main_v170) :=
  (dat5 V c).arrAt_eq_of_cover 2 (proj (N := 20000) (V c main_v118) (V c main_v170)) (fun t _ => flushed5 V c t) cover5

end Cert.Bridge.L2D

end
-- ==== Proof.L2DSage.lean ====
/-
  The second layer's result for the drugs and for the diseases, from blocks to the array.

  Each is one kernel over blocks of 2000 destination rows (two blocks for the 4000 drugs, four for the 8000 diseases).
  The point t reads rows 2000 t … 2000 t + 1999 of the aggregated projected features A ([N, 128]), of the column I of
  reciprocal clamped in-degrees ([N, 1]) and of the destination's own hidden features X ([N, 256]), the whole weight
  matrix Wr ([256, 128]) and the bias row B ([1, 128]), and writes the same rows of the [N, 128] result: entry (p, q) of
  its block is 0 + (((A(p, q) · I(p, 0)) + Σ_k X(p, k) · Wr(k, q)) + B(0, q)), the column I spread over the 128
  columns and the row B over the 2000 rows. Entry (n, j) of the result array therefore depends on row n of A, I, X,
  column j of Wr and B only, and the array after the region is `sage A I X Wr B` of the five input arrays as the region
  finds them; the blocks tile the rows, row n written by point n / 2000.
  Stated for any contents of the buffers at the region's entry.
-/
import proofs.«176458_j69930657513814_2_alg».proof.Proof.KIFrame
import proofs.«176458_j69930657513814_2_alg».proof.Proof.LibPlainMatmul
import proofs.«176458_j69930657513814_2_alg».proof.Proof.LibKeepdims
import proofs.«176458_j69930657513814_2_alg».proof.Proof.LibRowBroadcast
import proofs.«176458_j69930657513814_2_alg».proof.Proof.L2DSpec
import Idealize.ShloMosaic.Lib.Pipeline.Value
import Idealize.ShloMosaic.Lib.ValueIdx

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The drugs' result (two blocks of 2000 rows) -/

/-- The body's result at an entry (p, q) of its block. -/
theorem pay9_apply (x2 : Vec Ideal S2000x256 .f32) (x0 : Vec Ideal S2000x128 .f32) (x1 : Vec Ideal S2000x1 .f32)
    (x3 : Vec Ideal S256x128 .f32) (x4 : Vec Ideal S1x128 .f32) (p : Fin 2000) (q : Fin 128) :
    k9_pay1 x2 x0 x1 x3 x4 (ix2 p q) = Ideal.ofBits .f32 0x00000000#32
      + (((x0 (ix2 p q) * x1 (ix2 p (0 : Fin 1))) + ∑ k : Fin 256, x2 (ix2 p k) * x3 (ix2 k q)) + x4 (ix2 (0 : Fin 1) q)) := by
  unfold k9_pay1
  simp only [shapeCast_self, addf_apply, mulf_apply, broadcast_apply]
  refine congrArg₂ (· + ·) rfl (congrArg₂ (· + ·) (congrArg₂ (· + ·) (congrArg₂ (· * ·) rfl ?_) ?_) ?_)
  · exact Cert.LibKeepdims.broadcastTo_a1_ab_apply x1 broadcasts_S2000x1_S2000x128 p q 0
  · exact matmul_plain_zero_apply 2000 256 128 (φ₁ := .f32) (φ₂ := .f32) none x2 x3 p q
  · exact Cert.LibRowBroadcast.broadcastTo_1b_ab_apply x4 broadcasts_S1x128_S2000x128 p q 0

/-- The index maps, decided over the 2 points: the three row-blocked inputs and the result are block t of the rows; the
    weights' and the bias's block is the whole array. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The aggregate's block at point t, at (p, q), is the aggregate at row 2000 t + p, column q. -/
theorem read9_0 (c : Dev nD) (t : Fin cfg9.N) (p : Fin 2000) (q : Fin 128) (n : Fin 4000)
    (hn : n.val = t.val * 2000 + p.val) :
    (iblk9 V c 0 t : Vec Ideal S2000x128 .f32) (ix2 p q) = (V c main_v249 : S4000x128.Idx → EReal) (ix2 n q) := by
  obtain ⟨e0, e1, -⟩ := idx9 t
  unfold iblk9
  rw [View.read_apply]
  show V c main_v249 _ = V c main_v249 _
  refine congrArg _ (funext fun a => Fin.ext ?_)
  match a with
  | ⟨0, _⟩ => show win9_0.index t (0 : Fin 2) * 2000 + 1 * p.val = n.val; rw [e0, hn]; omega
  | ⟨1, _⟩ => show win9_0.index t (1 : Fin 2) * 128 + 1 * q.val = q.val; rw [e1]; omega

/-- The reciprocal in-degrees' block at point t, at (p, 0), is the column at row 2000 t + p. -/
theorem read9_1 (c : Dev nD) (t : Fin cfg9.N) (p : Fin 2000) (u : Fin 1) (n : Fin 4000)
    (hn : n.val = t.val * 2000 + p.val) :
    (iblk9 V c 1 t : Vec Ideal S2000x1 .f32) (ix2 p u) = (V c main_v21 : S4000x1.Idx → EReal) (ix2 n u) := by
  obtain ⟨-, -, e2, e3, -⟩ := idx9 t
  unfold iblk9
  rw [View.read_apply]
  show V c main_v21 _ = V c main_v21 _
  refine congrArg _ (funext fun a => Fin.ext ?_)
  match a with
  | ⟨0, _⟩ => show win9_1.index t (0 : Fin 2) * 2000 + 1 * p.val = n.val; rw [e2, hn]; omega
  | ⟨1, _⟩ => show win9_1.index t (1 : Fin 2) * 1 + 1 * u.val = u.val; rw [e3]; omega

/-- The destination features' block at point t, at (p, k), is the feature array at row 2000 t + p, column k. -/
theorem read9_2 (c : Dev nD) (t : Fin cfg9.N) (p : Fin 2000) (k : Fin 256) (n : Fin 4000)
    (hn : n.val = t.val * 2000 + p.val) :
    (iblk9 V c 2 t : Vec Ideal S2000x256 .f32) (ix2 p k) = (V c main_v140 : S4000x256.Idx → EReal) (ix2 n k) := by
  obtain ⟨-, -, -, -, e4, e5, -⟩ := idx9 t
  unfold iblk9
  rw [View.read_apply]
  show V c main_v140 _ = V c main_v140 _
  refine congrArg _ (funext fun a => Fin.ext ?_)
  match a with
  | ⟨0, _⟩ => show win9_2.index t (0 : Fin 2) * 2000 + 1 * p.val = n.val; rw [e4, hn]; omega
  | ⟨1, _⟩ => show win9_2.index t (1 : Fin 2) * 256 + 1 * k.val = k.val; rw [e5]; omega

/-- The weights' block at any point is the weight matrix. -/
theorem read9_3 (c : Dev nD) (t : Fin cfg9.N) (k : Fin 256) (q : Fin 128) :
    (iblk9 V c 3 t : Vec Ideal S256x128 .f32) (ix2 k q) = (V c main_v251 : S256x128.Idx → EReal) (ix2 k q) := by
  obtain ⟨-, -, -, -, -, -, e6, e7, -⟩ := idx9 t
  unfold iblk9
  rw [View.read_apply]
  show V c main_v251 _ = V c main_v251 _
  refine congrArg _ (funext fun a => Fin.ext ?_)
  match a with
  | ⟨0, _⟩ => show win9_3.index t (0 : Fin 2) * 256 + 1 * k.val = k.val; rw [e6]; omega
  | ⟨1, _⟩ => show win9_3.index t (1 : Fin 2) * 128 + 1 * q.val = q.val; rw [e7]; omega

/-- The bias's block at any point is the bias row. -/
theorem read9_4 (c : Dev nD) (t : Fin cfg9.N) (u : Fin 1) (q : Fin 128) :
    (iblk9 V c 4 t : Vec Ideal S1x128 .f32) (ix2 u q) = (V c main_v254 : S1x128.Idx → EReal) (ix2 u q) := by
  obtain ⟨-, -, -, -, -, -, -, -, e8, e9, -⟩ := idx9 t
  unfold iblk9
  rw [View.read_apply]
  show V c main_v254 _ = V c main_v254 _
  refine congrArg _ (funext fun a => Fin.ext ?_)
  match a with
  | ⟨0, _⟩ => show win9_4.index t (0 : Fin 2) * 1 + 1 * u.val = u.val; rw [e8]; omega
  | ⟨1, _⟩ => show win9_4.index t (1 : Fin 2) * 128 + 1 * q.val = q.val; rw [e9]; omega

/-- WHAT POINT t WRITES BACK is block t of `sage` of the five input arrays. -/
theorem flushed9 (c : Dev nD) (t : Fin cfg9.N) :
    (dat9 V c).flushed 5 t = ((cfg9.win 5).blk t).view.read (Elt Ideal)
      (sage (N := 4000) (V c main_v249) (V c main_v21) (V c main_v140) (V c main_v251) (V c main_v254)) := by
  show (cfg9.win 5).cut (grid9.coords t) ((dat9 V c).after 5 t) = _
  rw [after9_5]
  unfold out9_5
  rw [View.canon_unit_zero hz2]
  simp only [View.ld_unit_zero (S := S2000x256) hz2, View.ld_unit_zero (S := S2000x128) hz2,
    View.ld_unit_zero (S := S2000x1) hz2, View.ld_unit_zero (S := S256x128) hz2, View.ld_unit_zero (S := S1x128) hz2]
  funext j
  obtain ⟨-, -, -, -, -, -, -, -, -, -, e10, e11⟩ := idx9 t
  have hN : cfg9.N = 2 := N_9
  have ht : t.val < 2 := lt_of_lt_of_eq t.isLt hN
  have hj0 : (j 0).val < 2000 := (j 0).isLt
  have hj1 : (j 1).val < 128 := (j 1).isLt
  have hL : (cfg9.win 5).xinj (grid9.coords t) j = ix2 (⟨(j 0).val, hj0⟩ : Fin 2000) (⟨(j 1).val, hj1⟩ : Fin 128) :=
    funext fun a => match a with
      | ⟨0, _⟩ => rfl
      | ⟨1, _⟩ => rfl
  have hR : ((cfg9.win 5).blk t).view.emb j
      = ix2 (⟨t.val * 2000 + (j 0).val, by omega⟩ : Fin 4000) (⟨(j 1).val, hj1⟩ : Fin 128) := by
    funext a; apply Fin.ext
    match a with
    | ⟨0, _⟩ => show win9_5.index t (0 : Fin 2) * 2000 + 1 * (j 0).val = t.val * 2000 + (j 0).val; rw [e10]; omega
    | ⟨1, _⟩ => show win9_5.index t (1 : Fin 2) * 128 + 1 * (j 1).val = (j 1).val; rw [e11]; omega
  show k9_pay1 (iblk9 V c 2 t) (iblk9 V c 0 t) (iblk9 V c 1 t) (iblk9 V c 3 t) (iblk9 V c 4 t)
      ((cfg9.win 5).xinj (grid9.coords t) j)
    = sage (N := 4000) (V c main_v249) (V c main_v21) (V c main_v140) (V c main_v251) (V c main_v254) (((cfg9.win 5).blk t).view.emb j)
  rw [hL, hR, sage_apply]
  refine (pay9_apply (iblk9 V c 2 t) (iblk9 V c 0 t) (iblk9 V c 1 t) (iblk9 V c 3 t) (iblk9 V c 4 t) ⟨(j 0).val, hj0⟩ ⟨(j 1).val, hj1⟩).trans ?_
  rw [read9_0 V c t ⟨(j 0).val, hj0⟩ ⟨(j 1).val, hj1⟩ ⟨t.val * 2000 + (j 0).val, by omega⟩ rfl,
    read9_1 V c t ⟨(j 0).val, hj0⟩ (0 : Fin 1) ⟨t.val * 2000 + (j 0).val, by omega⟩ rfl, read9_4 V c t (0 : Fin 1) ⟨(j 1).val, hj1⟩]
  refine congrArg₂ (· + ·) rfl (congrArg₂ (· + ·) (congrArg₂ (· + ·) rfl ?_) rfl)
  refine Finset.sum_congr rfl fun k _ => ?_
  rw [read9_2 V c t ⟨(j 0).val, hj0⟩ k ⟨t.val * 2000 + (j 0).val, by omega⟩ rfl, read9_3 V c t k ⟨(j 1).val, hj1⟩]

/-- An index of the result array is in point t's block iff each coordinate is in the block's range on its axis. -/
theorem mem_blk9 (t : Fin cfg9.N) (i : S4000x128.Idx) :
    i ∈ ((cfg9.win 5).blk t).view.set ↔ ∀ a : Fin 2, win9_5.index t a * S2000x128.size a ≤ (i a).val
      ∧ (i a).val < win9_5.index t a * S2000x128.size a + S2000x128.size a := by
  show i ∈ ((View.whole main_v255).slice (win9_5.rect t)).set ↔ _
  rw [View.set_slice_whole, Rect.mem_set_unit]
  exact Iff.rfl

/-- Every entry of the result array is in some point's block: row n in point n / 2000's. -/
theorem cover9 (i : S4000x128.Idx) :
    ∃ t : Fin cfg9.N, (cfg9.win 5).flush t = true ∧ i ∈ ((cfg9.win 5).blk t).view.set := by
  have hi0 : (i 0).val < 4000 := (i 0).isLt
  have hi1 : (i 1).val < 128 := (i 1).isLt
  have hN : cfg9.N = 2 := N_9
  obtain ⟨t, ht⟩ : ∃ t : Fin cfg9.N, t.val = (i 0).val / 2000 :=
    ⟨⟨(i 0).val / 2000, lt_of_lt_of_eq (by omega : (i 0).val / 2000 < 2) hN.symm⟩, rfl⟩
  obtain ⟨-, -, -, -, -, -, -, -, -, -, e10, e11⟩ := idx9 t
  refine ⟨t, flush9_5 t, ?_⟩
  rw [mem_blk9]
  intro a
  match a with
  | ⟨0, _⟩ =>
    show win9_5.index t (0 : Fin 2) * 2000 ≤ (i 0).val ∧ (i 0).val < win9_5.index t (0 : Fin 2) * 2000 + 2000
    rw [e10, ht]; omega
  | ⟨1, _⟩ =>
    show win9_5.index t (1 : Fin 2) * 128 ≤ (i 1).val ∧ (i 1).val < win9_5.index t (1 : Fin 2) * 128 + 128
    rw [e11]; omega

/-- THE RESULT ARRAY after the region: `sage` of the five input arrays as the region finds them. -/
theorem final9 (c : Dev nD) :
    (dat9 V c).arrAt 5 cfg9.N = sage (N := 4000) (V c main_v249) (V c main_v21) (V c main_v140) (V c main_v251) (V c main_v254) :=
  (dat9 V c).arrAt_eq_of_cover 5 (sage (N := 4000) (V c main_v249) (V c main_v21) (V c main_v140) (V c main_v251) (V c main_v254))
    (fun t _ => flushed9 V c t) cover9

/-! ## The diseases' result (four blocks of 2000 rows) -/

/-- The body's result at an entry (p, q) of its block. -/
theorem pay10_apply (x2 : Vec Ideal S2000x256 .f32) (x0 : Vec Ideal S2000x128 .f32) (x1 : Vec Ideal S2000x1 .f32)
    (x3 : Vec Ideal S256x128 .f32) (x4 : Vec Ideal S1x128 .f32) (p : Fin 2000) (q : Fin 128) :
    k10_pay1 x2 x0 x1 x3 x4 (ix2 p q) = Ideal.ofBits .f32 0x00000000#32
      + (((x0 (ix2 p q) * x1 (ix2 p (0 : Fin 1))) + ∑ k : Fin 256, x2 (ix2 p k) * x3 (ix2 k q)) + x4 (ix2 (0 : Fin 1) q)) := by
  unfold k10_pay1
  simp only [shapeCast_self, addf_apply, mulf_apply, broadcast_apply]
  refine congrArg₂ (· + ·) rfl (congrArg₂ (· + ·) (congrArg₂ (· + ·) (congrArg₂ (· * ·) rfl ?_) ?_) ?_)
  · exact Cert.LibKeepdims.broadcastTo_a1_ab_apply x1 broadcasts_S2000x1_S2000x128 p q 0
  · exact matmul_plain_zero_apply 2000 256 128 (φ₁ := .f32) (φ₂ := .f32) none x2 x3 p q
  · exact Cert.LibRowBroadcast.broadcastTo_1b_ab_apply x4 broadcasts_S1x128_S2000x128 p q 0

/-- The index maps, decided over the 4 points: the three row-blocked inputs and the result are block t of the rows; the
    weights' and the bias's block is the whole array. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- The aggregate's block at point t, at (p, q), is the aggregate at row 2000 t + p, column q. -/
theorem read10_0 (c : Dev nD) (t : Fin cfg10.N) (p : Fin 2000) (q : Fin 128) (n : Fin 8000)
    (hn : n.val = t.val * 2000 + p.val) :
    (iblk10 V c 0 t : Vec Ideal S2000x128 .f32) (ix2 p q) = (V c main_v269 : S8000x128.Idx → EReal) (ix2 n q) := by
  obtain ⟨e0, e1, -⟩ := idx10 t
  unfold iblk10
  rw [View.read_apply]
  show V c main_v269 _ = V c main_v269 _
  refine congrArg _ (funext fun a => Fin.ext ?_)
  match a with
  | ⟨0, _⟩ => show win10_0.index t (0 : Fin 2) * 2000 + 1 * p.val = n.val; rw [e0, hn]; omega
  | ⟨1, _⟩ => show win10_0.index t (1 : Fin 2) * 128 + 1 * q.val = q.val; rw [e1]; omega

/-- The reciprocal in-degrees' block at point t, at (p, 0), is the column at row 2000 t + p. -/
theorem read10_1 (c : Dev nD) (t : Fin cfg10.N) (p : Fin 2000) (u : Fin 1) (n : Fin 8000)
    (hn : n.val = t.val * 2000 + p.val) :
    (iblk10 V c 1 t : Vec Ideal S2000x1 .f32) (ix2 p u) = (V c main_v32 : S8000x1.Idx → EReal) (ix2 n u) := by
  obtain ⟨-, -, e2, e3, -⟩ := idx10 t
  unfold iblk10
  rw [View.read_apply]
  show V c main_v32 _ = V c main_v32 _
  refine congrArg _ (funext fun a => Fin.ext ?_)
  match a with
  | ⟨0, _⟩ => show win10_1.index t (0 : Fin 2) * 2000 + 1 * p.val = n.val; rw [e2, hn]; omega
  | ⟨1, _⟩ => show win10_1.index t (1 : Fin 2) * 1 + 1 * u.val = u.val; rw [e3]; omega

/-- The destination features' block at point t, at (p, k), is the feature array at row 2000 t + p, column k. -/
theorem read10_2 (c : Dev nD) (t : Fin cfg10.N) (p : Fin 2000) (k : Fin 256) (n : Fin 8000)
    (hn : n.val = t.val * 2000 + p.val) :
    (iblk10 V c 2 t : Vec Ideal S2000x256 .f32) (ix2 p k) = (V c main_v162 : S8000x256.Idx → EReal) (ix2 n k) := by
  obtain ⟨-, -, -, -, e4, e5, -⟩ := idx10 t
  unfold iblk10
  rw [View.read_apply]
  show V c main_v162 _ = V c main_v162 _
  refine congrArg _ (funext fun a => Fin.ext ?_)
  match a with
  | ⟨0, _⟩ => show win10_2.index t (0 : Fin 2) * 2000 + 1 * p.val = n.val; rw [e4, hn]; omega
  | ⟨1, _⟩ => show win10_2.index t (1 : Fin 2) * 256 + 1 * k.val = k.val; rw [e5]; omega

/-- The weights' block at any point is the weight matrix. -/
theorem read10_3 (c : Dev nD) (t : Fin cfg10.N) (k : Fin 256) (q : Fin 128) :
    (iblk10 V c 3 t : Vec Ideal S256x128 .f32) (ix2 k q) = (V c main_v271 : S256x128.Idx → EReal) (ix2 k q) := by
  obtain ⟨-, -, -, -, -, -, e6, e7, -⟩ := idx10 t
  unfold iblk10
  rw [View.read_apply]
  show V c main_v271 _ = V c main_v271 _
  refine congrArg _ (funext fun a => Fin.ext ?_)
  match a with
  | ⟨0, _⟩ => show win10_3.index t (0 : Fin 2) * 256 + 1 * k.val = k.val; rw [e6]; omega
  | ⟨1, _⟩ => show win10_3.index t (1 : Fin 2) * 128 + 1 * q.val = q.val; rw [e7]; omega

/-- The bias's block at any point is the bias row. -/
theorem read10_4 (c : Dev nD) (t : Fin cfg10.N) (u : Fin 1) (q : Fin 128) :
    (iblk10 V c 4 t : Vec Ideal S1x128 .f32) (ix2 u q) = (V c main_v274 : S1x128.Idx → EReal) (ix2 u q) := by
  obtain ⟨-, -, -, -, -, -, -, -, e8, e9, -⟩ := idx10 t
  unfold iblk10
  rw [View.read_apply]
  show V c main_v274 _ = V c main_v274 _
  refine congrArg _ (funext fun a => Fin.ext ?_)
  match a with
  | ⟨0, _⟩ => show win10_4.index t (0 : Fin 2) * 1 + 1 * u.val = u.val; rw [e8]; omega
  | ⟨1, _⟩ => show win10_4.index t (1 : Fin 2) * 128 + 1 * q.val = q.val; rw [e9]; omega

/-- WHAT POINT t WRITES BACK is block t of `sage` of the five input arrays. -/
theorem flushed10 (c : Dev nD) (t : Fin cfg10.N) :
    (dat10 V c).flushed 5 t = ((cfg10.win 5).blk t).view.read (Elt Ideal)
      (sage (N := 8000) (V c main_v269) (V c main_v32) (V c main_v162) (V c main_v271) (V c main_v274)) := by
  show (cfg10.win 5).cut (grid10.coords t) ((dat10 V c).after 5 t) = _
  rw [after10_5]
  unfold out10_5
  rw [View.canon_unit_zero hz2]
  simp only [View.ld_unit_zero (S := S2000x256) hz2, View.ld_unit_zero (S := S2000x128) hz2,
    View.ld_unit_zero (S := S2000x1) hz2, View.ld_unit_zero (S := S256x128) hz2, View.ld_unit_zero (S := S1x128) hz2]
  funext j
  obtain ⟨-, -, -, -, -, -, -, -, -, -, e10, e11⟩ := idx10 t
  have hN : cfg10.N = 4 := N_10
  have ht : t.val < 4 := lt_of_lt_of_eq t.isLt hN
  have hj0 : (j 0).val < 2000 := (j 0).isLt
  have hj1 : (j 1).val < 128 := (j 1).isLt
  have hL : (cfg10.win 5).xinj (grid10.coords t) j = ix2 (⟨(j 0).val, hj0⟩ : Fin 2000) (⟨(j 1).val, hj1⟩ : Fin 128) :=
    funext fun a => match a with
      | ⟨0, _⟩ => rfl
      | ⟨1, _⟩ => rfl
  have hR : ((cfg10.win 5).blk t).view.emb j
      = ix2 (⟨t.val * 2000 + (j 0).val, by omega⟩ : Fin 8000) (⟨(j 1).val, hj1⟩ : Fin 128) := by
    funext a; apply Fin.ext
    match a with
    | ⟨0, _⟩ => show win10_5.index t (0 : Fin 2) * 2000 + 1 * (j 0).val = t.val * 2000 + (j 0).val; rw [e10]; omega
    | ⟨1, _⟩ => show win10_5.index t (1 : Fin 2) * 128 + 1 * (j 1).val = (j 1).val; rw [e11]; omega
  show k10_pay1 (iblk10 V c 2 t) (iblk10 V c 0 t) (iblk10 V c 1 t) (iblk10 V c 3 t) (iblk10 V c 4 t)
      ((cfg10.win 5).xinj (grid10.coords t) j)
    = sage (N := 8000) (V c main_v269) (V c main_v32) (V c main_v162) (V c main_v271) (V c main_v274) (((cfg10.win 5).blk t).view.emb j)
  rw [hL, hR, sage_apply]
  refine (pay10_apply (iblk10 V c 2 t) (iblk10 V c 0 t) (iblk10 V c 1 t) (iblk10 V c 3 t) (iblk10 V c 4 t) ⟨(j 0).val, hj0⟩ ⟨(j 1).val, hj1⟩).trans ?_
  rw [read10_0 V c t ⟨(j 0).val, hj0⟩ ⟨(j 1).val, hj1⟩ ⟨t.val * 2000 + (j 0).val, by omega⟩ rfl,
    read10_1 V c t ⟨(j 0).val, hj0⟩ (0 : Fin 1) ⟨t.val * 2000 + (j 0).val, by omega⟩ rfl, read10_4 V c t (0 : Fin 1) ⟨(j 1).val, hj1⟩]
  refine congrArg₂ (· + ·) rfl (congrArg₂ (· + ·) (congrArg₂ (· + ·) rfl ?_) rfl)
  refine Finset.sum_congr rfl fun k _ => ?_
  rw [read10_2 V c t ⟨(j 0).val, hj0⟩ k ⟨t.val * 2000 + (j 0).val, by omega⟩ rfl, read10_3 V c t k ⟨(j 1).val, hj1⟩]

/-- An index of the result array is in point t's block iff each coordinate is in the block's range on its axis. -/
theorem mem_blk10 (t : Fin cfg10.N) (i : S8000x128.Idx) :
    i ∈ ((cfg10.win 5).blk t).view.set ↔ ∀ a : Fin 2, win10_5.index t a * S2000x128.size a ≤ (i a).val
      ∧ (i a).val < win10_5.index t a * S2000x128.size a + S2000x128.size a := by
  show i ∈ ((View.whole main_v275).slice (win10_5.rect t)).set ↔ _
  rw [View.set_slice_whole, Rect.mem_set_unit]
  exact Iff.rfl

/-- Every entry of the result array is in some point's block: row n in point n / 2000's. -/
theorem cover10 (i : S8000x128.Idx) :
    ∃ t : Fin cfg10.N, (cfg10.win 5).flush t = true ∧ i ∈ ((cfg10.win 5).blk t).view.set := by
  have hi0 : (i 0).val < 8000 := (i 0).isLt
  have hi1 : (i 1).val < 128 := (i 1).isLt
  have hN : cfg10.N = 4 := N_10
  obtain ⟨t, ht⟩ : ∃ t : Fin cfg10.N, t.val = (i 0).val / 2000 :=
    ⟨⟨(i 0).val / 2000, lt_of_lt_of_eq (by omega : (i 0).val / 2000 < 4) hN.symm⟩, rfl⟩
  obtain ⟨-, -, -, -, -, -, -, -, -, -, e10, e11⟩ := idx10 t
  refine ⟨t, flush10_5 t, ?_⟩
  rw [mem_blk10]
  intro a
  match a with
  | ⟨0, _⟩ =>
    show win10_5.index t (0 : Fin 2) * 2000 ≤ (i 0).val ∧ (i 0).val < win10_5.index t (0 : Fin 2) * 2000 + 2000
    rw [e10, ht]; omega
  | ⟨1, _⟩ =>
    show win10_5.index t (1 : Fin 2) * 128 ≤ (i 1).val ∧ (i 1).val < win10_5.index t (1 : Fin 2) * 128 + 128
    rw [e11]; omega

/-- THE RESULT ARRAY after the region: `sage` of the five input arrays as the region finds them. -/
theorem final10 (c : Dev nD) :
    (dat10 V c).arrAt 5 cfg10.N = sage (N := 8000) (V c main_v269) (V c main_v32) (V c main_v162) (V c main_v271) (V c main_v274) :=
  (dat10 V c).arrAt_eq_of_cover 5 (sage (N := 8000) (V c main_v269) (V c main_v32) (V c main_v162) (V c main_v271) (V c main_v274))
    (fun t _ => flushed10 V c t) cover10

end Cert.Bridge.L2D

end
-- ==== Proof.LibGatherRows.lean ====
import Idealize.ShloMosaic.Lib.ValueIdx

/-!
# A gather of the rows of a matrix, read at an index

What `x[idx]` over the ROWS of a matrix `x : [N, C]` at an integer array `idx : [E]` lowers to: `stablehlo.gather`
with offset_dims `[1]`, collapsed_slice_dims `[0]`, start_index_map `[0]`, index_vector_dim 1 and slice_sizes
`[1, C]` over the indices as `[E, 1]`. Result element `(e, c)` is `x` at row `r(e)` and column `c`, where `r(e)` is
the start index `idx[e, 0]` read as a signed integer and clamped into `[0, N − 1]`, as StableHLO's gather clamps
every start index. The row depends on `N`, `idx` and `e` only, not on the width `C`.
-/

noncomputable section

namespace Cert.RowGather

open Idealize.ShloMosaic Idealize.ShloMosaic.ValueIdx

/-- The dimension numbers of a row gather: an operand `[N, C]`, start indices `[E, 1]` and a result `[E, C]`; axis 0
    of the operand is collapsed and indexed by the one component of the start index, axis 1 is taken whole (slice
    size `C`) and becomes the result's offset axis 1. Their conditions `wf` are decided on a program's literal
    shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the start index `idx[e, 0]` read as a signed integer and clamped into
    `[0, N − 1]`. It does not mention the operand's width. -/
def rowOf {N E w : Nat} (hN : 0 < N) (idx : IVec ⟨2, ![E, 1]⟩ w) (e : Fin E) : Fin N :=
  ⟨min (idx (ix2 e ⟨0, Nat.one_pos⟩)).toInt.toNat (N - 1), by omega⟩

/-- Axis 1 is not axis 0: it is neither collapsed nor named by the start index map. -/
private theorem one_not_mem_zero : (1 : Fin 2) ∉ [(0 : Fin 2)] := by decide

/-- THE ROW GATHER READ AT `(e, c)`: the operand at row `rowOf hN idx e` and column `c`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf hN idx e) c) := by
  unfold Host.gather
  congr 1
  funext a
  refine Fin.ext ?_
  match a with
  | ⟨0, _⟩ =>
    -- axis 0: collapsed, named by the start index map: the clamped start index alone
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- axis 1: not in the start index map (start 0), not batching, kept: the result's coordinate on offset axis 1
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from one_not_mem_zero)]
    have hk : (1 : Fin 2) ∈ (rowGatherDims N E C wf).sKept :=
      (GatherDims.mem_sKept _ _).mpr ⟨one_not_mem_zero, List.not_mem_nil⟩
    have hoff : (rowGatherDims N E C wf).offCoord (ix2 e c) 1 = c.val := by
      unfold GatherDims.offCoord
      rw [dif_pos hk]
      rfl
    rw [hst, hoff, Nat.zero_add]

end Cert.RowGather

end
-- ==== Proof.LibScatterRows.lean ====
/-
  A ROW SCATTER WITH AN ADDING BODY, READ AT AN INDEX.

  The scatter that a segment sum over rows lowers to: operand `[N, C]`, scatter indices `[E, 1]`, updates `[E, C]`,
  update window axes `[1]`, inserted window axes `[0]`, scatter-dims-to-operand-dims `[0]`, index vector axis `1`.
  Update row `e` is added, column by column, into operand row `idx[e, 0]` (read as a signed integer, not clamped);
  a row whose index falls outside `[0, N)` is dropped. Over the extended reals the result at `(n, c)` is therefore
  the operand's element plus the sum of `upd (e, c)` over the rows `e` with `idx[e, 0] = n`.
-/
import Idealize.ShloMosaic.Lib.ValueIdx

noncomputable section

open scoped BigOperators

namespace Cert.RowScatter

open Idealize.ShloMosaic Idealize.ShloMosaic.ValueIdx

/-- The dimension numbers of a row scatter: operand `[N, C]`, scatter indices `[E, 1]`, updates `[E, C]`; the
    updates' axis 1 is the window axis and goes to the operand's axis 1, the operand's axis 0 is inserted and is the
    one the (one-component) scatter index addresses. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update index `(e, c')` starts at the scatter index `idx[e, 0]`, read signed. -/
theorem start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On operand axis 1, which the scatter index does not address, every window starts at `0`. -/
theorem start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  show ¬ ((1 : Fin 2) ∈ [(0 : Fin 2)])
  decide

/-- On the inserted operand axis 0 the window coordinate is `0`. -/
theorem window_zero {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg]
  show ¬ ((0 : Fin 2) ∈ [(1 : Fin 2)])
  decide

/-- On operand axis 1 the window coordinate is the update index's column. -/
theorem window_one {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept from
    (show (1 : Fin 2) ∈ [(1 : Fin 2)] from List.mem_singleton.mpr rfl))]
  rfl

/-- For any scatter dimension numbers: update index `j` lands on operand index `i` exactly when, on every operand
    axis, the (signed) start plus the window coordinate is `i`'s coordinate. The in-range condition is then automatic,
    since `i`'s coordinates are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have hv := congrArg Fin.val this
      simp only at hv
      have := hb a
      omega
    · exact absurd h (by simp)
  · intro h
    have hb : ∀ a, 0 ≤ d.start j idx a + (d.window j a : Int) ∧ d.start j idx a + (d.window j a : Int) < s.size a := by
      intro a; have := h a; have := (i a).isLt; omega
    rw [dif_pos hb]
    congr 1
    funext a
    refine Fin.ext ?_
    have := h a
    show (d.start j idx a + (d.window j a : Int)).toNat = (i a).val
    omega

/-- Update index `(e, c')` lands on operand index `(n, c)` exactly when the scatter index `idx[e, 0]`, read as a
    signed integer, is `n`, and the columns agree. -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  rw [resultIdx?_eq_some_iff]
  constructor
  · intro h
    have h0 : (idx (ix2 e ⟨0, Nat.one_pos⟩)).toInt + ((0 : Nat) : Int) = (n.val : Int) := by
      have := h 0; rwa [start_zero, window_zero] at this
    have h1 : (0 : Int) + (c'.val : Int) = (c.val : Int) := by
      have := h 1; rwa [start_one, window_one] at this
    refine ⟨?_, Fin.ext ?_⟩
    · omega
    · omega
  · rintro ⟨h0, rfl⟩ a
    match a with
    | ⟨0, _⟩ =>
      show (rowScatterDims N E C wf).start (ix2 e c') idx 0 + ((rowScatterDims N E C wf).window (ix2 e c') 0 : Int) = _
      rw [start_zero, window_zero, h0]
      show (n.val : Int) + ((0 : Nat) : Int) = (n.val : Int)
      omega
    | ⟨1, _⟩ =>
      show (rowScatterDims N E C wf).start (ix2 e c') idx 1 + ((rowScatterDims N E C wf).window (ix2 e c') 1 : Int) = _
      rw [start_one, window_one]
      show (0 : Int) + (c'.val : Int) = (c'.val : Int)
      omega

/-- The same for an update index not yet split into its coordinates. -/
theorem resultIdx_rows_iff' {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (c : Fin C) :
    (rowScatterDims N E C wf).resultIdx? j idx = some (ix2 n c)
      ↔ (idx (ix2 (j 0 : Fin E) ⟨0, Nat.one_pos⟩)).toInt = (n.val : Int) ∧ (j 1 : Fin C) = c := by
  have h := resultIdx_rows_iff wf idx (j 0) (j 1) n c
  constructor
  · intro hj
    rw [eq_ix2 j] at hj
    exact h.mp hj
  · intro hh
    rw [eq_ix2 j]
    exact h.mpr hh

/-- THE ROW SCATTER READ AT `(n, c)`: the operand's element plus the sum, over the update rows `e` whose scatter index
    `idx[e, 0]` (signed, not clamped) is `n`, of `upd (e, c)`. The update indices landing on `(n, c)` are the
    `(e, c)` with `idx[e, 0] = n`; the sum is re-indexed along `(e, c) ↦ e`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e ∈ Finset.univ.filter (fun e : Fin E => (idx (ix2 e ⟨0, Nat.one_pos⟩)).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx_rows_iff' wf idx j n c).mp hj').1⟩
  · intro e he
    have he' := (Finset.mem_filter.mp he).2
    exact Finset.mem_filter.mpr ⟨Finset.mem_univ _, (resultIdx_rows_iff wf idx e c n c).mpr ⟨he', rfl⟩⟩
  · intro j hj
    have hj' := (Finset.mem_filter.mp hj).2
    have h := ((resultIdx_rows_iff' wf idx j n c).mp hj').2
    rw [← h]; exact (eq_ix2 j).symm
  · intro e _; rfl
  · intro j hj
    have hj' := (Finset.mem_filter.mp hj).2
    have h := ((resultIdx_rows_iff' wf idx j n c).mp hj').2
    rw [← h]; exact congrArg upd (eq_ix2 j)

end Cert.RowScatter

end
-- ==== Proof.L2DHost.lean ====
/-
  What the host operations between the kernels leave in the buffers the second layer's drug and disease kernels read.

  Before the aggregating kernel of a destination type the host slices the edge array into its source row and its
  destination row, wraps a negative source index by the number of source rows, gathers the projected source rows along
  the edges and scatter-adds them into zeros at the destination rows; it also slices the weights applied to the
  destination's own features and the bias row out of their stacks. Before the projecting kernel it slices the weights
  applied to the neighbourhood mean. The column of reciprocal clamped in-degrees was computed before the first kernel:
  1 divided by the larger of the in-degree (a scatter-add of ones into zeros along the destination row) and 1.
  Each is stated for ANY contents X of the buffers when the stretch starts, as a function of X at the buffers the stretch
  reads; the index arrays, the weight slices, the bias row and the clamped in-degree are, operation by operation, the
  reference's stages of the same edge array or stack, so they are named by those stages and not opened.
-/
import proofs.«176458_j69930657513814_2_alg».proof.Proof.KIFrame
import proofs.«176458_j69930657513814_2_alg».proof.Proof.RefRead
import proofs.«176458_j69930657513814_2_alg».proof.Proof.LibReshapeBroadcast
import proofs.«176458_j69930657513814_2_alg».proof.Proof.LibERealScale
import proofs.«176458_j69930657513814_2_alg».proof.Proof.LibGatherRows
import proofs.«176458_j69930657513814_2_alg».proof.Proof.LibScatterRows
import proofs.«176458_j69930657513814_2_alg».proof.Proof.L2DSpec
import Idealize.ShloMosaic.Lib.StableHlo.Run
import Idealize.ShloMosaic.Lib.Pipeline.Value
import Idealize.ShloMosaic.Lib.ValueIdx

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.ValueIdx
open Cert.ReferenceIdeal.Read

variable (X : Valuation τ sig (Elt Ideal))

/-! ## The drugs -/

set_option maxHeartbeats 4000000 in
/-- The aggregate of the projected rows: the scatter-add into zeros, along the destination row of the edge array, of the
    rows of the projected features gathered along its (wrapped) source row. -/
theorem od_host_agg :
    (StableHlo.after hostOps9 X (Proc.devRef .tc main_v249) : S4000x128.Idx → EReal)
      = Ideal.hostScatterAdd scatter_S4000x128_S200000x1_S200000x128_1_0_0_1
          (broadcastInDim S4000x128 ![] bcast_S_S4000x128 (constant (F := Ideal) S_ .f32 0x00000000#32))
          (val_main_v305 (F := Ideal) (X (Proc.devRef .tc main_arg4)))
          (Host.gather gather_S20000x128_S200000x1_S200000x128_1_0_n_n_0_1_1128 (X (Proc.devRef .tc main_v168))
            (val_main_v302 (F := Ideal) (X (Proc.devRef .tc main_arg4)))) := by
  after_results
  rfl

set_option maxHeartbeats 4000000 in
/-- The weights applied to the destination's own features: the reference's slice of the same stack. -/
theorem od_host_wr :
    (StableHlo.after hostOps9 X (Proc.devRef .tc main_v251) : S256x128.Idx → EReal)
      = val_main_v290 (F := Ideal) (X (Proc.devRef .tc main_arg12)) := by
  after_results
  rfl

set_option maxHeartbeats 4000000 in
/-- The bias row: the reference's row of the same stack (a reshape to [1, 128] here, a broadcast along axis 1 there). -/
theorem od_host_b :
    (StableHlo.after hostOps9 X (Proc.devRef .tc main_v254) : S1x128.Idx → EReal)
      = val_main_v319 (F := Ideal) (X (Proc.devRef .tc main_arg13)) := by
  after_results
  exact Cert.GraphNet.row_reshape_eq_broadcast (val_main_v292 (F := Ideal) (X (Proc.devRef .tc main_arg13))) _ _

set_option maxHeartbeats 4000000 in
/-- The weights applied to the neighbourhood mean: the reference's slice of the same stack. -/
theorem od_host_wl :
    (StableHlo.after hostOps4 X (Proc.devRef .tc main_v167) : S256x128.Idx → EReal)
      = val_main_v288 (F := Ideal) (X (Proc.devRef .tc main_arg11)) := by
  after_results
  rfl

set_option maxHeartbeats 40000000 in
/-- The column of reciprocal clamped in-degrees: 1 over the reference's clamped in-degree of the same edge array. -/
theorem od_host_inv :
    (StableHlo.after hostOps0 X (Proc.devRef .tc main_v21) : S4000x1.Idx → EReal)
      = broadcastInDim S4000x1 ![0] bcast_S4000_S4000x1_0
          (Host.divf (F := Ideal) (s := S4000) (φ := .f32) (val_main_v311 (F := Ideal)) (val_main_v312 (F := Ideal) (X (Proc.devRef .tc main_arg4)))) := by
  after_results_simp
  rfl

/-- That column at (n, 0): 1 / M(n). -/
theorem od_inv_apply (x : (⟨Cert.ReferenceIdeal.S2x200000, .i32⟩ : BufTy).Contents (Elt Ideal)) (n : Fin 4000) (u : Fin 1) :
    (broadcastInDim S4000x1 ![0] bcast_S4000_S4000x1_0
        (Host.divf (F := Ideal) (s := S4000) (φ := .f32) (val_main_v311 (F := Ideal)) (val_main_v312 (F := Ideal) x)) : S4000x1.Idx → EReal) (ix2 n u)
      = Ideal.div 1 (val_main_v312 (F := Ideal) x (ix1 n)) := by
  refine (broadcastInDim_apply _ bcast_S4000_S4000x1_0 _ (ix2 n u) (ix1 n) fun a => ?_).trans ?_
  · match a with
    | ⟨0, _⟩ => show n.val = if (4000 : Nat) = 1 then 0 else n.val; rw [if_neg (by decide)]
  · simp only [Host.divf, Ideal.hostDivf_def, val_main_v311_apply, val_main_cst_51_apply, Ideal.ofBits_def,
      Cert.LibERealScale.ofBits_one_f32]

/-- The zeros the aggregate is added into. -/
theorem od_zeros_apply (i : S4000x128.Idx) :
    (broadcastInDim S4000x128 ![] bcast_S_S4000x128 (constant (F := Ideal) S_ .f32 0x00000000#32) : S4000x128.Idx → EReal) i = 0 := by
  refine (broadcastInDim_apply _ bcast_S_S4000x128 _ i ix0 fun a => a.elim0).trans ?_
  exact Ideal.ofBits_zero_f32

/-- The aggregate at (n, j): 0 plus the sum, over the edges into n, of the gathered row's entry in column j. -/
theorem od_aggK_apply (Z : (⟨2, ![20000, 128]⟩ : Shape).Idx → EReal) (di si : IVec ⟨2, ![200000, 1]⟩ 32)
    (n : Fin 4000) (j : Fin 128) :
    Ideal.hostScatterAdd scatter_S4000x128_S200000x1_S200000x128_1_0_0_1
        (broadcastInDim S4000x128 ![] bcast_S_S4000x128 (constant (F := Ideal) S_ .f32 0x00000000#32)) di
        (Host.gather gather_S20000x128_S200000x1_S200000x128_1_0_n_n_0_1_1128 Z si) (ix2 n j)
      = 0 + ∑ e ∈ inEdges di n.val, Z (ix2 (Cert.RowGather.rowOf pos20000 si e) j) := by
  show Ideal.hostScatterAdd (Cert.RowScatter.rowScatterDims 4000 200000 128 Facts₀.scatter_S4000x128_S200000x1_S200000x128_1_0_0_1_wf)
      (broadcastInDim S4000x128 ![] bcast_S_S4000x128 (constant (F := Ideal) S_ .f32 0x00000000#32)) di
      (Host.gather (Cert.RowGather.rowGatherDims 20000 200000 128 Facts₀.gather_S20000x128_S200000x1_S200000x128_1_0_n_n_0_1_1128_wf) Z si)
      (ix2 n j) = _
  rw [Cert.RowScatter.hostScatterAdd_rows_apply]
  refine congrArg₂ (· + ·) (od_zeros_apply _) (Finset.sum_congr rfl fun e _ => ?_)
  exact Cert.RowGather.gather_rows_apply pos20000 _ Z si e j

/-! ## The diseases -/

set_option maxHeartbeats 4000000 in
/-- The aggregate of the projected rows: the scatter-add into zeros, along the destination row of the edge array, of the
    rows of the projected features gathered along its (wrapped) source row. -/
theorem odis_host_agg :
    (StableHlo.after hostOps10 X (Proc.devRef .tc main_v269) : S8000x128.Idx → EReal)
      = Ideal.hostScatterAdd scatter_S8000x128_S300000x1_S300000x128_1_0_0_1
          (broadcastInDim S8000x128 ![] bcast_S_S8000x128 (constant (F := Ideal) S_ .f32 0x00000000#32))
          (val_main_v340 (F := Ideal) (X (Proc.devRef .tc main_arg5)))
          (Host.gather gather_S20000x128_S300000x1_S300000x128_1_0_n_n_0_1_1128 (X (Proc.devRef .tc main_v171))
            (val_main_v337 (F := Ideal) (X (Proc.devRef .tc main_arg5)))) := by
  after_results
  rfl

set_option maxHeartbeats 4000000 in
/-- The weights applied to the destination's own features: the reference's slice of the same stack. -/
theorem odis_host_wr :
    (StableHlo.after hostOps10 X (Proc.devRef .tc main_v271) : S256x128.Idx → EReal)
      = val_main_v325 (F := Ideal) (X (Proc.devRef .tc main_arg12)) := by
  after_results
  rfl

set_option maxHeartbeats 4000000 in
/-- The bias row: the reference's row of the same stack (a reshape to [1, 128] here, a broadcast along axis 1 there). -/
theorem odis_host_b :
    (StableHlo.after hostOps10 X (Proc.devRef .tc main_v274) : S1x128.Idx → EReal)
      = val_main_v354 (F := Ideal) (X (Proc.devRef .tc main_arg13)) := by
  after_results
  exact Cert.GraphNet.row_reshape_eq_broadcast (val_main_v327 (F := Ideal) (X (Proc.devRef .tc main_arg13))) _ _

set_option maxHeartbeats 4000000 in
/-- The weights applied to the neighbourhood mean: the reference's slice of the same stack. -/
theorem odis_host_wl :
    (StableHlo.after hostOps5 X (Proc.devRef .tc main_v170) : S256x128.Idx → EReal)
      = val_main_v323 (F := Ideal) (X (Proc.devRef .tc main_arg11)) := by
  after_results
  rfl

set_option maxHeartbeats 40000000 in
/-- The column of reciprocal clamped in-degrees: 1 over the reference's clamped in-degree of the same edge array. -/
theorem odis_host_inv :
    (StableHlo.after hostOps0 X (Proc.devRef .tc main_v32) : S8000x1.Idx → EReal)
      = broadcastInDim S8000x1 ![0] bcast_S8000_S8000x1_0
          (Host.divf (F := Ideal) (s := S8000) (φ := .f32) (val_main_v346 (F := Ideal)) (val_main_v347 (F := Ideal) (X (Proc.devRef .tc main_arg5)))) := by
  after_results_simp
  rfl

/-- That column at (n, 0): 1 / M(n). -/
theorem odis_inv_apply (x : (⟨Cert.ReferenceIdeal.S2x300000, .i32⟩ : BufTy).Contents (Elt Ideal)) (n : Fin 8000) (u : Fin 1) :
    (broadcastInDim S8000x1 ![0] bcast_S8000_S8000x1_0
        (Host.divf (F := Ideal) (s := S8000) (φ := .f32) (val_main_v346 (F := Ideal)) (val_main_v347 (F := Ideal) x)) : S8000x1.Idx → EReal) (ix2 n u)
      = Ideal.div 1 (val_main_v347 (F := Ideal) x (ix1 n)) := by
  refine (broadcastInDim_apply _ bcast_S8000_S8000x1_0 _ (ix2 n u) (ix1 n) fun a => ?_).trans ?_
  · match a with
    | ⟨0, _⟩ => show n.val = if (8000 : Nat) = 1 then 0 else n.val; rw [if_neg (by decide)]
  · simp only [Host.divf, Ideal.hostDivf_def, val_main_v346_apply, val_main_cst_57_apply, Ideal.ofBits_def,
      Cert.LibERealScale.ofBits_one_f32]

/-- The zeros the aggregate is added into. -/
theorem odis_zeros_apply (i : S8000x128.Idx) :
    (broadcastInDim S8000x128 ![] bcast_S_S8000x128 (constant (F := Ideal) S_ .f32 0x00000000#32) : S8000x128.Idx → EReal) i = 0 := by
  refine (broadcastInDim_apply _ bcast_S_S8000x128 _ i ix0 fun a => a.elim0).trans ?_
  exact Ideal.ofBits_zero_f32

/-- The aggregate at (n, j): 0 plus the sum, over the edges into n, of the gathered row's entry in column j. -/
theorem odis_aggK_apply (Z : (⟨2, ![20000, 128]⟩ : Shape).Idx → EReal) (di si : IVec ⟨2, ![300000, 1]⟩ 32)
    (n : Fin 8000) (j : Fin 128) :
    Ideal.hostScatterAdd scatter_S8000x128_S300000x1_S300000x128_1_0_0_1
        (broadcastInDim S8000x128 ![] bcast_S_S8000x128 (constant (F := Ideal) S_ .f32 0x00000000#32)) di
        (Host.gather gather_S20000x128_S300000x1_S300000x128_1_0_n_n_0_1_1128 Z si) (ix2 n j)
      = 0 + ∑ e ∈ inEdges di n.val, Z (ix2 (Cert.RowGather.rowOf pos20000 si e) j) := by
  show Ideal.hostScatterAdd (Cert.RowScatter.rowScatterDims 8000 300000 128 Facts₀.scatter_S8000x128_S300000x1_S300000x128_1_0_0_1_wf)
      (broadcastInDim S8000x128 ![] bcast_S_S8000x128 (constant (F := Ideal) S_ .f32 0x00000000#32)) di
      (Host.gather (Cert.RowGather.rowGatherDims 20000 300000 128 Facts₀.gather_S20000x128_S300000x1_S300000x128_1_0_n_n_0_1_1128_wf) Z si)
      (ix2 n j) = _
  rw [Cert.RowScatter.hostScatterAdd_rows_apply]
  refine congrArg₂ (· + ·) (odis_zeros_apply _) (Finset.sum_congr rfl fun e _ => ?_)
  exact Cert.RowGather.gather_rows_apply pos20000 _ Z si e j

end Cert.Bridge.L2D

end
-- ==== Proof.L2DWalkArgs.lean ====
/-
  The argument arrays the second layer's drug and disease stages read, as the fold of buffer contents finds them.

  No host operation writes an argument buffer and no kernel has one of these five (the protein → drug and protein →
  disease edge arrays and the three second-layer stacks) among its windows, so at every boundary of the fold each
  still holds what it held at launch: the fold is walked back one boundary at a time — a kernel's exit to its entry
  because the buffer is none of its arrays, a host stretch's end to its start because none of its operations writes it.
-/
import proofs.«176458_j69930657513814_2_alg».proof.Proof.KIFrame
import proofs.«176458_j69930657513814_2_alg».proof.Proof.Args
import Idealize.ShloMosaic.Lib.StableHlo.Run

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.Pipeline (Dat)

/-- A stretch of host operations leaves a buffer none of them writes as it was: the stretch's list is opened, each
    operation's written buffer is named, and each is a different reference from the buffer asked about. -/
macro "host_keeps " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The protein → drug edge array when the drugs' aggregate is computed. -/
theorem W18_arg4 (m : KMem) (ρ : Dev nD → PrngReg) (c : Dev nD) :
    W18 m ρ c (Proc.devRef .tc main_arg4) = m ((c : Thread nD τ).loc main_arg4) :=
  calc W18 m ρ c (Proc.devRef .tc main_arg4)
    _ = W17 m ρ c (Proc.devRef .tc main_arg4) := W18_of_ne m ρ c main_arg4 (by decide)
    _ = W16 m ρ c (Proc.devRef .tc main_arg4) := by host_keeps hostOps8 main_arg4
    _ = W15 m ρ c (Proc.devRef .tc main_arg4) := W16_of_ne m ρ c main_arg4 (by decide)
    _ = W14 m ρ c (Proc.devRef .tc main_arg4) := by host_keeps hostOps7 main_arg4
    _ = W13 m ρ c (Proc.devRef .tc main_arg4) := W14_of_ne m ρ c main_arg4 (by decide)
    _ = W12 m ρ c (Proc.devRef .tc main_arg4) := by host_keeps hostOps6 main_arg4
    _ = W11 m ρ c (Proc.devRef .tc main_arg4) := W12_of_ne m ρ c main_arg4 (by decide)
    _ = W10 m ρ c (Proc.devRef .tc main_arg4) := by host_keeps hostOps5 main_arg4
    _ = W9 m ρ c (Proc.devRef .tc main_arg4) := W10_of_ne m ρ c main_arg4 (by decide)
    _ = W8 m ρ c (Proc.devRef .tc main_arg4) := by host_keeps hostOps4 main_arg4
    _ = W7 m ρ c (Proc.devRef .tc main_arg4) := W8_of_ne m ρ c main_arg4 (by decide)
    _ = W6 m ρ c (Proc.devRef .tc main_arg4) := by host_keeps hostOps3 main_arg4
    _ = W5 m ρ c (Proc.devRef .tc main_arg4) := W6_of_ne m ρ c main_arg4 (by decide)
    _ = W4 m ρ c (Proc.devRef .tc main_arg4) := by host_keeps hostOps2 main_arg4
    _ = W3 m ρ c (Proc.devRef .tc main_arg4) := W4_of_ne m ρ c main_arg4 (by decide)
    _ = W2 m ρ c (Proc.devRef .tc main_arg4) := by host_keeps hostOps1 main_arg4
    _ = W1 m ρ c (Proc.devRef .tc main_arg4) := W2_of_ne m ρ c main_arg4 (by decide)
    _ = W0 m ρ c (Proc.devRef .tc main_arg4) := by host_keeps hostOps0 main_arg4
    _ = m ((c : Thread nD τ).loc main_arg4) := rfl

/-- The second layer's own-feature weights when the drugs' slice is taken. -/
theorem W18_arg12 (m : KMem) (ρ : Dev nD → PrngReg) (c : Dev nD) :
    W18 m ρ c (Proc.devRef .tc main_arg12) = m ((c : Thread nD τ).loc main_arg12) :=
  calc W18 m ρ c (Proc.devRef .tc main_arg12)
    _ = W17 m ρ c (Proc.devRef .tc main_arg12) := W18_of_ne m ρ c main_arg12 (by decide)
    _ = W16 m ρ c (Proc.devRef .tc main_arg12) := by host_keeps hostOps8 main_arg12
    _ = W15 m ρ c (Proc.devRef .tc main_arg12) := W16_of_ne m ρ c main_arg12 (by decide)
    _ = W14 m ρ c (Proc.devRef .tc main_arg12) := by host_keeps hostOps7 main_arg12
    _ = W13 m ρ c (Proc.devRef .tc main_arg12) := W14_of_ne m ρ c main_arg12 (by decide)
    _ = W12 m ρ c (Proc.devRef .tc main_arg12) := by host_keeps hostOps6 main_arg12
    _ = W11 m ρ c (Proc.devRef .tc main_arg12) := W12_of_ne m ρ c main_arg12 (by decide)
    _ = W10 m ρ c (Proc.devRef .tc main_arg12) := by host_keeps hostOps5 main_arg12
    _ = W9 m ρ c (Proc.devRef .tc main_arg12) := W10_of_ne m ρ c main_arg12 (by decide)
    _ = W8 m ρ c (Proc.devRef .tc main_arg12) := by host_keeps hostOps4 main_arg12
    _ = W7 m ρ c (Proc.devRef .tc main_arg12) := W8_of_ne m ρ c main_arg12 (by decide)
    _ = W6 m ρ c (Proc.devRef .tc main_arg12) := by host_keeps hostOps3 main_arg12
    _ = W5 m ρ c (Proc.devRef .tc main_arg12) := W6_of_ne m ρ c main_arg12 (by decide)
    _ = W4 m ρ c (Proc.devRef .tc main_arg12) := by host_keeps hostOps2 main_arg12
    _ = W3 m ρ c (Proc.devRef .tc main_arg12) := W4_of_ne m ρ c main_arg12 (by decide)
    _ = W2 m ρ c (Proc.devRef .tc main_arg12) := by host_keeps hostOps1 main_arg12
    _ = W1 m ρ c (Proc.devRef .tc main_arg12) := W2_of_ne m ρ c main_arg12 (by decide)
    _ = W0 m ρ c (Proc.devRef .tc main_arg12) := by host_keeps hostOps0 main_arg12
    _ = m ((c : Thread nD τ).loc main_arg12) := rfl

/-- The second layer's biases when the drugs' row is taken. -/
theorem W18_arg13 (m : KMem) (ρ : Dev nD → PrngReg) (c : Dev nD) :
    W18 m ρ c (Proc.devRef .tc main_arg13) = m ((c : Thread nD τ).loc main_arg13) :=
  calc W18 m ρ c (Proc.devRef .tc main_arg13)
    _ = W17 m ρ c (Proc.devRef .tc main_arg13) := W18_of_ne m ρ c main_arg13 (by decide)
    _ = W16 m ρ c (Proc.devRef .tc main_arg13) := by host_keeps hostOps8 main_arg13
    _ = W15 m ρ c (Proc.devRef .tc main_arg13) := W16_of_ne m ρ c main_arg13 (by decide)
    _ = W14 m ρ c (Proc.devRef .tc main_arg13) := by host_keeps hostOps7 main_arg13
    _ = W13 m ρ c (Proc.devRef .tc main_arg13) := W14_of_ne m ρ c main_arg13 (by decide)
    _ = W12 m ρ c (Proc.devRef .tc main_arg13) := by host_keeps hostOps6 main_arg13
    _ = W11 m ρ c (Proc.devRef .tc main_arg13) := W12_of_ne m ρ c main_arg13 (by decide)
    _ = W10 m ρ c (Proc.devRef .tc main_arg13) := by host_keeps hostOps5 main_arg13
    _ = W9 m ρ c (Proc.devRef .tc main_arg13) := W10_of_ne m ρ c main_arg13 (by decide)
    _ = W8 m ρ c (Proc.devRef .tc main_arg13) := by host_keeps hostOps4 main_arg13
    _ = W7 m ρ c (Proc.devRef .tc main_arg13) := W8_of_ne m ρ c main_arg13 (by decide)
    _ = W6 m ρ c (Proc.devRef .tc main_arg13) := by host_keeps hostOps3 main_arg13
    _ = W5 m ρ c (Proc.devRef .tc main_arg13) := W6_of_ne m ρ c main_arg13 (by decide)
    _ = W4 m ρ c (Proc.devRef .tc main_arg13) := by host_keeps hostOps2 main_arg13
    _ = W3 m ρ c (Proc.devRef .tc main_arg13) := W4_of_ne m ρ c main_arg13 (by decide)
    _ = W2 m ρ c (Proc.devRef .tc main_arg13) := by host_keeps hostOps1 main_arg13
    _ = W1 m ρ c (Proc.devRef .tc main_arg13) := W2_of_ne m ρ c main_arg13 (by decide)
    _ = W0 m ρ c (Proc.devRef .tc main_arg13) := by host_keeps hostOps0 main_arg13
    _ = m ((c : Thread nD τ).loc main_arg13) := rfl

/-- The second layer's neighbourhood weights when the protein → drug slice is taken. -/
theorem W8_arg11 (m : KMem) (ρ : Dev nD → PrngReg) (c : Dev nD) :
    W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := by host_keeps hostOps3 main_arg11
    _ = W5 m ρ c (Proc.devRef .tc main_arg11) := W6_of_ne m ρ c main_arg11 (by decide)
    _ = W4 m ρ c (Proc.devRef .tc main_arg11) := by host_keeps hostOps2 main_arg11
    _ = W3 m ρ c (Proc.devRef .tc main_arg11) := W4_of_ne m ρ c main_arg11 (by decide)
    _ = W2 m ρ c (Proc.devRef .tc main_arg11) := by host_keeps hostOps1 main_arg11
    _ = W1 m ρ c (Proc.devRef .tc main_arg11) := W2_of_ne m ρ c main_arg11 (by decide)
    _ = W0 m ρ c (Proc.devRef .tc main_arg11) := by host_keeps hostOps0 main_arg11
    _ = m ((c : Thread nD τ).loc main_arg11) := rfl

/-- The protein → disease edge array when the diseases' aggregate is computed. -/
theorem W20_arg5 (m : KMem) (ρ : Dev nD → PrngReg) (c : Dev nD) :
    W20 m ρ c (Proc.devRef .tc main_arg5) = m ((c : Thread nD τ).loc main_arg5) :=
  calc W20 m ρ c (Proc.devRef .tc main_arg5)
    _ = W19 m ρ c (Proc.devRef .tc main_arg5) := W20_of_ne m ρ c main_arg5 (by decide)
    _ = W18 m ρ c (Proc.devRef .tc main_arg5) := by host_keeps hostOps9 main_arg5
    _ = W17 m ρ c (Proc.devRef .tc main_arg5) := W18_of_ne m ρ c main_arg5 (by decide)
    _ = W16 m ρ c (Proc.devRef .tc main_arg5) := by host_keeps hostOps8 main_arg5
    _ = W15 m ρ c (Proc.devRef .tc main_arg5) := W16_of_ne m ρ c main_arg5 (by decide)
    _ = W14 m ρ c (Proc.devRef .tc main_arg5) := by host_keeps hostOps7 main_arg5
    _ = W13 m ρ c (Proc.devRef .tc main_arg5) := W14_of_ne m ρ c main_arg5 (by decide)
    _ = W12 m ρ c (Proc.devRef .tc main_arg5) := by host_keeps hostOps6 main_arg5
    _ = W11 m ρ c (Proc.devRef .tc main_arg5) := W12_of_ne m ρ c main_arg5 (by decide)
    _ = W10 m ρ c (Proc.devRef .tc main_arg5) := by host_keeps hostOps5 main_arg5
    _ = W9 m ρ c (Proc.devRef .tc main_arg5) := W10_of_ne m ρ c main_arg5 (by decide)
    _ = W8 m ρ c (Proc.devRef .tc main_arg5) := by host_keeps hostOps4 main_arg5
    _ = W7 m ρ c (Proc.devRef .tc main_arg5) := W8_of_ne m ρ c main_arg5 (by decide)
    _ = W6 m ρ c (Proc.devRef .tc main_arg5) := by host_keeps hostOps3 main_arg5
    _ = W5 m ρ c (Proc.devRef .tc main_arg5) := W6_of_ne m ρ c main_arg5 (by decide)
    _ = W4 m ρ c (Proc.devRef .tc main_arg5) := by host_keeps hostOps2 main_arg5
    _ = W3 m ρ c (Proc.devRef .tc main_arg5) := W4_of_ne m ρ c main_arg5 (by decide)
    _ = W2 m ρ c (Proc.devRef .tc main_arg5) := by host_keeps hostOps1 main_arg5
    _ = W1 m ρ c (Proc.devRef .tc main_arg5) := W2_of_ne m ρ c main_arg5 (by decide)
    _ = W0 m ρ c (Proc.devRef .tc main_arg5) := by host_keeps hostOps0 main_arg5
    _ = m ((c : Thread nD τ).loc main_arg5) := rfl

/-- The second layer's own-feature weights when the diseases' slice is taken. -/
theorem W20_arg12 (m : KMem) (ρ : Dev nD → PrngReg) (c : Dev nD) :
    W20 m ρ c (Proc.devRef .tc main_arg12) = m ((c : Thread nD τ).loc main_arg12) :=
  calc W20 m ρ c (Proc.devRef .tc main_arg12)
    _ = W19 m ρ c (Proc.devRef .tc main_arg12) := W20_of_ne m ρ c main_arg12 (by decide)
    _ = W18 m ρ c (Proc.devRef .tc main_arg12) := by host_keeps hostOps9 main_arg12
    _ = m ((c : Thread nD τ).loc main_arg12) := W18_arg12 m ρ c

/-- The second layer's biases when the diseases' row is taken. -/
theorem W20_arg13 (m : KMem) (ρ : Dev nD → PrngReg) (c : Dev nD) :
    W20 m ρ c (Proc.devRef .tc main_arg13) = m ((c : Thread nD τ).loc main_arg13) :=
  calc W20 m ρ c (Proc.devRef .tc main_arg13)
    _ = W19 m ρ c (Proc.devRef .tc main_arg13) := W20_of_ne m ρ c main_arg13 (by decide)
    _ = W18 m ρ c (Proc.devRef .tc main_arg13) := by host_keeps hostOps9 main_arg13
    _ = m ((c : Thread nD τ).loc main_arg13) := W18_arg13 m ρ c

/-- The second layer's neighbourhood weights when the protein → disease slice is taken. -/
theorem W10_arg11 (m : KMem) (ρ : Dev nD → PrngReg) (c : Dev nD) :
    W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by host_keeps hostOps4 main_arg11
    _ = m ((c : Thread nD τ).loc main_arg11) := W8_arg11 m ρ c

end Cert.Bridge.L2D

end
-- ==== Proof.L2DWalkD.lean ====
/-
  The drugs' second-layer result array, read back through the fold of buffer contents to the launch arrays and to the
  first layer's results.

  The result buffer is written by the drugs' aggregating kernel and by nothing after it. That kernel's five input arrays
  are, at its entry: the aggregate the host stretch before it computed from the projected protein features (which the
  protein → drug projecting kernel wrote, five kernels earlier, from the first layer's protein result and a slice of the
  weights) and from the protein → drug edge array; the column of reciprocal clamped in-degrees, computed before the
  first kernel and since only read; the first layer's drug result; and two slices of the second layer's stacks. Each
  buffer is walked back, boundary by boundary, to where it was written — a kernel it is not an output of keeps it (it is
  none of the kernel's arrays, or an input window's, which is never written back), a host stretch that does not write it
  keeps it — and the two first-layer results are taken by hypothesis as the reference's hidden features.
-/
import proofs.«176458_j69930657513814_2_alg».proof.Proof.KIFrame
import proofs.«176458_j69930657513814_2_alg».proof.Proof.RefRead
import proofs.«176458_j69930657513814_2_alg».proof.Proof.Args
import proofs.«176458_j69930657513814_2_alg».proof.Proof.L2DSpec
import proofs.«176458_j69930657513814_2_alg».proof.Proof.L2DProj
import proofs.«176458_j69930657513814_2_alg».proof.Proof.L2DSage
import proofs.«176458_j69930657513814_2_alg».proof.Proof.L2DHost
import proofs.«176458_j69930657513814_2_alg».proof.Proof.L2DWalkArgs
import Idealize.ShloMosaic.Lib.StableHlo.Run

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open Cert.ReferenceIdeal.Read

/-- Nothing after the drugs' kernel writes its result. -/
theorem od_walk_out (m : KMem) (ρ : Dev nD → PrngReg) (c : Dev nD) :
    W22 m ρ c (Proc.devRef .tc main_v255) = W20 m ρ c (Proc.devRef .tc main_v255) :=
  calc W22 m ρ c (Proc.devRef .tc main_v255)
    _ = W21 m ρ c (Proc.devRef .tc main_v255) := W22_of_ne m ρ c main_v255 (by decide)
    _ = W20 m ρ c (Proc.devRef .tc main_v255) := by host_keeps hostOps10 main_v255

/-- The projected protein features (by the protein → drug weights) are written by their kernel and then only read. -/
theorem od_walk_proj (m : KMem) (ρ : Dev nD → PrngReg) (c : Dev nD) :
    W18 m ρ c (Proc.devRef .tc main_v168) = W10 m ρ c (Proc.devRef .tc main_v168) :=
  calc W18 m ρ c (Proc.devRef .tc main_v168)
    _ = W17 m ρ c (Proc.devRef .tc main_v168) := W18_of_ne m ρ c main_v168 (by decide)
    _ = W16 m ρ c (Proc.devRef .tc main_v168) := by host_keeps hostOps8 main_v168
    _ = W15 m ρ c (Proc.devRef .tc main_v168) := W16_of_ne m ρ c main_v168 (by decide)
    _ = W14 m ρ c (Proc.devRef .tc main_v168) := by host_keeps hostOps7 main_v168
    _ = W13 m ρ c (Proc.devRef .tc main_v168) := W14_of_ne m ρ c main_v168 (by decide)
    _ = W12 m ρ c (Proc.devRef .tc main_v168) := by host_keeps hostOps6 main_v168
    _ = W11 m ρ c (Proc.devRef .tc main_v168) := W12_of_ne m ρ c main_v168 (by decide)
    _ = W10 m ρ c (Proc.devRef .tc main_v168) := by host_keeps hostOps5 main_v168

/-- The first layer's protein result is still what its kernel left when the protein → drug projection reads it. -/
theorem od_walk_hp (m : KMem) (ρ : Dev nD → PrngReg) (c : Dev nD) :
    W9 m ρ c (Proc.devRef .tc main_v118) = W2 m ρ c (Proc.devRef .tc main_v118) :=
  calc W9 m ρ c (Proc.devRef .tc main_v118)
    _ = W8 m ρ c (Proc.devRef .tc main_v118) := by host_keeps hostOps4 main_v118
    _ = W7 m ρ c (Proc.devRef .tc main_v118) := W8_of_ne m ρ c main_v118 (by decide)
    _ = W6 m ρ c (Proc.devRef .tc main_v118) := by host_keeps hostOps3 main_v118
    _ = W5 m ρ c (Proc.devRef .tc main_v118) := W6_of_ne m ρ c main_v118 (by decide)
    _ = W4 m ρ c (Proc.devRef .tc main_v118) := by host_keeps hostOps2 main_v118
    _ = W3 m ρ c (Proc.devRef .tc main_v118) := W4_of_ne m ρ c main_v118 (by decide)
    _ = W2 m ρ c (Proc.devRef .tc main_v118) := by host_keeps hostOps1 main_v118

/-- The drugs' column of reciprocal clamped in-degrees is what the first host stretch left. -/
theorem od_walk_inv (m : KMem) (ρ : Dev nD → PrngReg) (c : Dev nD) :
    W19 m ρ c (Proc.devRef .tc main_v21) = W1 m ρ c (Proc.devRef .tc main_v21) :=
  calc W19 m ρ c (Proc.devRef .tc main_v21)
    _ = W18 m ρ c (Proc.devRef .tc main_v21) := by host_keeps hostOps9 main_v21
    _ = W17 m ρ c (Proc.devRef .tc main_v21) := W18_of_ne m ρ c main_v21 (by decide)
    _ = W16 m ρ c (Proc.devRef .tc main_v21) := by host_keeps hostOps8 main_v21
    _ = W15 m ρ c (Proc.devRef .tc main_v21) := W16_of_ne m ρ c main_v21 (by decide)
    _ = W14 m ρ c (Proc.devRef .tc main_v21) := by host_keeps hostOps7 main_v21
    _ = W13 m ρ c (Proc.devRef .tc main_v21) := W14_of_ne m ρ c main_v21 (by decide)
    _ = W12 m ρ c (Proc.devRef .tc main_v21) := by host_keeps hostOps6 main_v21
    _ = W11 m ρ c (Proc.devRef .tc main_v21) := W12_of_ne m ρ c main_v21 (by decide)
    _ = W10 m ρ c (Proc.devRef .tc main_v21) := by host_keeps hostOps5 main_v21
    _ = W9 m ρ c (Proc.devRef .tc main_v21) := W10_of_ne m ρ c main_v21 (by decide)
    _ = W8 m ρ c (Proc.devRef .tc main_v21) := by host_keeps hostOps4 main_v21
    _ = W7 m ρ c (Proc.devRef .tc main_v21) := W8_of_ne m ρ c main_v21 (by decide)
    _ = W6 m ρ c (Proc.devRef .tc main_v21) := by host_keeps hostOps3 main_v21
    _ = W5 m ρ c (Proc.devRef .tc main_v21) := W6_of_ne m ρ c main_v21 (by decide)
    _ = W4 m ρ c (Proc.devRef .tc main_v21) := by host_keeps hostOps2 main_v21
    _ = W3 m ρ c (Proc.devRef .tc main_v21) := (W4_arr m ρ c 1).trans (((dat1 (V3 m ρ) c).arrAt_in 1 rfl _).trans (A_eq1 (V3 m ρ) c 1))
    _ = W2 m ρ c (Proc.devRef .tc main_v21) := by host_keeps hostOps1 main_v21
    _ = W1 m ρ c (Proc.devRef .tc main_v21) := W2_of_ne m ρ c main_v21 (by decide)

/-- The first layer's drug result is still what its kernel left when the drugs' second-layer kernel reads it. -/
theorem od_walk_x (m : KMem) (ρ : Dev nD → PrngReg) (c : Dev nD) :
    W19 m ρ c (Proc.devRef .tc main_v140) = W4 m ρ c (Proc.devRef .tc main_v140) :=
  calc W19 m ρ c (Proc.devRef .tc main_v140)
    _ = W18 m ρ c (Proc.devRef .tc main_v140) := by host_keeps hostOps9 main_v140
    _ = W17 m ρ c (Proc.devRef .tc main_v140) := W18_of_ne m ρ c main_v140 (by decide)
    _ = W16 m ρ c (Proc.devRef .tc main_v140) := by host_keeps hostOps8 main_v140
    _ = W15 m ρ c (Proc.devRef .tc main_v140) := W16_of_ne m ρ c main_v140 (by decide)
    _ = W14 m ρ c (Proc.devRef .tc main_v140) := by host_keeps hostOps7 main_v140
    _ = W13 m ρ c (Proc.devRef .tc main_v140) := W14_of_ne m ρ c main_v140 (by decide)
    _ = W12 m ρ c (Proc.devRef .tc main_v140) := by host_keeps hostOps6 main_v140
    _ = W11 m ρ c (Proc.devRef .tc main_v140) := W12_of_ne m ρ c main_v140 (by decide)
    _ = W10 m ρ c (Proc.devRef .tc main_v140) := by host_keeps hostOps5 main_v140
    _ = W9 m ρ c (Proc.devRef .tc main_v140) := W10_of_ne m ρ c main_v140 (by decide)
    _ = W8 m ρ c (Proc.devRef .tc main_v140) := by host_keeps hostOps4 main_v140
    _ = W7 m ρ c (Proc.devRef .tc main_v140) := (W8_arr m ρ c 0).trans (((dat3 (V7 m ρ) c).arrAt_in 0 rfl _).trans (A_eq3 (V7 m ρ) c 0))
    _ = W6 m ρ c (Proc.devRef .tc main_v140) := by host_keeps hostOps3 main_v140
    _ = W5 m ρ c (Proc.devRef .tc main_v140) := W6_of_ne m ρ c main_v140 (by decide)
    _ = W4 m ρ c (Proc.devRef .tc main_v140) := by host_keeps hostOps2 main_v140

/-- The projected protein features as the aggregate's gather finds them: the product of the reference's hidden protein
    features (by hypothesis what the first layer's protein kernel left) and the reference's slice of the weights. -/
theorem od_proj_read (m : KMem) (ρ : Dev nD → PrngReg) (c : Dev nD)
    (hHP : W2 m ρ c (Proc.devRef .tc main_v118) = HP m c) :
    (W18 m ρ c (Proc.devRef .tc main_v168) : S20000x128.Idx → EReal)
      = proj (N := 20000) (HP m c) (val_main_v288 (F := Ideal) (a11 m c)) := by
  refine (od_walk_proj m ρ c).trans ((W10_arr m ρ c 2).trans ((final4 (V9 m ρ) c).trans ?_))
  have e1 : (V9 m ρ c main_v118 : (⟨2, ![20000, 256]⟩ : Shape).Idx → EReal) = HP m c :=
    (od_walk_hp m ρ c).trans hHP
  have e2 : (V9 m ρ c main_v167 : (⟨2, ![256, 128]⟩ : Shape).Idx → EReal) = val_main_v288 (F := Ideal) (a11 m c) := by
    show StableHlo.after hostOps4 (W8 m ρ c) (Proc.devRef .tc main_v167) = _
    rw [od_host_wl (W8 m ρ c), W8_arg11 m ρ c]
  exact congrArg₂ (proj (N := 20000)) e1 e2

/-- THE KERNEL'S RESULT ARRAY: `sage` of the aggregate of the projected rows, the column of reciprocal clamped
    in-degrees, the reference's hidden destination features (by hypothesis what the first layer left), and the
    reference's slices of the own-feature weights and of the biases. -/
theorem od_kernel (m : KMem) (ρ : Dev nD → PrngReg) (c : Dev nD)
    (hHP : W2 m ρ c (Proc.devRef .tc main_v118) = HP m c)
    (hHX : W4 m ρ c (Proc.devRef .tc main_v140) = HD m c) :
    (W22 m ρ c (Proc.devRef .tc main_v255) : S4000x128.Idx → EReal)
      = sage (N := 4000)
          (Ideal.hostScatterAdd scatter_S4000x128_S200000x1_S200000x128_1_0_0_1
            (broadcastInDim S4000x128 ![] bcast_S_S4000x128 (constant (F := Ideal) S_ .f32 0x00000000#32))
            (val_main_v305 (F := Ideal) (a4 m c))
            (Host.gather gather_S20000x128_S200000x1_S200000x128_1_0_n_n_0_1_1128
              (proj (N := 20000) (HP m c) (val_main_v288 (F := Ideal) (a11 m c))) (val_main_v302 (F := Ideal) (a4 m c))))
          (broadcastInDim S4000x1 ![0] bcast_S4000_S4000x1_0
            (Host.divf (F := Ideal) (s := S4000) (φ := .f32) (val_main_v311 (F := Ideal)) (val_main_v312 (F := Ideal) (a4 m c))))
          (HD m c) (val_main_v290 (F := Ideal) (a12 m c)) (val_main_v319 (F := Ideal) (a13 m c)) := by
  refine (od_walk_out m ρ c).trans ((W20_arr m ρ c 5).trans ((final9 (V19 m ρ) c).trans ?_))
  have eA : (V19 m ρ c main_v249 : (⟨2, ![4000, 128]⟩ : Shape).Idx → EReal)
      = Ideal.hostScatterAdd scatter_S4000x128_S200000x1_S200000x128_1_0_0_1
          (broadcastInDim S4000x128 ![] bcast_S_S4000x128 (constant (F := Ideal) S_ .f32 0x00000000#32))
          (val_main_v305 (F := Ideal) (a4 m c))
          (Host.gather gather_S20000x128_S200000x1_S200000x128_1_0_n_n_0_1_1128
            (proj (N := 20000) (HP m c) (val_main_v288 (F := Ideal) (a11 m c))) (val_main_v302 (F := Ideal) (a4 m c))) := by
    show StableHlo.after hostOps9 (W18 m ρ c) (Proc.devRef .tc main_v249) = _
    rw [od_host_agg (W18 m ρ c), W18_arg4 m ρ c, od_proj_read m ρ c hHP]
  have eI : (V19 m ρ c main_v21 : (⟨2, ![4000, 1]⟩ : Shape).Idx → EReal)
      = broadcastInDim S4000x1 ![0] bcast_S4000_S4000x1_0
          (Host.divf (F := Ideal) (s := S4000) (φ := .f32) (val_main_v311 (F := Ideal)) (val_main_v312 (F := Ideal) (a4 m c))) :=
    (od_walk_inv m ρ c).trans (od_host_inv (W0 m ρ c))
  have eX : (V19 m ρ c main_v140 : (⟨2, ![4000, 256]⟩ : Shape).Idx → EReal) = HD m c :=
    (od_walk_x m ρ c).trans hHX
  have eW : (V19 m ρ c main_v251 : (⟨2, ![256, 128]⟩ : Shape).Idx → EReal) = val_main_v290 (F := Ideal) (a12 m c) := by
    show StableHlo.after hostOps9 (W18 m ρ c) (Proc.devRef .tc main_v251) = _
    rw [od_host_wr (W18 m ρ c), W18_arg12 m ρ c]
  have eB : (V19 m ρ c main_v254 : (⟨2, ![1, 128]⟩ : Shape).Idx → EReal) = val_main_v319 (F := Ideal) (a13 m c) := by
    show StableHlo.after hostOps9 (W18 m ρ c) (Proc.devRef .tc main_v254) = _
    rw [od_host_b (W18 m ρ c), W18_arg13 m ρ c]
  rw [eA, eI, eX, eW, eB]

end Cert.Bridge.L2D

end
-- ==== Proof.L2DWalkS.lean ====
/-
  The diseases' second-layer result array, read back through the fold of buffer contents to the launch arrays and to
  the first layer's results.

  The result buffer is written by the last kernel, the diseases' aggregating kernel. Its five input arrays are, at its
  entry: the aggregate the host stretch before it computed from the projected protein features (which the protein →
  disease projecting kernel wrote from the first layer's protein result and a slice of the weights) and from the protein
  → disease edge array; the column of reciprocal clamped in-degrees, computed before the first kernel and since only
  read; the first layer's disease result; and two slices of the second layer's stacks. Each buffer is walked back,
  boundary by boundary, to where it was written, and the two first-layer results are taken by hypothesis as the
  reference's hidden features.
-/
import proofs.«176458_j69930657513814_2_alg».proof.Proof.KIFrame
import proofs.«176458_j69930657513814_2_alg».proof.Proof.RefRead
import proofs.«176458_j69930657513814_2_alg».proof.Proof.Args
import proofs.«176458_j69930657513814_2_alg».proof.Proof.L2DSpec
import proofs.«176458_j69930657513814_2_alg».proof.Proof.L2DProj
import proofs.«176458_j69930657513814_2_alg».proof.Proof.L2DSage
import proofs.«176458_j69930657513814_2_alg».proof.Proof.L2DHost
import proofs.«176458_j69930657513814_2_alg».proof.Proof.L2DWalkArgs
import Idealize.ShloMosaic.Lib.StableHlo.Run

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open Cert.ReferenceIdeal.Read

/-- The projected protein features (by the protein → disease weights) are written by their kernel and then only read. -/
theorem odis_walk_proj (m : KMem) (ρ : Dev nD → PrngReg) (c : Dev nD) :
    W20 m ρ c (Proc.devRef .tc main_v171) = W12 m ρ c (Proc.devRef .tc main_v171) :=
  calc W20 m ρ c (Proc.devRef .tc main_v171)
    _ = W19 m ρ c (Proc.devRef .tc main_v171) := W20_of_ne m ρ c main_v171 (by decide)
    _ = W18 m ρ c (Proc.devRef .tc main_v171) := by host_keeps hostOps9 main_v171
    _ = W17 m ρ c (Proc.devRef .tc main_v171) := W18_of_ne m ρ c main_v171 (by decide)
    _ = W16 m ρ c (Proc.devRef .tc main_v171) := by host_keeps hostOps8 main_v171
    _ = W15 m ρ c (Proc.devRef .tc main_v171) := W16_of_ne m ρ c main_v171 (by decide)
    _ = W14 m ρ c (Proc.devRef .tc main_v171) := by host_keeps hostOps7 main_v171
    _ = W13 m ρ c (Proc.devRef .tc main_v171) := W14_of_ne m ρ c main_v171 (by decide)
    _ = W12 m ρ c (Proc.devRef .tc main_v171) := by host_keeps hostOps6 main_v171

/-- The first layer's protein result is still what its kernel left when the protein → disease projection reads it. -/
theorem odis_walk_hp (m : KMem) (ρ : Dev nD → PrngReg) (c : Dev nD) :
    W11 m ρ c (Proc.devRef .tc main_v118) = W2 m ρ c (Proc.devRef .tc main_v118) :=
  calc W11 m ρ c (Proc.devRef .tc main_v118)
    _ = W10 m ρ c (Proc.devRef .tc main_v118) := by host_keeps hostOps5 main_v118
    _ = W9 m ρ c (Proc.devRef .tc main_v118) := (W10_arr m ρ c 0).trans (((dat4 (V9 m ρ) c).arrAt_in 0 rfl _).trans (A_eq4 (V9 m ρ) c 0))
    _ = W8 m ρ c (Proc.devRef .tc main_v118) := by host_keeps hostOps4 main_v118
    _ = W7 m ρ c (Proc.devRef .tc main_v118) := W8_of_ne m ρ c main_v118 (by decide)
    _ = W6 m ρ c (Proc.devRef .tc main_v118) := by host_keeps hostOps3 main_v118
    _ = W5 m ρ c (Proc.devRef .tc main_v118) := W6_of_ne m ρ c main_v118 (by decide)
    _ = W4 m ρ c (Proc.devRef .tc main_v118) := by host_keeps hostOps2 main_v118
    _ = W3 m ρ c (Proc.devRef .tc main_v118) := W4_of_ne m ρ c main_v118 (by decide)
    _ = W2 m ρ c (Proc.devRef .tc main_v118) := by host_keeps hostOps1 main_v118

/-- The diseases' column of reciprocal clamped in-degrees is what the first host stretch left. -/
theorem odis_walk_inv (m : KMem) (ρ : Dev nD → PrngReg) (c : Dev nD) :
    W21 m ρ c (Proc.devRef .tc main_v32) = W1 m ρ c (Proc.devRef .tc main_v32) :=
  calc W21 m ρ c (Proc.devRef .tc main_v32)
    _ = W20 m ρ c (Proc.devRef .tc main_v32) := by host_keeps hostOps10 main_v32
    _ = W19 m ρ c (Proc.devRef .tc main_v32) := W20_of_ne m ρ c main_v32 (by decide)
    _ = W18 m ρ c (Proc.devRef .tc main_v32) := by host_keeps hostOps9 main_v32
    _ = W17 m ρ c (Proc.devRef .tc main_v32) := W18_of_ne m ρ c main_v32 (by decide)
    _ = W16 m ρ c (Proc.devRef .tc main_v32) := by host_keeps hostOps8 main_v32
    _ = W15 m ρ c (Proc.devRef .tc main_v32) := W16_of_ne m ρ c main_v32 (by decide)
    _ = W14 m ρ c (Proc.devRef .tc main_v32) := by host_keeps hostOps7 main_v32
    _ = W13 m ρ c (Proc.devRef .tc main_v32) := W14_of_ne m ρ c main_v32 (by decide)
    _ = W12 m ρ c (Proc.devRef .tc main_v32) := by host_keeps hostOps6 main_v32
    _ = W11 m ρ c (Proc.devRef .tc main_v32) := W12_of_ne m ρ c main_v32 (by decide)
    _ = W10 m ρ c (Proc.devRef .tc main_v32) := by host_keeps hostOps5 main_v32
    _ = W9 m ρ c (Proc.devRef .tc main_v32) := W10_of_ne m ρ c main_v32 (by decide)
    _ = W8 m ρ c (Proc.devRef .tc main_v32) := by host_keeps hostOps4 main_v32
    _ = W7 m ρ c (Proc.devRef .tc main_v32) := W8_of_ne m ρ c main_v32 (by decide)
    _ = W6 m ρ c (Proc.devRef .tc main_v32) := by host_keeps hostOps3 main_v32
    _ = W5 m ρ c (Proc.devRef .tc main_v32) := (W6_arr m ρ c 1).trans (((dat2 (V5 m ρ) c).arrAt_in 1 rfl _).trans (A_eq2 (V5 m ρ) c 1))
    _ = W4 m ρ c (Proc.devRef .tc main_v32) := by host_keeps hostOps2 main_v32
    _ = W3 m ρ c (Proc.devRef .tc main_v32) := W4_of_ne m ρ c main_v32 (by decide)
    _ = W2 m ρ c (Proc.devRef .tc main_v32) := by host_keeps hostOps1 main_v32
    _ = W1 m ρ c (Proc.devRef .tc main_v32) := W2_of_ne m ρ c main_v32 (by decide)

/-- The first layer's disease result is still what its kernel left when the diseases' second-layer kernel reads it. -/
theorem odis_walk_x (m : KMem) (ρ : Dev nD → PrngReg) (c : Dev nD) :
    W21 m ρ c (Proc.devRef .tc main_v162) = W6 m ρ c (Proc.devRef .tc main_v162) :=
  calc W21 m ρ c (Proc.devRef .tc main_v162)
    _ = W20 m ρ c (Proc.devRef .tc main_v162) := by host_keeps hostOps10 main_v162
    _ = W19 m ρ c (Proc.devRef .tc main_v162) := W20_of_ne m ρ c main_v162 (by decide)
    _ = W18 m ρ c (Proc.devRef .tc main_v162) := by host_keeps hostOps9 main_v162
    _ = W17 m ρ c (Proc.devRef .tc main_v162) := W18_of_ne m ρ c main_v162 (by decide)
    _ = W16 m ρ c (Proc.devRef .tc main_v162) := by host_keeps hostOps8 main_v162
    _ = W15 m ρ c (Proc.devRef .tc main_v162) := W16_of_ne m ρ c main_v162 (by decide)
    _ = W14 m ρ c (Proc.devRef .tc main_v162) := by host_keeps hostOps7 main_v162
    _ = W13 m ρ c (Proc.devRef .tc main_v162) := (W14_arr m ρ c 0).trans (((dat6 (V13 m ρ) c).arrAt_in 0 rfl _).trans (A_eq6 (V13 m ρ) c 0))
    _ = W12 m ρ c (Proc.devRef .tc main_v162) := by host_keeps hostOps6 main_v162
    _ = W11 m ρ c (Proc.devRef .tc main_v162) := W12_of_ne m ρ c main_v162 (by decide)
    _ = W10 m ρ c (Proc.devRef .tc main_v162) := by host_keeps hostOps5 main_v162
    _ = W9 m ρ c (Proc.devRef .tc main_v162) := W10_of_ne m ρ c main_v162 (by decide)
    _ = W8 m ρ c (Proc.devRef .tc main_v162) := by host_keeps hostOps4 main_v162
    _ = W7 m ρ c (Proc.devRef .tc main_v162) := W8_of_ne m ρ c main_v162 (by decide)
    _ = W6 m ρ c (Proc.devRef .tc main_v162) := by host_keeps hostOps3 main_v162

/-- The projected protein features as the aggregate's gather finds them: the product of the reference's hidden protein
    features (by hypothesis what the first layer's protein kernel left) and the reference's slice of the weights. -/
theorem odis_proj_read (m : KMem) (ρ : Dev nD → PrngReg) (c : Dev nD)
    (hHP : W2 m ρ c (Proc.devRef .tc main_v118) = HP m c) :
    (W20 m ρ c (Proc.devRef .tc main_v171) : S20000x128.Idx → EReal)
      = proj (N := 20000) (HP m c) (val_main_v323 (F := Ideal) (a11 m c)) := by
  refine (odis_walk_proj m ρ c).trans ((W12_arr m ρ c 2).trans ((final5 (V11 m ρ) c).trans ?_))
  have e1 : (V11 m ρ c main_v118 : (⟨2, ![20000, 256]⟩ : Shape).Idx → EReal) = HP m c :=
    (odis_walk_hp m ρ c).trans hHP
  have e2 : (V11 m ρ c main_v170 : (⟨2, ![256, 128]⟩ : Shape).Idx → EReal) = val_main_v323 (F := Ideal) (a11 m c) := by
    show StableHlo.after hostOps5 (W10 m ρ c) (Proc.devRef .tc main_v170) = _
    rw [odis_host_wl (W10 m ρ c), W10_arg11 m ρ c]
  exact congrArg₂ (proj (N := 20000)) e1 e2

/-- THE KERNEL'S RESULT ARRAY: `sage` of the aggregate of the projected rows, the column of reciprocal clamped
    in-degrees, the reference's hidden destination features (by hypothesis what the first layer left), and the
    reference's slices of the own-feature weights and of the biases. -/
theorem odis_kernel (m : KMem) (ρ : Dev nD → PrngReg) (c : Dev nD)
    (hHP : W2 m ρ c (Proc.devRef .tc main_v118) = HP m c)
    (hHX : W6 m ρ c (Proc.devRef .tc main_v162) = HDIS m c) :
    (W22 m ρ c (Proc.devRef .tc main_v275) : S8000x128.Idx → EReal)
      = sage (N := 8000)
          (Ideal.hostScatterAdd scatter_S8000x128_S300000x1_S300000x128_1_0_0_1
            (broadcastInDim S8000x128 ![] bcast_S_S8000x128 (constant (F := Ideal) S_ .f32 0x00000000#32))
            (val_main_v340 (F := Ideal) (a5 m c))
            (Host.gather gather_S20000x128_S300000x1_S300000x128_1_0_n_n_0_1_1128
              (proj (N := 20000) (HP m c) (val_main_v323 (F := Ideal) (a11 m c))) (val_main_v337 (F := Ideal) (a5 m c))))
          (broadcastInDim S8000x1 ![0] bcast_S8000_S8000x1_0
            (Host.divf (F := Ideal) (s := S8000) (φ := .f32) (val_main_v346 (F := Ideal)) (val_main_v347 (F := Ideal) (a5 m c))))
          (HDIS m c) (val_main_v325 (F := Ideal) (a12 m c)) (val_main_v354 (F := Ideal) (a13 m c)) := by
  refine ((W22_arr m ρ c 5).trans ((final10 (V21 m ρ) c).trans ?_))
  have eA : (V21 m ρ c main_v269 : (⟨2, ![8000, 128]⟩ : Shape).Idx → EReal)
      = Ideal.hostScatterAdd scatter_S8000x128_S300000x1_S300000x128_1_0_0_1
          (broadcastInDim S8000x128 ![] bcast_S_S8000x128 (constant (F := Ideal) S_ .f32 0x00000000#32))
          (val_main_v340 (F := Ideal) (a5 m c))
          (Host.gather gather_S20000x128_S300000x1_S300000x128_1_0_n_n_0_1_1128
            (proj (N := 20000) (HP m c) (val_main_v323 (F := Ideal) (a11 m c))) (val_main_v337 (F := Ideal) (a5 m c))) := by
    show StableHlo.after hostOps10 (W20 m ρ c) (Proc.devRef .tc main_v269) = _
    rw [odis_host_agg (W20 m ρ c), W20_arg5 m ρ c, odis_proj_read m ρ c hHP]
  have eI : (V21 m ρ c main_v32 : (⟨2, ![8000, 1]⟩ : Shape).Idx → EReal)
      = broadcastInDim S8000x1 ![0] bcast_S8000_S8000x1_0
          (Host.divf (F := Ideal) (s := S8000) (φ := .f32) (val_main_v346 (F := Ideal)) (val_main_v347 (F := Ideal) (a5 m c))) :=
    (odis_walk_inv m ρ c).trans (odis_host_inv (W0 m ρ c))
  have eX : (V21 m ρ c main_v162 : (⟨2, ![8000, 256]⟩ : Shape).Idx → EReal) = HDIS m c :=
    (odis_walk_x m ρ c).trans hHX
  have eW : (V21 m ρ c main_v271 : (⟨2, ![256, 128]⟩ : Shape).Idx → EReal) = val_main_v325 (F := Ideal) (a12 m c) := by
    show StableHlo.after hostOps10 (W20 m ρ c) (Proc.devRef .tc main_v271) = _
    rw [odis_host_wr (W20 m ρ c), W20_arg12 m ρ c]
  have eB : (V21 m ρ c main_v274 : (⟨2, ![1, 128]⟩ : Shape).Idx → EReal) = val_main_v354 (F := Ideal) (a13 m c) := by
    show StableHlo.after hostOps10 (W20 m ρ c) (Proc.devRef .tc main_v274) = _
    rw [odis_host_b (W20 m ρ c), W20_arg13 m ρ c]
  rw [eA, eI, eX, eW, eB]

end Cert.Bridge.L2D

end
-- ==== Proof.L2DRef.lean ====
/-
  The reference's second-layer results for the drugs and the diseases, read at an entry.

  For a destination node n and an output column j the reference computes
      ((Σ_k (agg(n, k) / M(n)) · Wl(k, j)) + Σ_k X(n, k) · Wr(k, j)) + b(0, j),
  where agg(n, k) = 0 + Σ over the edges e into n of H(src(e), k) is the scatter-add, into zeros, of the gathered rows
  of the hidden protein features H; M(n) is the larger of the in-degree of n and 1; X is the destination's own hidden
  features; Wl, Wr are one slice each of the two stacks of weights and b one row of the stack of biases. The edge set
  {e | dst(e) = n} and the source row src(e) (the index wrapped if negative, then clamped by the gather) are functions
  of the edge array alone. The hidden features enter as opaque arrays: nothing here looks inside them.
-/
import proofs.«176458_j69930657513814_2_alg».proof.Proof.RefRead
import proofs.«176458_j69930657513814_2_alg».proof.Proof.LibGatherRows
import proofs.«176458_j69930657513814_2_alg».proof.Proof.LibScatterRows
import proofs.«176458_j69930657513814_2_alg».proof.Proof.LibERealScale
import proofs.«176458_j69930657513814_2_alg».proof.Proof.LibRealEntries
import proofs.«176458_j69930657513814_2_alg».proof.Proof.L2DSpec

set_option maxRecDepth 16384

noncomputable section

open scoped BigOperators

namespace Cert.Bridge.L2D

open Cert.ReferenceIdeal Cert.ReferenceIdeal.Read Idealize.ShloMosaic Idealize.ShloMosaic.ValueIdx

/-! ## The drugs (4000 nodes, the 200000 protein → drug edges) -/

section
variable (x0 : (⟨S4000x256, .f32⟩ : BufTy).Contents (Elt Ideal)) (x1 : (⟨S8000x256, .f32⟩ : BufTy).Contents (Elt Ideal))
  (x2 : (⟨S20000x256, .f32⟩ : BufTy).Contents (Elt Ideal)) (x3 : (⟨S2x200000, .i32⟩ : BufTy).Contents (Elt Ideal))
  (x4 : (⟨S2x200000, .i32⟩ : BufTy).Contents (Elt Ideal))
  (x6 : (⟨S2x300000, .i32⟩ : BufTy).Contents (Elt Ideal)) (x7 : (⟨S2x600000, .i32⟩ : BufTy).Contents (Elt Ideal))
  (x8 x9 : (⟨S5x256x256, .f32⟩ : BufTy).Contents (Elt Ideal)) (x10 : (⟨S5x256, .f32⟩ : BufTy).Contents (Elt Ideal))
  (x11 x12 : (⟨S5x256x128, .f32⟩ : BufTy).Contents (Elt Ideal)) (x13 : (⟨S5x128, .f32⟩ : BufTy).Contents (Elt Ideal))

/-- The clamped in-degree is positive: it is a maximum with 1. -/
theorem od_M_pos (i : S4000.Idx) : 0 < val_main_v312 (F := Ideal) x4 i := by
  rw [val_main_v312_apply, val_main_v311_apply, val_main_cst_51_apply]
  exact Cert.LibERealScale.max_one_pos _

/-- The aggregated hidden protein features at (n, k): 0 plus the sum, over the edges into n, of the source row's entry
    in column k. -/
theorem od_agg_apply (n : Fin 4000) (k : Fin 256) :
    val_main_v306 (F := Ideal) x0 x1 x2 x3 x4 x6 x7 x8 x9 x10 (ix2 n k)
      = 0 + ∑ e ∈ inEdges (val_main_v305 (F := Ideal) x4) n.val,
          val_main_v179 (F := Ideal) x0 x1 x2 x3 x6 x7 x8 x9 x10
            (ix2 (Cert.RowGather.rowOf pos20000 (val_main_v302 (F := Ideal) x4) e) k) := by
  unfold val_main_v306 val_main_v303
  generalize val_main_v179 (F := Ideal) x0 x1 x2 x3 x6 x7 x8 x9 x10 = H
  generalize val_main_v305 (F := Ideal) x4 = di
  generalize val_main_v302 (F := Ideal) x4 = si
  show Ideal.hostScatterAdd (Cert.RowScatter.rowScatterDims 4000 200000 256 Facts₀.scatter_S4000x256_S200000x1_S200000x256_1_0_0_1_wf)
      (val_main_v304 (F := Ideal)) di
      (Host.gather (Cert.RowGather.rowGatherDims 20000 200000 256 Facts₀.gather_S20000x256_S200000x1_S200000x256_1_0_n_n_0_1_1256_wf) H si)
      (ix2 n k) = _
  rw [Cert.RowScatter.hostScatterAdd_rows_apply]
  refine congrArg₂ (· + ·) ?_ (Finset.sum_congr rfl fun e _ => ?_)
  · rw [val_main_v304_apply, val_main_cst_48_apply]
    exact Ideal.ofBits_zero_f32
  · exact Cert.RowGather.gather_rows_apply pos20000 _ H si e k

/-- THE REFERENCE'S RESULT at (n, j). -/
theorem od_ref_apply (n : Fin 4000) (j : Fin 128) :
    val_main_v321 (F := Ideal) x0 x1 x2 x3 x4 x6 x7 x8 x9 x10 x11 x12 x13 (ix2 n j)
      = ((∑ k : Fin 256, Ideal.div (val_main_v306 (F := Ideal) x0 x1 x2 x3 x4 x6 x7 x8 x9 x10 (ix2 n k))
              (val_main_v312 (F := Ideal) x4 (ix1 n)) * val_main_v288 (F := Ideal) x11 (ix2 k j))
          + ∑ k : Fin 256, val_main_v177 (F := Ideal) x0 x2 x4 x8 x9 x10 (ix2 n k) * val_main_v290 (F := Ideal) x12 (ix2 k j))
        + val_main_v319 (F := Ideal) x13 (ix2 (0 : Fin 1) j) := by
  have e1 : ∀ k : Fin 256, lidx_main_v316 (ix2 n j) k = ix2 n k := fun k => funext fun a => by
    match a with
    | ⟨0, _⟩ => rfl
    | ⟨1, _⟩ => rfl
  have e2 : ∀ k : Fin 256, ridx_main_v316 (ix2 n j) k = ix2 k j := fun k => funext fun a => by
    match a with
    | ⟨0, _⟩ => rfl
    | ⟨1, _⟩ => rfl
  have e3 : ∀ k : Fin 256, lidx_main_v317 (ix2 n j) k = ix2 n k := fun k => funext fun a => by
    match a with
    | ⟨0, _⟩ => rfl
    | ⟨1, _⟩ => rfl
  have e4 : ∀ k : Fin 256, ridx_main_v317 (ix2 n j) k = ix2 k j := fun k => funext fun a => by
    match a with
    | ⟨0, _⟩ => rfl
    | ⟨1, _⟩ => rfl
  have e5 : idx_main_v320 (ix2 n j) = ix2 (0 : Fin 1) j := funext fun a => by
    match a with
    | ⟨0, _⟩ => rfl
    | ⟨1, _⟩ => rfl
  have e6 : ∀ k : Fin 256, idx_main_v314 (ix2 n k) = ix2 n (0 : Fin 1) := fun k => funext fun a => by
    match a with
    | ⟨0, _⟩ => rfl
    | ⟨1, _⟩ => rfl
  have e7 : idx_main_v313 (ix2 n (0 : Fin 1)) = ix1 n := funext fun a => by
    match a with
    | ⟨0, _⟩ => rfl
  rw [val_main_v321_apply, val_main_v318_apply, val_main_v316_apply, val_main_v317_apply, val_main_v320_apply, e5, Ideal.addf_def, Ideal.addf_def]
  refine congrArg₂ (· + ·) (congrArg₂ (· + ·) (Finset.sum_congr rfl fun k _ => ?_) (Finset.sum_congr rfl fun k _ => ?_)) rfl
  · rw [e1 k, e2 k, val_main_v315_apply, val_main_v314_apply, e6 k, val_main_v313_apply, e7, Ideal.hostDivf_def]
  · rw [e3 k, e4 k]

/-- The weights' slice has real entries when the stack has. -/
theorem od_wl_real (h : ∀ i, Cert.LibRealEntries.IsReal (x11 i)) (i : S256x128.Idx) :
    Cert.LibRealEntries.IsReal (val_main_v288 (F := Ideal) x11 i) := by
  rw [val_main_v288_apply, val_main_v287_apply]
  exact h _

end

/-! ## The diseases (8000 nodes, the 300000 protein → disease edges) -/

section
variable (x0 : (⟨S4000x256, .f32⟩ : BufTy).Contents (Elt Ideal)) (x1 : (⟨S8000x256, .f32⟩ : BufTy).Contents (Elt Ideal))
  (x2 : (⟨S20000x256, .f32⟩ : BufTy).Contents (Elt Ideal)) (x3 : (⟨S2x200000, .i32⟩ : BufTy).Contents (Elt Ideal))
  (x5 : (⟨S2x300000, .i32⟩ : BufTy).Contents (Elt Ideal))
  (x6 : (⟨S2x300000, .i32⟩ : BufTy).Contents (Elt Ideal)) (x7 : (⟨S2x600000, .i32⟩ : BufTy).Contents (Elt Ideal))
  (x8 x9 : (⟨S5x256x256, .f32⟩ : BufTy).Contents (Elt Ideal)) (x10 : (⟨S5x256, .f32⟩ : BufTy).Contents (Elt Ideal))
  (x11 x12 : (⟨S5x256x128, .f32⟩ : BufTy).Contents (Elt Ideal)) (x13 : (⟨S5x128, .f32⟩ : BufTy).Contents (Elt Ideal))

/-- The clamped in-degree is positive: it is a maximum with 1. -/
theorem odis_M_pos (i : S8000.Idx) : 0 < val_main_v347 (F := Ideal) x5 i := by
  rw [val_main_v347_apply, val_main_v346_apply, val_main_cst_57_apply]
  exact Cert.LibERealScale.max_one_pos _

/-- The aggregated hidden protein features at (n, k): 0 plus the sum, over the edges into n, of the source row's entry
    in column k. -/
theorem odis_agg_apply (n : Fin 8000) (k : Fin 256) :
    val_main_v341 (F := Ideal) x0 x1 x2 x3 x5 x6 x7 x8 x9 x10 (ix2 n k)
      = 0 + ∑ e ∈ inEdges (val_main_v340 (F := Ideal) x5) n.val,
          val_main_v179 (F := Ideal) x0 x1 x2 x3 x6 x7 x8 x9 x10
            (ix2 (Cert.RowGather.rowOf pos20000 (val_main_v337 (F := Ideal) x5) e) k) := by
  unfold val_main_v341 val_main_v338
  generalize val_main_v179 (F := Ideal) x0 x1 x2 x3 x6 x7 x8 x9 x10 = H
  generalize val_main_v340 (F := Ideal) x5 = di
  generalize val_main_v337 (F := Ideal) x5 = si
  show Ideal.hostScatterAdd (Cert.RowScatter.rowScatterDims 8000 300000 256 Facts₀.scatter_S8000x256_S300000x1_S300000x256_1_0_0_1_wf)
      (val_main_v339 (F := Ideal)) di
      (Host.gather (Cert.RowGather.rowGatherDims 20000 300000 256 Facts₀.gather_S20000x256_S300000x1_S300000x256_1_0_n_n_0_1_1256_wf) H si)
      (ix2 n k) = _
  rw [Cert.RowScatter.hostScatterAdd_rows_apply]
  refine congrArg₂ (· + ·) ?_ (Finset.sum_congr rfl fun e _ => ?_)
  · rw [val_main_v339_apply, val_main_cst_54_apply]
    exact Ideal.ofBits_zero_f32
  · exact Cert.RowGather.gather_rows_apply pos20000 _ H si e k

/-- THE REFERENCE'S RESULT at (n, j). -/
theorem odis_ref_apply (n : Fin 8000) (j : Fin 128) :
    val_main_v356 (F := Ideal) x0 x1 x2 x3 x5 x6 x7 x8 x9 x10 x11 x12 x13 (ix2 n j)
      = ((∑ k : Fin 256, Ideal.div (val_main_v341 (F := Ideal) x0 x1 x2 x3 x5 x6 x7 x8 x9 x10 (ix2 n k))
              (val_main_v347 (F := Ideal) x5 (ix1 n)) * val_main_v323 (F := Ideal) x11 (ix2 k j))
          + ∑ k : Fin 256, val_main_v178 (F := Ideal) x1 x2 x5 x8 x9 x10 (ix2 n k) * val_main_v325 (F := Ideal) x12 (ix2 k j))
        + val_main_v354 (F := Ideal) x13 (ix2 (0 : Fin 1) j) := by
  have e1 : ∀ k : Fin 256, lidx_main_v351 (ix2 n j) k = ix2 n k := fun k => funext fun a => by
    match a with
    | ⟨0, _⟩ => rfl
    | ⟨1, _⟩ => rfl
  have e2 : ∀ k : Fin 256, ridx_main_v351 (ix2 n j) k = ix2 k j := fun k => funext fun a => by
    match a with
    | ⟨0, _⟩ => rfl
    | ⟨1, _⟩ => rfl
  have e3 : ∀ k : Fin 256, lidx_main_v352 (ix2 n j) k = ix2 n k := fun k => funext fun a => by
    match a with
    | ⟨0, _⟩ => rfl
    | ⟨1, _⟩ => rfl
  have e4 : ∀ k : Fin 256, ridx_main_v352 (ix2 n j) k = ix2 k j := fun k => funext fun a => by
    match a with
    | ⟨0, _⟩ => rfl
    | ⟨1, _⟩ => rfl
  have e5 : idx_main_v355 (ix2 n j) = ix2 (0 : Fin 1) j := funext fun a => by
    match a with
    | ⟨0, _⟩ => rfl
    | ⟨1, _⟩ => rfl
  have e6 : ∀ k : Fin 256, idx_main_v349 (ix2 n k) = ix2 n (0 : Fin 1) := fun k => funext fun a => by
    match a with
    | ⟨0, _⟩ => rfl
    | ⟨1, _⟩ => rfl
  have e7 : idx_main_v348 (ix2 n (0 : Fin 1)) = ix1 n := funext fun a => by
    match a with
    | ⟨0, _⟩ => rfl
  rw [val_main_v356_apply, val_main_v353_apply, val_main_v351_apply, val_main_v352_apply, val_main_v355_apply, e5, Ideal.addf_def, Ideal.addf_def]
  refine congrArg₂ (· + ·) (congrArg₂ (· + ·) (Finset.sum_congr rfl fun k _ => ?_) (Finset.sum_congr rfl fun k _ => ?_)) rfl
  · rw [e1 k, e2 k, val_main_v350_apply, val_main_v349_apply, e6 k, val_main_v348_apply, e7, Ideal.hostDivf_def]
  · rw [e3 k, e4 k]

/-- The weights' slice has real entries when the stack has. -/
theorem odis_wl_real (h : ∀ i, Cert.LibRealEntries.IsReal (x11 i)) (i : S256x128.Idx) :
    Cert.LibRealEntries.IsReal (val_main_v323 (F := Ideal) x11 i) := by
  rw [val_main_v323_apply, val_main_v322_apply]
  exact h _

end

end Cert.Bridge.L2D

end
-- ==== Proof.L2DLaw.lean ====
/-
  Aggregating projected rows against projecting aggregated rows.

  A layer of the network sends, along every edge e of a relation, the source node's feature row into the
  destination node, sums what arrives, scales the sum by the reciprocal of the (clamped) number of arrivals and
  multiplies by a weight matrix. One program multiplies every source row by the weights first and aggregates the
  products; the other aggregates the rows and multiplies the mean by the weights. For a fixed destination node with
  incoming edges S, source rows H(e, ·), one column W(·) of the weights and the scale s the two read

      (0 + Σ_{e ∈ S} Σ_k H(e, k) · W(k)) · s      and      Σ_k ((0 + Σ_{e ∈ S} H(e, k)) · s) · W(k).

  On the reals they are equal by distributivity and by exchanging the two finite sums. On the extended reals
  distributivity fails at the infinities, so the law is stated for REAL entries: every H(e, k), every W(k) and s the
  image of a real number. The proof names the real witnesses, pushes the coercion ℝ → EReal outwards through products
  and finite sums, and is then an identity of real numbers.
-/
import Idealize.ShloMosaic.PureOps.Ideal
import proofs.«176458_j69930657513814_2_alg».proof.Proof.LibRealEntries
import proofs.«176458_j69930657513814_2_alg».proof.Proof.LibERealScale

noncomputable section

open scoped BigOperators

namespace Cert.Bridge.L2D

open Cert.LibRealEntries Idealize.ShloMosaic

/-- The coercion of a finite sum of reals is the sum of the coercions. -/
theorem coe_finsum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- THE LAW: aggregate the projected rows, or project the aggregated rows — the same extended real when every entry
    is real. -/
theorem agg_proj {E K : Type*} [Fintype K] (S : Finset E) (H : E → K → EReal) (W : K → EReal) (s : EReal)
    (hH : ∀ e k, IsReal (H e k)) (hW : ∀ k, IsReal (W k)) (hs : IsReal s) :
    (0 + ∑ e ∈ S, ∑ k, H e k * W k) * s = ∑ k, ((0 + ∑ e ∈ S, H e k) * s) * W k := by
  have hH' : ∀ e k, ∃ r : ℝ, H e k = (r : EReal) := hH
  have hW' : ∀ k, ∃ r : ℝ, W k = (r : EReal) := hW
  choose h hh using hH'
  choose w hw using hW'
  obtain ⟨r, rfl⟩ := hs
  have eL : (0 + ∑ e ∈ S, ∑ k, H e k * W k) * (r : EReal) = ((∑ e ∈ S, ∑ k, h e k * w k) * r : ℝ) := by
    rw [zero_add, EReal.coe_mul, coe_finsum]
    refine congrArg (· * (r : EReal)) (Finset.sum_congr rfl fun e _ => ?_)
    rw [coe_finsum]
    exact Finset.sum_congr rfl fun k _ => by rw [hh, hw, EReal.coe_mul]
  have eR : (∑ k, ((0 + ∑ e ∈ S, H e k) * (r : EReal)) * W k) = ((∑ k, ((∑ e ∈ S, h e k) * r) * w k : ℝ) : EReal) := by
    rw [coe_finsum]
    refine Finset.sum_congr rfl fun k _ => ?_
    rw [zero_add, EReal.coe_mul, EReal.coe_mul, coe_finsum, hw]
    refine congrArg (fun x => x * (r : EReal) * (w k : EReal)) (Finset.sum_congr rfl fun e _ => ?_)
    rw [hh]
  rw [eL, eR]
  refine congrArg (fun x : ℝ => (x : EReal)) ?_
  simp only [Finset.sum_mul]
  rw [Finset.sum_comm]
  exact Finset.sum_congr rfl fun k _ => Finset.sum_congr rfl fun e _ => by ring

/-- The reciprocal of a positive extended real is real: 1 / r for a positive real r, and 0 for +∞. -/
theorem isReal_one_div {M : EReal} (hM : 0 < M) : IsReal (Ideal.div 1 M) := by
  unfold Ideal.div
  rw [if_neg hM.ne', one_mul]
  induction M using EReal.rec with
  | bot => exact absurd hM (not_lt.mpr bot_le)
  | top => rw [EReal.inv_top]; exact isReal_zero
  | coe r => exact ⟨r⁻¹, (EReal.coe_inv r).symm⟩

end Cert.Bridge.L2D

end
-- ==== Proof.L2DEntry.lean ====
/-
  One entry of a second-layer result, in the kernel's arrangement and in the reference's.

  For a destination node with incoming edge set S, source rows row(e), clamped in-degree M > 0, and with D the
  own-feature term and b the bias, the kernel's entry is 0 + ((((0 + Σ_{e ∈ S} (H · Wl)(row e, j)) · (1 / M)) + D) + b)
  and the reference's is ((Σ_k ((0 + Σ_{e ∈ S} H(row e, k)) / M) · Wl(k, j)) + D) + b. They agree when the entries of H
  and Wl are real: the leading 0 is dropped, a quotient by the nonzero M is the product with 1 / M, which is real, and
  the rest is the law of aggregating projected rows against projecting aggregated rows.
-/
import proofs.«176458_j69930657513814_2_alg».proof.Proof.L2DLaw
import proofs.«176458_j69930657513814_2_alg».proof.Proof.L2DSpec

noncomputable section

open scoped BigOperators

namespace Cert.Bridge.L2D

open Cert.LibRealEntries Idealize.ShloMosaic Idealize.ShloMosaic.ValueIdx

theorem entry_law {E : Nat} (H : (⟨2, ![20000, 256]⟩ : Shape).Idx → EReal) (Wl : (⟨2, ![256, 128]⟩ : Shape).Idx → EReal)
    (S : Finset (Fin E)) (row : Fin E → Fin 20000) (M D b : EReal) (hM : 0 < M) (j : Fin 128)
    (rH : ∀ i, IsReal (H i)) (rW : ∀ i, IsReal (Wl i)) :
    0 + ((((0 + ∑ e ∈ S, proj H Wl (ix2 (row e) j)) * Ideal.div 1 M) + D) + b)
      = ((∑ k : Fin 256, Ideal.div (0 + ∑ e ∈ S, H (ix2 (row e) k)) M * Wl (ix2 k j)) + D) + b := by
  refine (zero_add _).trans (congrArg (fun x => (x + D) + b) ?_)
  simp only [proj_apply]
  refine (agg_proj S (fun e k => H (ix2 (row e) k)) (fun k => Wl (ix2 k j)) (Ideal.div 1 M)
    (fun e k => rH _) (fun k => rW _) (isReal_one_div hM)).trans ?_
  refine Finset.sum_congr rfl fun k _ => ?_
  exact congrArg (· * Wl (ix2 k j)) (Cert.LibERealScale.div_eq_mul_one_div _ hM.ne').symm

end Cert.Bridge.L2D

end
-- ==== Proof.L2D.lean ====
/-
  The kernel's drug and disease results are the reference's.

  Kernel side: the result array is `sage` of the aggregate of the PROJECTED protein rows, the column of reciprocal
  clamped in-degrees, the first layer's result for the destination type and the slices of the second layer's stacks
  (read back through the fold of buffer contents). Reference side: the same entry with the aggregate of the protein rows
  divided by the clamped in-degree and THEN projected. Entry by entry the two agree by the law of aggregating projected
  rows against projecting aggregated rows, which needs the hidden protein features and the weights real (hypotheses):
  the edge set into a node and the source row of an edge are the same functions of the edge array on both sides, and
  the gathered row does not depend on the width (128 or 256) of what is gathered. The first layer's results enter as
  hypotheses: the buffers the first layer's kernels left hold the reference's hidden features.
-/
import proofs.«176458_j69930657513814_2_alg».proof.Proof.L2DWalkD
import proofs.«176458_j69930657513814_2_alg».proof.Proof.L2DWalkS
import proofs.«176458_j69930657513814_2_alg».proof.Proof.L2DRef
import proofs.«176458_j69930657513814_2_alg».proof.Proof.L2DEntry
import proofs.«176458_j69930657513814_2_alg».proof.Proof.LibRealEntries

set_option maxRecDepth 16384

noncomputable section

namespace Cert.Bridge.L2D

open Cert.KernelIdeal Cert.KernelIdeal.Gen Cert.KernelIdeal.GenP Idealize.ShloMosaic Idealize.ShloMosaic.TcCoe Idealize.SL.Sem
open Idealize.ShloMosaic.ValueIdx Cert.ReferenceIdeal.Read Cert.LibRealEntries

/-- THE DRUGS: the first result array of the kernel's program is the reference's drug result. -/
theorem od_eq (m : KMem) (ρ : Dev nD → PrngReg) (c : Dev nD)
    (hHP : W2 (F := Ideal) m ρ c (Proc.devRef .tc main_v118) = HP m c)
    (hHD : W4 (F := Ideal) m ρ c (Proc.devRef .tc main_v140) = HD m c)
    (rHP : ∀ i, IsReal (HP m c i)) (rW : ∀ i, IsReal (a11 m c i)) :
    W22 (F := Ideal) m ρ c (Proc.devRef .tc main_v255) = OD m c := by
  refine (od_kernel m ρ c hHP hHD).trans ?_
  funext i
  obtain ⟨n, j, rfl⟩ : ∃ (n : Fin 4000) (j : Fin 128), i = ix2 n j := ⟨i 0, i 1, eq_ix2 i⟩
  refine (sage_apply _ _ _ _ _ n j).trans ?_
  rw [od_aggK_apply, od_inv_apply, Ideal.ofBits_zero_f32]
  refine Eq.trans ?_ (od_ref_apply (a0 m c) (a1 m c) (a2 m c) (a3 m c) (a4 m c) (a6 m c) (a7 m c) (a8 m c) (a9 m c) (a10 m c) (a11 m c) (a12 m c) (a13 m c) n j).symm
  simp only [od_agg_apply]
  have eHP : HP m c = val_main_v179 (F := Ideal) (a0 m c) (a1 m c) (a2 m c) (a3 m c) (a6 m c) (a7 m c) (a8 m c) (a9 m c) (a10 m c) := rfl
  have eHX : HD m c = val_main_v177 (F := Ideal) (a0 m c) (a2 m c) (a4 m c) (a8 m c) (a9 m c) (a10 m c) := rfl
  rw [eHP] at rHP ⊢
  rw [eHX]
  generalize val_main_v179 (F := Ideal) (a0 m c) (a1 m c) (a2 m c) (a3 m c) (a6 m c) (a7 m c) (a8 m c) (a9 m c) (a10 m c) = H at rHP ⊢
  generalize val_main_v177 (F := Ideal) (a0 m c) (a2 m c) (a4 m c) (a8 m c) (a9 m c) (a10 m c) = D
  exact entry_law H (val_main_v288 (F := Ideal) (a11 m c)) (inEdges (val_main_v305 (F := Ideal) (a4 m c)) n.val)
    (fun e => Cert.RowGather.rowOf pos20000 (val_main_v302 (F := Ideal) (a4 m c)) e) _ _ _
    (od_M_pos (a4 m c) (ix1 n)) j rHP (od_wl_real (a11 m c) rW)

/-- THE DISEASES: the second result array of the kernel's program is the reference's disease result. -/
theorem odis_eq (m : KMem) (ρ : Dev nD → PrngReg) (c : Dev nD)
    (hHP : W2 (F := Ideal) m ρ c (Proc.devRef .tc main_v118) = HP m c)
    (hHDIS : W6 (F := Ideal) m ρ c (Proc.devRef .tc main_v162) = HDIS m c)
    (rHP : ∀ i, IsReal (HP m c i)) (rW : ∀ i, IsReal (a11 m c i)) :
    W22 (F := Ideal) m ρ c (Proc.devRef .tc main_v275) = ODIS m c := by
  refine (odis_kernel m ρ c hHP hHDIS).trans ?_
  funext i
  obtain ⟨n, j, rfl⟩ : ∃ (n : Fin 8000) (j : Fin 128), i = ix2 n j := ⟨i 0, i 1, eq_ix2 i⟩
  refine (sage_apply _ _ _ _ _ n j).trans ?_
  rw [odis_aggK_apply, odis_inv_apply, Ideal.ofBits_zero_f32]
  refine Eq.trans ?_ (odis_ref_apply (a0 m c) (a1 m c) (a2 m c) (a3 m c) (a5 m c) (a6 m c) (a7 m c) (a8 m c) (a9 m c) (a10 m c) (a11 m c) (a12 m c) (a13 m c) n j).symm
  simp only [odis_agg_apply]
  have eHP : HP m c = val_main_v179 (F := Ideal) (a0 m c) (a1 m c) (a2 m c) (a3 m c) (a6 m c) (a7 m c) (a8 m c) (a9 m c) (a10 m c) := rfl
  have eHX : HDIS m c = val_main_v178 (F := Ideal) (a1 m c) (a2 m c) (a5 m c) (a8 m c) (a9 m c) (a10 m c) := rfl
  rw [eHP] at rHP ⊢
  rw [eHX]
  generalize val_main_v179 (F := Ideal) (a0 m c) (a1 m c) (a2 m c) (a3 m c) (a6 m c) (a7 m c) (a8 m c) (a9 m c) (a10 m c) = H at rHP ⊢
  generalize val_main_v178 (F := Ideal) (a1 m c) (a2 m c) (a5 m c) (a8 m c) (a9 m c) (a10 m c) = D
  exact entry_law H (val_main_v323 (F := Ideal) (a11 m c)) (inEdges (val_main_v340 (F := Ideal) (a5 m c)) n.val)
    (fun e => Cert.RowGather.rowOf pos20000 (val_main_v337 (F := Ideal) (a5 m c)) e) _ _ _
    (odis_M_pos (a5 m c) (ix1 n)) j rHP (odis_wl_real (a11 m c) rW)

end Cert.Bridge.L2D

end
-- ==== Proof.L2PLaw.lean ====
/-
  The second layer's algebra, over abstract finite index types.

  A relation's contribution to a destination row n is built from the source rows the relation's edges into n name:
  the edge set S, the row map ρ from edges to source rows, the hidden features H (rows × K), a weight matrix W (K × J)
  and the reciprocal s of the row's edge count. One arrangement first multiplies every source row by W and then adds
  the projected rows and scales the sum; the other adds the source rows, scales the sum, and multiplies by W last.
  Both are  s · Σ_{e ∈ S} Σ_k H(ρ e, k) · W(k, j).  On the extended reals this needs every entry to be a real number
  (distributivity fails at the infinities); with real entries it is the identity of the reals.

  Also here: the reciprocal of the larger of a real number and one is a real number, and that larger number is not zero
  — the scale of a row whose edge count is a finite sum of ones.
-/
import proofs.«176458_j69930657513814_2_alg».proof.Proof.LibRealEntries
import proofs.«176458_j69930657513814_2_alg».proof.Proof.LibERealScale

noncomputable section

namespace Cert.Bridge.L2P

open Cert.LibRealEntries Idealize.ShloMosaic

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- Over the reals: scaling the sum of the projected rows is projecting the scaled sum of the rows. -/
theorem real_law {E R K : Type} [Fintype K] (S : Finset E) (ρ : E → R) (h : R → K → ℝ) (w : K → ℝ) (s : ℝ) :
    (0 + ∑ e ∈ S, ∑ k, h (ρ e) k * w k) * s = ∑ k, ((0 + ∑ e ∈ S, h (ρ e) k) * s) * w k := by
  have hswap : ∑ e ∈ S, ∑ k, h (ρ e) k * w k = ∑ k, ∑ e ∈ S, h (ρ e) k * w k := Finset.sum_comm
  rw [zero_add, hswap, Finset.sum_mul]
  refine Finset.sum_congr rfl fun k _ => ?_
  rw [zero_add, ← Finset.sum_mul]
  ring

/-- THE LAW on the extended reals, for real entries: (0 + Σ_{e∈S} Σ_k H(ρ e, k)·W(k)) · s
    = Σ_k ((0 + Σ_{e∈S} H(ρ e, k)) · s) · W(k). -/
theorem project_then_aggregate {E R K : Type} [Fintype K] (S : Finset E) (ρ : E → R) (H : R → K → EReal)
    (W : K → EReal) (s : EReal) (hH : ∀ r k, IsReal (H r k)) (hW : ∀ k, IsReal (W k)) (hs : IsReal s) :
    (0 + ∑ e ∈ S, ∑ k, H (ρ e) k * W k) * s = ∑ k, ((0 + ∑ e ∈ S, H (ρ e) k) * s) * W k := by
  choose h hh using hH
  choose w hw using hW
  obtain ⟨s, rfl⟩ := hs
  have e1 : ∀ e, ∑ k, H (ρ e) k * W k = ((∑ k, h (ρ e) k * w k : ℝ) : EReal) := by
    intro e
    rw [coe_sum]
    exact Finset.sum_congr rfl fun k _ => by rw [hh, hw, EReal.coe_mul]
  have e2 : ∀ k, ∑ e ∈ S, H (ρ e) k = ((∑ e ∈ S, h (ρ e) k : ℝ) : EReal) := by
    intro k
    rw [coe_sum]
    exact Finset.sum_congr rfl fun e _ => hh _ _
  have hl : (0 + ∑ e ∈ S, ∑ k, H (ρ e) k * W k) * (s : EReal)
      = (((0 + ∑ e ∈ S, ∑ k, h (ρ e) k * w k) * s : ℝ) : EReal) := by
    rw [EReal.coe_mul, EReal.coe_add, EReal.coe_zero, coe_sum]
    exact congrArg (fun x => (0 + x) * (s : EReal)) (Finset.sum_congr rfl fun e _ => e1 e)
  have hr : ∑ k, ((0 + ∑ e ∈ S, H (ρ e) k) * (s : EReal)) * W k
      = ((∑ k, ((0 + ∑ e ∈ S, h (ρ e) k) * s) * w k : ℝ) : EReal) := by
    rw [coe_sum]
    refine Finset.sum_congr rfl fun k _ => ?_
    rw [e2 k, hw k, EReal.coe_mul, EReal.coe_mul, EReal.coe_add, EReal.coe_zero]
  rw [hl, hr, real_law]

/-- The larger of a real number and one is not zero, and its reciprocal is a real number. -/
theorem max_one_ne_zero (d : EReal) : max d (Ideal.ofBits .f32 0x3F800000#32) ≠ 0 :=
  (Cert.LibERealScale.max_one_pos d).ne'

theorem isReal_one_div_max_one {d : EReal} (hd : IsReal d) :
    IsReal (Ideal.div 1 (max d (Ideal.ofBits .f32 0x3F800000#32))) := by
  have hne := max_one_ne_zero d
  have hm : IsReal (max d (Ideal.ofBits .f32 0x3F800000#32)) := by
    rw [Cert.LibERealScale.ofBits_one_f32]
    exact IsReal.max hd ⟨1, EReal.coe_one.symm⟩
  obtain ⟨r, hr⟩ := hm
  unfold Ideal.div
  rw [if_neg hne, hr, one_mul]
  exact ⟨r⁻¹, (EReal.coe_inv r).symm⟩

end Cert.Bridge.L2P

end
-- ==== Proof.L2PProjSpec.lean ====
/-
  The matrix product of a rows × 256 array and a 256 × 128 array, entry by entry: (i, j) ↦ Σ_k X(i, k) · W(k, j).
  The three projection regions of the second layer each leave this function of their two input arrays.
-/
import Idealize.ShloMosaic.PureOps.Ideal
import Idealize.ShloMosaic.Lib.ValueIdx

noncomputable section

namespace Cert.Bridge.L2P

open Idealize.ShloMosaic Idealize.ShloMosaic.ValueIdx

/-- Both offsets of a whole block are zero. -/
theorem hz2 : (![0, 0] : Fin 2 → Nat) = fun _ => 0 := funext fun a => by fin_cases a <;> rfl

/-- The product array: entry (i, j) is Σ_k X(i, k) · W(k, j). -/
def projArr (A : Nat) (X : (⟨2, ![A, 256]⟩ : Shape).Idx → EReal) (W : (⟨2, ![256, 128]⟩ : Shape).Idx → EReal) :
    (⟨2, ![A, 128]⟩ : Shape).Idx → EReal :=
  fun i => ∑ k : Fin 256, X (ix2 (⟨(i 0).val, idx2_lt0 i⟩ : Fin A) k) * W (ix2 k (⟨(i 1).val, idx2_lt1 i⟩ : Fin 128))

/-- At an index written by its coordinates. -/
theorem projArr_apply (A : Nat) (X : (⟨2, ![A, 256]⟩ : Shape).Idx → EReal) (W : (⟨2, ![256, 128]⟩ : Shape).Idx → EReal)
    (p : Fin A) (q : Fin 128) : projArr A X W (ix2 p q) = ∑ k : Fin 256, X (ix2 p k) * W (ix2 k q) := rfl

end Cert.Bridge.L2P

end
-- ==== Proof.L2PRel.lean ====
/-
  One relation of the second layer at one destination row, both arrangements.

  Destination row n of a relation collects the edges e whose destination index is n; edge e names source row ρ(e)
  (its source index, clamped into the source's rows). With H the source's hidden features (rows × 256), W the relation's
  256 × 128 weights and M the row's edge count made at least one:
  • one program projects first, Z = H · W, gathers Z's rows along the edges, adds them into zeros, and scales by 1/M;
  • the other gathers H's rows, adds them into zeros, divides by M, and multiplies by W last.
  At entry (n, j) both are (1/M) · Σ_{e → n} Σ_k H(ρ e, k) · W(k, j), provided every entry of H and W and 1/M is a real
  number and M is not zero. The edge set and the row map are the same on both sides: they do not depend on the width
  (128 or 256) of what is gathered.
-/
import proofs.«176458_j69930657513814_2_alg».proof.Proof.LibGatherRows
import proofs.«176458_j69930657513814_2_alg».proof.Proof.LibScatterRows
import proofs.«176458_j69930657513814_2_alg».proof.Proof.L2PLaw
import proofs.«176458_j69930657513814_2_alg».proof.Proof.L2PProjSpec

noncomputable section

namespace Cert.Bridge.L2P

open Idealize.ShloMosaic Idealize.ShloMosaic.ValueIdx Cert.RowGather Cert.RowScatter Cert.LibRealEntries

/-- The edges into destination row n. -/
abbrev edgesInto {E : Nat} (dIdx : IVec ⟨2, ![E, 1]⟩ 32) (n : Fin 20000) : Finset (Fin E) :=
  Finset.univ.filter (fun e : Fin E => (dIdx (ix2 e (⟨0, Nat.one_pos⟩ : Fin 1))).toInt = (n.val : Int))

/-- Rows of width C gathered along the edges and added into zeros: at (n, c), 0 + Σ_{e → n} X(ρ e, c). -/
theorem aggregate_apply {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![20000, C]⟩ ⟨2, ![E, 1]⟩ ⟨2, ![E, C]⟩ [1] [0] [0] 1)
    (X : (⟨2, ![N, C]⟩ : Shape).Idx → EReal) (z : (⟨2, ![20000, C]⟩ : Shape).Idx → EReal) (hz : ∀ i, z i = 0)
    (sIdx dIdx : IVec ⟨2, ![E, 1]⟩ 32) (n : Fin 20000) (c : Fin C) :
    Ideal.hostScatterAdd (rowScatterDims 20000 E C wfs) z dIdx (Host.gather (rowGatherDims N E C wfg) X sIdx) (ix2 n c)
      = 0 + ∑ e ∈ edgesInto dIdx n, X (ix2 (rowOf hN sIdx e) c) := by
  rw [hostScatterAdd_rows_apply, hz]
  exact congrArg (fun x => (0 : EReal) + x) (Finset.sum_congr rfl fun e _ => gather_rows_apply hN wfg X sIdx e c)

/-- THE RELATION, both ways, at (n, j). -/
theorem relation_eq {N E : Nat} (hN : 0 < N)
    (wfg128 : GatherDims.WF ⟨2, ![N, 128]⟩ ⟨2, ![E, 1]⟩ ⟨2, ![E, 128]⟩ [1] [0] [] [0] [] 1 ![1, 128])
    (wfg256 : GatherDims.WF ⟨2, ![N, 256]⟩ ⟨2, ![E, 1]⟩ ⟨2, ![E, 256]⟩ [1] [0] [] [0] [] 1 ![1, 256])
    (wfs128 : ScatterDims.WF ⟨2, ![20000, 128]⟩ ⟨2, ![E, 1]⟩ ⟨2, ![E, 128]⟩ [1] [0] [0] 1)
    (wfs256 : ScatterDims.WF ⟨2, ![20000, 256]⟩ ⟨2, ![E, 1]⟩ ⟨2, ![E, 256]⟩ [1] [0] [0] 1)
    (H : (⟨2, ![N, 256]⟩ : Shape).Idx → EReal) (W : (⟨2, ![256, 128]⟩ : Shape).Idx → EReal)
    (z128 : (⟨2, ![20000, 128]⟩ : Shape).Idx → EReal) (z256 : (⟨2, ![20000, 256]⟩ : Shape).Idx → EReal)
    (hz128 : ∀ i, z128 i = 0) (hz256 : ∀ i, z256 i = 0)
    (sIdx dIdx : IVec ⟨2, ![E, 1]⟩ 32) (M : EReal) (hM : M ≠ 0) (hs : IsReal (Ideal.div 1 M))
    (hH : ∀ i, IsReal (H i)) (hW : ∀ i, IsReal (W i)) (n : Fin 20000) (j : Fin 128) :
    Ideal.hostScatterAdd (rowScatterDims 20000 E 128 wfs128) z128 dIdx
        (Host.gather (rowGatherDims N E 128 wfg128) (projArr N H W) sIdx) (ix2 n j) * Ideal.div 1 M
      = ∑ k : Fin 256, Ideal.div (Ideal.hostScatterAdd (rowScatterDims 20000 E 256 wfs256) z256 dIdx
          (Host.gather (rowGatherDims N E 256 wfg256) H sIdx) (ix2 n k)) M * W (ix2 k j) := by
  rw [aggregate_apply hN wfg128 wfs128 (projArr N H W) z128 hz128 sIdx dIdx n j]
  have hproj : ∀ e : Fin E, projArr N H W (ix2 (rowOf hN sIdx e) j)
      = ∑ k : Fin 256, H (ix2 (rowOf hN sIdx e) k) * W (ix2 k j) := fun e => projArr_apply N H W _ j
  rw [Finset.sum_congr rfl (fun e _ => hproj e)]
  rw [project_then_aggregate (edgesInto dIdx n) (fun e => rowOf hN sIdx e) (fun r k => H (ix2 r k))
    (fun k => W (ix2 k j)) (Ideal.div 1 M) (fun r k => hH _) (fun k => hW _) hs]
  refine Finset.sum_congr rfl fun k _ => ?_
  rw [Cert.LibERealScale.div_eq_mul_one_div (Ideal.hostScatterAdd (rowScatterDims 20000 E 256 wfs256) z256 dIdx
      (Host.gather (rowGatherDims N E 256 wfg256) H sIdx) (ix2 n k)) hM,
    aggregate_apply hN wfg256 wfs256 H z256 hz256 sIdx dIdx n k]

end Cert.Bridge.L2P

end
-- ==== Proof.L2PSageSpec.lean ====
/-
  The second layer's sum over the three relations into one node type, entry by entry.

  One relation's term at (p, q): the aggregated projected features g(p, q) scaled by the row's reciprocal edge count
  s(p, 0), plus the node's own hidden features times the relation's weights, Σ_k h(p, k) · w(k, q), plus the bias b(0, q).
  The result at (p, q) is the three terms added, from zero, in order.
-/
import Idealize.ShloMosaic.PureOps.Ideal
import Idealize.ShloMosaic.Lib.ValueIdx

noncomputable section

namespace Cert.Bridge.L2P

open Idealize.ShloMosaic Idealize.ShloMosaic.ValueIdx

/-- One relation's term at (p, q). -/
def relTerm {A : Nat} (g : (⟨2, ![A, 128]⟩ : Shape).Idx → EReal) (s : (⟨2, ![A, 1]⟩ : Shape).Idx → EReal)
    (h : (⟨2, ![A, 256]⟩ : Shape).Idx → EReal) (w : (⟨2, ![256, 128]⟩ : Shape).Idx → EReal)
    (b : (⟨2, ![1, 128]⟩ : Shape).Idx → EReal) (p : Fin A) (q : Fin 128) : EReal :=
  ((g (ix2 p q) * s (ix2 p (⟨0, Nat.one_pos⟩ : Fin 1))) + ∑ k : Fin 256, h (ix2 p k) * w (ix2 k q))
    + b (ix2 (⟨0, Nat.one_pos⟩ : Fin 1) q)

/-- Two relation terms whose arrays agree at the entries read are equal. -/
theorem relTerm_congr {A A' : Nat} {g : (⟨2, ![A, 128]⟩ : Shape).Idx → EReal} {s : (⟨2, ![A, 1]⟩ : Shape).Idx → EReal}
    {h : (⟨2, ![A, 256]⟩ : Shape).Idx → EReal} {w : (⟨2, ![256, 128]⟩ : Shape).Idx → EReal}
    {b : (⟨2, ![1, 128]⟩ : Shape).Idx → EReal} {g' : (⟨2, ![A', 128]⟩ : Shape).Idx → EReal}
    {s' : (⟨2, ![A', 1]⟩ : Shape).Idx → EReal} {h' : (⟨2, ![A', 256]⟩ : Shape).Idx → EReal}
    {w' : (⟨2, ![256, 128]⟩ : Shape).Idx → EReal} {b' : (⟨2, ![1, 128]⟩ : Shape).Idx → EReal}
    {p : Fin A} {q : Fin 128} {p' : Fin A'} {q' : Fin 128}
    (hg : g (ix2 p q) = g' (ix2 p' q'))
    (hs : s (ix2 p (⟨0, Nat.one_pos⟩ : Fin 1)) = s' (ix2 p' (⟨0, Nat.one_pos⟩ : Fin 1)))
    (hh : ∀ k : Fin 256, h (ix2 p k) = h' (ix2 p' k)) (hw : ∀ k : Fin 256, w (ix2 k q) = w' (ix2 k q'))
    (hb : b (ix2 (⟨0, Nat.one_pos⟩ : Fin 1) q) = b' (ix2 (⟨0, Nat.one_pos⟩ : Fin 1) q')) :
    relTerm g s h w b p q = relTerm g' s' h' w' b' p' q' := by
  unfold relTerm
  rw [hg, hs, hb]
  exact congrArg (fun x => (g' (ix2 p' q') * s' (ix2 p' (⟨0, Nat.one_pos⟩ : Fin 1)) + x) + b' (ix2 (⟨0, Nat.one_pos⟩ : Fin 1) q'))
    (Finset.sum_congr rfl fun k _ => by rw [hh k, hw k])

/-- The three relations' terms added from zero, as an array over A rows. -/
def sageArr (A : Nat) (g0 g1 g2 : (⟨2, ![A, 128]⟩ : Shape).Idx → EReal) (s0 s1 s2 : (⟨2, ![A, 1]⟩ : Shape).Idx → EReal)
    (h : (⟨2, ![A, 256]⟩ : Shape).Idx → EReal) (w0 w1 w2 : (⟨2, ![256, 128]⟩ : Shape).Idx → EReal)
    (b0 b1 b2 : (⟨2, ![1, 128]⟩ : Shape).Idx → EReal) : (⟨2, ![A, 128]⟩ : Shape).Idx → EReal :=
  fun i => ((0 + relTerm g0 s0 h w0 b0 (⟨(i 0).val, idx2_lt0 i⟩ : Fin A) (⟨(i 1).val, idx2_lt1 i⟩ : Fin 128))
      + relTerm g1 s1 h w1 b1 (⟨(i 0).val, idx2_lt0 i⟩ : Fin A) (⟨(i 1).val, idx2_lt1 i⟩ : Fin 128))
    + relTerm g2 s2 h w2 b2 (⟨(i 0).val, idx2_lt0 i⟩ : Fin A) (⟨(i 1).val, idx2_lt1 i⟩ : Fin 128)

/-- At an index written by its coordinates. -/
theorem sageArr_apply (A : Nat) (g0 g1 g2 : (⟨2, ![A, 128]⟩ : Shape).Idx → EReal) (s0 s1 s2 : (⟨2, ![A, 1]⟩ : Shape).Idx → EReal)
    (h : (⟨2, ![A, 256]⟩ : Shape).Idx → EReal) (w0 w1 w2 : (⟨2, ![256, 128]⟩ : Shape).Idx → EReal)
    (b0 b1 b2 : (⟨2, ![1, 128]⟩ : Shape).Idx → EReal) (p : Fin A) (q : Fin 128) :
    sageArr A g0 g1 g2 s0 s1 s2 h w0 w1 w2 b0 b1 b2 (ix2 p q)
      = ((0 + relTerm g0 s0 h w0 b0 p q) + relTerm g1 s1 h w1 b1 p q) + relTerm g2 s2 h w2 b2 p q := rfl

end Cert.Bridge.L2P

end
-- ==== Proof.L2PRef.lean ====
/-
  The reference's protein result, read with the hidden layer as a given.

  The reference's second layer into the proteins is the sum of three relations (drug → protein, disease → protein,
  protein → protein), each a function of the hidden features of its source type, the hidden protein features, its
  edge list and the second layer's parameters. Here each relation is written as that function, the result is shown to
  be their sum at the reference's own hidden features, and each relation is read at an entry (n, j):
    Σ_k (agg(n, k) / M(n)) · Wl(k, j) + Σ_k HP(n, k) · Wr(k, j) + b(j),
  with agg the source's rows gathered along the edges and added into zeros, and M the row's edge count made at least one.
-/
import proofs.«176458_j69930657513814_2_alg».proof.Proof.Args
import proofs.«176458_j69930657513814_2_alg».proof.Proof.LibPlainDot

noncomputable section

namespace Cert.Bridge.L2P

open Idealize.ShloMosaic Idealize.ShloMosaic.TcCoe Idealize.SL.Sem Idealize.ShloMosaic.ValueIdx
open Cert.ReferenceIdeal Cert.ReferenceIdeal.Read

/-- The host's quotient of two arrays, read at an index, is the quotient of the entries. -/
theorem host_divf_apply {s : Shape} (x y : FVec Ideal s .f32) (i : s.Idx) :
    Host.divf (F := Ideal) (φ := .f32) x y i = Ideal.div (x i) (y i) := rfl

/-- The host's scatter with an adding body is, on the extended reals, the exact sum. -/
theorem host_scatterAdd_eq {s si u : Shape} {w : Nat} (d : ScatterDims s si u) (x : FVec Ideal s .f32) (idx : IVec si w)
    (upd : FVec Ideal u .f32) : Host.scatterAdd (F := Ideal) (φ := .f32) d x idx upd = Ideal.hostScatterAdd d x idx upd := rfl

/-- The reference's dp relation of the second layer as a function of the source's hidden features `H`, the proteins'
    hidden features `HP`, the relation's edge list and the three parameter stacks: the rows of `H` gathered along the
    edges and added into zeros, divided by the edge counts, times the relation's weights; plus `HP` times its
    second weights; plus its bias row spread over the rows. -/
def refRel_dp (H : (⟨S4000x256, .f32⟩ : BufTy).Contents (Elt Ideal)) (HP : (⟨S20000x256, .f32⟩ : BufTy).Contents (Elt Ideal))
    (e : (⟨S2x200000, .i32⟩ : BufTy).Contents (Elt Ideal)) (x11 x12 : (⟨S5x256x128, .f32⟩ : BufTy).Contents (Elt Ideal))
    (x13 : (⟨S5x128, .f32⟩ : BufTy).Contents (Elt Ideal)) : (⟨S20000x128, .f32⟩ : BufTy).Contents (Elt Ideal) :=
  addf (F := Ideal) (φ := .f32) (addf (F := Ideal) (φ := .f32)
      (Host.dotGeneral (F := Ideal) (φ₁ := .f32) (φ₂ := .f32) dot_S20000x256_S256x128_S20000x128_1_0_0_1_n_n none
        (Host.divf (F := Ideal) (φ := .f32) (Host.scatterAdd (F := Ideal) (φ := .f32) scatter_S20000x256_S200000x1_S200000x256_1_0_0_1 (val_main_v197 (F := Ideal)) (val_main_v198 (F := Ideal) e)
            (Host.gather gather_S4000x256_S200000x1_S200000x256_1_0_n_n_0_1_1256 H (val_main_v195 (F := Ideal) e)))
          (val_main_v207 (F := Ideal) e))
        (val_main_v181 (F := Ideal) x11))
      (Host.dotGeneral (F := Ideal) (φ₁ := .f32) (φ₂ := .f32) dot_S20000x256_S256x128_S20000x128_1_0_0_1_n_n none HP (val_main_v183 (F := Ideal) x12)))
    (val_main_v213 (F := Ideal) x13)

/-- The reference's disp relation of the second layer as a function of the source's hidden features `H`, the proteins'
    hidden features `HP`, the relation's edge list and the three parameter stacks: the rows of `H` gathered along the
    edges and added into zeros, divided by the edge counts, times the relation's weights; plus `HP` times its
    second weights; plus its bias row spread over the rows. -/
def refRel_disp (H : (⟨S8000x256, .f32⟩ : BufTy).Contents (Elt Ideal)) (HP : (⟨S20000x256, .f32⟩ : BufTy).Contents (Elt Ideal))
    (e : (⟨S2x300000, .i32⟩ : BufTy).Contents (Elt Ideal)) (x11 x12 : (⟨S5x256x128, .f32⟩ : BufTy).Contents (Elt Ideal))
    (x13 : (⟨S5x128, .f32⟩ : BufTy).Contents (Elt Ideal)) : (⟨S20000x128, .f32⟩ : BufTy).Contents (Elt Ideal) :=
  addf (F := Ideal) (φ := .f32) (addf (F := Ideal) (φ := .f32)
      (Host.dotGeneral (F := Ideal) (φ₁ := .f32) (φ₂ := .f32) dot_S20000x256_S256x128_S20000x128_1_0_0_1_n_n none
        (Host.divf (F := Ideal) (φ := .f32) (Host.scatterAdd (F := Ideal) (φ := .f32) scatter_S20000x256_S300000x1_S300000x256_1_0_0_1 (val_main_v232 (F := Ideal)) (val_main_v233 (F := Ideal) e)
            (Host.gather gather_S8000x256_S300000x1_S300000x256_1_0_n_n_0_1_1256 H (val_main_v230 (F := Ideal) e)))
          (val_main_v242 (F := Ideal) e))
        (val_main_v216 (F := Ideal) x11))
      (Host.dotGeneral (F := Ideal) (φ₁ := .f32) (φ₂ := .f32) dot_S20000x256_S256x128_S20000x128_1_0_0_1_n_n none HP (val_main_v218 (F := Ideal) x12)))
    (val_main_v248 (F := Ideal) x13)

/-- The reference's pp relation of the second layer as a function of the source's hidden features `H`, the proteins'
    hidden features `HP`, the relation's edge list and the three parameter stacks: the rows of `H` gathered along the
    edges and added into zeros, divided by the edge counts, times the relation's weights; plus `HP` times its
    second weights; plus its bias row spread over the rows. -/
def refRel_pp (H : (⟨S20000x256, .f32⟩ : BufTy).Contents (Elt Ideal)) (HP : (⟨S20000x256, .f32⟩ : BufTy).Contents (Elt Ideal))
    (e : (⟨S2x600000, .i32⟩ : BufTy).Contents (Elt Ideal)) (x11 x12 : (⟨S5x256x128, .f32⟩ : BufTy).Contents (Elt Ideal))
    (x13 : (⟨S5x128, .f32⟩ : BufTy).Contents (Elt Ideal)) : (⟨S20000x128, .f32⟩ : BufTy).Contents (Elt Ideal) :=
  addf (F := Ideal) (φ := .f32) (addf (F := Ideal) (φ := .f32)
      (Host.dotGeneral (F := Ideal) (φ₁ := .f32) (φ₂ := .f32) dot_S20000x256_S256x128_S20000x128_1_0_0_1_n_n none
        (Host.divf (F := Ideal) (φ := .f32) (Host.scatterAdd (F := Ideal) (φ := .f32) scatter_S20000x256_S600000x1_S600000x256_1_0_0_1 (val_main_v268 (F := Ideal)) (val_main_v269 (F := Ideal) e)
            (Host.gather gather_S20000x256_S600000x1_S600000x256_1_0_n_n_0_1_1256 H (val_main_v266 (F := Ideal) e)))
          (val_main_v278 (F := Ideal) e))
        (val_main_v252 (F := Ideal) x11))
      (Host.dotGeneral (F := Ideal) (φ₁ := .f32) (φ₂ := .f32) dot_S20000x256_S256x128_S20000x128_1_0_0_1_n_n none HP (val_main_v254 (F := Ideal) x12)))
    (val_main_v284 (F := Ideal) x13)

/-- The reference's protein result is the three relations summed, at the reference's own hidden features. -/
theorem OP_eq_refRels (m : Cert.Bridge.KMem) (c : Dev Cert.KernelIdeal.nD) :
    Cert.Bridge.OP m c
      = addf (F := Ideal) (φ := .f32) (addf (refRel_dp (Cert.Bridge.HD m c) (Cert.Bridge.HP m c) (Cert.Bridge.a3 m c) (Cert.Bridge.a11 m c) (Cert.Bridge.a12 m c) (Cert.Bridge.a13 m c))
          (refRel_disp (Cert.Bridge.HDIS m c) (Cert.Bridge.HP m c) (Cert.Bridge.a6 m c) (Cert.Bridge.a11 m c) (Cert.Bridge.a12 m c) (Cert.Bridge.a13 m c)))
        (refRel_pp (Cert.Bridge.HP m c) (Cert.Bridge.HP m c) (Cert.Bridge.a7 m c) (Cert.Bridge.a11 m c) (Cert.Bridge.a12 m c) (Cert.Bridge.a13 m c)) := rfl

/-- The edge-count column spread over 256 columns reads the row's count made at least one. -/
theorem Mb_dp_apply (e : (⟨S2x200000, .i32⟩ : BufTy).Contents (Elt Ideal)) (n : Fin 20000) (k : Fin 256) :
    val_main_v207 (F := Ideal) e (ix2 n k) = val_main_v205 (F := Ideal) e (ix1 n) := by
  rw [val_main_v207_apply, val_main_v206_apply]
  exact congrArg _ (funext fun a => Fin.ext (by match a with | ⟨0, _⟩ => rfl))

/-- The bias row spread over the rows reads the bias entry of the column. -/
theorem bb_dp_apply (x13 : (⟨S5x128, .f32⟩ : BufTy).Contents (Elt Ideal)) (n : Fin 20000) (j : Fin 128) :
    val_main_v213 (F := Ideal) x13 (ix2 n j) = val_main_v185 (F := Ideal) x13 (ix1 j) := by
  rw [val_main_v213_apply, val_main_v212_apply]
  exact congrArg _ (funext fun a => Fin.ext (by match a with | ⟨0, _⟩ => rfl))

/-- The relation at (n, j): Σ_k (agg(n, k) / M(n)) · Wl(k, j) + Σ_k HP(n, k) · Wr(k, j) + b(j). -/
theorem refRel_dp_apply (H : (⟨S4000x256, .f32⟩ : BufTy).Contents (Elt Ideal)) (HP : (⟨S20000x256, .f32⟩ : BufTy).Contents (Elt Ideal))
    (e : (⟨S2x200000, .i32⟩ : BufTy).Contents (Elt Ideal)) (x11 x12 : (⟨S5x256x128, .f32⟩ : BufTy).Contents (Elt Ideal))
    (x13 : (⟨S5x128, .f32⟩ : BufTy).Contents (Elt Ideal)) (n : Fin 20000) (j : Fin 128) :
    refRel_dp H HP e x11 x12 x13 (ix2 n j)
      = ((∑ k : Fin 256, Ideal.div
            (Ideal.hostScatterAdd scatter_S20000x256_S200000x1_S200000x256_1_0_0_1 (val_main_v197 (F := Ideal)) (val_main_v198 (F := Ideal) e)
              (Host.gather gather_S4000x256_S200000x1_S200000x256_1_0_n_n_0_1_1256 H (val_main_v195 (F := Ideal) e)) (ix2 n k))
            (val_main_v205 (F := Ideal) e (ix1 n)) * val_main_v181 (F := Ideal) x11 (ix2 k j))
          + ∑ k : Fin 256, HP (ix2 n k) * val_main_v183 (F := Ideal) x12 (ix2 k j))
        + val_main_v185 (F := Ideal) x13 (ix1 j) := by
  unfold refRel_dp
  rw [addf_apply, addf_apply, bb_dp_apply]
  have hd : dot_S20000x256_S256x128_S20000x128_1_0_0_1_n_n = DotDims.plain 20000 256 128 := rfl
  rw [hd]
  unfold Host.dotGeneral
  rw [Cert.LibPlainDot.dotGeneral_plain_apply 20000 256 128 none .single, Cert.LibPlainDot.dotGeneral_plain_apply 20000 256 128 none .single]
  refine congrArg₂ (· + ·) (congrArg₂ (· + ·) (Finset.sum_congr rfl fun k _ => ?_) rfl) rfl
  rw [host_divf_apply, host_scatterAdd_eq, Mb_dp_apply e n k]

/-- The edge-count column spread over 256 columns reads the row's count made at least one. -/
theorem Mb_disp_apply (e : (⟨S2x300000, .i32⟩ : BufTy).Contents (Elt Ideal)) (n : Fin 20000) (k : Fin 256) :
    val_main_v242 (F := Ideal) e (ix2 n k) = val_main_v240 (F := Ideal) e (ix1 n) := by
  rw [val_main_v242_apply, val_main_v241_apply]
  exact congrArg _ (funext fun a => Fin.ext (by match a with | ⟨0, _⟩ => rfl))

/-- The bias row spread over the rows reads the bias entry of the column. -/
theorem bb_disp_apply (x13 : (⟨S5x128, .f32⟩ : BufTy).Contents (Elt Ideal)) (n : Fin 20000) (j : Fin 128) :
    val_main_v248 (F := Ideal) x13 (ix2 n j) = val_main_v220 (F := Ideal) x13 (ix1 j) := by
  rw [val_main_v248_apply, val_main_v247_apply]
  exact congrArg _ (funext fun a => Fin.ext (by match a with | ⟨0, _⟩ => rfl))

/-- The relation at (n, j): Σ_k (agg(n, k) / M(n)) · Wl(k, j) + Σ_k HP(n, k) · Wr(k, j) + b(j). -/
theorem refRel_disp_apply (H : (⟨S8000x256, .f32⟩ : BufTy).Contents (Elt Ideal)) (HP : (⟨S20000x256, .f32⟩ : BufTy).Contents (Elt Ideal))
    (e : (⟨S2x300000, .i32⟩ : BufTy).Contents (Elt Ideal)) (x11 x12 : (⟨S5x256x128, .f32⟩ : BufTy).Contents (Elt Ideal))
    (x13 : (⟨S5x128, .f32⟩ : BufTy).Contents (Elt Ideal)) (n : Fin 20000) (j : Fin 128) :
    refRel_disp H HP e x11 x12 x13 (ix2 n j)
      = ((∑ k : Fin 256, Ideal.div
            (Ideal.hostScatterAdd scatter_S20000x256_S300000x1_S300000x256_1_0_0_1 (val_main_v232 (F := Ideal)) (val_main_v233 (F := Ideal) e)
              (Host.gather gather_S8000x256_S300000x1_S300000x256_1_0_n_n_0_1_1256 H (val_main_v230 (F := Ideal) e)) (ix2 n k))
            (val_main_v240 (F := Ideal) e (ix1 n)) * val_main_v216 (F := Ideal) x11 (ix2 k j))
          + ∑ k : Fin 256, HP (ix2 n k) * val_main_v218 (F := Ideal) x12 (ix2 k j))
        + val_main_v220 (F := Ideal) x13 (ix1 j) := by
  unfold refRel_disp
  rw [addf_apply, addf_apply, bb_disp_apply]
  have hd : dot_S20000x256_S256x128_S20000x128_1_0_0_1_n_n = DotDims.plain 20000 256 128 := rfl
  rw [hd]
  unfold Host.dotGeneral
  rw [Cert.LibPlainDot.dotGeneral_plain_apply 20000 256 128 none .single, Cert.LibPlainDot.dotGeneral_plain_apply 20000 256 128 none .single]
  refine congrArg₂ (· + ·) (congrArg₂ (· + ·) (Finset.sum_congr rfl fun k _ => ?_) rfl) rfl
  rw [host_divf_apply, host_scatterAdd_eq, Mb_disp_apply e n k]

/-- The edge-count column spread over 256 columns reads the row's count made at least one. -/
theorem Mb_pp_apply (e : (⟨S2x600000, .i32⟩ : BufTy).Contents (Elt Ideal)) (n : Fin 20000) (k : Fin 256) :
    val_main_v278 (F := Ideal) e (ix2 n k) = val_main_v276 (F := Ideal) e (ix1 n) := by
  rw [val_main_v278_apply, val_main_v277_apply]
  exact congrArg _ (funext fun a => Fin.ext (by match a with | ⟨0, _⟩ => rfl))

/-- The bias row spread over the rows reads the bias entry of the column. -/
theorem bb_pp_apply (x13 : (⟨S5x128, .f32⟩ : BufTy).Contents (Elt Ideal)) (n : Fin 20000) (j : Fin 128) :
    val_main_v284 (F := Ideal) x13 (ix2 n j) = val_main_v256 (F := Ideal) x13 (ix1 j) := by
  rw [val_main_v284_apply, val_main_v283_apply]
  exact congrArg _ (funext fun a => Fin.ext (by match a with | ⟨0, _⟩ => rfl))

/-- The relation at (n, j): Σ_k (agg(n, k) / M(n)) · Wl(k, j) + Σ_k HP(n, k) · Wr(k, j) + b(j). -/
theorem refRel_pp_apply (H : (⟨S20000x256, .f32⟩ : BufTy).Contents (Elt Ideal)) (HP : (⟨S20000x256, .f32⟩ : BufTy).Contents (Elt Ideal))
    (e : (⟨S2x600000, .i32⟩ : BufTy).Contents (Elt Ideal)) (x11 x12 : (⟨S5x256x128, .f32⟩ : BufTy).Contents (Elt Ideal))
    (x13 : (⟨S5x128, .f32⟩ : BufTy).Contents (Elt Ideal)) (n : Fin 20000) (j : Fin 128) :
    refRel_pp H HP e x11 x12 x13 (ix2 n j)
      = ((∑ k : Fin 256, Ideal.div
            (Ideal.hostScatterAdd scatter_S20000x256_S600000x1_S600000x256_1_0_0_1 (val_main_v268 (F := Ideal)) (val_main_v269 (F := Ideal) e)
              (Host.gather gather_S20000x256_S600000x1_S600000x256_1_0_n_n_0_1_1256 H (val_main_v266 (F := Ideal) e)) (ix2 n k))
            (val_main_v276 (F := Ideal) e (ix1 n)) * val_main_v252 (F := Ideal) x11 (ix2 k j))
          + ∑ k : Fin 256, HP (ix2 n k) * val_main_v254 (F := Ideal) x12 (ix2 k j))
        + val_main_v256 (F := Ideal) x13 (ix1 j) := by
  unfold refRel_pp
  rw [addf_apply, addf_apply, bb_pp_apply]
  have hd : dot_S20000x256_S256x128_S20000x128_1_0_0_1_n_n = DotDims.plain 20000 256 128 := rfl
  rw [hd]
  unfold Host.dotGeneral
  rw [Cert.LibPlainDot.dotGeneral_plain_apply 20000 256 128 none .single, Cert.LibPlainDot.dotGeneral_plain_apply 20000 256 128 none .single]
  refine congrArg₂ (· + ·) (congrArg₂ (· + ·) (Finset.sum_congr rfl fun k _ => ?_) rfl) rfl
  rw [host_divf_apply, host_scatterAdd_eq, Mb_pp_apply e n k]

end Cert.Bridge.L2P

end
-- ==== Proof.L2PSage.lean ====
/-
  Region 8: the second layer's protein rows, 20000 rows in 10 blocks of 2000.

  For each of the three relations into the proteins (drug → protein, disease → protein, protein → protein) the body
  takes the block of aggregated projected rows g, scales each row by its column entry s (the reciprocal edge count),
  adds the block of hidden protein features h times the relation's 256 × 128 weights w, adds the bias row b, and sums
  the three contributions starting from zero. Entry (i, j) of the result is
    ((0 + u₀) + u₁) + u₂,   u_r = ((g_r(i, j) · s_r(i, 0)) + Σ_k h(i, k) · w_r(k, j)) + b_r(0, j).
  Every row block reads the same rows of its arrays as the result block; the weights and bias rows are whole.
-/
import proofs.«176458_j69930657513814_2_alg».proof.Proof.KIFrame
import proofs.«176458_j69930657513814_2_alg».proof.Proof.LibPlainMatmul
import proofs.«176458_j69930657513814_2_alg».proof.Proof.LibKeepdims
import proofs.«176458_j69930657513814_2_alg».proof.Proof.LibRowBroadcast
import proofs.«176458_j69930657513814_2_alg».proof.Proof.L2PProjSpec
import proofs.«176458_j69930657513814_2_alg».proof.Proof.L2PSageSpec
import Idealize.ShloMosaic.Lib.Pipeline.Value

noncomputable section

namespace Cert.Bridge.L2P

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The body's product into a zero accumulator at (p, q): Σ_k x(p, k) · w(k, q). -/
theorem mm8 (x : FVec Ideal S2000x256 .f32) (w : FVec Ideal S256x128 .f32) (p : Fin 2000) (q : Fin 128) :
    matmul dot_S2000x256_S256x128_S2000x128_1_0_0_1_n_n none x w (constant S2000x128 .f32 0x00000000#32) (ix2 p q)
      = ∑ k : Fin 256, x (ix2 p k) * w (ix2 k q) :=
  matmul_plain_zero_apply 2000 256 128 none x w p q

/-- A column spread over 128 columns reads the column's entry of the row. -/
theorem col8 (v : FVec Ideal S2000x1 .f32) (p : Fin 2000) (q : Fin 128) :
    broadcastTo S2000x128 v broadcasts_S2000x1_S2000x128 (ix2 p q) = v (ix2 p (⟨0, Nat.one_pos⟩ : Fin 1)) :=
  Cert.LibKeepdims.broadcastTo_a1_ab_apply v broadcasts_S2000x1_S2000x128 p q ⟨0, Nat.one_pos⟩

/-- A row spread over 2000 rows reads the row's entry of the column. -/
theorem row8 (v : FVec Ideal S1x128 .f32) (p : Fin 2000) (q : Fin 128) :
    broadcastTo S2000x128 v broadcasts_S1x128_S2000x128 (ix2 p q) = v (ix2 (⟨0, Nat.one_pos⟩ : Fin 1) q) :=
  Cert.LibRowBroadcast.broadcastTo_1b_ab_apply v broadcasts_S1x128_S2000x128 p q ⟨0, Nat.one_pos⟩

/-- The body's arithmetic at an index is the three relations' terms summed from zero. -/
theorem pay8 (x0 x1 x2 : Vec Ideal S2000x128 .f32) (x3 x4 x5 : Vec Ideal S2000x1 .f32) (x6 : Vec Ideal S2000x256 .f32)
    (x7 x8 x9 : Vec Ideal S256x128 .f32) (x10 x11 x12 : Vec Ideal S1x128 .f32) (j : S2000x128.Idx) :
    k8_pay1 (k8_pay2 x6) (k8_pay3 x6 x0 x3 x7 x10 x1 x4 x8 x11) (k8_pay4 x2) x5 x9 x12 j
      = sageArr 2000 x0 x1 x2 x3 x4 x5 x6 x7 x8 x9 x10 x11 x12 j := by
  obtain ⟨p, q, rfl⟩ : ∃ (p : Fin 2000) (q : Fin 128), j = ix2 p q := ⟨j 0, j 1, eq_ix2 j⟩
  unfold k8_pay1 k8_pay3 k8_pay4 k8_pay2
  simp only [shapeCast_self, addf_apply, mulf_apply, broadcast_apply, mm8, col8, row8]
  rw [sageArr_apply, show Scalar.ofBits (F := Ideal) .f32 0x00000000#32 = (0 : EReal) from Ideal.ofBits_zero_f32]
  unfold relTerm
  rfl

/-- The printed index maps over the grid: every row window's block index is the point, every other index is zero. -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0
    ∧ win8_3.index t (0 : Fin 2) = t.val
    ∧ win8_3.index t (1 : Fin 2) = 0
    ∧ win8_4.index t (0 : Fin 2) = t.val
    ∧ win8_4.index t (1 : Fin 2) = 0
    ∧ win8_5.index t (0 : Fin 2) = t.val
    ∧ win8_5.index t (1 : Fin 2) = 0
    ∧ win8_6.index t (0 : Fin 2) = t.val
    ∧ win8_6.index t (1 : Fin 2) = 0
    ∧ win8_13.index t (0 : Fin 2) = t.val
    ∧ win8_13.index t (1 : Fin 2) = 0
    ∧ win8_7.index t (0 : Fin 2) = 0
    ∧ win8_7.index t (1 : Fin 2) = 0
    ∧ win8_8.index t (0 : Fin 2) = 0
    ∧ win8_8.index t (1 : Fin 2) = 0
    ∧ win8_9.index t (0 : Fin 2) = 0
    ∧ win8_9.index t (1 : Fin 2) = 0
    ∧ win8_10.index t (0 : Fin 2) = 0
    ∧ win8_10.index t (1 : Fin 2) = 0
    ∧ win8_11.index t (0 : Fin 2) = 0
    ∧ win8_11.index t (1 : Fin 2) = 0
    ∧ win8_12.index t (0 : Fin 2) = 0
    ∧ win8_12.index t (1 : Fin 2) = 0 :=
  (by decide +kernel : ∀ t : Fin grid8.N, _)

set_option maxHeartbeats 4000000 in
/-- What point t writes back is block t of the three relations' terms of the thirteen input arrays. -/
theorem flushed8_eq (c : Dev nD) (t : Fin cfg8.N) :
    (dat8 V c).flushed 13 t = ((cfg8.win 13).blk t).view.read (Elt Ideal)
      (sageArr 20000 (V c main_v191) (V c main_v205) (V c main_v219) (V c main_v10) (V c main_v43) (V c main_v54) (V c main_v118) (V c main_v221) (V c main_v223) (V c main_v225) (V c main_v232) (V c main_v233) (V c main_v234)) := by
  show (cfg8.win 13).cut (grid8.coords t) ((dat8 V c).after 13 t) = _
  rw [after8_13]
  unfold out8_13
  rw [View.canon_unit_zero hz2]
  simp only [View.ld_unit_zero (S := S2000x256) hz2, View.ld_unit_zero (S := S2000x128) hz2,
    View.ld_unit_zero (S := S2000x1) hz2, View.ld_unit_zero (S := S256x128) hz2, View.ld_unit_zero (S := S1x128) hz2]
  obtain ⟨f0, f1, f2, f3, f4, f5, f6, f7, f8, f9, f10, f11, f12, f13, f14, f15, f16, f17, f18, f19, f20, f21, f22, f23, f24, f25, f26, f27⟩ := idx_facts8 t
  funext j
  show k8_pay1 (k8_pay2 (iblk8 V c 6 t)) (k8_pay3 (iblk8 V c 6 t) (iblk8 V c 0 t) (iblk8 V c 3 t) (iblk8 V c 7 t) (iblk8 V c 10 t) (iblk8 V c 1 t) (iblk8 V c 4 t) (iblk8 V c 8 t) (iblk8 V c 11 t)) (k8_pay4 (iblk8 V c 2 t)) (iblk8 V c 5 t) (iblk8 V c 9 t) (iblk8 V c 12 t) j
    = sageArr 20000 (V c main_v191) (V c main_v205) (V c main_v219) (V c main_v10) (V c main_v43) (V c main_v54) (V c main_v118) (V c main_v221) (V c main_v223) (V c main_v225) (V c main_v232) (V c main_v233) (V c main_v234) (((cfg8.win 13).blk t).view.emb j)
  refine (pay8 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (iblk8 V c 11 t) (iblk8 V c 12 t) j).trans ?_
  have hj0 : (j 0).val < 2000 := (j 0).isLt
  have hj1 : (j 1).val < 128 := (j 1).isLt
  have b0 : iblk8 V c 0 t (ix2 (⟨(j 0).val, hj0⟩ : Fin 2000) (⟨(j 1).val, hj1⟩ : Fin 128)) = V c main_v191 (ix2 (⟨((((cfg8.win 13).blk t).view.emb j) 0).val, idx2_lt0 _⟩ : Fin 20000) (⟨((((cfg8.win 13).blk t).view.emb j) 1).val, idx2_lt1 _⟩ : Fin 128)) := by
    show V c main_v191 (((cfg8.win 0).blk t).view.emb (ix2 (⟨(j 0).val, hj0⟩ : Fin 2000) (⟨(j 1).val, hj1⟩ : Fin 128))) = _
    refine congrArg (V c main_v191) ?_
    funext a; apply Fin.ext
    match a with
    | ⟨0, _⟩ => show win8_0.index t (0 : Fin 2) * 2000 + 1 * (j 0).val = win8_13.index t (0 : Fin 2) * 2000 + 1 * (j 0).val; omega
    | ⟨1, _⟩ => show win8_0.index t (1 : Fin 2) * 128 + 1 * (j 1).val = win8_13.index t (1 : Fin 2) * 128 + 1 * (j 1).val; omega
  have b1 : iblk8 V c 1 t (ix2 (⟨(j 0).val, hj0⟩ : Fin 2000) (⟨(j 1).val, hj1⟩ : Fin 128)) = V c main_v205 (ix2 (⟨((((cfg8.win 13).blk t).view.emb j) 0).val, idx2_lt0 _⟩ : Fin 20000) (⟨((((cfg8.win 13).blk t).view.emb j) 1).val, idx2_lt1 _⟩ : Fin 128)) := by
    show V c main_v205 (((cfg8.win 1).blk t).view.emb (ix2 (⟨(j 0).val, hj0⟩ : Fin 2000) (⟨(j 1).val, hj1⟩ : Fin 128))) = _
    refine congrArg (V c main_v205) ?_
    funext a; apply Fin.ext
    match a with
    | ⟨0, _⟩ => show win8_1.index t (0 : Fin 2) * 2000 + 1 * (j 0).val = win8_13.index t (0 : Fin 2) * 2000 + 1 * (j 0).val; omega
    | ⟨1, _⟩ => show win8_1.index t (1 : Fin 2) * 128 + 1 * (j 1).val = win8_13.index t (1 : Fin 2) * 128 + 1 * (j 1).val; omega
  have b2 : iblk8 V c 2 t (ix2 (⟨(j 0).val, hj0⟩ : Fin 2000) (⟨(j 1).val, hj1⟩ : Fin 128)) = V c main_v219 (ix2 (⟨((((cfg8.win 13).blk t).view.emb j) 0).val, idx2_lt0 _⟩ : Fin 20000) (⟨((((cfg8.win 13).blk t).view.emb j) 1).val, idx2_lt1 _⟩ : Fin 128)) := by
    show V c main_v219 (((cfg8.win 2).blk t).view.emb (ix2 (⟨(j 0).val, hj0⟩ : Fin 2000) (⟨(j 1).val, hj1⟩ : Fin 128))) = _
    refine congrArg (V c main_v219) ?_
    funext a; apply Fin.ext
    match a with
    | ⟨0, _⟩ => show win8_2.index t (0 : Fin 2) * 2000 + 1 * (j 0).val = win8_13.index t (0 : Fin 2) * 2000 + 1 * (j 0).val; omega
    | ⟨1, _⟩ => show win8_2.index t (1 : Fin 2) * 128 + 1 * (j 1).val = win8_13.index t (1 : Fin 2) * 128 + 1 * (j 1).val; omega
  have b3 : iblk8 V c 3 t (ix2 (⟨(j 0).val, hj0⟩ : Fin 2000) (⟨0, Nat.one_pos⟩ : Fin 1)) = V c main_v10 (ix2 (⟨((((cfg8.win 13).blk t).view.emb j) 0).val, idx2_lt0 _⟩ : Fin 20000) (⟨0, Nat.one_pos⟩ : Fin 1)) := by
    show V c main_v10 (((cfg8.win 3).blk t).view.emb (ix2 (⟨(j 0).val, hj0⟩ : Fin 2000) (⟨0, Nat.one_pos⟩ : Fin 1))) = _
    refine congrArg (V c main_v10) ?_
    funext a; apply Fin.ext
    match a with
    | ⟨0, _⟩ => show win8_3.index t (0 : Fin 2) * 2000 + 1 * (j 0).val = win8_13.index t (0 : Fin 2) * 2000 + 1 * (j 0).val; omega
    | ⟨1, _⟩ => show win8_3.index t (1 : Fin 2) * 1 + 1 * 0 = 0; omega
  have b4 : iblk8 V c 4 t (ix2 (⟨(j 0).val, hj0⟩ : Fin 2000) (⟨0, Nat.one_pos⟩ : Fin 1)) = V c main_v43 (ix2 (⟨((((cfg8.win 13).blk t).view.emb j) 0).val, idx2_lt0 _⟩ : Fin 20000) (⟨0, Nat.one_pos⟩ : Fin 1)) := by
    show V c main_v43 (((cfg8.win 4).blk t).view.emb (ix2 (⟨(j 0).val, hj0⟩ : Fin 2000) (⟨0, Nat.one_pos⟩ : Fin 1))) = _
    refine congrArg (V c main_v43) ?_
    funext a; apply Fin.ext
    match a with
    | ⟨0, _⟩ => show win8_4.index t (0 : Fin 2) * 2000 + 1 * (j 0).val = win8_13.index t (0 : Fin 2) * 2000 + 1 * (j 0).val; omega
    | ⟨1, _⟩ => show win8_4.index t (1 : Fin 2) * 1 + 1 * 0 = 0; omega
  have b5 : iblk8 V c 5 t (ix2 (⟨(j 0).val, hj0⟩ : Fin 2000) (⟨0, Nat.one_pos⟩ : Fin 1)) = V c main_v54 (ix2 (⟨((((cfg8.win 13).blk t).view.emb j) 0).val, idx2_lt0 _⟩ : Fin 20000) (⟨0, Nat.one_pos⟩ : Fin 1)) := by
    show V c main_v54 (((cfg8.win 5).blk t).view.emb (ix2 (⟨(j 0).val, hj0⟩ : Fin 2000) (⟨0, Nat.one_pos⟩ : Fin 1))) = _
    refine congrArg (V c main_v54) ?_
    funext a; apply Fin.ext
    match a with
    | ⟨0, _⟩ => show win8_5.index t (0 : Fin 2) * 2000 + 1 * (j 0).val = win8_13.index t (0 : Fin 2) * 2000 + 1 * (j 0).val; omega
    | ⟨1, _⟩ => show win8_5.index t (1 : Fin 2) * 1 + 1 * 0 = 0; omega
  have b6 : ∀ k : Fin 256, iblk8 V c 6 t (ix2 (⟨(j 0).val, hj0⟩ : Fin 2000) k) = V c main_v118 (ix2 (⟨((((cfg8.win 13).blk t).view.emb j) 0).val, idx2_lt0 _⟩ : Fin 20000) k) := by
    intro k
    show V c main_v118 (((cfg8.win 6).blk t).view.emb (ix2 (⟨(j 0).val, hj0⟩ : Fin 2000) k)) = _
    refine congrArg (V c main_v118) ?_
    funext a; apply Fin.ext
    match a with
    | ⟨0, _⟩ => show win8_6.index t (0 : Fin 2) * 2000 + 1 * (j 0).val = win8_13.index t (0 : Fin 2) * 2000 + 1 * (j 0).val; omega
    | ⟨1, _⟩ => show win8_6.index t (1 : Fin 2) * 256 + 1 * k.val = k.val; omega
  have b7 : ∀ k : Fin 256, iblk8 V c 7 t (ix2 k (⟨(j 1).val, hj1⟩ : Fin 128)) = V c main_v221 (ix2 k (⟨((((cfg8.win 13).blk t).view.emb j) 1).val, idx2_lt1 _⟩ : Fin 128)) := by
    intro k
    show V c main_v221 (((cfg8.win 7).blk t).view.emb (ix2 k (⟨(j 1).val, hj1⟩ : Fin 128))) = _
    refine congrArg (V c main_v221) ?_
    funext a; apply Fin.ext
    match a with
    | ⟨0, _⟩ => show win8_7.index t (0 : Fin 2) * 256 + 1 * k.val = k.val; omega
    | ⟨1, _⟩ => show win8_7.index t (1 : Fin 2) * 128 + 1 * (j 1).val = win8_13.index t (1 : Fin 2) * 128 + 1 * (j 1).val; omega
  have b8 : ∀ k : Fin 256, iblk8 V c 8 t (ix2 k (⟨(j 1).val, hj1⟩ : Fin 128)) = V c main_v223 (ix2 k (⟨((((cfg8.win 13).blk t).view.emb j) 1).val, idx2_lt1 _⟩ : Fin 128)) := by
    intro k
    show V c main_v223 (((cfg8.win 8).blk t).view.emb (ix2 k (⟨(j 1).val, hj1⟩ : Fin 128))) = _
    refine congrArg (V c main_v223) ?_
    funext a; apply Fin.ext
    match a with
    | ⟨0, _⟩ => show win8_8.index t (0 : Fin 2) * 256 + 1 * k.val = k.val; omega
    | ⟨1, _⟩ => show win8_8.index t (1 : Fin 2) * 128 + 1 * (j 1).val = win8_13.index t (1 : Fin 2) * 128 + 1 * (j 1).val; omega
  have b9 : ∀ k : Fin 256, iblk8 V c 9 t (ix2 k (⟨(j 1).val, hj1⟩ : Fin 128)) = V c main_v225 (ix2 k (⟨((((cfg8.win 13).blk t).view.emb j) 1).val, idx2_lt1 _⟩ : Fin 128)) := by
    intro k
    show V c main_v225 (((cfg8.win 9).blk t).view.emb (ix2 k (⟨(j 1).val, hj1⟩ : Fin 128))) = _
    refine congrArg (V c main_v225) ?_
    funext a; apply Fin.ext
    match a with
    | ⟨0, _⟩ => show win8_9.index t (0 : Fin 2) * 256 + 1 * k.val = k.val; omega
    | ⟨1, _⟩ => show win8_9.index t (1 : Fin 2) * 128 + 1 * (j 1).val = win8_13.index t (1 : Fin 2) * 128 + 1 * (j 1).val; omega
  have b10 : iblk8 V c 10 t (ix2 (⟨0, Nat.one_pos⟩ : Fin 1) (⟨(j 1).val, hj1⟩ : Fin 128)) = V c main_v232 (ix2 (⟨0, Nat.one_pos⟩ : Fin 1) (⟨((((cfg8.win 13).blk t).view.emb j) 1).val, idx2_lt1 _⟩ : Fin 128)) := by
    show V c main_v232 (((cfg8.win 10).blk t).view.emb (ix2 (⟨0, Nat.one_pos⟩ : Fin 1) (⟨(j 1).val, hj1⟩ : Fin 128))) = _
    refine congrArg (V c main_v232) ?_
    funext a; apply Fin.ext
    match a with
    | ⟨0, _⟩ => show win8_10.index t (0 : Fin 2) * 1 + 1 * 0 = 0; omega
    | ⟨1, _⟩ => show win8_10.index t (1 : Fin 2) * 128 + 1 * (j 1).val = win8_13.index t (1 : Fin 2) * 128 + 1 * (j 1).val; omega
  have b11 : iblk8 V c 11 t (ix2 (⟨0, Nat.one_pos⟩ : Fin 1) (⟨(j 1).val, hj1⟩ : Fin 128)) = V c main_v233 (ix2 (⟨0, Nat.one_pos⟩ : Fin 1) (⟨((((cfg8.win 13).blk t).view.emb j) 1).val, idx2_lt1 _⟩ : Fin 128)) := by
    show V c main_v233 (((cfg8.win 11).blk t).view.emb (ix2 (⟨0, Nat.one_pos⟩ : Fin 1) (⟨(j 1).val, hj1⟩ : Fin 128))) = _
    refine congrArg (V c main_v233) ?_
    funext a; apply Fin.ext
    match a with
    | ⟨0, _⟩ => show win8_11.index t (0 : Fin 2) * 1 + 1 * 0 = 0; omega
    | ⟨1, _⟩ => show win8_11.index t (1 : Fin 2) * 128 + 1 * (j 1).val = win8_13.index t (1 : Fin 2) * 128 + 1 * (j 1).val; omega
  have b12 : iblk8 V c 12 t (ix2 (⟨0, Nat.one_pos⟩ : Fin 1) (⟨(j 1).val, hj1⟩ : Fin 128)) = V c main_v234 (ix2 (⟨0, Nat.one_pos⟩ : Fin 1) (⟨((((cfg8.win 13).blk t).view.emb j) 1).val, idx2_lt1 _⟩ : Fin 128)) := by
    show V c main_v234 (((cfg8.win 12).blk t).view.emb (ix2 (⟨0, Nat.one_pos⟩ : Fin 1) (⟨(j 1).val, hj1⟩ : Fin 128))) = _
    refine congrArg (V c main_v234) ?_
    funext a; apply Fin.ext
    match a with
    | ⟨0, _⟩ => show win8_12.index t (0 : Fin 2) * 1 + 1 * 0 = 0; omega
    | ⟨1, _⟩ => show win8_12.index t (1 : Fin 2) * 128 + 1 * (j 1).val = win8_13.index t (1 : Fin 2) * 128 + 1 * (j 1).val; omega
  unfold sageArr
  exact congrArg₂ (· + ·) (congrArg₂ (· + ·) (congrArg (fun x => (0 : EReal) + x)
    (relTerm_congr b0 b3 b6 b7 b10)) (relTerm_congr b1 b4 b6 b8 b11)) (relTerm_congr b2 b5 b6 b9 b12)

/-- An index of the result array is in point t's block iff each coordinate is in the block's range on its axis. -/
theorem mem_blk8 (t : Fin cfg8.N) (i : S20000x128.Idx) :
    i ∈ ((cfg8.win 13).blk t).view.set ↔ ∀ a : Fin 2, win8_13.index t a * S2000x128.size a ≤ (i a).val ∧ (i a).val < win8_13.index t a * S2000x128.size a + S2000x128.size a := by
  show i ∈ ((View.whole main_v235).slice (win8_13.rect t)).set ↔ _
  rw [View.set_slice_whole, Rect.mem_set_unit]
  exact Iff.rfl

/-- Row r of the result is covered by point r / 2000. -/
theorem cover8 (i : S20000x128.Idx) : ∃ t : Fin cfg8.N, (cfg8.win 13).flush t = true ∧ i ∈ ((cfg8.win 13).blk t).view.set := by
  have hi0 : (i 0).val < 20000 := (i 0).isLt
  have hi1 : (i 1).val < 128 := (i 1).isLt
  have hN : cfg8.N = 10 := N_8
  let t : Fin cfg8.N := ⟨(i 0).val / 2000, by rw [hN]; omega⟩
  obtain ⟨f0, f1, f2, f3, f4, f5, f6, f7, f8, f9, f10, f11, f12, f13, f14, f15, f16, f17, f18, f19, f20, f21, f22, f23, f24, f25, f26, f27⟩ := idx_facts8 t
  have e0 : win8_13.index t (0 : Fin 2) = (i 0).val / 2000 := f14
  refine ⟨t, flush8_13 t, ?_⟩
  rw [mem_blk8]
  intro a
  match a with
  | ⟨0, _⟩ => show win8_13.index t (0 : Fin 2) * 2000 ≤ (i 0).val ∧ (i 0).val < win8_13.index t (0 : Fin 2) * 2000 + 2000; omega
  | ⟨1, _⟩ => show win8_13.index t (1 : Fin 2) * 128 ≤ (i 1).val ∧ (i 1).val < win8_13.index t (1 : Fin 2) * 128 + 128; omega

/-- THE RESULT ARRAY of region 8: the three relations' terms of the arrays as the region finds them. -/
theorem final8 (c : Dev nD) :
    (dat8 V c).arrAt 13 cfg8.N = sageArr 20000 (V c main_v191) (V c main_v205) (V c main_v219) (V c main_v10) (V c main_v43) (V c main_v54) (V c main_v118) (V c main_v221) (V c main_v223) (V c main_v225) (V c main_v232) (V c main_v233) (V c main_v234) :=
  (dat8 V c).arrAt_eq_of_cover 13 (sageArr 20000 (V c main_v191) (V c main_v205) (V c main_v219) (V c main_v10) (V c main_v43) (V c main_v54) (V c main_v118) (V c main_v221) (V c main_v223) (V c main_v225) (V c main_v232) (V c main_v233) (V c main_v234)) (fun t _ => flushed8_eq V c t) (cover8)

end Cert.Bridge.L2P

end
-- ==== Proof.L2PTac.lean ====
/-
  A buffer that a stretch of host operations does not write holds after the stretch what it held before: the
  stretch's operations are listed, each one's written buffer is read off, and the buffer in question is a different one.
-/
import proofs.«176458_j69930657513814_2_alg».proof.Proof.KIFrame

namespace Cert.Bridge.L2P

open Idealize.ShloMosaic Cert.KernelIdeal Cert.KernelIdeal.Gen Cert.KernelIdeal.GenP

/-- Closes `after ops V b = V b` for a literal stretch `ops` none of whose operations writes `b`. -/
macro "host_keeps" : tactic => `(tactic| (
  refine StableHlo.after_of_forall_not_mem _ _ (List.forall_iff_forall_mem.mp ?_)
  simp only [hostOps0, hostOps1, hostOps2, hostOps3, hostOps4, hostOps5, hostOps6, hostOps7, hostOps8, hostOps9, hostOps10,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

end Cert.Bridge.L2P
-- ==== Proof.L2PProj3.lean ====
/-
  Region 3: the projection of 4000 hidden rows of width 256 by a 256 × 128 weight matrix, in 1 block of 4000 rows.

  The body multiplies its 4000 × 256 block of the hidden features by the whole weight matrix into a zero accumulator
  and stores the 4000 × 128 product; block t of the result reads block t of the features and the one block of the
  weights. So the result array is the matrix product of the two arrays as the region finds them: entry (i, j) is
  Σ_k X(i, k) · W(k, j).
-/
import proofs.«176458_j69930657513814_2_alg».proof.Proof.KIFrame
import proofs.«176458_j69930657513814_2_alg».proof.Proof.LibPlainMatmul
import proofs.«176458_j69930657513814_2_alg».proof.Proof.L2PProjSpec
import Idealize.ShloMosaic.Lib.Pipeline.Value

noncomputable section

namespace Cert.Bridge.L2P

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The body's product at an index: Σ_k x0(p, k) · x1(k, q). -/
theorem pay3 (x0 : Vec Ideal S4000x256 .f32) (x1 : Vec Ideal S256x128 .f32) (j : S4000x128.Idx) :
    k3_pay1 x0 x1 j = projArr 4000 x0 x1 j := by
  obtain ⟨p, q, rfl⟩ : ∃ (p : Fin 4000) (q : Fin 128), j = ix2 p q := ⟨j 0, j 1, eq_ix2 j⟩
  unfold k3_pay1
  simp only [shapeCast_self]
  exact matmul_plain_zero_apply 4000 256 128 none x0 x1 p q

/-- The printed index maps over the grid: the features' block moves with the result's along the rows, the weights'
    block stays, and the result's block index is the point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the two arrays. -/
theorem flushed3_eq (c : Dev nD) (t : Fin cfg3.N) :
    (dat3 V c).flushed 2 t = ((cfg3.win 2).blk t).view.read (Elt Ideal)
      (projArr 4000 (V c main_v140) (V c main_v164)) := by
  show (cfg3.win 2).cut (grid3.coords t) ((dat3 V c).after 2 t) = _
  rw [after3_2]
  unfold out3_2
  rw [View.canon_unit_zero hz2]
  simp only [View.ld_unit_zero (S := S4000x256) hz2, View.ld_unit_zero (S := S256x128) hz2]
  obtain ⟨e0, e1, e2, e3, e4, e5⟩ := idx_facts3 t
  funext j
  show k3_pay1 (iblk3 V c 0 t) (iblk3 V c 1 t) j = projArr 4000 (V c main_v140) (V c main_v164) (((cfg3.win 2).blk t).view.emb j)
  refine (pay3 (iblk3 V c 0 t) (iblk3 V c 1 t) j).trans ?_
  unfold projArr
  refine Finset.sum_congr rfl fun k _ => ?_
  have hj0 : (j 0).val < 4000 := (j 0).isLt
  have hj1 : (j 1).val < 128 := (j 1).isLt
  have h0 : iblk3 V c 0 t (ix2 (⟨(j 0).val, hj0⟩ : Fin 4000) k)
      = V c main_v140 (ix2 (⟨((((cfg3.win 2).blk t).view.emb j) 0).val, idx2_lt0 _⟩ : Fin 4000) k) := by
    show V c main_v140 (((cfg3.win 0).blk t).view.emb (ix2 (⟨(j 0).val, hj0⟩ : Fin 4000) k)) = _
    refine congrArg (V c main_v140) ?_
    funext a; apply Fin.ext
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 256 + 1 * k.val = k.val; omega
  have h1 : iblk3 V c 1 t (ix2 k (⟨(j 1).val, hj1⟩ : Fin 128))
      = V c main_v164 (ix2 k (⟨((((cfg3.win 2).blk t).view.emb j) 1).val, idx2_lt1 _⟩ : Fin 128)) := by
    show V c main_v164 (((cfg3.win 1).blk t).view.emb (ix2 k (⟨(j 1).val, hj1⟩ : Fin 128))) = _
    refine congrArg (V c main_v164) ?_
    funext a; apply Fin.ext
    match a with
    | ⟨0, _⟩ => show win3_1.index t (0 : Fin 2) * 256 + 1 * k.val = k.val; omega
    | ⟨1, _⟩ => show win3_1.index t (1 : Fin 2) * 128 + 1 * (j 1).val = win3_2.index t (1 : Fin 2) * 128 + 1 * (j 1).val; omega
  exact congrArg₂ (· * ·) h0 h1

/-- An index of the result array is in point t's block iff each coordinate is in the block's range on its axis. -/
theorem mem_blk3 (t : Fin cfg3.N) (i : S4000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v165).slice (win3_2.rect t)).set ↔ _
  rw [View.set_slice_whole, Rect.mem_set_unit]
  exact Iff.rfl

/-- Row r of the result is covered by point r / 4000. -/
theorem cover3 (i : S4000x128.Idx) : ∃ t : Fin cfg3.N, (cfg3.win 2).flush t = true ∧ i ∈ ((cfg3.win 2).blk t).view.set := by
  have hi0 : (i 0).val < 4000 := (i 0).isLt
  have hi1 : (i 1).val < 128 := (i 1).isLt
  have hN : cfg3.N = 1 := N_3
  let t : Fin cfg3.N := ⟨(i 0).val / 4000, by rw [hN]; omega⟩
  obtain ⟨e0, e1, e2, e3, e4, e5⟩ := idx_facts3 t
  have e4' : win3_2.index t (0 : Fin 2) = (i 0).val / 4000 := e4
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- THE RESULT ARRAY of region 3: the matrix product of the hidden features and the weights as the region finds them. -/
theorem final3 (c : Dev nD) :
    (dat3 V c).arrAt 2 cfg3.N = projArr 4000 (V c main_v140) (V c main_v164) :=
  (dat3 V c).arrAt_eq_of_cover 2 (projArr 4000 (V c main_v140) (V c main_v164)) (fun t _ => flushed3_eq V c t) (cover3)

end Cert.Bridge.L2P

end
-- ==== Proof.L2PProj6.lean ====
/-
  Region 6: the projection of 8000 hidden rows of width 256 by a 256 × 128 weight matrix, in 2 blocks of 4000 rows.

  The body multiplies its 4000 × 256 block of the hidden features by the whole weight matrix into a zero accumulator
  and stores the 4000 × 128 product; block t of the result reads block t of the features and the one block of the
  weights. So the result array is the matrix product of the two arrays as the region finds them: entry (i, j) is
  Σ_k X(i, k) · W(k, j).
-/
import proofs.«176458_j69930657513814_2_alg».proof.Proof.KIFrame
import proofs.«176458_j69930657513814_2_alg».proof.Proof.LibPlainMatmul
import proofs.«176458_j69930657513814_2_alg».proof.Proof.L2PProjSpec
import Idealize.ShloMosaic.Lib.Pipeline.Value

noncomputable section

namespace Cert.Bridge.L2P

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The body's product at an index: Σ_k x0(p, k) · x1(k, q). -/
theorem pay6 (x0 : Vec Ideal S4000x256 .f32) (x1 : Vec Ideal S256x128 .f32) (j : S4000x128.Idx) :
    k6_pay1 x0 x1 j = projArr 4000 x0 x1 j := by
  obtain ⟨p, q, rfl⟩ : ∃ (p : Fin 4000) (q : Fin 128), j = ix2 p q := ⟨j 0, j 1, eq_ix2 j⟩
  unfold k6_pay1
  simp only [shapeCast_self]
  exact matmul_plain_zero_apply 4000 256 128 none x0 x1 p q

/-- The printed index maps over the grid: the features' block moves with the result's along the rows, the weights'
    block stays, and the result's block index is the point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays. -/
theorem flushed6_eq (c : Dev nD) (t : Fin cfg6.N) :
    (dat6 V c).flushed 2 t = ((cfg6.win 2).blk t).view.read (Elt Ideal)
      (projArr 8000 (V c main_v162) (V c main_v173)) := by
  show (cfg6.win 2).cut (grid6.coords t) ((dat6 V c).after 2 t) = _
  rw [after6_2]
  unfold out6_2
  rw [View.canon_unit_zero hz2]
  simp only [View.ld_unit_zero (S := S4000x256) hz2, View.ld_unit_zero (S := S256x128) hz2]
  obtain ⟨e0, e1, e2, e3, e4, e5⟩ := idx_facts6 t
  funext j
  show k6_pay1 (iblk6 V c 0 t) (iblk6 V c 1 t) j = projArr 8000 (V c main_v162) (V c main_v173) (((cfg6.win 2).blk t).view.emb j)
  refine (pay6 (iblk6 V c 0 t) (iblk6 V c 1 t) j).trans ?_
  unfold projArr
  refine Finset.sum_congr rfl fun k _ => ?_
  have hj0 : (j 0).val < 4000 := (j 0).isLt
  have hj1 : (j 1).val < 128 := (j 1).isLt
  have h0 : iblk6 V c 0 t (ix2 (⟨(j 0).val, hj0⟩ : Fin 4000) k)
      = V c main_v162 (ix2 (⟨((((cfg6.win 2).blk t).view.emb j) 0).val, idx2_lt0 _⟩ : Fin 8000) k) := by
    show V c main_v162 (((cfg6.win 0).blk t).view.emb (ix2 (⟨(j 0).val, hj0⟩ : Fin 4000) k)) = _
    refine congrArg (V c main_v162) ?_
    funext a; apply Fin.ext
    match a with
    | ⟨0, _⟩ => show win6_0.index t (0 : Fin 2) * 4000 + 1 * (j 0).val = win6_2.index t (0 : Fin 2) * 4000 + 1 * (j 0).val; omega
    | ⟨1, _⟩ => show win6_0.index t (1 : Fin 2) * 256 + 1 * k.val = k.val; omega
  have h1 : iblk6 V c 1 t (ix2 k (⟨(j 1).val, hj1⟩ : Fin 128))
      = V c main_v173 (ix2 k (⟨((((cfg6.win 2).blk t).view.emb j) 1).val, idx2_lt1 _⟩ : Fin 128)) := by
    show V c main_v173 (((cfg6.win 1).blk t).view.emb (ix2 k (⟨(j 1).val, hj1⟩ : Fin 128))) = _
    refine congrArg (V c main_v173) ?_
    funext a; apply Fin.ext
    match a with
    | ⟨0, _⟩ => show win6_1.index t (0 : Fin 2) * 256 + 1 * k.val = k.val; omega
    | ⟨1, _⟩ => show win6_1.index t (1 : Fin 2) * 128 + 1 * (j 1).val = win6_2.index t (1 : Fin 2) * 128 + 1 * (j 1).val; omega
  exact congrArg₂ (· * ·) h0 h1

/-- An index of the result array is in point t's block iff each coordinate is in the block's range on its axis. -/
theorem mem_blk6 (t : Fin cfg6.N) (i : S8000x128.Idx) :
    i ∈ ((cfg6.win 2).blk t).view.set ↔ ∀ a : Fin 2, win6_2.index t a * S4000x128.size a ≤ (i a).val ∧ (i a).val < win6_2.index t a * S4000x128.size a + S4000x128.size a := by
  show i ∈ ((View.whole main_v174).slice (win6_2.rect t)).set ↔ _
  rw [View.set_slice_whole, Rect.mem_set_unit]
  exact Iff.rfl

/-- Row r of the result is covered by point r / 4000. -/
theorem cover6 (i : S8000x128.Idx) : ∃ t : Fin cfg6.N, (cfg6.win 2).flush t = true ∧ i ∈ ((cfg6.win 2).blk t).view.set := by
  have hi0 : (i 0).val < 8000 := (i 0).isLt
  have hi1 : (i 1).val < 128 := (i 1).isLt
  have hN : cfg6.N = 2 := N_6
  let t : Fin cfg6.N := ⟨(i 0).val / 4000, by rw [hN]; omega⟩
  obtain ⟨e0, e1, e2, e3, e4, e5⟩ := idx_facts6 t
  have e4' : win6_2.index t (0 : Fin 2) = (i 0).val / 4000 := e4
  refine ⟨t, flush6_2 t, ?_⟩
  rw [mem_blk6]
  intro a
  match a with
  | ⟨0, _⟩ => show win6_2.index t (0 : Fin 2) * 4000 ≤ (i 0).val ∧ (i 0).val < win6_2.index t (0 : Fin 2) * 4000 + 4000; omega
  | ⟨1, _⟩ => show win6_2.index t (1 : Fin 2) * 128 ≤ (i 1).val ∧ (i 1).val < win6_2.index t (1 : Fin 2) * 128 + 128; omega

/-- THE RESULT ARRAY of region 6: the matrix product of the hidden features and the weights as the region finds them. -/
theorem final6 (c : Dev nD) :
    (dat6 V c).arrAt 2 cfg6.N = projArr 8000 (V c main_v162) (V c main_v173) :=
  (dat6 V c).arrAt_eq_of_cover 2 (projArr 8000 (V c main_v162) (V c main_v173)) (fun t _ => flushed6_eq V c t) (cover6)

end Cert.Bridge.L2P

end
-- ==== Proof.L2PProj7.lean ====
/-
  Region 7: the projection of 20000 hidden rows of width 256 by a 256 × 128 weight matrix, in 5 blocks of 4000 rows.

  The body multiplies its 4000 × 256 block of the hidden features by the whole weight matrix into a zero accumulator
  and stores the 4000 × 128 product; block t of the result reads block t of the features and the one block of the
  weights. So the result array is the matrix product of the two arrays as the region finds them: entry (i, j) is
  Σ_k X(i, k) · W(k, j).
-/
import proofs.«176458_j69930657513814_2_alg».proof.Proof.KIFrame
import proofs.«176458_j69930657513814_2_alg».proof.Proof.LibPlainMatmul
import proofs.«176458_j69930657513814_2_alg».proof.Proof.L2PProjSpec
import Idealize.ShloMosaic.Lib.Pipeline.Value

noncomputable section

namespace Cert.Bridge.L2P

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The body's product at an index: Σ_k x0(p, k) · x1(k, q). -/
theorem pay7 (x0 : Vec Ideal S4000x256 .f32) (x1 : Vec Ideal S256x128 .f32) (j : S4000x128.Idx) :
    k7_pay1 x0 x1 j = projArr 4000 x0 x1 j := by
  obtain ⟨p, q, rfl⟩ : ∃ (p : Fin 4000) (q : Fin 128), j = ix2 p q := ⟨j 0, j 1, eq_ix2 j⟩
  unfold k7_pay1
  simp only [shapeCast_self]
  exact matmul_plain_zero_apply 4000 256 128 none x0 x1 p q

/-- The printed index maps over the grid: the features' block moves with the result's along the rows, the weights'
    block stays, and the result's block index is the point. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the product of the two arrays. -/
theorem flushed7_eq (c : Dev nD) (t : Fin cfg7.N) :
    (dat7 V c).flushed 2 t = ((cfg7.win 2).blk t).view.read (Elt Ideal)
      (projArr 20000 (V c main_v118) (V c main_v176)) := by
  show (cfg7.win 2).cut (grid7.coords t) ((dat7 V c).after 2 t) = _
  rw [after7_2]
  unfold out7_2
  rw [View.canon_unit_zero hz2]
  simp only [View.ld_unit_zero (S := S4000x256) hz2, View.ld_unit_zero (S := S256x128) hz2]
  obtain ⟨e0, e1, e2, e3, e4, e5⟩ := idx_facts7 t
  funext j
  show k7_pay1 (iblk7 V c 0 t) (iblk7 V c 1 t) j = projArr 20000 (V c main_v118) (V c main_v176) (((cfg7.win 2).blk t).view.emb j)
  refine (pay7 (iblk7 V c 0 t) (iblk7 V c 1 t) j).trans ?_
  unfold projArr
  refine Finset.sum_congr rfl fun k _ => ?_
  have hj0 : (j 0).val < 4000 := (j 0).isLt
  have hj1 : (j 1).val < 128 := (j 1).isLt
  have h0 : iblk7 V c 0 t (ix2 (⟨(j 0).val, hj0⟩ : Fin 4000) k)
      = V c main_v118 (ix2 (⟨((((cfg7.win 2).blk t).view.emb j) 0).val, idx2_lt0 _⟩ : Fin 20000) k) := by
    show V c main_v118 (((cfg7.win 0).blk t).view.emb (ix2 (⟨(j 0).val, hj0⟩ : Fin 4000) k)) = _
    refine congrArg (V c main_v118) ?_
    funext a; apply Fin.ext
    match a with
    | ⟨0, _⟩ => show win7_0.index t (0 : Fin 2) * 4000 + 1 * (j 0).val = win7_2.index t (0 : Fin 2) * 4000 + 1 * (j 0).val; omega
    | ⟨1, _⟩ => show win7_0.index t (1 : Fin 2) * 256 + 1 * k.val = k.val; omega
  have h1 : iblk7 V c 1 t (ix2 k (⟨(j 1).val, hj1⟩ : Fin 128))
      = V c main_v176 (ix2 k (⟨((((cfg7.win 2).blk t).view.emb j) 1).val, idx2_lt1 _⟩ : Fin 128)) := by
    show V c main_v176 (((cfg7.win 1).blk t).view.emb (ix2 k (⟨(j 1).val, hj1⟩ : Fin 128))) = _
    refine congrArg (V c main_v176) ?_
    funext a; apply Fin.ext
    match a with
    | ⟨0, _⟩ => show win7_1.index t (0 : Fin 2) * 256 + 1 * k.val = k.val; omega
    | ⟨1, _⟩ => show win7_1.index t (1 : Fin 2) * 128 + 1 * (j 1).val = win7_2.index t (1 : Fin 2) * 128 + 1 * (j 1).val; omega
  exact congrArg₂ (· * ·) h0 h1

/-- An index of the result array is in point t's block iff each coordinate is in the block's range on its axis. -/
theorem mem_blk7 (t : Fin cfg7.N) (i : S20000x128.Idx) :
    i ∈ ((cfg7.win 2).blk t).view.set ↔ ∀ a : Fin 2, win7_2.index t a * S4000x128.size a ≤ (i a).val ∧ (i a).val < win7_2.index t a * S4000x128.size a + S4000x128.size a := by
  show i ∈ ((View.whole main_v177).slice (win7_2.rect t)).set ↔ _
  rw [View.set_slice_whole, Rect.mem_set_unit]
  exact Iff.rfl

/-- Row r of the result is covered by point r / 4000. -/
theorem cover7 (i : S20000x128.Idx) : ∃ t : Fin cfg7.N, (cfg7.win 2).flush t = true ∧ i ∈ ((cfg7.win 2).blk t).view.set := by
  have hi0 : (i 0).val < 20000 := (i 0).isLt
  have hi1 : (i 1).val < 128 := (i 1).isLt
  have hN : cfg7.N = 5 := N_7
  let t : Fin cfg7.N := ⟨(i 0).val / 4000, by rw [hN]; omega⟩
  obtain ⟨e0, e1, e2, e3, e4, e5⟩ := idx_facts7 t
  have e4' : win7_2.index t (0 : Fin 2) = (i 0).val / 4000 := e4
  refine ⟨t, flush7_2 t, ?_⟩
  rw [mem_blk7]
  intro a
  match a with
  | ⟨0, _⟩ => show win7_2.index t (0 : Fin 2) * 4000 ≤ (i 0).val ∧ (i 0).val < win7_2.index t (0 : Fin 2) * 4000 + 4000; omega
  | ⟨1, _⟩ => show win7_2.index t (1 : Fin 2) * 128 ≤ (i 1).val ∧ (i 1).val < win7_2.index t (1 : Fin 2) * 128 + 128; omega

/-- THE RESULT ARRAY of region 7: the matrix product of the hidden features and the weights as the region finds them. -/
theorem final7 (c : Dev nD) :
    (dat7 V c).arrAt 2 cfg7.N = projArr 20000 (V c main_v118) (V c main_v176) :=
  (dat7 V c).arrAt_eq_of_cover 2 (projArr 20000 (V c main_v118) (V c main_v176)) (fun t _ => flushed7_eq V c t) (cover7)

end Cert.Bridge.L2P

end
-- ==== Proof.L2PWalkMid.lean ====
/-
  The hidden drug and disease features and the projected rows between the regions that write them and the regions that read them; the protein result from the region that writes it to the end. None of the host stretches or regions in between writes these buffers.
-/
import proofs.«176458_j69930657513814_2_alg».proof.Proof.KIFrame
import proofs.«176458_j69930657513814_2_alg».proof.Proof.L2PTac
import Idealize.ShloMosaic.PureOps.Ideal

noncomputable section

namespace Cert.Bridge.L2P

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem keep_main_v140_5_4 (c : Dev nD) : W5 m ρ c (Proc.devRef .tc main_v140) = W4 m ρ c (Proc.devRef .tc main_v140) :=
  (by host_keeps : W5 m ρ c (Proc.devRef .tc main_v140) = W4 m ρ c (Proc.devRef .tc main_v140))
theorem keep_main_v140_6_4 (c : Dev nD) : W6 m ρ c (Proc.devRef .tc main_v140) = W4 m ρ c (Proc.devRef .tc main_v140) :=
  (W6_of_ne m ρ c main_v140 (by decide)).trans (keep_main_v140_5_4 m ρ c)
theorem keep_main_v140_7_4 (c : Dev nD) : W7 m ρ c (Proc.devRef .tc main_v140) = W4 m ρ c (Proc.devRef .tc main_v140) :=
  (by host_keeps : W7 m ρ c (Proc.devRef .tc main_v140) = W6 m ρ c (Proc.devRef .tc main_v140)).trans (keep_main_v140_6_4 m ρ c)
theorem keep_main_v162_7_6 (c : Dev nD) : W7 m ρ c (Proc.devRef .tc main_v162) = W6 m ρ c (Proc.devRef .tc main_v162) :=
  (by host_keeps : W7 m ρ c (Proc.devRef .tc main_v162) = W6 m ρ c (Proc.devRef .tc main_v162))
theorem keep_main_v162_8_6 (c : Dev nD) : W8 m ρ c (Proc.devRef .tc main_v162) = W6 m ρ c (Proc.devRef .tc main_v162) :=
  (W8_of_ne m ρ c main_v162 (by decide)).trans (keep_main_v162_7_6 m ρ c)
theorem keep_main_v162_9_6 (c : Dev nD) : W9 m ρ c (Proc.devRef .tc main_v162) = W6 m ρ c (Proc.devRef .tc main_v162) :=
  (by host_keeps : W9 m ρ c (Proc.devRef .tc main_v162) = W8 m ρ c (Proc.devRef .tc main_v162)).trans (keep_main_v162_8_6 m ρ c)
theorem keep_main_v162_10_6 (c : Dev nD) : W10 m ρ c (Proc.devRef .tc main_v162) = W6 m ρ c (Proc.devRef .tc main_v162) :=
  (W10_of_ne m ρ c main_v162 (by decide)).trans (keep_main_v162_9_6 m ρ c)
theorem keep_main_v162_11_6 (c : Dev nD) : W11 m ρ c (Proc.devRef .tc main_v162) = W6 m ρ c (Proc.devRef .tc main_v162) :=
  (by host_keeps : W11 m ρ c (Proc.devRef .tc main_v162) = W10 m ρ c (Proc.devRef .tc main_v162)).trans (keep_main_v162_10_6 m ρ c)
theorem keep_main_v162_12_6 (c : Dev nD) : W12 m ρ c (Proc.devRef .tc main_v162) = W6 m ρ c (Proc.devRef .tc main_v162) :=
  (W12_of_ne m ρ c main_v162 (by decide)).trans (keep_main_v162_11_6 m ρ c)
theorem keep_main_v162_13_6 (c : Dev nD) : W13 m ρ c (Proc.devRef .tc main_v162) = W6 m ρ c (Proc.devRef .tc main_v162) :=
  (by host_keeps : W13 m ρ c (Proc.devRef .tc main_v162) = W12 m ρ c (Proc.devRef .tc main_v162)).trans (keep_main_v162_12_6 m ρ c)
theorem keep_main_v165_9_8 (c : Dev nD) : W9 m ρ c (Proc.devRef .tc main_v165) = W8 m ρ c (Proc.devRef .tc main_v165) :=
  (by host_keeps : W9 m ρ c (Proc.devRef .tc main_v165) = W8 m ρ c (Proc.devRef .tc main_v165))
theorem keep_main_v165_10_8 (c : Dev nD) : W10 m ρ c (Proc.devRef .tc main_v165) = W8 m ρ c (Proc.devRef .tc main_v165) :=
  (W10_of_ne m ρ c main_v165 (by decide)).trans (keep_main_v165_9_8 m ρ c)
theorem keep_main_v165_11_8 (c : Dev nD) : W11 m ρ c (Proc.devRef .tc main_v165) = W8 m ρ c (Proc.devRef .tc main_v165) :=
  (by host_keeps : W11 m ρ c (Proc.devRef .tc main_v165) = W10 m ρ c (Proc.devRef .tc main_v165)).trans (keep_main_v165_10_8 m ρ c)
theorem keep_main_v165_12_8 (c : Dev nD) : W12 m ρ c (Proc.devRef .tc main_v165) = W8 m ρ c (Proc.devRef .tc main_v165) :=
  (W12_of_ne m ρ c main_v165 (by decide)).trans (keep_main_v165_11_8 m ρ c)
theorem keep_main_v165_13_8 (c : Dev nD) : W13 m ρ c (Proc.devRef .tc main_v165) = W8 m ρ c (Proc.devRef .tc main_v165) :=
  (by host_keeps : W13 m ρ c (Proc.devRef .tc main_v165) = W12 m ρ c (Proc.devRef .tc main_v165)).trans (keep_main_v165_12_8 m ρ c)
theorem keep_main_v165_14_8 (c : Dev nD) : W14 m ρ c (Proc.devRef .tc main_v165) = W8 m ρ c (Proc.devRef .tc main_v165) :=
  (W14_of_ne m ρ c main_v165 (by decide)).trans (keep_main_v165_13_8 m ρ c)
theorem keep_main_v165_15_8 (c : Dev nD) : W15 m ρ c (Proc.devRef .tc main_v165) = W8 m ρ c (Proc.devRef .tc main_v165) :=
  (by host_keeps : W15 m ρ c (Proc.devRef .tc main_v165) = W14 m ρ c (Proc.devRef .tc main_v165)).trans (keep_main_v165_14_8 m ρ c)
theorem keep_main_v165_16_8 (c : Dev nD) : W16 m ρ c (Proc.devRef .tc main_v165) = W8 m ρ c (Proc.devRef .tc main_v165) :=
  (W16_of_ne m ρ c main_v165 (by decide)).trans (keep_main_v165_15_8 m ρ c)
theorem keep_main_v174_15_14 (c : Dev nD) : W15 m ρ c (Proc.devRef .tc main_v174) = W14 m ρ c (Proc.devRef .tc main_v174) :=
  (by host_keeps : W15 m ρ c (Proc.devRef .tc main_v174) = W14 m ρ c (Proc.devRef .tc main_v174))
theorem keep_main_v174_16_14 (c : Dev nD) : W16 m ρ c (Proc.devRef .tc main_v174) = W14 m ρ c (Proc.devRef .tc main_v174) :=
  (W16_of_ne m ρ c main_v174 (by decide)).trans (keep_main_v174_15_14 m ρ c)
theorem keep_main_v235_19_18 (c : Dev nD) : W19 m ρ c (Proc.devRef .tc main_v235) = W18 m ρ c (Proc.devRef .tc main_v235) :=
  (by host_keeps : W19 m ρ c (Proc.devRef .tc main_v235) = W18 m ρ c (Proc.devRef .tc main_v235))
theorem keep_main_v235_20_18 (c : Dev nD) : W20 m ρ c (Proc.devRef .tc main_v235) = W18 m ρ c (Proc.devRef .tc main_v235) :=
  (W20_of_ne m ρ c main_v235 (by decide)).trans (keep_main_v235_19_18 m ρ c)
theorem keep_main_v235_21_18 (c : Dev nD) : W21 m ρ c (Proc.devRef .tc main_v235) = W18 m ρ c (Proc.devRef .tc main_v235) :=
  (by host_keeps : W21 m ρ c (Proc.devRef .tc main_v235) = W20 m ρ c (Proc.devRef .tc main_v235)).trans (keep_main_v235_20_18 m ρ c)
theorem keep_main_v235_22_18 (c : Dev nD) : W22 m ρ c (Proc.devRef .tc main_v235) = W18 m ρ c (Proc.devRef .tc main_v235) :=
  (W22_of_ne m ρ c main_v235 (by decide)).trans (keep_main_v235_21_18 m ρ c)

end Cert.Bridge.L2P

end
-- ==== Proof.L2PWalkEdges.lean ====
/-
  The three edge lists into the proteins are launch arguments: no host operation and no region writes them, so at every boundary up to the entry of the last host stretch before region 8 they hold what they held at launch.
-/
import proofs.«176458_j69930657513814_2_alg».proof.Proof.KIFrame
import proofs.«176458_j69930657513814_2_alg».proof.Proof.L2PTac
import Idealize.ShloMosaic.PureOps.Ideal

noncomputable section

namespace Cert.Bridge.L2P

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem launch_main_arg3 (c : Dev nD) : W0 m ρ c (Proc.devRef .tc main_arg3) = m ((c : Thread nD τ).loc main_arg3) := rfl
theorem keep_main_arg3_1_0 (c : Dev nD) : W1 m ρ c (Proc.devRef .tc main_arg3) = W0 m ρ c (Proc.devRef .tc main_arg3) :=
  (by host_keeps : W1 m ρ c (Proc.devRef .tc main_arg3) = W0 m ρ c (Proc.devRef .tc main_arg3))
theorem keep_main_arg3_2_0 (c : Dev nD) : W2 m ρ c (Proc.devRef .tc main_arg3) = W0 m ρ c (Proc.devRef .tc main_arg3) :=
  (W2_of_ne m ρ c main_arg3 (by decide)).trans (keep_main_arg3_1_0 m ρ c)
theorem keep_main_arg3_3_0 (c : Dev nD) : W3 m ρ c (Proc.devRef .tc main_arg3) = W0 m ρ c (Proc.devRef .tc main_arg3) :=
  (by host_keeps : W3 m ρ c (Proc.devRef .tc main_arg3) = W2 m ρ c (Proc.devRef .tc main_arg3)).trans (keep_main_arg3_2_0 m ρ c)
theorem keep_main_arg3_4_0 (c : Dev nD) : W4 m ρ c (Proc.devRef .tc main_arg3) = W0 m ρ c (Proc.devRef .tc main_arg3) :=
  (W4_of_ne m ρ c main_arg3 (by decide)).trans (keep_main_arg3_3_0 m ρ c)
theorem keep_main_arg3_5_0 (c : Dev nD) : W5 m ρ c (Proc.devRef .tc main_arg3) = W0 m ρ c (Proc.devRef .tc main_arg3) :=
  (by host_keeps : W5 m ρ c (Proc.devRef .tc main_arg3) = W4 m ρ c (Proc.devRef .tc main_arg3)).trans (keep_main_arg3_4_0 m ρ c)
theorem keep_main_arg3_6_0 (c : Dev nD) : W6 m ρ c (Proc.devRef .tc main_arg3) = W0 m ρ c (Proc.devRef .tc main_arg3) :=
  (W6_of_ne m ρ c main_arg3 (by decide)).trans (keep_main_arg3_5_0 m ρ c)
theorem keep_main_arg3_7_0 (c : Dev nD) : W7 m ρ c (Proc.devRef .tc main_arg3) = W0 m ρ c (Proc.devRef .tc main_arg3) :=
  (by host_keeps : W7 m ρ c (Proc.devRef .tc main_arg3) = W6 m ρ c (Proc.devRef .tc main_arg3)).trans (keep_main_arg3_6_0 m ρ c)
theorem keep_main_arg3_8_0 (c : Dev nD) : W8 m ρ c (Proc.devRef .tc main_arg3) = W0 m ρ c (Proc.devRef .tc main_arg3) :=
  (W8_of_ne m ρ c main_arg3 (by decide)).trans (keep_main_arg3_7_0 m ρ c)
theorem keep_main_arg3_9_0 (c : Dev nD) : W9 m ρ c (Proc.devRef .tc main_arg3) = W0 m ρ c (Proc.devRef .tc main_arg3) :=
  (by host_keeps : W9 m ρ c (Proc.devRef .tc main_arg3) = W8 m ρ c (Proc.devRef .tc main_arg3)).trans (keep_main_arg3_8_0 m ρ c)
theorem keep_main_arg3_10_0 (c : Dev nD) : W10 m ρ c (Proc.devRef .tc main_arg3) = W0 m ρ c (Proc.devRef .tc main_arg3) :=
  (W10_of_ne m ρ c main_arg3 (by decide)).trans (keep_main_arg3_9_0 m ρ c)
theorem keep_main_arg3_11_0 (c : Dev nD) : W11 m ρ c (Proc.devRef .tc main_arg3) = W0 m ρ c (Proc.devRef .tc main_arg3) :=
  (by host_keeps : W11 m ρ c (Proc.devRef .tc main_arg3) = W10 m ρ c (Proc.devRef .tc main_arg3)).trans (keep_main_arg3_10_0 m ρ c)
theorem keep_main_arg3_12_0 (c : Dev nD) : W12 m ρ c (Proc.devRef .tc main_arg3) = W0 m ρ c (Proc.devRef .tc main_arg3) :=
  (W12_of_ne m ρ c main_arg3 (by decide)).trans (keep_main_arg3_11_0 m ρ c)
theorem keep_main_arg3_13_0 (c : Dev nD) : W13 m ρ c (Proc.devRef .tc main_arg3) = W0 m ρ c (Proc.devRef .tc main_arg3) :=
  (by host_keeps : W13 m ρ c (Proc.devRef .tc main_arg3) = W12 m ρ c (Proc.devRef .tc main_arg3)).trans (keep_main_arg3_12_0 m ρ c)
theorem keep_main_arg3_14_0 (c : Dev nD) : W14 m ρ c (Proc.devRef .tc main_arg3) = W0 m ρ c (Proc.devRef .tc main_arg3) :=
  (W14_of_ne m ρ c main_arg3 (by decide)).trans (keep_main_arg3_13_0 m ρ c)
theorem keep_main_arg3_15_0 (c : Dev nD) : W15 m ρ c (Proc.devRef .tc main_arg3) = W0 m ρ c (Proc.devRef .tc main_arg3) :=
  (by host_keeps : W15 m ρ c (Proc.devRef .tc main_arg3) = W14 m ρ c (Proc.devRef .tc main_arg3)).trans (keep_main_arg3_14_0 m ρ c)
theorem keep_main_arg3_16_0 (c : Dev nD) : W16 m ρ c (Proc.devRef .tc main_arg3) = W0 m ρ c (Proc.devRef .tc main_arg3) :=
  (W16_of_ne m ρ c main_arg3 (by decide)).trans (keep_main_arg3_15_0 m ρ c)
theorem launch_main_arg6 (c : Dev nD) : W0 m ρ c (Proc.devRef .tc main_arg6) = m ((c : Thread nD τ).loc main_arg6) := rfl
theorem keep_main_arg6_1_0 (c : Dev nD) : W1 m ρ c (Proc.devRef .tc main_arg6) = W0 m ρ c (Proc.devRef .tc main_arg6) :=
  (by host_keeps : W1 m ρ c (Proc.devRef .tc main_arg6) = W0 m ρ c (Proc.devRef .tc main_arg6))
theorem keep_main_arg6_2_0 (c : Dev nD) : W2 m ρ c (Proc.devRef .tc main_arg6) = W0 m ρ c (Proc.devRef .tc main_arg6) :=
  (W2_of_ne m ρ c main_arg6 (by decide)).trans (keep_main_arg6_1_0 m ρ c)
theorem keep_main_arg6_3_0 (c : Dev nD) : W3 m ρ c (Proc.devRef .tc main_arg6) = W0 m ρ c (Proc.devRef .tc main_arg6) :=
  (by host_keeps : W3 m ρ c (Proc.devRef .tc main_arg6) = W2 m ρ c (Proc.devRef .tc main_arg6)).trans (keep_main_arg6_2_0 m ρ c)
theorem keep_main_arg6_4_0 (c : Dev nD) : W4 m ρ c (Proc.devRef .tc main_arg6) = W0 m ρ c (Proc.devRef .tc main_arg6) :=
  (W4_of_ne m ρ c main_arg6 (by decide)).trans (keep_main_arg6_3_0 m ρ c)
theorem keep_main_arg6_5_0 (c : Dev nD) : W5 m ρ c (Proc.devRef .tc main_arg6) = W0 m ρ c (Proc.devRef .tc main_arg6) :=
  (by host_keeps : W5 m ρ c (Proc.devRef .tc main_arg6) = W4 m ρ c (Proc.devRef .tc main_arg6)).trans (keep_main_arg6_4_0 m ρ c)
theorem keep_main_arg6_6_0 (c : Dev nD) : W6 m ρ c (Proc.devRef .tc main_arg6) = W0 m ρ c (Proc.devRef .tc main_arg6) :=
  (W6_of_ne m ρ c main_arg6 (by decide)).trans (keep_main_arg6_5_0 m ρ c)
theorem keep_main_arg6_7_0 (c : Dev nD) : W7 m ρ c (Proc.devRef .tc main_arg6) = W0 m ρ c (Proc.devRef .tc main_arg6) :=
  (by host_keeps : W7 m ρ c (Proc.devRef .tc main_arg6) = W6 m ρ c (Proc.devRef .tc main_arg6)).trans (keep_main_arg6_6_0 m ρ c)
theorem keep_main_arg6_8_0 (c : Dev nD) : W8 m ρ c (Proc.devRef .tc main_arg6) = W0 m ρ c (Proc.devRef .tc main_arg6) :=
  (W8_of_ne m ρ c main_arg6 (by decide)).trans (keep_main_arg6_7_0 m ρ c)
theorem keep_main_arg6_9_0 (c : Dev nD) : W9 m ρ c (Proc.devRef .tc main_arg6) = W0 m ρ c (Proc.devRef .tc main_arg6) :=
  (by host_keeps : W9 m ρ c (Proc.devRef .tc main_arg6) = W8 m ρ c (Proc.devRef .tc main_arg6)).trans (keep_main_arg6_8_0 m ρ c)
theorem keep_main_arg6_10_0 (c : Dev nD) : W10 m ρ c (Proc.devRef .tc main_arg6) = W0 m ρ c (Proc.devRef .tc main_arg6) :=
  (W10_of_ne m ρ c main_arg6 (by decide)).trans (keep_main_arg6_9_0 m ρ c)
theorem keep_main_arg6_11_0 (c : Dev nD) : W11 m ρ c (Proc.devRef .tc main_arg6) = W0 m ρ c (Proc.devRef .tc main_arg6) :=
  (by host_keeps : W11 m ρ c (Proc.devRef .tc main_arg6) = W10 m ρ c (Proc.devRef .tc main_arg6)).trans (keep_main_arg6_10_0 m ρ c)
theorem keep_main_arg6_12_0 (c : Dev nD) : W12 m ρ c (Proc.devRef .tc main_arg6) = W0 m ρ c (Proc.devRef .tc main_arg6) :=
  (W12_of_ne m ρ c main_arg6 (by decide)).trans (keep_main_arg6_11_0 m ρ c)
theorem keep_main_arg6_13_0 (c : Dev nD) : W13 m ρ c (Proc.devRef .tc main_arg6) = W0 m ρ c (Proc.devRef .tc main_arg6) :=
  (by host_keeps : W13 m ρ c (Proc.devRef .tc main_arg6) = W12 m ρ c (Proc.devRef .tc main_arg6)).trans (keep_main_arg6_12_0 m ρ c)
theorem keep_main_arg6_14_0 (c : Dev nD) : W14 m ρ c (Proc.devRef .tc main_arg6) = W0 m ρ c (Proc.devRef .tc main_arg6) :=
  (W14_of_ne m ρ c main_arg6 (by decide)).trans (keep_main_arg6_13_0 m ρ c)
theorem keep_main_arg6_15_0 (c : Dev nD) : W15 m ρ c (Proc.devRef .tc main_arg6) = W0 m ρ c (Proc.devRef .tc main_arg6) :=
  (by host_keeps : W15 m ρ c (Proc.devRef .tc main_arg6) = W14 m ρ c (Proc.devRef .tc main_arg6)).trans (keep_main_arg6_14_0 m ρ c)
theorem keep_main_arg6_16_0 (c : Dev nD) : W16 m ρ c (Proc.devRef .tc main_arg6) = W0 m ρ c (Proc.devRef .tc main_arg6) :=
  (W16_of_ne m ρ c main_arg6 (by decide)).trans (keep_main_arg6_15_0 m ρ c)
theorem launch_main_arg7 (c : Dev nD) : W0 m ρ c (Proc.devRef .tc main_arg7) = m ((c : Thread nD τ).loc main_arg7) := rfl
theorem keep_main_arg7_1_0 (c : Dev nD) : W1 m ρ c (Proc.devRef .tc main_arg7) = W0 m ρ c (Proc.devRef .tc main_arg7) :=
  (by host_keeps : W1 m ρ c (Proc.devRef .tc main_arg7) = W0 m ρ c (Proc.devRef .tc main_arg7))
theorem keep_main_arg7_2_0 (c : Dev nD) : W2 m ρ c (Proc.devRef .tc main_arg7) = W0 m ρ c (Proc.devRef .tc main_arg7) :=
  (W2_of_ne m ρ c main_arg7 (by decide)).trans (keep_main_arg7_1_0 m ρ c)
theorem keep_main_arg7_3_0 (c : Dev nD) : W3 m ρ c (Proc.devRef .tc main_arg7) = W0 m ρ c (Proc.devRef .tc main_arg7) :=
  (by host_keeps : W3 m ρ c (Proc.devRef .tc main_arg7) = W2 m ρ c (Proc.devRef .tc main_arg7)).trans (keep_main_arg7_2_0 m ρ c)
theorem keep_main_arg7_4_0 (c : Dev nD) : W4 m ρ c (Proc.devRef .tc main_arg7) = W0 m ρ c (Proc.devRef .tc main_arg7) :=
  (W4_of_ne m ρ c main_arg7 (by decide)).trans (keep_main_arg7_3_0 m ρ c)
theorem keep_main_arg7_5_0 (c : Dev nD) : W5 m ρ c (Proc.devRef .tc main_arg7) = W0 m ρ c (Proc.devRef .tc main_arg7) :=
  (by host_keeps : W5 m ρ c (Proc.devRef .tc main_arg7) = W4 m ρ c (Proc.devRef .tc main_arg7)).trans (keep_main_arg7_4_0 m ρ c)
theorem keep_main_arg7_6_0 (c : Dev nD) : W6 m ρ c (Proc.devRef .tc main_arg7) = W0 m ρ c (Proc.devRef .tc main_arg7) :=
  (W6_of_ne m ρ c main_arg7 (by decide)).trans (keep_main_arg7_5_0 m ρ c)
theorem keep_main_arg7_7_0 (c : Dev nD) : W7 m ρ c (Proc.devRef .tc main_arg7) = W0 m ρ c (Proc.devRef .tc main_arg7) :=
  (by host_keeps : W7 m ρ c (Proc.devRef .tc main_arg7) = W6 m ρ c (Proc.devRef .tc main_arg7)).trans (keep_main_arg7_6_0 m ρ c)
theorem keep_main_arg7_8_0 (c : Dev nD) : W8 m ρ c (Proc.devRef .tc main_arg7) = W0 m ρ c (Proc.devRef .tc main_arg7) :=
  (W8_of_ne m ρ c main_arg7 (by decide)).trans (keep_main_arg7_7_0 m ρ c)
theorem keep_main_arg7_9_0 (c : Dev nD) : W9 m ρ c (Proc.devRef .tc main_arg7) = W0 m ρ c (Proc.devRef .tc main_arg7) :=
  (by host_keeps : W9 m ρ c (Proc.devRef .tc main_arg7) = W8 m ρ c (Proc.devRef .tc main_arg7)).trans (keep_main_arg7_8_0 m ρ c)
theorem keep_main_arg7_10_0 (c : Dev nD) : W10 m ρ c (Proc.devRef .tc main_arg7) = W0 m ρ c (Proc.devRef .tc main_arg7) :=
  (W10_of_ne m ρ c main_arg7 (by decide)).trans (keep_main_arg7_9_0 m ρ c)
theorem keep_main_arg7_11_0 (c : Dev nD) : W11 m ρ c (Proc.devRef .tc main_arg7) = W0 m ρ c (Proc.devRef .tc main_arg7) :=
  (by host_keeps : W11 m ρ c (Proc.devRef .tc main_arg7) = W10 m ρ c (Proc.devRef .tc main_arg7)).trans (keep_main_arg7_10_0 m ρ c)
theorem keep_main_arg7_12_0 (c : Dev nD) : W12 m ρ c (Proc.devRef .tc main_arg7) = W0 m ρ c (Proc.devRef .tc main_arg7) :=
  (W12_of_ne m ρ c main_arg7 (by decide)).trans (keep_main_arg7_11_0 m ρ c)
theorem keep_main_arg7_13_0 (c : Dev nD) : W13 m ρ c (Proc.devRef .tc main_arg7) = W0 m ρ c (Proc.devRef .tc main_arg7) :=
  (by host_keeps : W13 m ρ c (Proc.devRef .tc main_arg7) = W12 m ρ c (Proc.devRef .tc main_arg7)).trans (keep_main_arg7_12_0 m ρ c)
theorem keep_main_arg7_14_0 (c : Dev nD) : W14 m ρ c (Proc.devRef .tc main_arg7) = W0 m ρ c (Proc.devRef .tc main_arg7) :=
  (W14_of_ne m ρ c main_arg7 (by decide)).trans (keep_main_arg7_13_0 m ρ c)
theorem keep_main_arg7_15_0 (c : Dev nD) : W15 m ρ c (Proc.devRef .tc main_arg7) = W0 m ρ c (Proc.devRef .tc main_arg7) :=
  (by host_keeps : W15 m ρ c (Proc.devRef .tc main_arg7) = W14 m ρ c (Proc.devRef .tc main_arg7)).trans (keep_main_arg7_14_0 m ρ c)
theorem keep_main_arg7_16_0 (c : Dev nD) : W16 m ρ c (Proc.devRef .tc main_arg7) = W0 m ρ c (Proc.devRef .tc main_arg7) :=
  (W16_of_ne m ρ c main_arg7 (by decide)).trans (keep_main_arg7_15_0 m ρ c)

end Cert.Bridge.L2P

end
-- ==== Proof.L2PWalkWeights.lean ====
/-
  The second layer's weight and bias stacks are launch arguments: no host operation and no region writes them, so at every boundary up to the entry of the last host stretch before region 8 they hold what they held at launch.
-/
import proofs.«176458_j69930657513814_2_alg».proof.Proof.KIFrame
import proofs.«176458_j69930657513814_2_alg».proof.Proof.L2PTac
import Idealize.ShloMosaic.PureOps.Ideal

noncomputable section

namespace Cert.Bridge.L2P

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem launch_main_arg11 (c : Dev nD) : W0 m ρ c (Proc.devRef .tc main_arg11) = m ((c : Thread nD τ).loc main_arg11) := rfl
theorem keep_main_arg11_1_0 (c : Dev nD) : W1 m ρ c (Proc.devRef .tc main_arg11) = W0 m ρ c (Proc.devRef .tc main_arg11) :=
  (by host_keeps : W1 m ρ c (Proc.devRef .tc main_arg11) = W0 m ρ c (Proc.devRef .tc main_arg11))
theorem keep_main_arg11_2_0 (c : Dev nD) : W2 m ρ c (Proc.devRef .tc main_arg11) = W0 m ρ c (Proc.devRef .tc main_arg11) :=
  (W2_of_ne m ρ c main_arg11 (by decide)).trans (keep_main_arg11_1_0 m ρ c)
theorem keep_main_arg11_3_0 (c : Dev nD) : W3 m ρ c (Proc.devRef .tc main_arg11) = W0 m ρ c (Proc.devRef .tc main_arg11) :=
  (by host_keeps : W3 m ρ c (Proc.devRef .tc main_arg11) = W2 m ρ c (Proc.devRef .tc main_arg11)).trans (keep_main_arg11_2_0 m ρ c)
theorem keep_main_arg11_4_0 (c : Dev nD) : W4 m ρ c (Proc.devRef .tc main_arg11) = W0 m ρ c (Proc.devRef .tc main_arg11) :=
  (W4_of_ne m ρ c main_arg11 (by decide)).trans (keep_main_arg11_3_0 m ρ c)
theorem keep_main_arg11_5_0 (c : Dev nD) : W5 m ρ c (Proc.devRef .tc main_arg11) = W0 m ρ c (Proc.devRef .tc main_arg11) :=
  (by host_keeps : W5 m ρ c (Proc.devRef .tc main_arg11) = W4 m ρ c (Proc.devRef .tc main_arg11)).trans (keep_main_arg11_4_0 m ρ c)
theorem keep_main_arg11_6_0 (c : Dev nD) : W6 m ρ c (Proc.devRef .tc main_arg11) = W0 m ρ c (Proc.devRef .tc main_arg11) :=
  (W6_of_ne m ρ c main_arg11 (by decide)).trans (keep_main_arg11_5_0 m ρ c)
theorem keep_main_arg11_7_0 (c : Dev nD) : W7 m ρ c (Proc.devRef .tc main_arg11) = W0 m ρ c (Proc.devRef .tc main_arg11) :=
  (by host_keeps : W7 m ρ c (Proc.devRef .tc main_arg11) = W6 m ρ c (Proc.devRef .tc main_arg11)).trans (keep_main_arg11_6_0 m ρ c)
theorem keep_main_arg11_8_0 (c : Dev nD) : W8 m ρ c (Proc.devRef .tc main_arg11) = W0 m ρ c (Proc.devRef .tc main_arg11) :=
  (W8_of_ne m ρ c main_arg11 (by decide)).trans (keep_main_arg11_7_0 m ρ c)
theorem keep_main_arg11_9_0 (c : Dev nD) : W9 m ρ c (Proc.devRef .tc main_arg11) = W0 m ρ c (Proc.devRef .tc main_arg11) :=
  (by host_keeps : W9 m ρ c (Proc.devRef .tc main_arg11) = W8 m ρ c (Proc.devRef .tc main_arg11)).trans (keep_main_arg11_8_0 m ρ c)
theorem keep_main_arg11_10_0 (c : Dev nD) : W10 m ρ c (Proc.devRef .tc main_arg11) = W0 m ρ c (Proc.devRef .tc main_arg11) :=
  (W10_of_ne m ρ c main_arg11 (by decide)).trans (keep_main_arg11_9_0 m ρ c)
theorem keep_main_arg11_11_0 (c : Dev nD) : W11 m ρ c (Proc.devRef .tc main_arg11) = W0 m ρ c (Proc.devRef .tc main_arg11) :=
  (by host_keeps : W11 m ρ c (Proc.devRef .tc main_arg11) = W10 m ρ c (Proc.devRef .tc main_arg11)).trans (keep_main_arg11_10_0 m ρ c)
theorem keep_main_arg11_12_0 (c : Dev nD) : W12 m ρ c (Proc.devRef .tc main_arg11) = W0 m ρ c (Proc.devRef .tc main_arg11) :=
  (W12_of_ne m ρ c main_arg11 (by decide)).trans (keep_main_arg11_11_0 m ρ c)
theorem keep_main_arg11_13_0 (c : Dev nD) : W13 m ρ c (Proc.devRef .tc main_arg11) = W0 m ρ c (Proc.devRef .tc main_arg11) :=
  (by host_keeps : W13 m ρ c (Proc.devRef .tc main_arg11) = W12 m ρ c (Proc.devRef .tc main_arg11)).trans (keep_main_arg11_12_0 m ρ c)
theorem keep_main_arg11_14_0 (c : Dev nD) : W14 m ρ c (Proc.devRef .tc main_arg11) = W0 m ρ c (Proc.devRef .tc main_arg11) :=
  (W14_of_ne m ρ c main_arg11 (by decide)).trans (keep_main_arg11_13_0 m ρ c)
theorem launch_main_arg12 (c : Dev nD) : W0 m ρ c (Proc.devRef .tc main_arg12) = m ((c : Thread nD τ).loc main_arg12) := rfl
theorem keep_main_arg12_1_0 (c : Dev nD) : W1 m ρ c (Proc.devRef .tc main_arg12) = W0 m ρ c (Proc.devRef .tc main_arg12) :=
  (by host_keeps : W1 m ρ c (Proc.devRef .tc main_arg12) = W0 m ρ c (Proc.devRef .tc main_arg12))
theorem keep_main_arg12_2_0 (c : Dev nD) : W2 m ρ c (Proc.devRef .tc main_arg12) = W0 m ρ c (Proc.devRef .tc main_arg12) :=
  (W2_of_ne m ρ c main_arg12 (by decide)).trans (keep_main_arg12_1_0 m ρ c)
theorem keep_main_arg12_3_0 (c : Dev nD) : W3 m ρ c (Proc.devRef .tc main_arg12) = W0 m ρ c (Proc.devRef .tc main_arg12) :=
  (by host_keeps : W3 m ρ c (Proc.devRef .tc main_arg12) = W2 m ρ c (Proc.devRef .tc main_arg12)).trans (keep_main_arg12_2_0 m ρ c)
theorem keep_main_arg12_4_0 (c : Dev nD) : W4 m ρ c (Proc.devRef .tc main_arg12) = W0 m ρ c (Proc.devRef .tc main_arg12) :=
  (W4_of_ne m ρ c main_arg12 (by decide)).trans (keep_main_arg12_3_0 m ρ c)
theorem keep_main_arg12_5_0 (c : Dev nD) : W5 m ρ c (Proc.devRef .tc main_arg12) = W0 m ρ c (Proc.devRef .tc main_arg12) :=
  (by host_keeps : W5 m ρ c (Proc.devRef .tc main_arg12) = W4 m ρ c (Proc.devRef .tc main_arg12)).trans (keep_main_arg12_4_0 m ρ c)
theorem keep_main_arg12_6_0 (c : Dev nD) : W6 m ρ c (Proc.devRef .tc main_arg12) = W0 m ρ c (Proc.devRef .tc main_arg12) :=
  (W6_of_ne m ρ c main_arg12 (by decide)).trans (keep_main_arg12_5_0 m ρ c)
theorem keep_main_arg12_7_0 (c : Dev nD) : W7 m ρ c (Proc.devRef .tc main_arg12) = W0 m ρ c (Proc.devRef .tc main_arg12) :=
  (by host_keeps : W7 m ρ c (Proc.devRef .tc main_arg12) = W6 m ρ c (Proc.devRef .tc main_arg12)).trans (keep_main_arg12_6_0 m ρ c)
theorem keep_main_arg12_8_0 (c : Dev nD) : W8 m ρ c (Proc.devRef .tc main_arg12) = W0 m ρ c (Proc.devRef .tc main_arg12) :=
  (W8_of_ne m ρ c main_arg12 (by decide)).trans (keep_main_arg12_7_0 m ρ c)
theorem keep_main_arg12_9_0 (c : Dev nD) : W9 m ρ c (Proc.devRef .tc main_arg12) = W0 m ρ c (Proc.devRef .tc main_arg12) :=
  (by host_keeps : W9 m ρ c (Proc.devRef .tc main_arg12) = W8 m ρ c (Proc.devRef .tc main_arg12)).trans (keep_main_arg12_8_0 m ρ c)
theorem keep_main_arg12_10_0 (c : Dev nD) : W10 m ρ c (Proc.devRef .tc main_arg12) = W0 m ρ c (Proc.devRef .tc main_arg12) :=
  (W10_of_ne m ρ c main_arg12 (by decide)).trans (keep_main_arg12_9_0 m ρ c)
theorem keep_main_arg12_11_0 (c : Dev nD) : W11 m ρ c (Proc.devRef .tc main_arg12) = W0 m ρ c (Proc.devRef .tc main_arg12) :=
  (by host_keeps : W11 m ρ c (Proc.devRef .tc main_arg12) = W10 m ρ c (Proc.devRef .tc main_arg12)).trans (keep_main_arg12_10_0 m ρ c)
theorem keep_main_arg12_12_0 (c : Dev nD) : W12 m ρ c (Proc.devRef .tc main_arg12) = W0 m ρ c (Proc.devRef .tc main_arg12) :=
  (W12_of_ne m ρ c main_arg12 (by decide)).trans (keep_main_arg12_11_0 m ρ c)
theorem keep_main_arg12_13_0 (c : Dev nD) : W13 m ρ c (Proc.devRef .tc main_arg12) = W0 m ρ c (Proc.devRef .tc main_arg12) :=
  (by host_keeps : W13 m ρ c (Proc.devRef .tc main_arg12) = W12 m ρ c (Proc.devRef .tc main_arg12)).trans (keep_main_arg12_12_0 m ρ c)
theorem keep_main_arg12_14_0 (c : Dev nD) : W14 m ρ c (Proc.devRef .tc main_arg12) = W0 m ρ c (Proc.devRef .tc main_arg12) :=
  (W14_of_ne m ρ c main_arg12 (by decide)).trans (keep_main_arg12_13_0 m ρ c)
theorem keep_main_arg12_15_0 (c : Dev nD) : W15 m ρ c (Proc.devRef .tc main_arg12) = W0 m ρ c (Proc.devRef .tc main_arg12) :=
  (by host_keeps : W15 m ρ c (Proc.devRef .tc main_arg12) = W14 m ρ c (Proc.devRef .tc main_arg12)).trans (keep_main_arg12_14_0 m ρ c)
theorem keep_main_arg12_16_0 (c : Dev nD) : W16 m ρ c (Proc.devRef .tc main_arg12) = W0 m ρ c (Proc.devRef .tc main_arg12) :=
  (W16_of_ne m ρ c main_arg12 (by decide)).trans (keep_main_arg12_15_0 m ρ c)
theorem launch_main_arg13 (c : Dev nD) : W0 m ρ c (Proc.devRef .tc main_arg13) = m ((c : Thread nD τ).loc main_arg13) := rfl
theorem keep_main_arg13_1_0 (c : Dev nD) : W1 m ρ c (Proc.devRef .tc main_arg13) = W0 m ρ c (Proc.devRef .tc main_arg13) :=
  (by host_keeps : W1 m ρ c (Proc.devRef .tc main_arg13) = W0 m ρ c (Proc.devRef .tc main_arg13))
theorem keep_main_arg13_2_0 (c : Dev nD) : W2 m ρ c (Proc.devRef .tc main_arg13) = W0 m ρ c (Proc.devRef .tc main_arg13) :=
  (W2_of_ne m ρ c main_arg13 (by decide)).trans (keep_main_arg13_1_0 m ρ c)
theorem keep_main_arg13_3_0 (c : Dev nD) : W3 m ρ c (Proc.devRef .tc main_arg13) = W0 m ρ c (Proc.devRef .tc main_arg13) :=
  (by host_keeps : W3 m ρ c (Proc.devRef .tc main_arg13) = W2 m ρ c (Proc.devRef .tc main_arg13)).trans (keep_main_arg13_2_0 m ρ c)
theorem keep_main_arg13_4_0 (c : Dev nD) : W4 m ρ c (Proc.devRef .tc main_arg13) = W0 m ρ c (Proc.devRef .tc main_arg13) :=
  (W4_of_ne m ρ c main_arg13 (by decide)).trans (keep_main_arg13_3_0 m ρ c)
theorem keep_main_arg13_5_0 (c : Dev nD) : W5 m ρ c (Proc.devRef .tc main_arg13) = W0 m ρ c (Proc.devRef .tc main_arg13) :=
  (by host_keeps : W5 m ρ c (Proc.devRef .tc main_arg13) = W4 m ρ c (Proc.devRef .tc main_arg13)).trans (keep_main_arg13_4_0 m ρ c)
theorem keep_main_arg13_6_0 (c : Dev nD) : W6 m ρ c (Proc.devRef .tc main_arg13) = W0 m ρ c (Proc.devRef .tc main_arg13) :=
  (W6_of_ne m ρ c main_arg13 (by decide)).trans (keep_main_arg13_5_0 m ρ c)
theorem keep_main_arg13_7_0 (c : Dev nD) : W7 m ρ c (Proc.devRef .tc main_arg13) = W0 m ρ c (Proc.devRef .tc main_arg13) :=
  (by host_keeps : W7 m ρ c (Proc.devRef .tc main_arg13) = W6 m ρ c (Proc.devRef .tc main_arg13)).trans (keep_main_arg13_6_0 m ρ c)
theorem keep_main_arg13_8_0 (c : Dev nD) : W8 m ρ c (Proc.devRef .tc main_arg13) = W0 m ρ c (Proc.devRef .tc main_arg13) :=
  (W8_of_ne m ρ c main_arg13 (by decide)).trans (keep_main_arg13_7_0 m ρ c)
theorem keep_main_arg13_9_0 (c : Dev nD) : W9 m ρ c (Proc.devRef .tc main_arg13) = W0 m ρ c (Proc.devRef .tc main_arg13) :=
  (by host_keeps : W9 m ρ c (Proc.devRef .tc main_arg13) = W8 m ρ c (Proc.devRef .tc main_arg13)).trans (keep_main_arg13_8_0 m ρ c)
theorem keep_main_arg13_10_0 (c : Dev nD) : W10 m ρ c (Proc.devRef .tc main_arg13) = W0 m ρ c (Proc.devRef .tc main_arg13) :=
  (W10_of_ne m ρ c main_arg13 (by decide)).trans (keep_main_arg13_9_0 m ρ c)
theorem keep_main_arg13_11_0 (c : Dev nD) : W11 m ρ c (Proc.devRef .tc main_arg13) = W0 m ρ c (Proc.devRef .tc main_arg13) :=
  (by host_keeps : W11 m ρ c (Proc.devRef .tc main_arg13) = W10 m ρ c (Proc.devRef .tc main_arg13)).trans (keep_main_arg13_10_0 m ρ c)
theorem keep_main_arg13_12_0 (c : Dev nD) : W12 m ρ c (Proc.devRef .tc main_arg13) = W0 m ρ c (Proc.devRef .tc main_arg13) :=
  (W12_of_ne m ρ c main_arg13 (by decide)).trans (keep_main_arg13_11_0 m ρ c)
theorem keep_main_arg13_13_0 (c : Dev nD) : W13 m ρ c (Proc.devRef .tc main_arg13) = W0 m ρ c (Proc.devRef .tc main_arg13) :=
  (by host_keeps : W13 m ρ c (Proc.devRef .tc main_arg13) = W12 m ρ c (Proc.devRef .tc main_arg13)).trans (keep_main_arg13_12_0 m ρ c)
theorem keep_main_arg13_14_0 (c : Dev nD) : W14 m ρ c (Proc.devRef .tc main_arg13) = W0 m ρ c (Proc.devRef .tc main_arg13) :=
  (W14_of_ne m ρ c main_arg13 (by decide)).trans (keep_main_arg13_13_0 m ρ c)
theorem keep_main_arg13_15_0 (c : Dev nD) : W15 m ρ c (Proc.devRef .tc main_arg13) = W0 m ρ c (Proc.devRef .tc main_arg13) :=
  (by host_keeps : W15 m ρ c (Proc.devRef .tc main_arg13) = W14 m ρ c (Proc.devRef .tc main_arg13)).trans (keep_main_arg13_14_0 m ρ c)
theorem keep_main_arg13_16_0 (c : Dev nD) : W16 m ρ c (Proc.devRef .tc main_arg13) = W0 m ρ c (Proc.devRef .tc main_arg13) :=
  (W16_of_ne m ρ c main_arg13 (by decide)).trans (keep_main_arg13_15_0 m ρ c)

end Cert.Bridge.L2P

end
-- ==== Proof.L2PWalkHid.lean ====
/-
  The hidden protein features from the exit of the region that writes them (region 0) to the entries of the regions that read them, and the three reciprocal edge counts from the first host stretch to region 8's entry: the regions in between read them through input windows and write them back unchanged, the host stretches do not write them.
-/
import proofs.«176458_j69930657513814_2_alg».proof.Proof.KIFrame
import proofs.«176458_j69930657513814_2_alg».proof.Proof.L2PTac
import Idealize.ShloMosaic.PureOps.Ideal

noncomputable section

namespace Cert.Bridge.L2P

open Idealize.ShloMosaic Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

theorem keep_main_v118_3_2 (c : Dev nD) : W3 m ρ c (Proc.devRef .tc main_v118) = W2 m ρ c (Proc.devRef .tc main_v118) :=
  (by host_keeps : W3 m ρ c (Proc.devRef .tc main_v118) = W2 m ρ c (Proc.devRef .tc main_v118))
theorem keep_main_v118_4_2 (c : Dev nD) : W4 m ρ c (Proc.devRef .tc main_v118) = W2 m ρ c (Proc.devRef .tc main_v118) :=
  (W4_of_ne m ρ c main_v118 (by decide)).trans (keep_main_v118_3_2 m ρ c)
theorem keep_main_v118_5_2 (c : Dev nD) : W5 m ρ c (Proc.devRef .tc main_v118) = W2 m ρ c (Proc.devRef .tc main_v118) :=
  (by host_keeps : W5 m ρ c (Proc.devRef .tc main_v118) = W4 m ρ c (Proc.devRef .tc main_v118)).trans (keep_main_v118_4_2 m ρ c)
theorem keep_main_v118_6_2 (c : Dev nD) : W6 m ρ c (Proc.devRef .tc main_v118) = W2 m ρ c (Proc.devRef .tc main_v118) :=
  (W6_of_ne m ρ c main_v118 (by decide)).trans (keep_main_v118_5_2 m ρ c)
theorem keep_main_v118_7_2 (c : Dev nD) : W7 m ρ c (Proc.devRef .tc main_v118) = W2 m ρ c (Proc.devRef .tc main_v118) :=
  (by host_keeps : W7 m ρ c (Proc.devRef .tc main_v118) = W6 m ρ c (Proc.devRef .tc main_v118)).trans (keep_main_v118_6_2 m ρ c)
theorem keep_main_v118_8_2 (c : Dev nD) : W8 m ρ c (Proc.devRef .tc main_v118) = W2 m ρ c (Proc.devRef .tc main_v118) :=
  (W8_of_ne m ρ c main_v118 (by decide)).trans (keep_main_v118_7_2 m ρ c)
theorem keep_main_v118_9_2 (c : Dev nD) : W9 m ρ c (Proc.devRef .tc main_v118) = W2 m ρ c (Proc.devRef .tc main_v118) :=
  (by host_keeps : W9 m ρ c (Proc.devRef .tc main_v118) = W8 m ρ c (Proc.devRef .tc main_v118)).trans (keep_main_v118_8_2 m ρ c)
theorem keep_main_v118_10_2 (c : Dev nD) : W10 m ρ c (Proc.devRef .tc main_v118) = W2 m ρ c (Proc.devRef .tc main_v118) :=
  ((W10_arr m ρ c 0).trans (((dat4 (V9 m ρ) c).arrAt_in 0 rfl _).trans (A_eq4 (V9 m ρ) c 0))).trans (keep_main_v118_9_2 m ρ c)
theorem keep_main_v118_11_2 (c : Dev nD) : W11 m ρ c (Proc.devRef .tc main_v118) = W2 m ρ c (Proc.devRef .tc main_v118) :=
  (by host_keeps : W11 m ρ c (Proc.devRef .tc main_v118) = W10 m ρ c (Proc.devRef .tc main_v118)).trans (keep_main_v118_10_2 m ρ c)
theorem keep_main_v118_12_2 (c : Dev nD) : W12 m ρ c (Proc.devRef .tc main_v118) = W2 m ρ c (Proc.devRef .tc main_v118) :=
  ((W12_arr m ρ c 0).trans (((dat5 (V11 m ρ) c).arrAt_in 0 rfl _).trans (A_eq5 (V11 m ρ) c 0))).trans (keep_main_v118_11_2 m ρ c)
theorem keep_main_v118_13_2 (c : Dev nD) : W13 m ρ c (Proc.devRef .tc main_v118) = W2 m ρ c (Proc.devRef .tc main_v118) :=
  (by host_keeps : W13 m ρ c (Proc.devRef .tc main_v118) = W12 m ρ c (Proc.devRef .tc main_v118)).trans (keep_main_v118_12_2 m ρ c)
theorem keep_main_v118_14_2 (c : Dev nD) : W14 m ρ c (Proc.devRef .tc main_v118) = W2 m ρ c (Proc.devRef .tc main_v118) :=
  (W14_of_ne m ρ c main_v118 (by decide)).trans (keep_main_v118_13_2 m ρ c)
theorem keep_main_v118_15_2 (c : Dev nD) : W15 m ρ c (Proc.devRef .tc main_v118) = W2 m ρ c (Proc.devRef .tc main_v118) :=
  (by host_keeps : W15 m ρ c (Proc.devRef .tc main_v118) = W14 m ρ c (Proc.devRef .tc main_v118)).trans (keep_main_v118_14_2 m ρ c)
theorem keep_main_v118_16_2 (c : Dev nD) : W16 m ρ c (Proc.devRef .tc main_v118) = W2 m ρ c (Proc.devRef .tc main_v118) :=
  ((W16_arr m ρ c 0).trans (((dat7 (V15 m ρ) c).arrAt_in 0 rfl _).trans (A_eq7 (V15 m ρ) c 0))).trans (keep_main_v118_15_2 m ρ c)
theorem keep_main_v118_17_2 (c : Dev nD) : W17 m ρ c (Proc.devRef .tc main_v118) = W2 m ρ c (Proc.devRef .tc main_v118) :=
  (by host_keeps : W17 m ρ c (Proc.devRef .tc main_v118) = W16 m ρ c (Proc.devRef .tc main_v118)).trans (keep_main_v118_16_2 m ρ c)
theorem keep_main_v10_2_1 (c : Dev nD) : W2 m ρ c (Proc.devRef .tc main_v10) = W1 m ρ c (Proc.devRef .tc main_v10) :=
  ((W2_arr m ρ c 3).trans (((dat0 (V1 m ρ) c).arrAt_in 3 rfl _).trans (A_eq0 (V1 m ρ) c 3)))
theorem keep_main_v10_3_1 (c : Dev nD) : W3 m ρ c (Proc.devRef .tc main_v10) = W1 m ρ c (Proc.devRef .tc main_v10) :=
  (by host_keeps : W3 m ρ c (Proc.devRef .tc main_v10) = W2 m ρ c (Proc.devRef .tc main_v10)).trans (keep_main_v10_2_1 m ρ c)
theorem keep_main_v10_4_1 (c : Dev nD) : W4 m ρ c (Proc.devRef .tc main_v10) = W1 m ρ c (Proc.devRef .tc main_v10) :=
  (W4_of_ne m ρ c main_v10 (by decide)).trans (keep_main_v10_3_1 m ρ c)
theorem keep_main_v10_5_1 (c : Dev nD) : W5 m ρ c (Proc.devRef .tc main_v10) = W1 m ρ c (Proc.devRef .tc main_v10) :=
  (by host_keeps : W5 m ρ c (Proc.devRef .tc main_v10) = W4 m ρ c (Proc.devRef .tc main_v10)).trans (keep_main_v10_4_1 m ρ c)
theorem keep_main_v10_6_1 (c : Dev nD) : W6 m ρ c (Proc.devRef .tc main_v10) = W1 m ρ c (Proc.devRef .tc main_v10) :=
  (W6_of_ne m ρ c main_v10 (by decide)).trans (keep_main_v10_5_1 m ρ c)
theorem keep_main_v10_7_1 (c : Dev nD) : W7 m ρ c (Proc.devRef .tc main_v10) = W1 m ρ c (Proc.devRef .tc main_v10) :=
  (by host_keeps : W7 m ρ c (Proc.devRef .tc main_v10) = W6 m ρ c (Proc.devRef .tc main_v10)).trans (keep_main_v10_6_1 m ρ c)
theorem keep_main_v10_8_1 (c : Dev nD) : W8 m ρ c (Proc.devRef .tc main_v10) = W1 m ρ c (Proc.devRef .tc main_v10) :=
  (W8_of_ne m ρ c main_v10 (by decide)).trans (keep_main_v10_7_1 m ρ c)
theorem keep_main_v10_9_1 (c : Dev nD) : W9 m ρ c (Proc.devRef .tc main_v10) = W1 m ρ c (Proc.devRef .tc main_v10) :=
  (by host_keeps : W9 m ρ c (Proc.devRef .tc main_v10) = W8 m ρ c (Proc.devRef .tc main_v10)).trans (keep_main_v10_8_1 m ρ c)
theorem keep_main_v10_10_1 (c : Dev nD) : W10 m ρ c (Proc.devRef .tc main_v10) = W1 m ρ c (Proc.devRef .tc main_v10) :=
  (W10_of_ne m ρ c main_v10 (by decide)).trans (keep_main_v10_9_1 m ρ c)
theorem keep_main_v10_11_1 (c : Dev nD) : W11 m ρ c (Proc.devRef .tc main_v10) = W1 m ρ c (Proc.devRef .tc main_v10) :=
  (by host_keeps : W11 m ρ c (Proc.devRef .tc main_v10) = W10 m ρ c (Proc.devRef .tc main_v10)).trans (keep_main_v10_10_1 m ρ c)
theorem keep_main_v10_12_1 (c : Dev nD) : W12 m ρ c (Proc.devRef .tc main_v10) = W1 m ρ c (Proc.devRef .tc main_v10) :=
  (W12_of_ne m ρ c main_v10 (by decide)).trans (keep_main_v10_11_1 m ρ c)
theorem keep_main_v10_13_1 (c : Dev nD) : W13 m ρ c (Proc.devRef .tc main_v10) = W1 m ρ c (Proc.devRef .tc main_v10) :=
  (by host_keeps : W13 m ρ c (Proc.devRef .tc main_v10) = W12 m ρ c (Proc.devRef .tc main_v10)).trans (keep_main_v10_12_1 m ρ c)
theorem keep_main_v10_14_1 (c : Dev nD) : W14 m ρ c (Proc.devRef .tc main_v10) = W1 m ρ c (Proc.devRef .tc main_v10) :=
  (W14_of_ne m ρ c main_v10 (by decide)).trans (keep_main_v10_13_1 m ρ c)
theorem keep_main_v10_15_1 (c : Dev nD) : W15 m ρ c (Proc.devRef .tc main_v10) = W1 m ρ c (Proc.devRef .tc main_v10) :=
  (by host_keeps : W15 m ρ c (Proc.devRef .tc main_v10) = W14 m ρ c (Proc.devRef .tc main_v10)).trans (keep_main_v10_14_1 m ρ c)
theorem keep_main_v10_16_1 (c : Dev nD) : W16 m ρ c (Proc.devRef .tc main_v10) = W1 m ρ c (Proc.devRef .tc main_v10) :=
  (W16_of_ne m ρ c main_v10 (by decide)).trans (keep_main_v10_15_1 m ρ c)
theorem keep_main_v10_17_1 (c : Dev nD) : W17 m ρ c (Proc.devRef .tc main_v10) = W1 m ρ c (Proc.devRef .tc main_v10) :=
  (by host_keeps : W17 m ρ c (Proc.devRef .tc main_v10) = W16 m ρ c (Proc.devRef .tc main_v10)).trans (keep_main_v10_16_1 m ρ c)
theorem keep_main_v43_2_1 (c : Dev nD) : W2 m ρ c (Proc.devRef .tc main_v43) = W1 m ρ c (Proc.devRef .tc main_v43) :=
  ((W2_arr m ρ c 4).trans (((dat0 (V1 m ρ) c).arrAt_in 4 rfl _).trans (A_eq0 (V1 m ρ) c 4)))
theorem keep_main_v43_3_1 (c : Dev nD) : W3 m ρ c (Proc.devRef .tc main_v43) = W1 m ρ c (Proc.devRef .tc main_v43) :=
  (by host_keeps : W3 m ρ c (Proc.devRef .tc main_v43) = W2 m ρ c (Proc.devRef .tc main_v43)).trans (keep_main_v43_2_1 m ρ c)
theorem keep_main_v43_4_1 (c : Dev nD) : W4 m ρ c (Proc.devRef .tc main_v43) = W1 m ρ c (Proc.devRef .tc main_v43) :=
  (W4_of_ne m ρ c main_v43 (by decide)).trans (keep_main_v43_3_1 m ρ c)
theorem keep_main_v43_5_1 (c : Dev nD) : W5 m ρ c (Proc.devRef .tc main_v43) = W1 m ρ c (Proc.devRef .tc main_v43) :=
  (by host_keeps : W5 m ρ c (Proc.devRef .tc main_v43) = W4 m ρ c (Proc.devRef .tc main_v43)).trans (keep_main_v43_4_1 m ρ c)
theorem keep_main_v43_6_1 (c : Dev nD) : W6 m ρ c (Proc.devRef .tc main_v43) = W1 m ρ c (Proc.devRef .tc main_v43) :=
  (W6_of_ne m ρ c main_v43 (by decide)).trans (keep_main_v43_5_1 m ρ c)
theorem keep_main_v43_7_1 (c : Dev nD) : W7 m ρ c (Proc.devRef .tc main_v43) = W1 m ρ c (Proc.devRef .tc main_v43) :=
  (by host_keeps : W7 m ρ c (Proc.devRef .tc main_v43) = W6 m ρ c (Proc.devRef .tc main_v43)).trans (keep_main_v43_6_1 m ρ c)
theorem keep_main_v43_8_1 (c : Dev nD) : W8 m ρ c (Proc.devRef .tc main_v43) = W1 m ρ c (Proc.devRef .tc main_v43) :=
  (W8_of_ne m ρ c main_v43 (by decide)).trans (keep_main_v43_7_1 m ρ c)
theorem keep_main_v43_9_1 (c : Dev nD) : W9 m ρ c (Proc.devRef .tc main_v43) = W1 m ρ c (Proc.devRef .tc main_v43) :=
  (by host_keeps : W9 m ρ c (Proc.devRef .tc main_v43) = W8 m ρ c (Proc.devRef .tc main_v43)).trans (keep_main_v43_8_1 m ρ c)
theorem keep_main_v43_10_1 (c : Dev nD) : W10 m ρ c (Proc.devRef .tc main_v43) = W1 m ρ c (Proc.devRef .tc main_v43) :=
  (W10_of_ne m ρ c main_v43 (by decide)).trans (keep_main_v43_9_1 m ρ c)
theorem keep_main_v43_11_1 (c : Dev nD) : W11 m ρ c (Proc.devRef .tc main_v43) = W1 m ρ c (Proc.devRef .tc main_v43) :=
  (by host_keeps : W11 m ρ c (Proc.devRef .tc main_v43) = W10 m ρ c (Proc.devRef .tc main_v43)).trans (keep_main_v43_10_1 m ρ c)
theorem keep_main_v43_12_1 (c : Dev nD) : W12 m ρ c (Proc.devRef .tc main_v43) = W1 m ρ c (Proc.devRef .tc main_v43) :=
  (W12_of_ne m ρ c main_v43 (by decide)).trans (keep_main_v43_11_1 m ρ c)
theorem keep_main_v43_13_1 (c : Dev nD) : W13 m ρ c (Proc.devRef .tc main_v43) = W1 m ρ c (Proc.devRef .tc main_v43) :=
  (by host_keeps : W13 m ρ c (Proc.devRef .tc main_v43) = W12 m ρ c (Proc.devRef .tc main_v43)).trans (keep_main_v43_12_1 m ρ c)
theorem keep_main_v43_14_1 (c : Dev nD) : W14 m ρ c (Proc.devRef .tc main_v43) = W1 m ρ c (Proc.devRef .tc main_v43) :=
  (W14_of_ne m ρ c main_v43 (by decide)).trans (keep_main_v43_13_1 m ρ c)
theorem keep_main_v43_15_1 (c : Dev nD) : W15 m ρ c (Proc.devRef .tc main_v43) = W1 m ρ c (Proc.devRef .tc main_v43) :=
  (by host_keeps : W15 m ρ c (Proc.devRef .tc main_v43) = W14 m ρ c (Proc.devRef .tc main_v43)).trans (keep_main_v43_14_1 m ρ c)
theorem keep_main_v43_16_1 (c : Dev nD) : W16 m ρ c (Proc.devRef .tc main_v43) = W1 m ρ c (Proc.devRef .tc main_v43) :=
  (W16_of_ne m ρ c main_v43 (by decide)).trans (keep_main_v43_15_1 m ρ c)
theorem keep_main_v43_17_1 (c : Dev nD) : W17 m ρ c (Proc.devRef .tc main_v43) = W1 m ρ c (Proc.devRef .tc main_v43) :=
  (by host_keeps : W17 m ρ c (Proc.devRef .tc main_v43) = W16 m ρ c (Proc.devRef .tc main_v43)).trans (keep_main_v43_16_1 m ρ c)
theorem keep_main_v54_2_1 (c : Dev nD) : W2 m ρ c (Proc.devRef .tc main_v54) = W1 m ρ c (Proc.devRef .tc main_v54) :=
  ((W2_arr m ρ c 5).trans (((dat0 (V1 m ρ) c).arrAt_in 5 rfl _).trans (A_eq0 (V1 m ρ) c 5)))
theorem keep_main_v54_3_1 (c : Dev nD) : W3 m ρ c (Proc.devRef .tc main_v54) = W1 m ρ c (Proc.devRef .tc main_v54) :=
  (by host_keeps : W3 m ρ c (Proc.devRef .tc main_v54) = W2 m ρ c (Proc.devRef .tc main_v54)).trans (keep_main_v54_2_1 m ρ c)
theorem keep_main_v54_4_1 (c : Dev nD) : W4 m ρ c (Proc.devRef .tc main_v54) = W1 m ρ c (Proc.devRef .tc main_v54) :=
  (W4_of_ne m ρ c main_v54 (by decide)).trans (keep_main_v54_3_1 m ρ c)
theorem keep_main_v54_5_1 (c : Dev nD) : W5 m ρ c (Proc.devRef .tc main_v54) = W1 m ρ c (Proc.devRef .tc main_v54) :=
  (by host_keeps : W5 m ρ c (Proc.devRef .tc main_v54) = W4 m ρ c (Proc.devRef .tc main_v54)).trans (keep_main_v54_4_1 m ρ c)
theorem keep_main_v54_6_1 (c : Dev nD) : W6 m ρ c (Proc.devRef .tc main_v54) = W1 m ρ c (Proc.devRef .tc main_v54) :=
  (W6_of_ne m ρ c main_v54 (by decide)).trans (keep_main_v54_5_1 m ρ c)
theorem keep_main_v54_7_1 (c : Dev nD) : W7 m ρ c (Proc.devRef .tc main_v54) = W1 m ρ c (Proc.devRef .tc main_v54) :=
  (by host_keeps : W7 m ρ c (Proc.devRef .tc main_v54) = W6 m ρ c (Proc.devRef .tc main_v54)).trans (keep_main_v54_6_1 m ρ c)
theorem keep_main_v54_8_1 (c : Dev nD) : W8 m ρ c (Proc.devRef .tc main_v54) = W1 m ρ c (Proc.devRef .tc main_v54) :=
  (W8_of_ne m ρ c main_v54 (by decide)).trans (keep_main_v54_7_1 m ρ c)
theorem keep_main_v54_9_1 (c : Dev nD) : W9 m ρ c (Proc.devRef .tc main_v54) = W1 m ρ c (Proc.devRef .tc main_v54) :=
  (by host_keeps : W9 m ρ c (Proc.devRef .tc main_v54) = W8 m ρ c (Proc.devRef .tc main_v54)).trans (keep_main_v54_8_1 m ρ c)
theorem keep_main_v54_10_1 (c : Dev nD) : W10 m ρ c (Proc.devRef .tc main_v54) = W1 m ρ c (Proc.devRef .tc main_v54) :=
  (W10_of_ne m ρ c main_v54 (by decide)).trans (keep_main_v54_9_1 m ρ c)
theorem keep_main_v54_11_1 (c : Dev nD) : W11 m ρ c (Proc.devRef .tc main_v54) = W1 m ρ c (Proc.devRef .tc main_v54) :=
  (by host_keeps : W11 m ρ c (Proc.devRef .tc main_v54) = W10 m ρ c (Proc.devRef .tc main_v54)).trans (keep_main_v54_10_1 m ρ c)
theorem keep_main_v54_12_1 (c : Dev nD) : W12 m ρ c (Proc.devRef .tc main_v54) = W1 m ρ c (Proc.devRef .tc main_v54) :=
  (W12_of_ne m ρ c main_v54 (by decide)).trans (keep_main_v54_11_1 m ρ c)
theorem keep_main_v54_13_1 (c : Dev nD) : W13 m ρ c (Proc.devRef .tc main_v54) = W1 m ρ c (Proc.devRef .tc main_v54) :=
  (by host_keeps : W13 m ρ c (Proc.devRef .tc main_v54) = W12 m ρ c (Proc.devRef .tc main_v54)).trans (keep_main_v54_12_1 m ρ c)
theorem keep_main_v54_14_1 (c : Dev nD) : W14 m ρ c (Proc.devRef .tc main_v54) = W1 m ρ c (Proc.devRef .tc main_v54) :=
  (W14_of_ne m ρ c main_v54 (by decide)).trans (keep_main_v54_13_1 m ρ c)
theorem keep_main_v54_15_1 (c : Dev nD) : W15 m ρ c (Proc.devRef .tc main_v54) = W1 m ρ c (Proc.devRef .tc main_v54) :=
  (by host_keeps : W15 m ρ c (Proc.devRef .tc main_v54) = W14 m ρ c (Proc.devRef .tc main_v54)).trans (keep_main_v54_14_1 m ρ c)
theorem keep_main_v54_16_1 (c : Dev nD) : W16 m ρ c (Proc.devRef .tc main_v54) = W1 m ρ c (Proc.devRef .tc main_v54) :=
  (W16_of_ne m ρ c main_v54 (by decide)).trans (keep_main_v54_15_1 m ρ c)
theorem keep_main_v54_17_1 (c : Dev nD) : W17 m ρ c (Proc.devRef .tc main_v54) = W1 m ρ c (Proc.devRef .tc main_v54) :=
  (by host_keeps : W17 m ρ c (Proc.devRef .tc main_v54) = W16 m ρ c (Proc.devRef .tc main_v54)).trans (keep_main_v54_16_1 m ρ c)

end Cert.Bridge.L2P

end
-- ==== Proof.L2PHostW.lean ====
/-
  The three weight slices the projection regions read, written by the two-operation host stretches before them: each is the slice of the second layer's first weight stack that the reference takes for the same relation, reshaped to 256 × 128.
-/
import proofs.«176458_j69930657513814_2_alg».proof.Proof.KIFrame
import proofs.«176458_j69930657513814_2_alg».proof.Proof.RefRead

set_option maxRecDepth 16384

noncomputable section

namespace Cert.Bridge.L2P

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-- The relation's 256 × 128 weight slice, as the reference slices it from the same stack. -/
theorem host_main_v164 (c : Dev nD) : W7 m ρ c (Proc.devRef .tc main_v164) = (Cert.ReferenceIdeal.Read.val_main_v181 (F := Ideal) (W6 m ρ c (Proc.devRef .tc main_arg11))) := by
  show StableHlo.after hostOps3 (W6 m ρ c) (Proc.devRef .tc main_v164) = _
  after_results_simp <;> rfl

/-- The relation's 256 × 128 weight slice, as the reference slices it from the same stack. -/
theorem host_main_v173 (c : Dev nD) : W13 m ρ c (Proc.devRef .tc main_v173) = (Cert.ReferenceIdeal.Read.val_main_v216 (F := Ideal) (W12 m ρ c (Proc.devRef .tc main_arg11))) := by
  show StableHlo.after hostOps6 (W12 m ρ c) (Proc.devRef .tc main_v173) = _
  after_results_simp <;> rfl

/-- The relation's 256 × 128 weight slice, as the reference slices it from the same stack. -/
theorem host_main_v176 (c : Dev nD) : W15 m ρ c (Proc.devRef .tc main_v176) = (Cert.ReferenceIdeal.Read.val_main_v252 (F := Ideal) (W14 m ρ c (Proc.devRef .tc main_arg11))) := by
  show StableHlo.after hostOps7 (W14 m ρ c) (Proc.devRef .tc main_v176) = _
  after_results_simp <;> rfl

end Cert.Bridge.L2P

end
-- ==== Proof.L2PHost8.lean ====
/-
  What the host stretch before region 8 leaves in the buffers region 8 reads. For each relation into the proteins: the projected source rows gathered along the relation's edges and added into 20000 × 128 zeros (the edge index arrays are the ones the reference computes from the same edge list: the source indices with negative ones wrapped, the destination indices as a column); the relation's slice of the second weight stack; and its bias slice made a row.
-/
import proofs.«176458_j69930657513814_2_alg».proof.Proof.KIFrame
import proofs.«176458_j69930657513814_2_alg».proof.Proof.RefRead

set_option maxRecDepth 16384

noncomputable section

namespace Cert.Bridge.L2P

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-- Relation dp: the projected rows gathered along the edges and added into zeros. -/
theorem host_main_v191 (c : Dev nD) : W17 m ρ c (Proc.devRef .tc main_v191)
    = Host.scatterAdd (F := Ideal) (φ := .f32) scatter_S20000x128_S200000x1_S200000x128_1_0_0_1 (broadcastInDim S20000x128 ![] bcast_S_S20000x128 (constant (F := Ideal) S_ .f32 0x00000000#32))
        (Cert.ReferenceIdeal.Read.val_main_v198 (F := Ideal) (W16 m ρ c (Proc.devRef .tc main_arg3)))
        (Host.gather gather_S4000x128_S200000x1_S200000x128_1_0_n_n_0_1_1128 (W16 m ρ c (Proc.devRef .tc main_v165)) (Cert.ReferenceIdeal.Read.val_main_v195 (F := Ideal) (W16 m ρ c (Proc.devRef .tc main_arg3)))) := by
  show StableHlo.after hostOps8 (W16 m ρ c) (Proc.devRef .tc main_v191) = _
  after_results_simp <;> rfl

/-- Relation dp: its slice of the second weight stack, 256 × 128. -/
theorem host_main_v221 (c : Dev nD) : W17 m ρ c (Proc.devRef .tc main_v221) = (Cert.ReferenceIdeal.Read.val_main_v183 (F := Ideal) (W16 m ρ c (Proc.devRef .tc main_arg12))) := by
  show StableHlo.after hostOps8 (W16 m ρ c) (Proc.devRef .tc main_v221) = _
  after_results_simp <;> rfl

/-- Relation dp: its bias slice, 128 entries, made a row. -/
theorem host_main_v232 (c : Dev nD) : W17 m ρ c (Proc.devRef .tc main_v232)
    = shapeCast S1x128 (Cert.ReferenceIdeal.Read.val_main_v185 (F := Ideal) (W16 m ρ c (Proc.devRef .tc main_arg13))) shapeCasts_S128_S1x128 := by
  show StableHlo.after hostOps8 (W16 m ρ c) (Proc.devRef .tc main_v232) = _
  after_results_simp <;> rfl

/-- Relation disp: the projected rows gathered along the edges and added into zeros. -/
theorem host_main_v205 (c : Dev nD) : W17 m ρ c (Proc.devRef .tc main_v205)
    = Host.scatterAdd (F := Ideal) (φ := .f32) scatter_S20000x128_S300000x1_S300000x128_1_0_0_1 (broadcastInDim S20000x128 ![] bcast_S_S20000x128 (constant (F := Ideal) S_ .f32 0x00000000#32))
        (Cert.ReferenceIdeal.Read.val_main_v233 (F := Ideal) (W16 m ρ c (Proc.devRef .tc main_arg6)))
        (Host.gather gather_S8000x128_S300000x1_S300000x128_1_0_n_n_0_1_1128 (W16 m ρ c (Proc.devRef .tc main_v174)) (Cert.ReferenceIdeal.Read.val_main_v230 (F := Ideal) (W16 m ρ c (Proc.devRef .tc main_arg6)))) := by
  show StableHlo.after hostOps8 (W16 m ρ c) (Proc.devRef .tc main_v205) = _
  after_results_simp <;> rfl

/-- Relation disp: its slice of the second weight stack, 256 × 128. -/
theorem host_main_v223 (c : Dev nD) : W17 m ρ c (Proc.devRef .tc main_v223) = (Cert.ReferenceIdeal.Read.val_main_v218 (F := Ideal) (W16 m ρ c (Proc.devRef .tc main_arg12))) := by
  show StableHlo.after hostOps8 (W16 m ρ c) (Proc.devRef .tc main_v223) = _
  after_results_simp <;> rfl

/-- Relation disp: its bias slice, 128 entries, made a row. -/
theorem host_main_v233 (c : Dev nD) : W17 m ρ c (Proc.devRef .tc main_v233)
    = shapeCast S1x128 (Cert.ReferenceIdeal.Read.val_main_v220 (F := Ideal) (W16 m ρ c (Proc.devRef .tc main_arg13))) shapeCasts_S128_S1x128 := by
  show StableHlo.after hostOps8 (W16 m ρ c) (Proc.devRef .tc main_v233) = _
  after_results_simp <;> rfl

/-- Relation pp: the projected rows gathered along the edges and added into zeros. -/
theorem host_main_v219 (c : Dev nD) : W17 m ρ c (Proc.devRef .tc main_v219)
    = Host.scatterAdd (F := Ideal) (φ := .f32) scatter_S20000x128_S600000x1_S600000x128_1_0_0_1 (broadcastInDim S20000x128 ![] bcast_S_S20000x128 (constant (F := Ideal) S_ .f32 0x00000000#32))
        (Cert.ReferenceIdeal.Read.val_main_v269 (F := Ideal) (W16 m ρ c (Proc.devRef .tc main_arg7)))
        (Host.gather gather_S20000x128_S600000x1_S600000x128_1_0_n_n_0_1_1128 (W16 m ρ c (Proc.devRef .tc main_v177)) (Cert.ReferenceIdeal.Read.val_main_v266 (F := Ideal) (W16 m ρ c (Proc.devRef .tc main_arg7)))) := by
  show StableHlo.after hostOps8 (W16 m ρ c) (Proc.devRef .tc main_v219) = _
  after_results_simp <;> rfl

/-- Relation pp: its slice of the second weight stack, 256 × 128. -/
theorem host_main_v225 (c : Dev nD) : W17 m ρ c (Proc.devRef .tc main_v225) = (Cert.ReferenceIdeal.Read.val_main_v254 (F := Ideal) (W16 m ρ c (Proc.devRef .tc main_arg12))) := by
  show StableHlo.after hostOps8 (W16 m ρ c) (Proc.devRef .tc main_v225) = _
  after_results_simp <;> rfl

/-- Relation pp: its bias slice, 128 entries, made a row. -/
theorem host_main_v234 (c : Dev nD) : W17 m ρ c (Proc.devRef .tc main_v234)
    = shapeCast S1x128 (Cert.ReferenceIdeal.Read.val_main_v256 (F := Ideal) (W16 m ρ c (Proc.devRef .tc main_arg13))) shapeCasts_S128_S1x128 := by
  show StableHlo.after hostOps8 (W16 m ρ c) (Proc.devRef .tc main_v234) = _
  after_results_simp <;> rfl

end Cert.Bridge.L2P

end
-- ==== Proof.L2PHost0.lean ====
/-
  What the first host stretch leaves in the three reciprocal edge-count columns region 8 reads: one divided by the relation's edge counts made at least one — the counts the reference computes from the same edge list — as a 20000 × 1 column.
-/
import proofs.«176458_j69930657513814_2_alg».proof.Proof.KIFrame
import proofs.«176458_j69930657513814_2_alg».proof.Proof.RefRead

set_option maxRecDepth 16384

noncomputable section

namespace Cert.Bridge.L2P

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

/-- Relation dp: the column of reciprocal edge counts. -/
theorem host_main_v10 (c : Dev nD) : W1 m ρ c (Proc.devRef .tc main_v10)
    = broadcastInDim S20000x1 ![0] bcast_S20000_S20000x1_0
        (Host.divf (F := Ideal) (φ := .f32) (Cert.ReferenceIdeal.Read.val_main_v204 (F := Ideal)) (Cert.ReferenceIdeal.Read.val_main_v205 (F := Ideal) (W0 m ρ c (Proc.devRef .tc main_arg3)))) := by
  show StableHlo.after hostOps0 (W0 m ρ c) (Proc.devRef .tc main_v10) = _
  after_results_simp <;> rfl

/-- Relation disp: the column of reciprocal edge counts. -/
theorem host_main_v43 (c : Dev nD) : W1 m ρ c (Proc.devRef .tc main_v43)
    = broadcastInDim S20000x1 ![0] bcast_S20000_S20000x1_0
        (Host.divf (F := Ideal) (φ := .f32) (Cert.ReferenceIdeal.Read.val_main_v239 (F := Ideal)) (Cert.ReferenceIdeal.Read.val_main_v240 (F := Ideal) (W0 m ρ c (Proc.devRef .tc main_arg6)))) := by
  show StableHlo.after hostOps0 (W0 m ρ c) (Proc.devRef .tc main_v43) = _
  after_results_simp <;> rfl

/-- Relation pp: the column of reciprocal edge counts. -/
theorem host_main_v54 (c : Dev nD) : W1 m ρ c (Proc.devRef .tc main_v54)
    = broadcastInDim S20000x1 ![0] bcast_S20000_S20000x1_0
        (Host.divf (F := Ideal) (φ := .f32) (Cert.ReferenceIdeal.Read.val_main_v275 (F := Ideal)) (Cert.ReferenceIdeal.Read.val_main_v276 (F := Ideal) (W0 m ρ c (Proc.devRef .tc main_arg7)))) := by
  show StableHlo.after hostOps0 (W0 m ρ c) (Proc.devRef .tc main_v54) = _
  after_results_simp <;> rfl

end Cert.Bridge.L2P

end
-- ==== Proof.L2PKin.lean ====
/-
  What region 8 finds in its thirteen input buffers, in the reference's vocabulary.

  For each relation into the proteins: the aggregate buffer holds the source's hidden features times the relation's
  weights (the projection region's result), its rows gathered along the relation's edges and added into zeros; the scale
  buffer holds the column of reciprocal edge counts; the weight and bias buffers hold the relation's slices of the second
  layer's stacks. The edge index arrays, the counts and the slices are the reference's own stages applied to the launch
  arguments: the host operations that compute them in the kernel's program are the same operations, and nothing in
  between writes the buffers they read or the buffers they wrote.
-/
import proofs.«176458_j69930657513814_2_alg».proof.Proof.Args
import proofs.«176458_j69930657513814_2_alg».proof.Proof.L2PTac
import proofs.«176458_j69930657513814_2_alg».proof.Proof.L2PProjSpec
import proofs.«176458_j69930657513814_2_alg».proof.Proof.L2PProj3
import proofs.«176458_j69930657513814_2_alg».proof.Proof.L2PProj6
import proofs.«176458_j69930657513814_2_alg».proof.Proof.L2PProj7
import proofs.«176458_j69930657513814_2_alg».proof.Proof.L2PWalkMid
import proofs.«176458_j69930657513814_2_alg».proof.Proof.L2PWalkEdges
import proofs.«176458_j69930657513814_2_alg».proof.Proof.L2PWalkWeights
import proofs.«176458_j69930657513814_2_alg».proof.Proof.L2PWalkHid
import proofs.«176458_j69930657513814_2_alg».proof.Proof.L2PHostW
import proofs.«176458_j69930657513814_2_alg».proof.Proof.L2PHost8
import proofs.«176458_j69930657513814_2_alg».proof.Proof.L2PHost0

noncomputable section

namespace Cert.Bridge.L2P

open Idealize.ShloMosaic Idealize.ShloMosaic.TcCoe Idealize.SL.Sem
open Cert.KernelIdeal Cert.KernelIdeal.Gen Cert.KernelIdeal.GenP

variable (m : Cert.Bridge.KMem) (ρ : Dev nD → PrngReg)

/-- Relation dp: the projected rows before region 8 are the source's hidden features times the relation's weights. -/
theorem z_dp (c : Dev nD) (hHD : W4 m ρ c (Proc.devRef .tc main_v140) = Cert.Bridge.HD m c) :
    W16 m ρ c (Proc.devRef .tc main_v165) = projArr 4000 (Cert.Bridge.HD m c) (Cert.ReferenceIdeal.Read.val_main_v181 (F := Ideal) (Cert.Bridge.a11 m c)) := by
  have h1 : V7 m ρ c main_v140 = Cert.Bridge.HD m c := (keep_main_v140_7_4 m ρ c).trans hHD
  have h2 : V7 m ρ c main_v164 = (Cert.ReferenceIdeal.Read.val_main_v181 (F := Ideal) (Cert.Bridge.a11 m c)) :=
    (host_main_v164 m ρ c).trans (congrArg (Cert.ReferenceIdeal.Read.val_main_v181 (F := Ideal)) ((keep_main_arg11_6_0 m ρ c).trans (launch_main_arg11 m ρ c)))
  refine ((keep_main_v165_16_8 m ρ c).trans ((W8_arr m ρ c 2).trans (final3 (V7 m ρ) c))).trans ?_
  rw [h1, h2]

/-- Relation dp: what region 8 finds in the relation's aggregate, scale, weight and bias buffers. -/
theorem agg_dp (c : Dev nD) (hHD : W4 m ρ c (Proc.devRef .tc main_v140) = Cert.Bridge.HD m c) :
    W17 m ρ c (Proc.devRef .tc main_v191)
      = Host.scatterAdd (F := Ideal) (φ := .f32) scatter_S20000x128_S200000x1_S200000x128_1_0_0_1 (broadcastInDim S20000x128 ![] bcast_S_S20000x128 (constant (F := Ideal) S_ .f32 0x00000000#32))
          (Cert.ReferenceIdeal.Read.val_main_v198 (F := Ideal) (Cert.Bridge.a3 m c))
          (Host.gather gather_S4000x128_S200000x1_S200000x128_1_0_n_n_0_1_1128 (projArr 4000 (Cert.Bridge.HD m c) (Cert.ReferenceIdeal.Read.val_main_v181 (F := Ideal) (Cert.Bridge.a11 m c))) (Cert.ReferenceIdeal.Read.val_main_v195 (F := Ideal) (Cert.Bridge.a3 m c))) := by
  rw [host_main_v191 m ρ c, z_dp m ρ c hHD, (keep_main_arg3_16_0 m ρ c).trans (launch_main_arg3 m ρ c)]

theorem inv_dp (c : Dev nD) : W17 m ρ c (Proc.devRef .tc main_v10)
    = broadcastInDim S20000x1 ![0] bcast_S20000_S20000x1_0 (Host.divf (F := Ideal) (φ := .f32) (Cert.ReferenceIdeal.Read.val_main_v204 (F := Ideal)) (Cert.ReferenceIdeal.Read.val_main_v205 (F := Ideal) (Cert.Bridge.a3 m c))) := by
  rw [keep_main_v10_17_1 m ρ c, host_main_v10 m ρ c, launch_main_arg3 m ρ c]

theorem wr_dp (c : Dev nD) : W17 m ρ c (Proc.devRef .tc main_v221) = (Cert.ReferenceIdeal.Read.val_main_v183 (F := Ideal) (Cert.Bridge.a12 m c)) := by
  rw [host_main_v221 m ρ c, (keep_main_arg12_16_0 m ρ c).trans (launch_main_arg12 m ρ c)]

theorem bias_dp (c : Dev nD) : W17 m ρ c (Proc.devRef .tc main_v232)
    = shapeCast S1x128 (Cert.ReferenceIdeal.Read.val_main_v185 (F := Ideal) (Cert.Bridge.a13 m c)) shapeCasts_S128_S1x128 := by
  rw [host_main_v232 m ρ c, (keep_main_arg13_16_0 m ρ c).trans (launch_main_arg13 m ρ c)]

/-- Relation disp: the projected rows before region 8 are the source's hidden features times the relation's weights. -/
theorem z_disp (c : Dev nD) (hHDIS : W6 m ρ c (Proc.devRef .tc main_v162) = Cert.Bridge.HDIS m c) :
    W16 m ρ c (Proc.devRef .tc main_v174) = projArr 8000 (Cert.Bridge.HDIS m c) (Cert.ReferenceIdeal.Read.val_main_v216 (F := Ideal) (Cert.Bridge.a11 m c)) := by
  have h1 : V13 m ρ c main_v162 = Cert.Bridge.HDIS m c := (keep_main_v162_13_6 m ρ c).trans hHDIS
  have h2 : V13 m ρ c main_v173 = (Cert.ReferenceIdeal.Read.val_main_v216 (F := Ideal) (Cert.Bridge.a11 m c)) :=
    (host_main_v173 m ρ c).trans (congrArg (Cert.ReferenceIdeal.Read.val_main_v216 (F := Ideal)) ((keep_main_arg11_12_0 m ρ c).trans (launch_main_arg11 m ρ c)))
  refine ((keep_main_v174_16_14 m ρ c).trans ((W14_arr m ρ c 2).trans (final6 (V13 m ρ) c))).trans ?_
  rw [h1, h2]

/-- Relation disp: what region 8 finds in the relation's aggregate, scale, weight and bias buffers. -/
theorem agg_disp (c : Dev nD) (hHDIS : W6 m ρ c (Proc.devRef .tc main_v162) = Cert.Bridge.HDIS m c) :
    W17 m ρ c (Proc.devRef .tc main_v205)
      = Host.scatterAdd (F := Ideal) (φ := .f32) scatter_S20000x128_S300000x1_S300000x128_1_0_0_1 (broadcastInDim S20000x128 ![] bcast_S_S20000x128 (constant (F := Ideal) S_ .f32 0x00000000#32))
          (Cert.ReferenceIdeal.Read.val_main_v233 (F := Ideal) (Cert.Bridge.a6 m c))
          (Host.gather gather_S8000x128_S300000x1_S300000x128_1_0_n_n_0_1_1128 (projArr 8000 (Cert.Bridge.HDIS m c) (Cert.ReferenceIdeal.Read.val_main_v216 (F := Ideal) (Cert.Bridge.a11 m c))) (Cert.ReferenceIdeal.Read.val_main_v230 (F := Ideal) (Cert.Bridge.a6 m c))) := by
  rw [host_main_v205 m ρ c, z_disp m ρ c hHDIS, (keep_main_arg6_16_0 m ρ c).trans (launch_main_arg6 m ρ c)]

theorem inv_disp (c : Dev nD) : W17 m ρ c (Proc.devRef .tc main_v43)
    = broadcastInDim S20000x1 ![0] bcast_S20000_S20000x1_0 (Host.divf (F := Ideal) (φ := .f32) (Cert.ReferenceIdeal.Read.val_main_v239 (F := Ideal)) (Cert.ReferenceIdeal.Read.val_main_v240 (F := Ideal) (Cert.Bridge.a6 m c))) := by
  rw [keep_main_v43_17_1 m ρ c, host_main_v43 m ρ c, launch_main_arg6 m ρ c]

theorem wr_disp (c : Dev nD) : W17 m ρ c (Proc.devRef .tc main_v223) = (Cert.ReferenceIdeal.Read.val_main_v218 (F := Ideal) (Cert.Bridge.a12 m c)) := by
  rw [host_main_v223 m ρ c, (keep_main_arg12_16_0 m ρ c).trans (launch_main_arg12 m ρ c)]

theorem bias_disp (c : Dev nD) : W17 m ρ c (Proc.devRef .tc main_v233)
    = shapeCast S1x128 (Cert.ReferenceIdeal.Read.val_main_v220 (F := Ideal) (Cert.Bridge.a13 m c)) shapeCasts_S128_S1x128 := by
  rw [host_main_v233 m ρ c, (keep_main_arg13_16_0 m ρ c).trans (launch_main_arg13 m ρ c)]

/-- Relation pp: the projected rows before region 8 are the source's hidden features times the relation's weights. -/
theorem z_pp (c : Dev nD) (hHP : W2 m ρ c (Proc.devRef .tc main_v118) = Cert.Bridge.HP m c) :
    W16 m ρ c (Proc.devRef .tc main_v177) = projArr 20000 (Cert.Bridge.HP m c) (Cert.ReferenceIdeal.Read.val_main_v252 (F := Ideal) (Cert.Bridge.a11 m c)) := by
  have h1 : V15 m ρ c main_v118 = Cert.Bridge.HP m c := (keep_main_v118_15_2 m ρ c).trans hHP
  have h2 : V15 m ρ c main_v176 = (Cert.ReferenceIdeal.Read.val_main_v252 (F := Ideal) (Cert.Bridge.a11 m c)) :=
    (host_main_v176 m ρ c).trans (congrArg (Cert.ReferenceIdeal.Read.val_main_v252 (F := Ideal)) ((keep_main_arg11_14_0 m ρ c).trans (launch_main_arg11 m ρ c)))
  refine ((W16_arr m ρ c 2).trans (final7 (V15 m ρ) c)).trans ?_
  rw [h1, h2]

/-- Relation pp: what region 8 finds in the relation's aggregate, scale, weight and bias buffers. -/
theorem agg_pp (c : Dev nD) (hHP : W2 m ρ c (Proc.devRef .tc main_v118) = Cert.Bridge.HP m c) :
    W17 m ρ c (Proc.devRef .tc main_v219)
      = Host.scatterAdd (F := Ideal) (φ := .f32) scatter_S20000x128_S600000x1_S600000x128_1_0_0_1 (broadcastInDim S20000x128 ![] bcast_S_S20000x128 (constant (F := Ideal) S_ .f32 0x00000000#32))
          (Cert.ReferenceIdeal.Read.val_main_v269 (F := Ideal) (Cert.Bridge.a7 m c))
          (Host.gather gather_S20000x128_S600000x1_S600000x128_1_0_n_n_0_1_1128 (projArr 20000 (Cert.Bridge.HP m c) (Cert.ReferenceIdeal.Read.val_main_v252 (F := Ideal) (Cert.Bridge.a11 m c))) (Cert.ReferenceIdeal.Read.val_main_v266 (F := Ideal) (Cert.Bridge.a7 m c))) := by
  rw [host_main_v219 m ρ c, z_pp m ρ c hHP, (keep_main_arg7_16_0 m ρ c).trans (launch_main_arg7 m ρ c)]

theorem inv_pp (c : Dev nD) : W17 m ρ c (Proc.devRef .tc main_v54)
    = broadcastInDim S20000x1 ![0] bcast_S20000_S20000x1_0 (Host.divf (F := Ideal) (φ := .f32) (Cert.ReferenceIdeal.Read.val_main_v275 (F := Ideal)) (Cert.ReferenceIdeal.Read.val_main_v276 (F := Ideal) (Cert.Bridge.a7 m c))) := by
  rw [keep_main_v54_17_1 m ρ c, host_main_v54 m ρ c, launch_main_arg7 m ρ c]

theorem wr_pp (c : Dev nD) : W17 m ρ c (Proc.devRef .tc main_v225) = (Cert.ReferenceIdeal.Read.val_main_v254 (F := Ideal) (Cert.Bridge.a12 m c)) := by
  rw [host_main_v225 m ρ c, (keep_main_arg12_16_0 m ρ c).trans (launch_main_arg12 m ρ c)]

theorem bias_pp (c : Dev nD) : W17 m ρ c (Proc.devRef .tc main_v234)
    = shapeCast S1x128 (Cert.ReferenceIdeal.Read.val_main_v256 (F := Ideal) (Cert.Bridge.a13 m c)) shapeCasts_S128_S1x128 := by
  rw [host_main_v234 m ρ c, (keep_main_arg13_16_0 m ρ c).trans (launch_main_arg13 m ρ c)]

/-- The hidden protein features as region 8 finds them. -/
theorem hp_in (c : Dev nD) (hHP : W2 m ρ c (Proc.devRef .tc main_v118) = Cert.Bridge.HP m c) :
    W17 m ρ c (Proc.devRef .tc main_v118) = Cert.Bridge.HP m c := (keep_main_v118_17_2 m ρ c).trans hHP

end Cert.Bridge.L2P

end
-- ==== Proof.L2POut.lean ====
/-
  The kernel's protein result is the reference's.

  Region 8 leaves, at (n, j), the three relations' terms added from zero. Each term is the reference's term for the same
  relation: the bias row and the reciprocal-count column are read at their entries, the count is a real number at least
  one, and the aggregate of the projected rows scaled by the reciprocal count is the aggregate of the rows divided by the
  count and then projected — the law of real entries, with the same edges and the same source rows on both sides. The sum
  from zero drops its zero. The hidden features enter only as three arrays with real entries.
-/
import proofs.«176458_j69930657513814_2_alg».proof.Proof.Args
import proofs.«176458_j69930657513814_2_alg».proof.Proof.L2PLaw
import proofs.«176458_j69930657513814_2_alg».proof.Proof.L2PRel
import proofs.«176458_j69930657513814_2_alg».proof.Proof.L2PSageSpec
import proofs.«176458_j69930657513814_2_alg».proof.Proof.L2PProjSpec
import proofs.«176458_j69930657513814_2_alg».proof.Proof.L2PRef
import proofs.«176458_j69930657513814_2_alg».proof.Proof.L2PSage
import proofs.«176458_j69930657513814_2_alg».proof.Proof.L2PKin
import Idealize.ShloMosaic.Lib.Pipeline.Value

noncomputable section

namespace Cert.Bridge.L2P

open Idealize.ShloMosaic Idealize.ShloMosaic.TcCoe Idealize.SL.Sem Idealize.ShloMosaic.ValueIdx
open Cert.LibRealEntries
open Cert.KernelIdeal Cert.KernelIdeal.Gen Cert.KernelIdeal.GenP

/-- A vector of 128 entries made a row reads, at (0, j), its entry j. -/
theorem row_cast_apply (y : (⟨1, ![128]⟩ : Shape).Idx → EReal) (h : (⟨1, ![128]⟩ : Shape).ShapeCasts ⟨2, ![1, 128]⟩)
    (u : Fin 1) (j : Fin 128) : shapeCast ⟨2, ![1, 128]⟩ y h (ix2 u j) = y (ix1 j) :=
  shapeCast_apply y h (ix2 u j) (ix1 j) (by
    have hu : u.val = 0 := by omega
    rw [Shape.rowMajor_val_one, Shape.rowMajor_val_two]
    show j.val = u.val * 128 + j.val
    rw [hu, Nat.zero_mul, Nat.zero_add])

/-- A vector of 20000 entries made a column reads, at (n, 0), its entry n. -/
theorem col_bcast_apply (y : (⟨1, ![20000]⟩ : Shape).Idx → EReal)
    (h : (⟨1, ![20000]⟩ : Shape).BroadcastsInDim ⟨2, ![20000, 1]⟩ ![0]) (n : Fin 20000) (u : Fin 1) :
    broadcastInDim ⟨2, ![20000, 1]⟩ ![0] h y (ix2 n u) = y (ix1 n) :=
  broadcastInDim_apply ![0] h y (ix2 n u) (ix1 n) fun d => by
    match d with
    | ⟨0, _⟩ =>
      show n.val = if (20000 : ℕ) = 1 then 0 else n.val
      rw [if_neg (by decide)]

/-- A scatter-add of real updates into a real operand has real entries, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact IsReal.add (hx i) (IsReal.sum _ _ fun j _ => hu j)

/-- The edge counts of relation dp are real numbers: zero plus a finite sum of ones. -/
theorem isReal_cnt_dp (e : (⟨Cert.ReferenceIdeal.S2x200000, .i32⟩ : BufTy).Contents (Elt Ideal)) (i : Cert.ReferenceIdeal.S20000.Idx) :
    IsReal ((Cert.ReferenceIdeal.Read.val_main_v203 (F := Ideal) e) i) := by
  show IsReal (Ideal.hostScatterAdd Cert.ReferenceIdeal.scatter_S20000_S200000x1_S200000_n_0_0_1 (Cert.ReferenceIdeal.Read.val_main_v201 (F := Ideal)) (Cert.ReferenceIdeal.Read.val_main_v202 (F := Ideal) e) (Cert.ReferenceIdeal.Read.val_main_v200 (F := Ideal)) i)
  refine isReal_hostScatterAdd _ _ _ _ (fun i => ?_) (fun j => ?_) i
  · show IsReal (Ideal.ofBits .f32 0x00000000#32)
    rw [Ideal.ofBits_zero_f32]; exact isReal_zero
  · show IsReal (Ideal.ofBits .f32 0x3F800000#32)
    rw [Cert.LibERealScale.ofBits_one_f32]; exact ⟨1, EReal.coe_one.symm⟩

/-- Relation dp at (n, j): the kernel's term (aggregated projected rows scaled by the reciprocal count, plus the own
    features' product, plus the bias) is the reference's (aggregated rows divided by the count, projected, plus the
    same two). -/
theorem term_dp (H : (⟨Cert.ReferenceIdeal.S4000x256, .f32⟩ : BufTy).Contents (Elt Ideal))
    (HP : (⟨Cert.ReferenceIdeal.S20000x256, .f32⟩ : BufTy).Contents (Elt Ideal))
    (e : (⟨Cert.ReferenceIdeal.S2x200000, .i32⟩ : BufTy).Contents (Elt Ideal))
    (x11 x12 : (⟨Cert.ReferenceIdeal.S5x256x128, .f32⟩ : BufTy).Contents (Elt Ideal))
    (x13 : (⟨Cert.ReferenceIdeal.S5x128, .f32⟩ : BufTy).Contents (Elt Ideal))
    (rH : ∀ i, IsReal (H i)) (rW : ∀ i, IsReal (x11 i)) (n : Fin 20000) (j : Fin 128) :
    relTerm (A := 20000)
        (Host.scatterAdd (F := Ideal) (φ := .f32) scatter_S20000x128_S200000x1_S200000x128_1_0_0_1 (broadcastInDim S20000x128 ![] bcast_S_S20000x128 (constant (F := Ideal) S_ .f32 0x00000000#32))
          (Cert.ReferenceIdeal.Read.val_main_v198 (F := Ideal) e) (Host.gather gather_S4000x128_S200000x1_S200000x128_1_0_n_n_0_1_1128 (projArr 4000 H (Cert.ReferenceIdeal.Read.val_main_v181 (F := Ideal) x11)) (Cert.ReferenceIdeal.Read.val_main_v195 (F := Ideal) e)))
        (broadcastInDim S20000x1 ![0] bcast_S20000_S20000x1_0 (Host.divf (F := Ideal) (φ := .f32) (Cert.ReferenceIdeal.Read.val_main_v204 (F := Ideal)) (Cert.ReferenceIdeal.Read.val_main_v205 (F := Ideal) e)))
        HP (Cert.ReferenceIdeal.Read.val_main_v183 (F := Ideal) x12) (shapeCast S1x128 (Cert.ReferenceIdeal.Read.val_main_v185 (F := Ideal) x13) shapeCasts_S128_S1x128) n j
      = refRel_dp H HP e x11 x12 x13 (ix2 n j) := by
  rw [refRel_dp_apply]
  unfold relTerm
  have hM : (Cert.ReferenceIdeal.Read.val_main_v205 (F := Ideal) e) (ix1 n) ≠ 0 := max_one_ne_zero ((Cert.ReferenceIdeal.Read.val_main_v203 (F := Ideal) e) (ix1 n))
  have hs : IsReal (Ideal.div 1 ((Cert.ReferenceIdeal.Read.val_main_v205 (F := Ideal) e) (ix1 n))) := isReal_one_div_max_one (isReal_cnt_dp e (ix1 n))
  have hone : Host.divf (F := Ideal) (φ := .f32) (Cert.ReferenceIdeal.Read.val_main_v204 (F := Ideal)) (Cert.ReferenceIdeal.Read.val_main_v205 (F := Ideal) e) (ix1 n) = Ideal.div 1 ((Cert.ReferenceIdeal.Read.val_main_v205 (F := Ideal) e) (ix1 n)) := by
    rw [host_divf_apply, Cert.ReferenceIdeal.Read.val_main_v204_apply, Cert.ReferenceIdeal.Read.val_main_cst_33_apply,
      Ideal.ofBits_def, Cert.LibERealScale.ofBits_one_f32]
  have hb : shapeCast S1x128 (Cert.ReferenceIdeal.Read.val_main_v185 (F := Ideal) x13) shapeCasts_S128_S1x128 (ix2 (⟨0, Nat.one_pos⟩ : Fin 1) j)
      = (Cert.ReferenceIdeal.Read.val_main_v185 (F := Ideal) x13) (ix1 j) := row_cast_apply _ _ _ _
  have hc : broadcastInDim S20000x1 ![0] bcast_S20000_S20000x1_0 (Host.divf (F := Ideal) (φ := .f32) (Cert.ReferenceIdeal.Read.val_main_v204 (F := Ideal)) (Cert.ReferenceIdeal.Read.val_main_v205 (F := Ideal) e)) (ix2 n (⟨0, Nat.one_pos⟩ : Fin 1))
      = Ideal.div 1 ((Cert.ReferenceIdeal.Read.val_main_v205 (F := Ideal) e) (ix1 n)) := (col_bcast_apply _ _ _ _).trans hone
  rw [hb, hc]
  refine congrArg₂ (· + ·) (congrArg₂ (· + ·) ?_ rfl) rfl
  have hW : ∀ i, IsReal ((Cert.ReferenceIdeal.Read.val_main_v181 (F := Ideal) x11) i) := fun i => by
    rw [Cert.ReferenceIdeal.Read.val_main_v181_apply, Cert.ReferenceIdeal.Read.val_main_v180_apply]; exact rW _
  have hz128 : ∀ i, (broadcastInDim S20000x128 ![] bcast_S_S20000x128 (constant (F := Ideal) S_ .f32 0x00000000#32)) i = 0 := fun i => by
    show Ideal.ofBits .f32 0x00000000#32 = 0
    exact Ideal.ofBits_zero_f32
  have hz256 : ∀ i, (Cert.ReferenceIdeal.Read.val_main_v197 (F := Ideal)) i = 0 := fun i => by
    show Ideal.ofBits .f32 0x00000000#32 = 0
    exact Ideal.ofBits_zero_f32
  have hks : scatter_S20000x128_S200000x1_S200000x128_1_0_0_1 = Cert.RowScatter.rowScatterDims 20000 200000 128 (scatter_S20000x128_S200000x1_S200000x128_1_0_0_1).wf := rfl
  have hkg : gather_S4000x128_S200000x1_S200000x128_1_0_n_n_0_1_1128 = Cert.RowGather.rowGatherDims 4000 200000 128 (gather_S4000x128_S200000x1_S200000x128_1_0_n_n_0_1_1128).wf := rfl
  have hrs : Cert.ReferenceIdeal.scatter_S20000x256_S200000x1_S200000x256_1_0_0_1 = Cert.RowScatter.rowScatterDims 20000 200000 256 (Cert.ReferenceIdeal.scatter_S20000x256_S200000x1_S200000x256_1_0_0_1).wf := rfl
  have hrg : Cert.ReferenceIdeal.gather_S4000x256_S200000x1_S200000x256_1_0_n_n_0_1_1256 = Cert.RowGather.rowGatherDims 4000 200000 256 (Cert.ReferenceIdeal.gather_S4000x256_S200000x1_S200000x256_1_0_n_n_0_1_1256).wf := rfl
  rw [host_scatterAdd_eq, hks, hkg, hrs, hrg]
  exact relation_eq (N := 4000) (E := 200000) (by decide) (gather_S4000x128_S200000x1_S200000x128_1_0_n_n_0_1_1128).wf (Cert.ReferenceIdeal.gather_S4000x256_S200000x1_S200000x256_1_0_n_n_0_1_1256).wf (scatter_S20000x128_S200000x1_S200000x128_1_0_0_1).wf (Cert.ReferenceIdeal.scatter_S20000x256_S200000x1_S200000x256_1_0_0_1).wf
    H (Cert.ReferenceIdeal.Read.val_main_v181 (F := Ideal) x11) (broadcastInDim S20000x128 ![] bcast_S_S20000x128 (constant (F := Ideal) S_ .f32 0x00000000#32)) (Cert.ReferenceIdeal.Read.val_main_v197 (F := Ideal)) hz128 hz256
    (Cert.ReferenceIdeal.Read.val_main_v195 (F := Ideal) e) (Cert.ReferenceIdeal.Read.val_main_v198 (F := Ideal) e) ((Cert.ReferenceIdeal.Read.val_main_v205 (F := Ideal) e) (ix1 n)) hM hs rH hW n j

/-- The edge counts of relation disp are real numbers: zero plus a finite sum of ones. -/
theorem isReal_cnt_disp (e : (⟨Cert.ReferenceIdeal.S2x300000, .i32⟩ : BufTy).Contents (Elt Ideal)) (i : Cert.ReferenceIdeal.S20000.Idx) :
    IsReal ((Cert.ReferenceIdeal.Read.val_main_v238 (F := Ideal) e) i) := by
  show IsReal (Ideal.hostScatterAdd Cert.ReferenceIdeal.scatter_S20000_S300000x1_S300000_n_0_0_1 (Cert.ReferenceIdeal.Read.val_main_v236 (F := Ideal)) (Cert.ReferenceIdeal.Read.val_main_v237 (F := Ideal) e) (Cert.ReferenceIdeal.Read.val_main_v235 (F := Ideal)) i)
  refine isReal_hostScatterAdd _ _ _ _ (fun i => ?_) (fun j => ?_) i
  · show IsReal (Ideal.ofBits .f32 0x00000000#32)
    rw [Ideal.ofBits_zero_f32]; exact isReal_zero
  · show IsReal (Ideal.ofBits .f32 0x3F800000#32)
    rw [Cert.LibERealScale.ofBits_one_f32]; exact ⟨1, EReal.coe_one.symm⟩

/-- Relation disp at (n, j): the kernel's term (aggregated projected rows scaled by the reciprocal count, plus the own
    features' product, plus the bias) is the reference's (aggregated rows divided by the count, projected, plus the
    same two). -/
theorem term_disp (H : (⟨Cert.ReferenceIdeal.S8000x256, .f32⟩ : BufTy).Contents (Elt Ideal))
    (HP : (⟨Cert.ReferenceIdeal.S20000x256, .f32⟩ : BufTy).Contents (Elt Ideal))
    (e : (⟨Cert.ReferenceIdeal.S2x300000, .i32⟩ : BufTy).Contents (Elt Ideal))
    (x11 x12 : (⟨Cert.ReferenceIdeal.S5x256x128, .f32⟩ : BufTy).Contents (Elt Ideal))
    (x13 : (⟨Cert.ReferenceIdeal.S5x128, .f32⟩ : BufTy).Contents (Elt Ideal))
    (rH : ∀ i, IsReal (H i)) (rW : ∀ i, IsReal (x11 i)) (n : Fin 20000) (j : Fin 128) :
    relTerm (A := 20000)
        (Host.scatterAdd (F := Ideal) (φ := .f32) scatter_S20000x128_S300000x1_S300000x128_1_0_0_1 (broadcastInDim S20000x128 ![] bcast_S_S20000x128 (constant (F := Ideal) S_ .f32 0x00000000#32))
          (Cert.ReferenceIdeal.Read.val_main_v233 (F := Ideal) e) (Host.gather gather_S8000x128_S300000x1_S300000x128_1_0_n_n_0_1_1128 (projArr 8000 H (Cert.ReferenceIdeal.Read.val_main_v216 (F := Ideal) x11)) (Cert.ReferenceIdeal.Read.val_main_v230 (F := Ideal) e)))
        (broadcastInDim S20000x1 ![0] bcast_S20000_S20000x1_0 (Host.divf (F := Ideal) (φ := .f32) (Cert.ReferenceIdeal.Read.val_main_v239 (F := Ideal)) (Cert.ReferenceIdeal.Read.val_main_v240 (F := Ideal) e)))
        HP (Cert.ReferenceIdeal.Read.val_main_v218 (F := Ideal) x12) (shapeCast S1x128 (Cert.ReferenceIdeal.Read.val_main_v220 (F := Ideal) x13) shapeCasts_S128_S1x128) n j
      = refRel_disp H HP e x11 x12 x13 (ix2 n j) := by
  rw [refRel_disp_apply]
  unfold relTerm
  have hM : (Cert.ReferenceIdeal.Read.val_main_v240 (F := Ideal) e) (ix1 n) ≠ 0 := max_one_ne_zero ((Cert.ReferenceIdeal.Read.val_main_v238 (F := Ideal) e) (ix1 n))
  have hs : IsReal (Ideal.div 1 ((Cert.ReferenceIdeal.Read.val_main_v240 (F := Ideal) e) (ix1 n))) := isReal_one_div_max_one (isReal_cnt_disp e (ix1 n))
  have hone : Host.divf (F := Ideal) (φ := .f32) (Cert.ReferenceIdeal.Read.val_main_v239 (F := Ideal)) (Cert.ReferenceIdeal.Read.val_main_v240 (F := Ideal) e) (ix1 n) = Ideal.div 1 ((Cert.ReferenceIdeal.Read.val_main_v240 (F := Ideal) e) (ix1 n)) := by
    rw [host_divf_apply, Cert.ReferenceIdeal.Read.val_main_v239_apply, Cert.ReferenceIdeal.Read.val_main_cst_39_apply,
      Ideal.ofBits_def, Cert.LibERealScale.ofBits_one_f32]
  have hb : shapeCast S1x128 (Cert.ReferenceIdeal.Read.val_main_v220 (F := Ideal) x13) shapeCasts_S128_S1x128 (ix2 (⟨0, Nat.one_pos⟩ : Fin 1) j)
      = (Cert.ReferenceIdeal.Read.val_main_v220 (F := Ideal) x13) (ix1 j) := row_cast_apply _ _ _ _
  have hc : broadcastInDim S20000x1 ![0] bcast_S20000_S20000x1_0 (Host.divf (F := Ideal) (φ := .f32) (Cert.ReferenceIdeal.Read.val_main_v239 (F := Ideal)) (Cert.ReferenceIdeal.Read.val_main_v240 (F := Ideal) e)) (ix2 n (⟨0, Nat.one_pos⟩ : Fin 1))
      = Ideal.div 1 ((Cert.ReferenceIdeal.Read.val_main_v240 (F := Ideal) e) (ix1 n)) := (col_bcast_apply _ _ _ _).trans hone
  rw [hb, hc]
  refine congrArg₂ (· + ·) (congrArg₂ (· + ·) ?_ rfl) rfl
  have hW : ∀ i, IsReal ((Cert.ReferenceIdeal.Read.val_main_v216 (F := Ideal) x11) i) := fun i => by
    rw [Cert.ReferenceIdeal.Read.val_main_v216_apply, Cert.ReferenceIdeal.Read.val_main_v215_apply]; exact rW _
  have hz128 : ∀ i, (broadcastInDim S20000x128 ![] bcast_S_S20000x128 (constant (F := Ideal) S_ .f32 0x00000000#32)) i = 0 := fun i => by
    show Ideal.ofBits .f32 0x00000000#32 = 0
    exact Ideal.ofBits_zero_f32
  have hz256 : ∀ i, (Cert.ReferenceIdeal.Read.val_main_v232 (F := Ideal)) i = 0 := fun i => by
    show Ideal.ofBits .f32 0x00000000#32 = 0
    exact Ideal.ofBits_zero_f32
  have hks : scatter_S20000x128_S300000x1_S300000x128_1_0_0_1 = Cert.RowScatter.rowScatterDims 20000 300000 128 (scatter_S20000x128_S300000x1_S300000x128_1_0_0_1).wf := rfl
  have hkg : gather_S8000x128_S300000x1_S300000x128_1_0_n_n_0_1_1128 = Cert.RowGather.rowGatherDims 8000 300000 128 (gather_S8000x128_S300000x1_S300000x128_1_0_n_n_0_1_1128).wf := rfl
  have hrs : Cert.ReferenceIdeal.scatter_S20000x256_S300000x1_S300000x256_1_0_0_1 = Cert.RowScatter.rowScatterDims 20000 300000 256 (Cert.ReferenceIdeal.scatter_S20000x256_S300000x1_S300000x256_1_0_0_1).wf := rfl
  have hrg : Cert.ReferenceIdeal.gather_S8000x256_S300000x1_S300000x256_1_0_n_n_0_1_1256 = Cert.RowGather.rowGatherDims 8000 300000 256 (Cert.ReferenceIdeal.gather_S8000x256_S300000x1_S300000x256_1_0_n_n_0_1_1256).wf := rfl
  rw [host_scatterAdd_eq, hks, hkg, hrs, hrg]
  exact relation_eq (N := 8000) (E := 300000) (by decide) (gather_S8000x128_S300000x1_S300000x128_1_0_n_n_0_1_1128).wf (Cert.ReferenceIdeal.gather_S8000x256_S300000x1_S300000x256_1_0_n_n_0_1_1256).wf (scatter_S20000x128_S300000x1_S300000x128_1_0_0_1).wf (Cert.ReferenceIdeal.scatter_S20000x256_S300000x1_S300000x256_1_0_0_1).wf
    H (Cert.ReferenceIdeal.Read.val_main_v216 (F := Ideal) x11) (broadcastInDim S20000x128 ![] bcast_S_S20000x128 (constant (F := Ideal) S_ .f32 0x00000000#32)) (Cert.ReferenceIdeal.Read.val_main_v232 (F := Ideal)) hz128 hz256
    (Cert.ReferenceIdeal.Read.val_main_v230 (F := Ideal) e) (Cert.ReferenceIdeal.Read.val_main_v233 (F := Ideal) e) ((Cert.ReferenceIdeal.Read.val_main_v240 (F := Ideal) e) (ix1 n)) hM hs rH hW n j

/-- The edge counts of relation pp are real numbers: zero plus a finite sum of ones. -/
theorem isReal_cnt_pp (e : (⟨Cert.ReferenceIdeal.S2x600000, .i32⟩ : BufTy).Contents (Elt Ideal)) (i : Cert.ReferenceIdeal.S20000.Idx) :
    IsReal ((Cert.ReferenceIdeal.Read.val_main_v274 (F := Ideal) e) i) := by
  show IsReal (Ideal.hostScatterAdd Cert.ReferenceIdeal.scatter_S20000_S600000x1_S600000_n_0_0_1 (Cert.ReferenceIdeal.Read.val_main_v272 (F := Ideal)) (Cert.ReferenceIdeal.Read.val_main_v273 (F := Ideal) e) (Cert.ReferenceIdeal.Read.val_main_v271 (F := Ideal)) i)
  refine isReal_hostScatterAdd _ _ _ _ (fun i => ?_) (fun j => ?_) i
  · show IsReal (Ideal.ofBits .f32 0x00000000#32)
    rw [Ideal.ofBits_zero_f32]; exact isReal_zero
  · show IsReal (Ideal.ofBits .f32 0x3F800000#32)
    rw [Cert.LibERealScale.ofBits_one_f32]; exact ⟨1, EReal.coe_one.symm⟩

/-- Relation pp at (n, j): the kernel's term (aggregated projected rows scaled by the reciprocal count, plus the own
    features' product, plus the bias) is the reference's (aggregated rows divided by the count, projected, plus the
    same two). -/
theorem term_pp (H : (⟨Cert.ReferenceIdeal.S20000x256, .f32⟩ : BufTy).Contents (Elt Ideal))
    (HP : (⟨Cert.ReferenceIdeal.S20000x256, .f32⟩ : BufTy).Contents (Elt Ideal))
    (e : (⟨Cert.ReferenceIdeal.S2x600000, .i32⟩ : BufTy).Contents (Elt Ideal))
    (x11 x12 : (⟨Cert.ReferenceIdeal.S5x256x128, .f32⟩ : BufTy).Contents (Elt Ideal))
    (x13 : (⟨Cert.ReferenceIdeal.S5x128, .f32⟩ : BufTy).Contents (Elt Ideal))
    (rH : ∀ i, IsReal (H i)) (rW : ∀ i, IsReal (x11 i)) (n : Fin 20000) (j : Fin 128) :
    relTerm (A := 20000)
        (Host.scatterAdd (F := Ideal) (φ := .f32) scatter_S20000x128_S600000x1_S600000x128_1_0_0_1 (broadcastInDim S20000x128 ![] bcast_S_S20000x128 (constant (F := Ideal) S_ .f32 0x00000000#32))
          (Cert.ReferenceIdeal.Read.val_main_v269 (F := Ideal) e) (Host.gather gather_S20000x128_S600000x1_S600000x128_1_0_n_n_0_1_1128 (projArr 20000 H (Cert.ReferenceIdeal.Read.val_main_v252 (F := Ideal) x11)) (Cert.ReferenceIdeal.Read.val_main_v266 (F := Ideal) e)))
        (broadcastInDim S20000x1 ![0] bcast_S20000_S20000x1_0 (Host.divf (F := Ideal) (φ := .f32) (Cert.ReferenceIdeal.Read.val_main_v275 (F := Ideal)) (Cert.ReferenceIdeal.Read.val_main_v276 (F := Ideal) e)))
        HP (Cert.ReferenceIdeal.Read.val_main_v254 (F := Ideal) x12) (shapeCast S1x128 (Cert.ReferenceIdeal.Read.val_main_v256 (F := Ideal) x13) shapeCasts_S128_S1x128) n j
      = refRel_pp H HP e x11 x12 x13 (ix2 n j) := by
  rw [refRel_pp_apply]
  unfold relTerm
  have hM : (Cert.ReferenceIdeal.Read.val_main_v276 (F := Ideal) e) (ix1 n) ≠ 0 := max_one_ne_zero ((Cert.ReferenceIdeal.Read.val_main_v274 (F := Ideal) e) (ix1 n))
  have hs : IsReal (Ideal.div 1 ((Cert.ReferenceIdeal.Read.val_main_v276 (F := Ideal) e) (ix1 n))) := isReal_one_div_max_one (isReal_cnt_pp e (ix1 n))
  have hone : Host.divf (F := Ideal) (φ := .f32) (Cert.ReferenceIdeal.Read.val_main_v275 (F := Ideal)) (Cert.ReferenceIdeal.Read.val_main_v276 (F := Ideal) e) (ix1 n) = Ideal.div 1 ((Cert.ReferenceIdeal.Read.val_main_v276 (F := Ideal) e) (ix1 n)) := by
    rw [host_divf_apply, Cert.ReferenceIdeal.Read.val_main_v275_apply, Cert.ReferenceIdeal.Read.val_main_cst_45_apply,
      Ideal.ofBits_def, Cert.LibERealScale.ofBits_one_f32]
  have hb : shapeCast S1x128 (Cert.ReferenceIdeal.Read.val_main_v256 (F := Ideal) x13) shapeCasts_S128_S1x128 (ix2 (⟨0, Nat.one_pos⟩ : Fin 1) j)
      = (Cert.ReferenceIdeal.Read.val_main_v256 (F := Ideal) x13) (ix1 j) := row_cast_apply _ _ _ _
  have hc : broadcastInDim S20000x1 ![0] bcast_S20000_S20000x1_0 (Host.divf (F := Ideal) (φ := .f32) (Cert.ReferenceIdeal.Read.val_main_v275 (F := Ideal)) (Cert.ReferenceIdeal.Read.val_main_v276 (F := Ideal) e)) (ix2 n (⟨0, Nat.one_pos⟩ : Fin 1))
      = Ideal.div 1 ((Cert.ReferenceIdeal.Read.val_main_v276 (F := Ideal) e) (ix1 n)) := (col_bcast_apply _ _ _ _).trans hone
  rw [hb, hc]
  refine congrArg₂ (· + ·) (congrArg₂ (· + ·) ?_ rfl) rfl
  have hW : ∀ i, IsReal ((Cert.ReferenceIdeal.Read.val_main_v252 (F := Ideal) x11) i) := fun i => by
    rw [Cert.ReferenceIdeal.Read.val_main_v252_apply, Cert.ReferenceIdeal.Read.val_main_v251_apply]; exact rW _
  have hz128 : ∀ i, (broadcastInDim S20000x128 ![] bcast_S_S20000x128 (constant (F := Ideal) S_ .f32 0x00000000#32)) i = 0 := fun i => by
    show Ideal.ofBits .f32 0x00000000#32 = 0
    exact Ideal.ofBits_zero_f32
  have hz256 : ∀ i, (Cert.ReferenceIdeal.Read.val_main_v268 (F := Ideal)) i = 0 := fun i => by
    show Ideal.ofBits .f32 0x00000000#32 = 0
    exact Ideal.ofBits_zero_f32
  have hks : scatter_S20000x128_S600000x1_S600000x128_1_0_0_1 = Cert.RowScatter.rowScatterDims 20000 600000 128 (scatter_S20000x128_S600000x1_S600000x128_1_0_0_1).wf := rfl
  have hkg : gather_S20000x128_S600000x1_S600000x128_1_0_n_n_0_1_1128 = Cert.RowGather.rowGatherDims 20000 600000 128 (gather_S20000x128_S600000x1_S600000x128_1_0_n_n_0_1_1128).wf := rfl
  have hrs : Cert.ReferenceIdeal.scatter_S20000x256_S600000x1_S600000x256_1_0_0_1 = Cert.RowScatter.rowScatterDims 20000 600000 256 (Cert.ReferenceIdeal.scatter_S20000x256_S600000x1_S600000x256_1_0_0_1).wf := rfl
  have hrg : Cert.ReferenceIdeal.gather_S20000x256_S600000x1_S600000x256_1_0_n_n_0_1_1256 = Cert.RowGather.rowGatherDims 20000 600000 256 (Cert.ReferenceIdeal.gather_S20000x256_S600000x1_S600000x256_1_0_n_n_0_1_1256).wf := rfl
  rw [host_scatterAdd_eq, hks, hkg, hrs, hrg]
  exact relation_eq (N := 20000) (E := 600000) (by decide) (gather_S20000x128_S600000x1_S600000x128_1_0_n_n_0_1_1128).wf (Cert.ReferenceIdeal.gather_S20000x256_S600000x1_S600000x256_1_0_n_n_0_1_1256).wf (scatter_S20000x128_S600000x1_S600000x128_1_0_0_1).wf (Cert.ReferenceIdeal.scatter_S20000x256_S600000x1_S600000x256_1_0_0_1).wf
    H (Cert.ReferenceIdeal.Read.val_main_v252 (F := Ideal) x11) (broadcastInDim S20000x128 ![] bcast_S_S20000x128 (constant (F := Ideal) S_ .f32 0x00000000#32)) (Cert.ReferenceIdeal.Read.val_main_v268 (F := Ideal)) hz128 hz256
    (Cert.ReferenceIdeal.Read.val_main_v266 (F := Ideal) e) (Cert.ReferenceIdeal.Read.val_main_v269 (F := Ideal) e) ((Cert.ReferenceIdeal.Read.val_main_v276 (F := Ideal) e) (ix1 n)) hM hs rH hW n j

/-- THE PROTEIN RESULT. -/
theorem op_eq (m : Cert.Bridge.KMem) (ρ : Dev nD → PrngReg) (c : Dev nD)
    (hHP : W2 (F := Ideal) m ρ c (Proc.devRef .tc main_v118) = Cert.Bridge.HP m c)
    (hHD : W4 (F := Ideal) m ρ c (Proc.devRef .tc main_v140) = Cert.Bridge.HD m c)
    (hHDIS : W6 (F := Ideal) m ρ c (Proc.devRef .tc main_v162) = Cert.Bridge.HDIS m c)
    (rHP : ∀ i, IsReal (Cert.Bridge.HP m c i)) (rHD : ∀ i, IsReal (Cert.Bridge.HD m c i))
    (rHDIS : ∀ i, IsReal (Cert.Bridge.HDIS m c i)) (rW : ∀ i, IsReal (Cert.Bridge.a11 m c i)) :
    W22 (F := Ideal) m ρ c (Proc.devRef .tc main_v235) = Cert.Bridge.OP m c := by
  refine ((keep_main_v235_22_18 m ρ c).trans ((W18_arr m ρ c 13).trans (final8 (V17 m ρ) c))).trans ?_
  show sageArr 20000 (W17 m ρ c (Proc.devRef .tc main_v191)) (W17 m ρ c (Proc.devRef .tc main_v205)) (W17 m ρ c (Proc.devRef .tc main_v219))
      (W17 m ρ c (Proc.devRef .tc main_v10)) (W17 m ρ c (Proc.devRef .tc main_v43)) (W17 m ρ c (Proc.devRef .tc main_v54))
      (W17 m ρ c (Proc.devRef .tc main_v118))
      (W17 m ρ c (Proc.devRef .tc main_v221)) (W17 m ρ c (Proc.devRef .tc main_v223)) (W17 m ρ c (Proc.devRef .tc main_v225))
      (W17 m ρ c (Proc.devRef .tc main_v232)) (W17 m ρ c (Proc.devRef .tc main_v233)) (W17 m ρ c (Proc.devRef .tc main_v234)) = _
  rw [agg_dp m ρ c hHD, agg_disp m ρ c hHDIS, agg_pp m ρ c hHP, inv_dp m ρ c, inv_disp m ρ c, inv_pp m ρ c, hp_in m ρ c hHP,
    wr_dp m ρ c, wr_disp m ρ c, wr_pp m ρ c, bias_dp m ρ c, bias_disp m ρ c, bias_pp m ρ c, OP_eq_refRels m c]
  generalize Cert.Bridge.HP m c = HP at rHP ⊢
  generalize Cert.Bridge.HD m c = HD at rHD ⊢
  generalize Cert.Bridge.HDIS m c = HDIS at rHDIS ⊢
  funext i
  obtain ⟨n, j, rfl⟩ : ∃ (n : Fin 20000) (j : Fin 128), i = ix2 n j := ⟨i 0, i 1, eq_ix2 i⟩
  rw [sageArr_apply, addf_apply, addf_apply, zero_add,
    term_dp HD HP _ _ _ _ rHD rW n j, term_disp HDIS HP _ _ _ _ rHDIS rW n j, term_pp HP HP _ _ _ _ rHP rW n j]

end Cert.Bridge.L2P

end
-- ==== Proof.lean ====
/-
  The certificate's five claims for a two-layer heterogeneous graph network (three node types, five relations).

  Each layer gives every destination node, per relation, the mean of its neighbours' features times one matrix, plus
  its own features times another, plus a bias, and sums over the relations into that node type; the first layer is
  rectified.  The kernel's program computes the mean as the aggregate times the reciprocal of the clipped count and,
  in the second layer, multiplies by the matrix BEFORE aggregating along the edges; the reference divides the
  aggregate by the clipped count and multiplies afterwards.  On the extended reals the first difference is no
  difference (the clipped count is at least one, so not zero), and the second is distributivity of finite sums, which
  holds because every entry involved is a real number — that is where the precondition (every input entry finite) is used.
  The three frames are the generated ones (the reference's being its run with the results dropped); nothing
  was rewritten by the ideal pass, so the idealization conjunct is trivial.
-/
import proofs.«176458_j69930657513814_2_alg».proof.Defs
import proofs.«176458_j69930657513814_2_alg».proof.Proof.Gen.Kernel
import proofs.«176458_j69930657513814_2_alg».proof.Proof.KFrame
import proofs.«176458_j69930657513814_2_alg».proof.Proof.Gen.KernelIdeal
import proofs.«176458_j69930657513814_2_alg».proof.Proof.KIFrame
import proofs.«176458_j69930657513814_2_alg».proof.Proof.Gen.ReferenceIdeal
import proofs.«176458_j69930657513814_2_alg».proof.Proof.RefRun
import proofs.«176458_j69930657513814_2_alg».proof.Proof.RefRead
import proofs.«176458_j69930657513814_2_alg».proof.Proof.Gen.Pre_finite_inputs
import proofs.«176458_j69930657513814_2_alg».proof.Proof.Args
import proofs.«176458_j69930657513814_2_alg».proof.Proof.Reals
import proofs.«176458_j69930657513814_2_alg».proof.Proof.KRun
import proofs.«176458_j69930657513814_2_alg».proof.Proof.RefSide
import proofs.«176458_j69930657513814_2_alg».proof.Proof.L1P
import proofs.«176458_j69930657513814_2_alg».proof.Proof.L1DHost1
import proofs.«176458_j69930657513814_2_alg».proof.Proof.L1DHost2
import proofs.«176458_j69930657513814_2_alg».proof.Proof.L2D
import proofs.«176458_j69930657513814_2_alg».proof.Proof.L2POut
import Idealize.ShloMosaic.Adequacy
import Idealize.ShloMosaic.Init

noncomputable section

namespace Cert.Proof

open Idealize.ShloMosaic Idealize.SL.Sem Cert.Bridge

theorem frame_k : Cert.frame_Kernel := fun m ρ _ => Cert.Kernel.GenP.frame m ρ

theorem frame_ki : Cert.frame_KernelIdeal := fun m ρ _ => Cert.KernelIdeal.GenP.frame m ρ

/-- The reference has no kernel launch: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the reference's three arrays, as functions of the kernel's launch memory. -/
theorem algebraic : Cert.algebraic_KernelIdeal_ReferenceIdeal := by
  intro m ρ m' ρ' hpre hagree
  refine ⟨fun c => OD m c, fun c => ODIS m c, fun c => OP m c, ?_, RefSide.run m m' ρ' hagree⟩
  refine (θ_run Cert.KernelIdeal.defs _ _).mono (fun r h c => ?_) (KRun.run (F := Ideal) m ρ)
  obtain ⟨r0, r1, r2, r8, r9, r10, r11, _, _⟩ := real_args m hpre c
  have hHP := L1P.hp_eq m ρ c
  have hHD := L1D.hd_eq m ρ c
  have hHDIS := L1D.hdis_eq m ρ c
  have rHP := real_HP m c r0 r1 r2 r8 r9 r10
  have rHD := real_HD m c r0 r2 r8 r9 r10
  have rHDIS := real_HDIS m c r1 r2 r8 r9 r10
  exact ⟨(h c).1.trans (L2D.od_eq m ρ c hHP hHD rHP r11), (h c).2.1.trans (L2D.odis_eq m ρ c hHP hHDIS rHP r11),
    (h c).2.2.1.trans (L2P.op_eq m ρ c hHP hHD hHDIS rHP rHD rHDIS r11), (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
